-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v206_1)) (v1 : (c : Dev Cert.KernelIdeal.nD) → Buf (Elt Ideal) ((c.tc : Thread Cert.KernelIdeal.nD Cert.KernelIdeal.τ).loc Cert.KernelIdeal.main_v206_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206_1) = v0 c
          ∧ r.2.mem ((c.tc : Thread Cert.KernelIdeal.nD Cert.KernelIdeal.τ).loc Cert.KernelIdeal.main_v206_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_v288) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x640000 : Shape := ⟨2, ![2, 640000]⟩
abbrev S640000 : Shape := ⟨1, ![640000]⟩
abbrev S3x32 : Shape := ⟨2, ![3, 32]⟩
abbrev S96x128 : Shape := ⟨2, ![96, 128]⟩
abbrev S128 : Shape := ⟨1, ![128]⟩
abbrev S50000x1 : Shape := ⟨2, ![50000, 1]⟩
abbrev S128x128 : Shape := ⟨2, ![128, 128]⟩
abbrev S128x256 : Shape := ⟨2, ![128, 256]⟩
abbrev S256 : Shape := ⟨1, ![256]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S640000 : S_.BroadcastsInDim S640000 (![] : Fin 0 → Fin S640000.rank)
  reducesTo_S640000_S_d0 : S640000.ReducesTo [0] S_
  bcast_S_S3x32 : S_.BroadcastsInDim S3x32 (![] : Fin 0 → Fin S3x32.rank)
  reducesTo_S3x32_S_d0_1 : S3x32.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part10 {F : FTy → Type} [FloatOps F] (main_v168 : IVec S_ 1) (main_v169 : FVec F S256 .f32) (main_v170 : FVec F S256 .f32) : IVec S_ 1 :=
  let main_v171 : IVec S256 1 := cmpf .olt main_v169 main_v170
  let main_c_67 : IVec S_ 1 := constantI S_ 1 1#1
  let main_v172 : IVec S_ 1 := (fun x v => Host.reduce IntOp.andi x v reducesTo_S256_S_d0 h_S_) main_v171 main_c_67
  let main_v173 : IVec S_ 1 := andi main_v168 main_v172
  main_v173

def fn_part9 {F : FTy → Type} [FloatOps F] (main_arg33 : FVec F S96x128 .f32) (main_arg34 : FVec F S128 .f32) (main_arg35 : FVec F S128x256 .f32) (main_arg36 : FVec F S256 .f32) (main_v153 : IVec S_ 1) : IVec S_ 1 :=
  let main_v154 : FVec F S96x128 .f32 := Host.absf main_arg33
  let main_cst_60 : FVec F S_ .f32 := constant S_ .f32 0x7F800000#32
  let main_v155 : FVec F S96x128 .f32 := broadcastInDim S96x128 ![] bcast_S_S96x128 main_cst_60
  let main_v156 : IVec S96x128 1 := cmpf .olt main_v154 main_v155
  let main_c_61 : IVec S_ 1 := constantI S_ 1 1#1
  let main_v157 : IVec S_ 1 := (fun x v => Host.reduce IntOp.andi x v reducesTo_S96x128_S_d0_1 h_S_) main_v156 main_c_61
  let main_v158 : IVec S_ 1 := andi main_v153 main_v157
  let main_v159 : FVec F S128 .f32 := Host.absf main_arg34
  let main_cst_62 : FVec F S_ .f32 := constant S_ .f32 0x7F800000#32
  let main_v160 : FVec F S128 .f32 := broadcastInDim S128 ![] bcast_S_S128 main_cst_62
  let main_v161 : IVec S128 1 := cmpf .olt main_v159 main_v160
  let main_c_63 : IVec S_ 1 := constantI S_ 1 1#1
  let main_v162 : IVec S_ 1 := (fun x v => Host.reduce IntOp.andi x v reducesTo_S128_S_d0 h_S_) main_v161 main_c_63
  let main_v163 : IVec S_ 1 := andi main_v158 main_v162
  let main_v164 : FVec F S128x256 .f32 := Host.absf main_arg35
  let main_cst_64 : FVec F S_ .f32 := constant S_ .f32 0x7F800000#32
  let main_v165 : FVec F S128x256 .f32 := broadcastInDim S128x256 ![] bcast_S_S128x256 main_cst_64
  let main_v166 : IVec S128x256 1 := cmpf .olt main_v164 main_v165
  let main_c_65 : IVec S_ 1 := constantI S_ 1 1#1
  let main_v167 : IVec S_ 1 := (fun x v => Host.reduce IntOp.andi x v reducesTo_S128x256_S_d0_1 h_S_) main_v166 main_c_65
  let main_v168 : IVec S_ 1 := andi main_v163 main_v167
  let main_v169 : FVec F S256 .f32 := Host.absf main_arg36
  let main_cst_66 : FVec F S_ .f32 := constant S_ .f32 0x7F800000#32
  let main_v170 : FVec F S256 .f32 := broadcastInDim S256 ![] bcast_S_S256 main_cst_66
  fn_part10 (F := F) main_v168 main_v169 main_v170

def fn_part8 {F : FTy → Type} [FloatOps F] (main_arg30 : FVec F S128 .f32) (main_arg31 : FVec F S50000x1 .f32) (main_arg32 : FVec F S50000x1 .f32) (main_arg33 : FVec F S96x128 .f32) (main_arg34 : FVec F S128 .f32) (main_arg35 : FVec F S128x256 .f32) (main_arg36 : FVec F S256 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg30
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S50000x1 .f32 := Host.absf main_arg31
  let main_cst_56 : FVec F S_ .f32 := constant S_ .f32 0x7F800000#32
  let main_v145 : FVec F S50000x1 .f32 := broadcastInDim S50000x1 ![] bcast_S_S50000x1 main_cst_56
  let main_v146 : IVec S50000x1 1 := cmpf .olt main_v144 main_v145
  let main_c_57 : IVec S_ 1 := constantI S_ 1 1#1
  let main_v147 : IVec S_ 1 := (fun x v => Host.reduce IntOp.andi x v reducesTo_S50000x1_S_d0_1 h_S_) main_v146 main_c_57
  let main_v148 : IVec S_ 1 := andi main_v143 main_v147
  let main_v149 : FVec F S50000x1 .f32 := Host.absf main_arg32
  let main_cst_58 : FVec F S_ .f32 := constant S_ .f32 0x7F800000#32
  let main_v150 : FVec F S50000x1 .f32 := broadcastInDim S50000x1 ![] bcast_S_S50000x1 main_cst_58
  let main_v151 : IVec S50000x1 1 := cmpf .olt main_v149 main_v150
  let main_c_59 : IVec S_ 1 := constantI S_ 1 1#1
  let main_v152 : IVec S_ 1 := (fun x v => Host.reduce IntOp.andi x v reducesTo_S50000x1_S_d0_1 h_S_) main_v151 main_c_59
  let main_v153 : IVec S_ 1 := andi main_v148 main_v152
  fn_part9 (F := F) main_arg33 main_arg34 main_arg35 main_arg36 main_v153

def fn_part7 {F : FTy → Type} [FloatOps F] (main_arg27 : FVec F S128 .f32) (main_arg28 : FVec F S128 .f32) (main_arg29 : FVec F S128 .f32) (main_arg30 : FVec F S128 .f32) (main_arg31 : FVec F S50000x1 .f32) (main_arg32 : FVec F S50000x1 .f32) (main_arg33 : FVec F S96x128 .f32) (main_arg34 : FVec F S128 .f32) (main_arg35 : FVec F S128x256 .f32) (main_arg36 : FVec F S256 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg30 main_arg31 main_arg32 main_arg33 main_arg34 main_arg35 main_arg36 main_v133 main_v136

def fn_part6 {F : FTy → Type} [FloatOps F] (main_arg23 : FVec F S50000x1 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S128 .f32) (main_arg31 : FVec F S50000x1 .f32) (main_arg32 : FVec F S50000x1 .f32) (main_arg33 : FVec F S96x128 .f32) (main_arg34 : FVec F S128 .f32) (main_arg35 : FVec F S128x256 .f32) (main_arg36 : FVec F S256 .f32) (main_v98 : IVec S_ 1) (main_v101 : IVec S50000x1 1) (main_c_39 : IVec S_ 1) : IVec S_ 1 :=
  let main_v102 : IVec S_ 1 := (fun x v => Host.reduce IntOp.andi x v reducesTo_S50000x1_S_d0_1 h_S_) main_v101 main_c_39
  let main_v103 : IVec S_ 1 := andi main_v98 main_v102
  let main_v104 : FVec F S50000x1 .f32 := Host.absf main_arg23
  let main_cst_40 : FVec F S_ .f32 := constant S_ .f32 0x7F800000#32
  let main_v105 : FVec F S50000x1 .f32 := broadcastInDim S50000x1 ![] bcast_S_S50000x1 main_cst_40
  let main_v106 : IVec S50000x1 1 := cmpf .olt main_v104 main_v105
  let main_c_41 : IVec S_ 1 := constantI S_ 1 1#1
  let main_v107 : IVec S_ 1 := (fun x v => Host.reduce IntOp.andi x v reducesTo_S50000x1_S_d0_1 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128x128 .f32 := Host.absf main_arg26
  fn_part7 (F := F) main_arg27 main_arg28 main_arg29 main_arg30 main_arg31 main_arg32 main_arg33 main_arg34 main_arg35 main_arg36 main_v118 main_v119

def fn_part5 {F : FTy → Type} [FloatOps F] (main_arg20 : FVec F S128 .f32) (main_arg21 : FVec F S128 .f32) (main_arg22 : FVec F S50000x1 .f32) (main_arg23 : FVec F S50000x1 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S128 .f32) (main_arg31 : FVec F S50000x1 .f32) (main_arg32 : FVec F S50000x1 .f32) (main_arg33 : FVec F S96x128 .f32) (main_arg34 : FVec F S128 .f32) (main_arg35 : FVec F S128x256 .f32) (main_arg36 : FVec F S256 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S50000x1 .f32 := Host.absf main_arg22
  let main_cst_38 : FVec F S_ .f32 := constant S_ .f32 0x7F800000#32
  let main_v100 : FVec F S50000x1 .f32 := broadcastInDim S50000x1 ![] bcast_S_S50000x1 main_cst_38
  let main_v101 : IVec S50000x1 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_arg34 main_arg35 main_arg36 main_v98 main_v101 main_c_39

def fn_part4 {F : FTy → Type} [FloatOps F] (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S128 .f32) (main_arg31 : FVec F S50000x1 .f32) (main_arg32 : FVec F S50000x1 .f32) (main_arg33 : FVec F S96x128 .f32) (main_arg34 : FVec F S128 .f32) (main_arg35 : FVec F S128x256 .f32) (main_arg36 : FVec F S256 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg13 : FVec F S50000x1 .f32) (main_arg14 : FVec F S50000x1 .f32) (main_arg15 : FVec F S128x128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S128 .f32) (main_arg31 : FVec F S50000x1 .f32) (main_arg32 : FVec F S50000x1 .f32) (main_arg33 : FVec F S96x128 .f32) (main_arg34 : FVec F S128 .f32) (main_arg35 : FVec F S128x256 .f32) (main_arg36 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S50000x1 .f32 := Host.absf main_arg13
  let main_cst_20 : FVec F S_ .f32 := constant S_ .f32 0x7F800000#32
  let main_v55 : FVec F S50000x1 .f32 := broadcastInDim S50000x1 ![] bcast_S_S50000x1 main_cst_20
  let main_v56 : IVec S50000x1 1 := cmpf .olt main_v54 main_v55
  let main_c_21 : IVec S_ 1 := constantI S_ 1 1#1
  let main_v57 : IVec S_ 1 := (fun x v => Host.reduce IntOp.andi x v reducesTo_S50000x1_S_d0_1 h_S_) main_v56 main_c_21
  let main_v58 : IVec S_ 1 := andi main_v53 main_v57
  let main_v59 : FVec F S50000x1 .f32 := Host.absf main_arg14
  let main_cst_22 : FVec F S_ .f32 := constant S_ .f32 0x7F800000#32
  let main_v60 : FVec F S50000x1 .f32 := broadcastInDim S50000x1 ![] bcast_S_S50000x1 main_cst_22
  let main_v61 : IVec S50000x1 1 := cmpf .olt main_v59 main_v60
  let main_c_23 : IVec S_ 1 := constantI S_ 1 1#1
  let main_v62 : IVec S_ 1 := (fun x v => Host.reduce IntOp.andi x v reducesTo_S50000x1_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S50000x1 .f32) (main_arg14 : FVec F S50000x1 .f32) (main_arg15 : FVec F S128x128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S128 .f32) (main_arg31 : FVec F S50000x1 .f32) (main_arg32 : FVec F S50000x1 .f32) (main_arg33 : FVec F S96x128 .f32) (main_arg34 : FVec F S128 .f32) (main_arg35 : FVec F S128x256 .f32) (main_arg36 : FVec F S256 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg6 : FVec F S96x128 .f32) (main_arg7 : FVec F S96x128 .f32) (main_arg8 : FVec F S96x128 .f32) (main_arg9 : FVec F S128 .f32) (main_arg10 : FVec F S128 .f32) (main_arg11 : FVec F S128 .f32) (main_arg12 : FVec F S128 .f32) (main_arg13 : FVec F S50000x1 .f32) (main_arg14 : FVec F S50000x1 .f32) (main_arg15 : FVec F S128x128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S128 .f32) (main_arg31 : FVec F S50000x1 .f32) (main_arg32 : FVec F S50000x1 .f32) (main_arg33 : FVec F S96x128 .f32) (main_arg34 : FVec F S128 .f32) (main_arg35 : FVec F S128x256 .f32) (main_arg36 : FVec F S256 .f32) (main_v13 : IVec S_ 1) (main_v16 : IVec S3x32 1) : IVec S_ 1 :=
  let main_c_5 : IVec S_ 1 := constantI S_ 1 1#1
  let main_v17 : IVec S_ 1 := (fun x v => Host.reduce IntOp.andi x v reducesTo_S3x32_S_d0_1 h_S_) main_v16 main_c_5
  let main_v18 : IVec S_ 1 := andi main_v13 main_v17
  let main_v19 : FVec F S96x128 .f32 := Host.absf main_arg6
  let main_cst_6 : FVec F S_ .f32 := constant S_ .f32 0x7F800000#32
  let main_v20 : FVec F S96x128 .f32 := broadcastInDim S96x128 ![] bcast_S_S96x128 main_cst_6
  let main_v21 : IVec S96x128 1 := cmpf .olt main_v19 main_v20
  let main_c_7 : IVec S_ 1 := constantI S_ 1 1#1
  let main_v22 : IVec S_ 1 := (fun x v => Host.reduce IntOp.andi x v reducesTo_S96x128_S_d0_1 h_S_) main_v21 main_c_7
  let main_v23 : IVec S_ 1 := andi main_v18 main_v22
  let main_v24 : FVec F S96x128 .f32 := Host.absf main_arg7
  let main_cst_8 : FVec F S_ .f32 := constant S_ .f32 0x7F800000#32
  let main_v25 : FVec F S96x128 .f32 := broadcastInDim S96x128 ![] bcast_S_S96x128 main_cst_8
  let main_v26 : IVec S96x128 1 := cmpf .olt main_v24 main_v25
  let main_c_9 : IVec S_ 1 := constantI S_ 1 1#1
  let main_v27 : IVec S_ 1 := (fun x v => Host.reduce IntOp.andi x v reducesTo_S96x128_S_d0_1 h_S_) main_v26 main_c_9
  let main_v28 : IVec S_ 1 := andi main_v23 main_v27
  let main_v29 : FVec F S96x128 .f32 := Host.absf main_arg8
  let main_cst_10 : FVec F S_ .f32 := constant S_ .f32 0x7F800000#32
  let main_v30 : FVec F S96x128 .f32 := broadcastInDim S96x128 ![] bcast_S_S96x128 main_cst_10
  let main_v31 : IVec S96x128 1 := cmpf .olt main_v29 main_v30
  let main_c_11 : IVec S_ 1 := constantI S_ 1 1#1
  let main_v32 : IVec S_ 1 := (fun x v => Host.reduce IntOp.andi x v reducesTo_S96x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S50000x96 .f32) (main_arg1 : IVec S2x640000 32) (main_arg2 : FVec F S640000 .f32) (main_arg3 : IVec S2x640000 32) (main_arg4 : FVec F S640000 .f32) (main_arg5 : FVec F S3x32 .f32) (main_arg6 : FVec F S96x128 .f32) (main_arg7 : FVec F S96x128 .f32) (main_arg8 : FVec F S96x128 .f32) (main_arg9 : FVec F S128 .f32) (main_arg10 : FVec F S128 .f32) (main_arg11 : FVec F S128 .f32) (main_arg12 : FVec F S128 .f32) (main_arg13 : FVec F S50000x1 .f32) (main_arg14 : FVec F S50000x1 .f32) (main_arg15 : FVec F S128x128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x128 .f32) (main_arg25 : FVec F S128x128 .f32) (main_arg26 : FVec F S128x128 .f32) (main_arg27 : FVec F S128 .f32) (main_arg28 : FVec F S128 .f32) (main_arg29 : FVec F S128 .f32) (main_arg30 : FVec F S128 .f32) (main_arg31 : FVec F S50000x1 .f32) (main_arg32 : FVec F S50000x1 .f32) (main_arg33 : FVec F S96x128 .f32) (main_arg34 : FVec F S128 .f32) (main_arg35 : FVec F S128x256 .f32) (main_arg36 : FVec F S256 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000 .f32 := Host.absf main_arg4
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_v14 : FVec F S3x32 .f32 := Host.absf main_arg5
  let main_cst_4 : FVec F S_ .f32 := constant S_ .f32 0x7F800000#32
  let main_v15 : FVec F S3x32 .f32 := broadcastInDim S3x32 ![] bcast_S_S3x32 main_cst_4
  let main_v16 : IVec S3x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S50000x96 : Shape := ⟨2, ![50000, 96]⟩
abbrev S2x640000 : Shape := ⟨2, ![2, 640000]⟩
abbrev S640000 : Shape := ⟨1, ![640000]⟩
abbrev S3x32 : Shape := ⟨2, ![3, 32]⟩
abbrev S96x128 : Shape := ⟨2, ![96, 128]⟩
abbrev S128 : Shape := ⟨1, ![128]⟩
abbrev S50000x1 : Shape := ⟨2, ![50000, 1]⟩
abbrev S128x128 : Shape := ⟨2, ![128, 128]⟩
abbrev S128x256 : Shape := ⟨2, ![128, 256]⟩
abbrev S256 : Shape := ⟨1, ![256]⟩
abbrev S50000x3x32 : Shape := ⟨3, ![50000, 3, 32]⟩
abbrev S1x3x32 : Shape := ⟨3, ![1, 3, 32]⟩
abbrev S1x640000 : Shape := ⟨2, ![1, 640000]⟩
abbrev S96x512 : Shape := ⟨2, ![96, 512]⟩
abbrev S50000x512 : Shape := ⟨2, ![50000, 512]⟩
abbrev S5000x96 : Shape := ⟨2, ![5000, 96]⟩
abbrev S5000x512 : Shape := ⟨2, ![5000, 512]⟩
abbrev S50000x128 : Shape := ⟨2, ![50000, 128]⟩
abbrev S640000x1 : Shape := ⟨2, ![640000, 1]⟩
abbrev S_ : Shape := ⟨0, ![]⟩
abbrev S640000x128 : Shape := ⟨2, ![640000, 128]⟩
abbrev S1x128 : Shape := ⟨2, ![1, 128]⟩
abbrev S5000x128 : Shape := ⟨2, ![5000, 128]⟩
abbrev S5000x1 : Shape := ⟨2, ![5000, 1]⟩
abbrev S128x384 : Shape := ⟨2, ![128, 384]⟩
abbrev S50000x384 : Shape := ⟨2, ![50000, 384]⟩
abbrev S5000x384 : Shape := ⟨2, ![5000, 384]⟩
abbrev S1x256 : Shape := ⟨2, ![1, 256]⟩
abbrev S50000x256 : Shape := ⟨2, ![50000, 256]⟩
abbrev S5000x256 : Shape := ⟨2, ![5000, 256]⟩
abbrev S5000 : Shape := ⟨1, ![5000]⟩

abbrev nBuf : Space → Nat
  | .hbm => 283
  | .vmem => 86
  | .smem => 0
  | _ => 0

abbrev hbmTy0_0 (i : Nat) : BufTy := match i % 128 with
  | 0 => ⟨S50000x96, .f32⟩
  | 1 => ⟨S2x640000, .i32⟩
  | 2 => ⟨S640000, .f32⟩
  | 3 => ⟨S2x640000, .i32⟩
  | 4 => ⟨S640000, .f32⟩
  | 5 => ⟨S3x32, .f32⟩
  | 6 => ⟨S96x128, .f32⟩
  | 7 => ⟨S96x128, .f32⟩
  | 8 => ⟨S96x128, .f32⟩
  | 9 => ⟨S128, .f32⟩
  | 10 => ⟨S128, .f32⟩
  | 11 => ⟨S128, .f32⟩
  | 12 => ⟨S128, .f32⟩
  | 13 => ⟨S50000x1, .f32⟩
  | 14 => ⟨S50000x1, .f32⟩
  | 15 => ⟨S128x128, .f32⟩
  | 16 => ⟨S128x128, .f32⟩
  | 17 => ⟨S128x128, .f32⟩
  | 18 => ⟨S128, .f32⟩
  | 19 => ⟨S128, .f32⟩
  | 20 => ⟨S128, .f32⟩
  | 21 => ⟨S128, .f32⟩
  | 22 => ⟨S50000x1, .f32⟩
  | 23 => ⟨S50000x1, .f32⟩
  | 24 => ⟨S128x128, .f32⟩
  | 25 => ⟨S128x128, .f32⟩
  | 26 => ⟨S128x128, .f32⟩
  | 27 => ⟨S128, .f32⟩
  | 28 => ⟨S128, .f32⟩
  | 29 => ⟨S128, .f32⟩
  | 30 => ⟨S128, .f32⟩
  | 31 => ⟨S50000x1, .f32⟩
  | 32 => ⟨S50000x1, .f32⟩
  | 33 => ⟨S96x128, .f32⟩
  | 34 => ⟨S128, .f32⟩
  | 35 => ⟨S128x256, .f32⟩
  | 36 => ⟨S256, .f32⟩
  | 37 => ⟨S50000x3x32, .f32⟩
  | 38 => ⟨S1x3x32, .f32⟩
  | 39 => ⟨S50000x3x32, .f32⟩
  | 40 => ⟨S50000x3x32, .f32⟩
  | 41 => ⟨S50000x96, .f32⟩
  | 42 => ⟨S1x640000, .i32⟩
  | 43 => ⟨S640000, .i32⟩
  | 44 => ⟨S1x640000, .i32⟩
  | 45 => ⟨S640000, .i32⟩
  | 46 => ⟨S1x640000, .i32⟩
  | 47 => ⟨S640000, .i32⟩
  | 48 => ⟨S1x640000, .i32⟩
  | 49 => ⟨S640000, .i32⟩
  | 50 => ⟨S96x512, .f32⟩
  | 51 => ⟨S50000x512, .f32⟩
  | 52 => ⟨S50000x128, .f32⟩
  | 53 => ⟨S50000x128, .f32⟩
  | 54 => ⟨S50000x128, .f32⟩
  | 55 => ⟨S50000x128, .f32⟩
  | 56 => ⟨S640000x1, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000x128, .f32⟩
  | 66 => ⟨S640000x128, .f32⟩
  | 67 => ⟨S640000x128, .f32⟩
  | 68 => ⟨S_, .f32⟩
  | 69 => ⟨S50000x128, .f32⟩
  | 70 => ⟨S640000x1, .i32⟩
  | 71 => ⟨S50000x128, .f32⟩
  | 72 => ⟨S640000x1, .f32⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000x128, .f32⟩
  | 82 => ⟨S640000x128, .f32⟩
  | 83 => ⟨S640000x128, .f32⟩
  | 84 => ⟨S_, .f32⟩
  | 85 => ⟨S50000x128, .f32⟩
  | 86 => ⟨S640000x1, .i32⟩
  | 87 => ⟨S50000x128, .f32⟩
  | 88 => ⟨S640000x1, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x128, .f32⟩
  | 98 => ⟨S640000x128, .f32⟩
  | 99 => ⟨S640000x128, .f32⟩
  | 100 => ⟨S_, .f32⟩
  | 101 => ⟨S50000x128, .f32⟩
  | 102 => ⟨S640000x1, .i32⟩
  | 103 => ⟨S50000x128, .f32⟩
  | 104 => ⟨S640000x1, .f32⟩
  | 105 => ⟨S_, .i32⟩
  | 106 => ⟨S640000, .i32⟩
  | 107 => ⟨S640000, .i1⟩
  | 108 => ⟨S_, .i32⟩
  | 109 => ⟨S640000, .i32⟩
  | 110 => ⟨S640000, .i32⟩
  | 111 => ⟨S640000, .i32⟩
  | 112 => ⟨S640000x1, .i32⟩
  | 113 => ⟨S640000x128, .f32⟩
  | 114 => ⟨S640000x128, .f32⟩
  | 115 => ⟨S640000x128, .f32⟩
  | 116 => ⟨S_, .f32⟩
  | 117 => ⟨S50000x128, .f32⟩
  | 118 => ⟨S640000x1, .i32⟩
  | 119 => ⟨S50000x128, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S50000x128, .f32⟩
  | 126 => ⟨S128x384, .f32⟩
  | 127 => ⟨S50000x384, .f32⟩
  | _ => ⟨S50000x96, .f32⟩

abbrev hbmTy0_1 (i : Nat) : BufTy := match i % 128 with
  | 0 => ⟨S50000x128, .f32⟩
  | 1 => ⟨S50000x128, .f32⟩
  | 2 => ⟨S50000x128, .f32⟩
  | 3 => ⟨S640000x1, .f32⟩
  | 4 => ⟨S_, .i32⟩
  | 5 => ⟨S640000, .i32⟩
  | 6 => ⟨S640000, .i1⟩
  | 7 => ⟨S_, .i32⟩
  | 8 => ⟨S640000, .i32⟩
  | 9 => ⟨S640000, .i32⟩
  | 10 => ⟨S640000, .i32⟩
  | 11 => ⟨S640000x1, .i32⟩
  | 12 => ⟨S640000x128, .f32⟩
  | 13 => ⟨S640000x128, .f32⟩
  | 14 => ⟨S640000x128, .f32⟩
  | 15 => ⟨S_, .f32⟩
  | 16 => ⟨S50000x128, .f32⟩
  | 17 => ⟨S640000x1, .i32⟩
  | 18 => ⟨S50000x128, .f32⟩
  | 19 => ⟨S640000x1, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S640000x128, .f32⟩
  | 30 => ⟨S640000x128, .f32⟩
  | 31 => ⟨S_, .f32⟩
  | 32 => ⟨S50000x128, .f32⟩
  | 33 => ⟨S640000x1, .i32⟩
  | 34 => ⟨S50000x128, .f32⟩
  | 35 => ⟨S640000x1, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S640000x128, .f32⟩
  | 46 => ⟨S640000x128, .f32⟩
  | 47 => ⟨S_, .f32⟩
  | 48 => ⟨S50000x128, .f32⟩
  | 49 => ⟨S640000x1, .i32⟩
  | 50 => ⟨S50000x128, .f32⟩
  | 51 => ⟨S640000x1, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x128, .f32⟩
  | 61 => ⟨S640000x128, .f32⟩
  | 62 => ⟨S640000x128, .f32⟩
  | 63 => ⟨S_, .f32⟩
  | 64 => ⟨S50000x128, .f32⟩
  | 65 => ⟨S640000x1, .i32⟩
  | 66 => ⟨S50000x128, .f32⟩
  | 67 => ⟨S_, .f32⟩
  | 68 => ⟨S128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S50000x128, .f32⟩
  | 75 => ⟨S128x384, .f32⟩
  | 76 => ⟨S50000x384, .f32⟩
  | 77 => ⟨S50000x128, .f32⟩
  | 78 => ⟨S50000x128, .f32⟩
  | 79 => ⟨S50000x128, .f32⟩
  | 80 => ⟨S640000x1, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x128, .f32⟩
  | 90 => ⟨S640000x128, .f32⟩
  | 91 => ⟨S640000x128, .f32⟩
  | 92 => ⟨S_, .f32⟩
  | 93 => ⟨S50000x128, .f32⟩
  | 94 => ⟨S640000x1, .i32⟩
  | 95 => ⟨S50000x128, .f32⟩
  | 96 => ⟨S640000x1, .f32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000x128, .f32⟩
  | 106 => ⟨S640000x128, .f32⟩
  | 107 => ⟨S640000x128, .f32⟩
  | 108 => ⟨S_, .f32⟩
  | 109 => ⟨S50000x128, .f32⟩
  | 110 => ⟨S640000x1, .i32⟩
  | 111 => ⟨S50000x128, .f32⟩
  | 112 => ⟨S640000x1, .f32⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S640000x128, .f32⟩
  | 122 => ⟨S640000x128, .f32⟩
  | 123 => ⟨S640000x128, .f32⟩
  | 124 => ⟨S_, .f32⟩
  | 125 => ⟨S50000x128, .f32⟩
  | 126 => ⟨S640000x1, .i32⟩
  | 127 => ⟨S50000x128, .f32⟩
  | _ => ⟨S50000x96, .f32⟩

abbrev hbmTy0_2 (i : Nat) : BufTy := match i % 128 with
  | 0 => ⟨S640000x1, .f32⟩
  | 1 => ⟨S_, .i32⟩
  | 2 => ⟨S640000, .i32⟩
  | 3 => ⟨S640000, .i1⟩
  | 4 => ⟨S_, .i32⟩
  | 5 => ⟨S640000, .i32⟩
  | 6 => ⟨S640000, .i32⟩
  | 7 => ⟨S640000, .i32⟩
  | 8 => ⟨S640000x1, .i32⟩
  | 9 => ⟨S640000x128, .f32⟩
  | 10 => ⟨S640000x128, .f32⟩
  | 11 => ⟨S640000x128, .f32⟩
  | 12 => ⟨S_, .f32⟩
  | 13 => ⟨S50000x128, .f32⟩
  | 14 => ⟨S640000x1, .i32⟩
  | 15 => ⟨S50000x128, .f32⟩
  | 16 => ⟨S_, .f32⟩
  | 17 => ⟨S128, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S50000x128, .f32⟩
  | 24 => ⟨S1x256, .f32⟩
  | 25 => ⟨S50000x128, .f32⟩
  | 26 => ⟨S50000x256, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S96x512, .f32⟩
  | .local _ .vmem, ⟨3, _⟩ => ⟨S5000x512, .f32⟩
  | .local _ .vmem, ⟨4, _⟩ => ⟨S5000x512, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x384, .f32⟩
  | .local _ .vmem, ⟨29, _⟩ => ⟨S5000x384, .f32⟩
  | .local _ .vmem, ⟨30, _⟩ => ⟨S5000x384, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S5000x1, .f32⟩
  | .local _ .vmem, ⟨44, _⟩ => ⟨S5000x1, .f32⟩
  | .local _ .vmem, ⟨45, _⟩ => ⟨S5000x1, .f32⟩
  | .local _ .vmem, ⟨46, _⟩ => ⟨S5000x1, .f32⟩
  | .local _ .vmem, ⟨47, _⟩ => ⟨S5000x128, .f32⟩
  | .local _ .vmem, ⟨48, _⟩ => ⟨S5000x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x384, .f32⟩
  | .local _ .vmem, ⟨55, _⟩ => ⟨S5000x384, .f32⟩
  | .local _ .vmem, ⟨56, _⟩ => ⟨S5000x384, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S5000x1, .f32⟩
  | .local _ .vmem, ⟨70, _⟩ => ⟨S5000x1, .f32⟩
  | .local _ .vmem, ⟨71, _⟩ => ⟨S5000x1, .f32⟩
  | .local _ .vmem, ⟨72, _⟩ => ⟨S5000x1, .f32⟩
  | .local _ .vmem, ⟨73, _⟩ => ⟨S5000x128, .f32⟩
  | .local _ .vmem, ⟨74, _⟩ => ⟨S5000x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x256, .f32⟩
  | .local _ .vmem, ⟨81, _⟩ => ⟨S1x256, .f32⟩
  | .local _ .vmem, ⟨82, _⟩ => ⟨S5000x128, .f32⟩
  | .local _ .vmem, ⟨83, _⟩ => ⟨S5000x128, .f32⟩
  | .local _ .vmem, ⟨84, _⟩ => ⟨S5000x256, .f32⟩
  | .local _ .vmem, ⟨85, _⟩ => ⟨S5000x256, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_c : Ref sig .tc := ⟨.hbm, 57, rfl⟩
abbrev main_v20 : Ref sig .tc := ⟨.hbm, 58, rfl⟩
abbrev main_v21 : Ref sig .tc := ⟨.hbm, 59, rfl⟩
abbrev main_c_0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_1 : Ref sig .tc := ⟨.hbm, 73, rfl⟩
abbrev main_v33 : Ref sig .tc := ⟨.hbm, 74, rfl⟩
abbrev main_v34 : Ref sig .tc := ⟨.hbm, 75, rfl⟩
abbrev main_c_2 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_3 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_4 : Ref sig .tc := ⟨.hbm, 89, rfl⟩
abbrev main_v46 : Ref sig .tc := ⟨.hbm, 90, rfl⟩
abbrev main_v47 : Ref sig .tc := ⟨.hbm, 91, rfl⟩
abbrev main_c_5 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_6 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_7 : Ref sig .tc := ⟨.hbm, 105, rfl⟩
abbrev main_v59 : Ref sig .tc := ⟨.hbm, 106, rfl⟩
abbrev main_v60 : Ref sig .tc := ⟨.hbm, 107, rfl⟩
abbrev main_c_8 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_9 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_c_10 : Ref sig .tc := ⟨.hbm, 132, rfl⟩
abbrev main_v83 : Ref sig .tc := ⟨.hbm, 133, rfl⟩
abbrev main_v84 : Ref sig .tc := ⟨.hbm, 134, rfl⟩
abbrev main_c_11 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_12 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_c_13 : Ref sig .tc := ⟨.hbm, 148, rfl⟩
abbrev main_v96 : Ref sig .tc := ⟨.hbm, 149, rfl⟩
abbrev main_v97 : Ref sig .tc := ⟨.hbm, 150, rfl⟩
abbrev main_c_14 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_15 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_c_16 : Ref sig .tc := ⟨.hbm, 164, rfl⟩
abbrev main_v109 : Ref sig .tc := ⟨.hbm, 165, rfl⟩
abbrev main_v110 : Ref sig .tc := ⟨.hbm, 166, rfl⟩
abbrev main_c_17 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_18 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_c_19 : Ref sig .tc := ⟨.hbm, 180, rfl⟩
abbrev main_v122 : Ref sig .tc := ⟨.hbm, 181, rfl⟩
abbrev main_v123 : Ref sig .tc := ⟨.hbm, 182, rfl⟩
abbrev main_c_20 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_21 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_22 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_c_23 : Ref sig .tc := ⟨.hbm, 209, rfl⟩
abbrev main_v147 : Ref sig .tc := ⟨.hbm, 210, rfl⟩
abbrev main_v148 : Ref sig .tc := ⟨.hbm, 211, rfl⟩
abbrev main_c_24 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_25 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_c_26 : Ref sig .tc := ⟨.hbm, 225, rfl⟩
abbrev main_v160 : Ref sig .tc := ⟨.hbm, 226, rfl⟩
abbrev main_v161 : Ref sig .tc := ⟨.hbm, 227, rfl⟩
abbrev main_c_27 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_28 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_c_29 : Ref sig .tc := ⟨.hbm, 241, rfl⟩
abbrev main_v173 : Ref sig .tc := ⟨.hbm, 242, rfl⟩
abbrev main_v174 : Ref sig .tc := ⟨.hbm, 243, rfl⟩
abbrev main_c_30 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_cst_31 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_c_32 : Ref sig .tc := ⟨.hbm, 257, rfl⟩
abbrev main_v186 : Ref sig .tc := ⟨.hbm, 258, rfl⟩
abbrev main_v187 : Ref sig .tc := ⟨.hbm, 259, rfl⟩
abbrev main_c_33 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_34 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_cst_35 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206_0 : Ref sig .tc := ⟨.hbm, 281, rfl⟩
abbrev main_v206_1 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg8_1 : Ref sig .tc := ⟨.vmem, 44, rfl⟩
abbrev cc3_stg9_0 : Ref sig .tc := ⟨.vmem, 45, rfl⟩
abbrev cc3_stg9_1 : Ref sig .tc := ⟨.vmem, 46, rfl⟩
abbrev cc3_stg10_0 : Ref sig .tc := ⟨.vmem, 47, rfl⟩
abbrev cc3_stg10_1 : Ref sig .tc := ⟨.vmem, 48, rfl⟩
abbrev cc3_stg11_0 : Ref sig .tc := ⟨.vmem, 49, rfl⟩
abbrev cc3_stg12_0 : Ref sig .tc := ⟨.vmem, 50, rfl⟩
abbrev cc3_stg12_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg2_0 : Ref sig .tc := ⟨.vmem, 55, rfl⟩
abbrev cc4_stg2_1 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg1_1 : Ref sig .tc := ⟨.vmem, 60, rfl⟩
abbrev cc5_stg2_0 : Ref sig .tc := ⟨.vmem, 61, rfl⟩
abbrev cc5_stg2_1 : Ref sig .tc := ⟨.vmem, 62, rfl⟩
abbrev cc5_stg3_0 : Ref sig .tc := ⟨.vmem, 63, rfl⟩
abbrev cc5_stg3_1 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg6_0 : Ref sig .tc := ⟨.vmem, 67, rfl⟩
abbrev cc5_stg7_0 : Ref sig .tc := ⟨.vmem, 68, rfl⟩
abbrev cc5_stg8_0 : Ref sig .tc := ⟨.vmem, 69, rfl⟩
abbrev cc5_stg8_1 : Ref sig .tc := ⟨.vmem, 70, rfl⟩
abbrev cc5_stg9_0 : Ref sig .tc := ⟨.vmem, 71, rfl⟩
abbrev cc5_stg9_1 : Ref sig .tc := ⟨.vmem, 72, rfl⟩
abbrev cc5_stg10_0 : Ref sig .tc := ⟨.vmem, 73, rfl⟩
abbrev cc5_stg10_1 : Ref sig .tc := ⟨.vmem, 74, rfl⟩
abbrev cc5_stg11_0 : Ref sig .tc := ⟨.vmem, 75, rfl⟩
abbrev cc5_stg12_0 : Ref sig .tc := ⟨.vmem, 76, rfl⟩
abbrev cc5_stg12_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg2_0 : Ref sig .tc := ⟨.vmem, 81, rfl⟩
abbrev cc6_stg3_0 : Ref sig .tc := ⟨.vmem, 82, rfl⟩
abbrev cc6_stg3_1 : Ref sig .tc := ⟨.vmem, 83, rfl⟩
abbrev cc6_stg4_0 : Ref sig .tc := ⟨.vmem, 84, rfl⟩
abbrev cc6_stg4_1 : Ref sig .tc := ⟨.vmem, 85, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem10_1 : DmaSem sig := 22
abbrev cc1_sem11_0 : DmaSem sig := 23
abbrev cc1_sem12_0 : DmaSem sig := 24
abbrev cc1_sem12_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem8_1 : DmaSem sig := 44
abbrev cc3_sem9_0 : DmaSem sig := 45
abbrev cc3_sem9_1 : DmaSem sig := 46
abbrev cc3_sem10_0 : DmaSem sig := 47
abbrev cc3_sem10_1 : DmaSem sig := 48
abbrev cc3_sem11_0 : DmaSem sig := 49
abbrev cc3_sem12_0 : DmaSem sig := 50
abbrev cc3_sem12_1 : DmaSem sig := 51
abbrev cc4_sem0_0 : DmaSem sig := 52
abbrev cc4_sem0_1 : DmaSem sig := 53
abbrev cc4_sem1_0 : DmaSem sig := 54
abbrev cc4_sem2_0 : DmaSem sig := 55
abbrev cc4_sem2_1 : DmaSem sig := 56
abbrev cc5_sem0_0 : DmaSem sig := 57
abbrev cc5_sem0_1 : DmaSem sig := 58
abbrev cc5_sem1_0 : DmaSem sig := 59
abbrev cc5_sem1_1 : DmaSem sig := 60
abbrev cc5_sem2_0 : DmaSem sig := 61
abbrev cc5_sem2_1 : DmaSem sig := 62
abbrev cc5_sem3_0 : DmaSem sig := 63
abbrev cc5_sem3_1 : DmaSem sig := 64
abbrev cc5_sem4_0 : DmaSem sig := 65
abbrev cc5_sem5_0 : DmaSem sig := 66
abbrev cc5_sem6_0 : DmaSem sig := 67
abbrev cc5_sem7_0 : DmaSem sig := 68
abbrev cc5_sem8_0 : DmaSem sig := 69
abbrev cc5_sem8_1 : DmaSem sig := 70
abbrev cc5_sem9_0 : DmaSem sig := 71
abbrev cc5_sem9_1 : DmaSem sig := 72
abbrev cc5_sem10_0 : DmaSem sig := 73
abbrev cc5_sem10_1 : DmaSem sig := 74
abbrev cc5_sem11_0 : DmaSem sig := 75
abbrev cc5_sem12_0 : DmaSem sig := 76
abbrev cc5_sem12_1 : DmaSem sig := 77
abbrev cc6_sem0_0 : DmaSem sig := 78
abbrev cc6_sem0_1 : DmaSem sig := 79
abbrev cc6_sem1_0 : DmaSem sig := 80
abbrev cc6_sem2_0 : DmaSem sig := 81
abbrev cc6_sem3_0 : DmaSem sig := 82
abbrev cc6_sem3_1 : DmaSem sig := 83
abbrev cc6_sem4_0 : DmaSem sig := 84
abbrev cc6_sem4_1 : DmaSem sig := 85

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S5000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S5000x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x384 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x384 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S5000x1 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S5000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 2 → Memref sig .tc .vmem S5000x128 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  shapeCasts_S50000x96_S50000x3x32 : S50000x96.ShapeCasts S50000x3x32
  bcast_S3x32_S1x3x32_1_2 : S3x32.BroadcastsInDim S1x3x32 (![1, 2] : Fin 2 → Fin S1x3x32.rank)
  bcast_S1x3x32_S50000x3x32_0_1_2 : S1x3x32.BroadcastsInDim S50000x3x32 (![0, 1, 2] : Fin 3 → Fin S50000x3x32.rank)
  shapeCasts_S50000x3x32_S50000x96 : S50000x3x32.ShapeCasts S50000x96
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S96x128_S96x128_S96x128_S96x128_S96x512_d1 : Shape.Concatenates [S96x128, S96x128, S96x128, S96x128] S96x512 1
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x512_S96x512_0_0 : ∀ a, (![0, 0] : Fin 2 → Nat) a + S96x512.size a ≤ S96x512.size a
  h_S96x512 : 0 < S96x512.numel
  shapeCasts_S96x512_S96x512 : S96x512.ShapeCasts S96x512
  inb_S5000x512_S5000x512_0_0 : ∀ a, (![0, 0] : Fin 2 → Nat) a + S5000x512.size a ≤ S5000x512.size a
  h_S5000x512 : 0 < S5000x512.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  concatenates_S128x128_S128x128_S128x128_S128x384_d1 : Shape.Concatenates [S128x128, S128x128, S128x128] S128x384 1
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S128 : S_.BroadcastsInDim S128 (![] : Fin 0 → Fin S128.rank)
  shapeCasts_S256_S1x256 : S256.ShapeCasts S1x256
  reduces_S5000x128_S5000 : S5000x128.Reduces [1] S5000
  shapeCasts_S5000_S5000x1 : S5000.ShapeCasts S5000x1
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  reduces_S5000x256_S5000 : S5000x256.Reduces [1] S5000
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  dot_S5000x96_S96x512_S5000x512_1_0_0_1_n_n_wf : DotDims.WF S5000x96 S96x512 S5000x512 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x384_S5000x384_1_0_0_1_n_n_wf : DotDims.WF S5000x128 S128x384 S5000x384 [1] [0] [0] [1] [] []
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x512.size a ≤ S96x512.size a
  hwx0_1 : ∀ i : grid0.Coords, EltTy.bits .f32 = 32 ∨ (Rect.block (s := S96x512) S96x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S50000x512.size a
  hwx0_2 : ∀ i : grid0.Coords, EltTy.bits .f32 = 32 ∨ (Rect.block (s := S50000x512) S5000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S50000x1.size a
  hwx1_8 : ∀ i : grid1.Coords, EltTy.bits .f32 = 32 ∨ (Rect.block (s := S50000x1) S5000x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S50000x1.size a
  hwx1_9 : ∀ i : grid1.Coords, EltTy.bits .f32 = 32 ∨ (Rect.block (s := S50000x1) S5000x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x128.size a ≤ S50000x128.size a
  hwx1_12 : ∀ i : grid1.Coords, EltTy.bits .f32 = 32 ∨ (Rect.block (s := S50000x128) S5000x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x384.size a ≤ S128x384.size a
  hwx2_1 : ∀ i : grid2.Coords, EltTy.bits .f32 = 32 ∨ (Rect.block (s := S128x384) S128x384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x384.size a ≤ S50000x384.size a
  hwx2_2 : ∀ i : grid2.Coords, EltTy.bits .f32 = 32 ∨ (Rect.block (s := S50000x384) S5000x384.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x1.size a ≤ S50000x1.size a
  hwx3_8 : ∀ i : grid3.Coords, EltTy.bits .f32 = 32 ∨ (Rect.block (s := S50000x1) S5000x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x1.size a ≤ S50000x1.size a
  hwx3_9 : ∀ i : grid3.Coords, EltTy.bits .f32 = 32 ∨ (Rect.block (s := S50000x1) S5000x1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S50000x128.size a
  hwx3_10 : ∀ i : grid3.Coords, EltTy.bits .f32 = 32 ∨ (Rect.block (s := S50000x128) S5000x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S5000x128.size a ≤ S50000x128.size a
  hwx3_12 : ∀ i : grid3.Coords, EltTy.bits .f32 = 32 ∨ (Rect.block (s := S50000x128) S5000x128.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x384.size a ≤ S128x384.size a
  hwx4_1 : ∀ i : grid4.Coords, EltTy.bits .f32 = 32 ∨ (Rect.block (s := S128x384) S128x384.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x384.size a ≤ S50000x384.size a
  hwx4_2 : ∀ i : grid4.Coords, EltTy.bits .f32 = 32 ∨ (Rect.block (s := S50000x384) S5000x384.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x1.size a ≤ S50000x1.size a
  hwx5_8 : ∀ i : grid5.Coords, EltTy.bits .f32 = 32 ∨ (Rect.block (s := S50000x1) S5000x1.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x1.size a ≤ S50000x1.size a
  hwx5_9 : ∀ i : grid5.Coords, EltTy.bits .f32 = 32 ∨ (Rect.block (s := S50000x1) S5000x1.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S5000x128.size a ≤ S50000x128.size a
  hwx5_10 : ∀ i : grid5.Coords, EltTy.bits .f32 = 32 ∨ (Rect.block (s := S50000x128) S5000x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x128.size a ≤ S1x128.size a
  hwx5_11 : ∀ i : grid5.Coords, EltTy.bits .f32 = 32 ∨ (Rect.block (s := S1x128) S1x128.size (cc5_transform_11 i) (hinb5_11 i)).WholeWords (EltTy.packing .f32)
  hstage5_12 : ∀ j, (stage5_12 j).IsWhole
  nbuf5_12 : grid5.bufCount reads5_12 false = 2
  hreads5_12 : ∀ i i' : grid5.Coords, (∀ a, reads5_12 a = true → i a = i' a) → cc5_transform_12 i = cc5_transform_12 i'
  hinb5_12 : ∀ (i : grid5.Coords) a, (cc5_transform_12 i a + 1) * S5000x128.size a ≤ S50000x128.size a
  hwx5_12 : ∀ i : grid5.Coords, EltTy.bits .f32 = 32 ∨ (Rect.block (s := S50000x128) S5000x128.size (cc5_transform_12 i) (hinb5_12 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x256.size a ≤ S50000x256.size a
  hwx6_4 : ∀ i : grid6.Coords, EltTy.bits .f32 = 32 ∨ (Rect.block (s := S50000x256) S5000x256.size (cc6_transform_4 i) (hinb6_4 i)).WholeWords (EltTy.packing .f32)

variable [Facts₀]

def dot_S5000x96_S96x512_S5000x512_1_0_0_1_n_n : DotDims S5000x96 S96x512 S5000x512 where
  lhsContracting := [1]
  rhsContracting := [0]
  lhsNonContracting := [0]
  rhsNonContracting := [1]
  lhsBatch := []
  rhsBatch := []
  wf := dot_S5000x96_S96x512_S5000x512_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v4) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S96x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v70) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v71) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S5000x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S5000x1.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v18) S5000x128.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v75) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v76) S5000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v76) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S128x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S5000x384.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v94) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v107) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v120) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v133) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v135) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v136) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v137) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v138) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg22) S5000x1.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_arg23) S5000x1.size cc3_transform_9 reads3_9 false false 2 stage3_9 sem3_9
    hrank3 hreads3_9 hinb3_9 nbuf3_9 (Memref.isWhole_whole _) hwx3_9 hstage3_9

abbrev win3_10 : Pipeline.Window sig grid3 :=
  Pipeline.Window.ofSpec (Memref.whole main_v76) S5000x128.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_v139) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v140) S5000x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v140) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v141) S128x384.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v142) S5000x384.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v158) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v171) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v184) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v197) S5000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v199) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v200) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v201) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v202) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg31) S5000x1.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_arg32) S5000x1.size cc5_transform_9 reads5_9 false false 2 stage5_9 sem5_9
    hrank5 hreads5_9 hinb5_9 nbuf5_9 (Memref.isWhole_whole _) hwx5_9 hstage5_9

abbrev win5_10 : Pipeline.Window sig grid5 :=
  Pipeline.Window.ofSpec (Memref.whole main_v140) S5000x128.size cc5_transform_10 reads5_10 false false 2 stage5_10 sem5_10
    hrank5 hreads5_10 hinb5_10 nbuf5_10 (Memref.isWhole_whole _) hwx5_10 hstage5_10

abbrev win5_11 : Pipeline.Window sig grid5 :=
  Pipeline.Window.ofSpec (Memref.whole main_v203) S1x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v204) S5000x128.size cc5_transform_12 reads5_12 true false 2 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

abbrev win6_0 : Pipeline.Window sig grid6 :=
  Pipeline.Window.ofSpec (Memref.whole main_v204) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg35) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v205) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v206_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v206_1) S5000x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x96 : Shape := ⟨2, ![50000, 96]⟩
abbrev S2x640000 : Shape := ⟨2, ![2, 640000]⟩
abbrev S640000 : Shape := ⟨1, ![640000]⟩
abbrev S3x32 : Shape := ⟨2, ![3, 32]⟩
abbrev S96x128 : Shape := ⟨2, ![96, 128]⟩
abbrev S128 : Shape := ⟨1, ![128]⟩
abbrev S50000x1 : Shape := ⟨2, ![50000, 1]⟩
abbrev S128x128 : Shape := ⟨2, ![128, 128]⟩
abbrev S128x256 : Shape := ⟨2, ![128, 256]⟩
abbrev S256 : Shape := ⟨1, ![256]⟩
abbrev S50000x3x32 : Shape := ⟨3, ![50000, 3, 32]⟩
abbrev S1x3x32 : Shape := ⟨3, ![1, 3, 32]⟩
abbrev S50000x128 : Shape := ⟨2, ![50000, 128]⟩
abbrev S1x640000 : Shape := ⟨2, ![1, 640000]⟩
abbrev S640000x1 : Shape := ⟨2, ![640000, 1]⟩
abbrev S_ : Shape := ⟨0, ![]⟩
abbrev S640000x128 : Shape := ⟨2, ![640000, 128]⟩
abbrev S1x128 : Shape := ⟨2, ![1, 128]⟩
abbrev S50000 : Shape := ⟨1, ![50000]⟩
abbrev S50000x256 : Shape := ⟨2, ![50000, 256]⟩
abbrev S1x256 : Shape := ⟨2, ![1, 256]⟩

abbrev nBuf : Space → Nat
  | .hbm => 390
  | .vmem => 0
  | .smem => 0
  | _ => 0

abbrev hbmTy0_0 (i : Nat) : BufTy := match i % 128 with
  | 0 => ⟨S50000x96, .f32⟩
  | 1 => ⟨S2x640000, .i32⟩
  | 2 => ⟨S640000, .f32⟩
  | 3 => ⟨S2x640000, .i32⟩
  | 4 => ⟨S640000, .f32⟩
  | 5 => ⟨S3x32, .f32⟩
  | 6 => ⟨S96x128, .f32⟩
  | 7 => ⟨S96x128, .f32⟩
  | 8 => ⟨S96x128, .f32⟩
  | 9 => ⟨S128, .f32⟩
  | 10 => ⟨S128, .f32⟩
  | 11 => ⟨S128, .f32⟩
  | 12 => ⟨S128, .f32⟩
  | 13 => ⟨S50000x1, .f32⟩
  | 14 => ⟨S50000x1, .f32⟩
  | 15 => ⟨S128x128, .f32⟩
  | 16 => ⟨S128x128, .f32⟩
  | 17 => ⟨S128x128, .f32⟩
  | 18 => ⟨S128, .f32⟩
  | 19 => ⟨S128, .f32⟩
  | 20 => ⟨S128, .f32⟩
  | 21 => ⟨S128, .f32⟩
  | 22 => ⟨S50000x1, .f32⟩
  | 23 => ⟨S50000x1, .f32⟩
  | 24 => ⟨S128x128, .f32⟩
  | 25 => ⟨S128x128, .f32⟩
  | 26 => ⟨S128x128, .f32⟩
  | 27 => ⟨S128, .f32⟩
  | 28 => ⟨S128, .f32⟩
  | 29 => ⟨S128, .f32⟩
  | 30 => ⟨S128, .f32⟩
  | 31 => ⟨S50000x1, .f32⟩
  | 32 => ⟨S50000x1, .f32⟩
  | 33 => ⟨S96x128, .f32⟩
  | 34 => ⟨S128, .f32⟩
  | 35 => ⟨S128x256, .f32⟩
  | 36 => ⟨S256, .f32⟩
  | 37 => ⟨S50000x3x32, .f32⟩
  | 38 => ⟨S1x3x32, .f32⟩
  | 39 => ⟨S50000x3x32, .f32⟩
  | 40 => ⟨S50000x3x32, .f32⟩
  | 41 => ⟨S50000x96, .f32⟩
  | 42 => ⟨S50000x128, .f32⟩
  | 43 => ⟨S50000x128, .f32⟩
  | 44 => ⟨S1x640000, .i32⟩
  | 45 => ⟨S640000, .i32⟩
  | 46 => ⟨S1x640000, .i32⟩
  | 47 => ⟨S640000, .i32⟩
  | 48 => ⟨S640000x1, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000x128, .f32⟩
  | 58 => ⟨S640000x128, .f32⟩
  | 59 => ⟨S640000x128, .f32⟩
  | 60 => ⟨S_, .f32⟩
  | 61 => ⟨S50000x128, .f32⟩
  | 62 => ⟨S640000x1, .i32⟩
  | 63 => ⟨S50000x128, .f32⟩
  | 64 => ⟨S1x128, .f32⟩
  | 65 => ⟨S50000x128, .f32⟩
  | 66 => ⟨S50000x128, .f32⟩
  | 67 => ⟨S1x640000, .i32⟩
  | 68 => ⟨S640000, .i32⟩
  | 69 => ⟨S1x640000, .i32⟩
  | 70 => ⟨S640000, .i32⟩
  | 71 => ⟨S640000x1, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S640000x128, .f32⟩
  | 81 => ⟨S640000x128, .f32⟩
  | 82 => ⟨S640000x128, .f32⟩
  | 83 => ⟨S_, .f32⟩
  | 84 => ⟨S50000x128, .f32⟩
  | 85 => ⟨S640000x1, .i32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S50000x128, .f32⟩
  | 92 => ⟨S1x640000, .i32⟩
  | 93 => ⟨S640000, .i32⟩
  | 94 => ⟨S1x640000, .i32⟩
  | 95 => ⟨S640000, .i32⟩
  | 96 => ⟨S640000x1, .f32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000x128, .f32⟩
  | 106 => ⟨S640000x128, .f32⟩
  | 107 => ⟨S640000x128, .f32⟩
  | 108 => ⟨S_, .f32⟩
  | 109 => ⟨S50000x128, .f32⟩
  | 110 => ⟨S640000x1, .i32⟩
  | 111 => ⟨S50000x128, .f32⟩
  | 112 => ⟨S1x128, .f32⟩
  | 113 => ⟨S50000x128, .f32⟩
  | 114 => ⟨S50000x128, .f32⟩
  | 115 => ⟨S1x640000, .i32⟩
  | 116 => ⟨S640000, .i32⟩
  | 117 => ⟨S1x640000, .i32⟩
  | 118 => ⟨S640000, .i32⟩
  | 119 => ⟨S640000x1, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S50000x96, .f32⟩

abbrev hbmTy0_1 (i : Nat) : BufTy := match i % 128 with
  | 0 => ⟨S640000x128, .f32⟩
  | 1 => ⟨S640000x128, .f32⟩
  | 2 => ⟨S640000x128, .f32⟩
  | 3 => ⟨S_, .f32⟩
  | 4 => ⟨S50000x128, .f32⟩
  | 5 => ⟨S640000x1, .i32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S50000x128, .f32⟩
  | 12 => ⟨S50000x128, .f32⟩
  | 13 => ⟨S50000x128, .f32⟩
  | 14 => ⟨S50000x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | 25 => ⟨S50000x128, .f32⟩
  | 26 => ⟨S1x640000, .i32⟩
  | 27 => ⟨S640000, .i32⟩
  | 28 => ⟨S1x640000, .i32⟩
  | 29 => ⟨S640000, .i32⟩
  | 30 => ⟨S640000x1, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x128, .f32⟩
  | 40 => ⟨S640000x128, .f32⟩
  | 41 => ⟨S640000x128, .f32⟩
  | 42 => ⟨S_, .f32⟩
  | 43 => ⟨S50000x128, .f32⟩
  | 44 => ⟨S640000x1, .i32⟩
  | 45 => ⟨S50000x128, .f32⟩
  | 46 => ⟨S1x128, .f32⟩
  | 47 => ⟨S50000x128, .f32⟩
  | 48 => ⟨S50000x128, .f32⟩
  | 49 => ⟨S1x640000, .i32⟩
  | 50 => ⟨S640000, .i32⟩
  | 51 => ⟨S1x640000, .i32⟩
  | 52 => ⟨S640000, .i32⟩
  | 53 => ⟨S640000x1, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S640000x128, .f32⟩
  | 63 => ⟨S640000x128, .f32⟩
  | 64 => ⟨S640000x128, .f32⟩
  | 65 => ⟨S_, .f32⟩
  | 66 => ⟨S50000x128, .f32⟩
  | 67 => ⟨S640000x1, .i32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S1x640000, .i32⟩
  | 75 => ⟨S640000, .i32⟩
  | 76 => ⟨S1x640000, .i32⟩
  | 77 => ⟨S640000, .i32⟩
  | 78 => ⟨S640000x1, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000x128, .f32⟩
  | 88 => ⟨S640000x128, .f32⟩
  | 89 => ⟨S640000x128, .f32⟩
  | 90 => ⟨S_, .f32⟩
  | 91 => ⟨S50000x128, .f32⟩
  | 92 => ⟨S640000x1, .i32⟩
  | 93 => ⟨S50000x128, .f32⟩
  | 94 => ⟨S1x128, .f32⟩
  | 95 => ⟨S50000x128, .f32⟩
  | 96 => ⟨S50000x128, .f32⟩
  | 97 => ⟨S1x640000, .i32⟩
  | 98 => ⟨S640000, .i32⟩
  | 99 => ⟨S1x640000, .i32⟩
  | 100 => ⟨S640000, .i32⟩
  | 101 => ⟨S640000x1, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S640000x128, .f32⟩
  | 112 => ⟨S640000x128, .f32⟩
  | 113 => ⟨S_, .f32⟩
  | 114 => ⟨S50000x128, .f32⟩
  | 115 => ⟨S640000x1, .i32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S50000x128, .f32⟩
  | 126 => ⟨S50000x128, .f32⟩
  | 127 => ⟨S_, .f32⟩
  | _ => ⟨S50000x96, .f32⟩

abbrev hbmTy0_2 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S1x640000, .i32⟩
  | 5 => ⟨S640000, .i32⟩
  | 6 => ⟨S1x640000, .i32⟩
  | 7 => ⟨S640000, .i32⟩
  | 8 => ⟨S640000x1, .f32⟩
  | 9 => ⟨S_, .i32⟩
  | 10 => ⟨S640000, .i32⟩
  | 11 => ⟨S640000, .i1⟩
  | 12 => ⟨S_, .i32⟩
  | 13 => ⟨S640000, .i32⟩
  | 14 => ⟨S640000, .i32⟩
  | 15 => ⟨S640000, .i32⟩
  | 16 => ⟨S640000x1, .i32⟩
  | 17 => ⟨S640000x128, .f32⟩
  | 18 => ⟨S640000x128, .f32⟩
  | 19 => ⟨S640000x128, .f32⟩
  | 20 => ⟨S_, .f32⟩
  | 21 => ⟨S50000x128, .f32⟩
  | 22 => ⟨S640000x1, .i32⟩
  | 23 => ⟨S50000x128, .f32⟩
  | 24 => ⟨S1x128, .f32⟩
  | 25 => ⟨S50000x128, .f32⟩
  | 26 => ⟨S50000x128, .f32⟩
  | 27 => ⟨S1x640000, .i32⟩
  | 28 => ⟨S640000, .i32⟩
  | 29 => ⟨S1x640000, .i32⟩
  | 30 => ⟨S640000, .i32⟩
  | 31 => ⟨S640000x1, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000x128, .f32⟩
  | 41 => ⟨S640000x128, .f32⟩
  | 42 => ⟨S640000x128, .f32⟩
  | 43 => ⟨S_, .f32⟩
  | 44 => ⟨S50000x128, .f32⟩
  | 45 => ⟨S640000x1, .i32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S1x640000, .i32⟩
  | 53 => ⟨S640000, .i32⟩
  | 54 => ⟨S1x640000, .i32⟩
  | 55 => ⟨S640000, .i32⟩
  | 56 => ⟨S640000x1, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000x128, .f32⟩
  | 66 => ⟨S640000x128, .f32⟩
  | 67 => ⟨S640000x128, .f32⟩
  | 68 => ⟨S_, .f32⟩
  | 69 => ⟨S50000x128, .f32⟩
  | 70 => ⟨S640000x1, .i32⟩
  | 71 => ⟨S50000x128, .f32⟩
  | 72 => ⟨S1x128, .f32⟩
  | 73 => ⟨S50000x128, .f32⟩
  | 74 => ⟨S50000x128, .f32⟩
  | 75 => ⟨S1x640000, .i32⟩
  | 76 => ⟨S640000, .i32⟩
  | 77 => ⟨S1x640000, .i32⟩
  | 78 => ⟨S640000, .i32⟩
  | 79 => ⟨S640000x1, .f32⟩
  | 80 => ⟨S_, .i32⟩
  | 81 => ⟨S640000, .i32⟩
  | 82 => ⟨S640000, .i1⟩
  | 83 => ⟨S_, .i32⟩
  | 84 => ⟨S640000, .i32⟩
  | 85 => ⟨S640000, .i32⟩
  | 86 => ⟨S640000, .i32⟩
  | 87 => ⟨S640000x1, .i32⟩
  | 88 => ⟨S640000x128, .f32⟩
  | 89 => ⟨S640000x128, .f32⟩
  | 90 => ⟨S640000x128, .f32⟩
  | 91 => ⟨S_, .f32⟩
  | 92 => ⟨S50000x128, .f32⟩
  | 93 => ⟨S640000x1, .i32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S50000x128, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S_, .f32⟩
  | 107 => ⟨S50000, .f32⟩
  | 108 => ⟨S50000x1, .f32⟩
  | 109 => ⟨S50000x1, .f32⟩
  | 110 => ⟨S_, .f32⟩
  | 111 => ⟨S50000x1, .f32⟩
  | 112 => ⟨S50000x1, .f32⟩
  | 113 => ⟨S50000x128, .f32⟩
  | 114 => ⟨S50000x128, .f32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x256, .f32⟩
  | 126 => ⟨S50000x256, .f32⟩
  | 127 => ⟨S50000x256, .f32⟩
  | _ => ⟨S50000x96, .f32⟩

abbrev hbmTy0_3 (i : Nat) : BufTy := match i % 128 with
  | 0 => ⟨S_, .f32⟩
  | 1 => ⟨S50000, .f32⟩
  | 2 => ⟨S50000x1, .f32⟩
  | 3 => ⟨S50000x1, .f32⟩
  | 4 => ⟨S50000x256, .f32⟩
  | 5 => ⟨S50000x256, .f32⟩
  | _ => ⟨S50000x96, .f32⟩

abbrev hbmTy (i : Nat) : BufTy := match i / 128 with
  | 0 => hbmTy0_0 i
  | 1 => hbmTy0_1 i
  | 2 => hbmTy0_2 i
  | 3 => hbmTy0_3 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_c : Ref sig .tc := ⟨.hbm, 49, rfl⟩
abbrev main_v12 : Ref sig .tc := ⟨.hbm, 50, rfl⟩
abbrev main_v13 : Ref sig .tc := ⟨.hbm, 51, rfl⟩
abbrev main_c_0 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_c_1 : Ref sig .tc := ⟨.hbm, 72, rfl⟩
abbrev main_v32 : Ref sig .tc := ⟨.hbm, 73, rfl⟩
abbrev main_v33 : Ref sig .tc := ⟨.hbm, 74, rfl⟩
abbrev main_c_2 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_3 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_4 : Ref sig .tc := ⟨.hbm, 97, rfl⟩
abbrev main_v54 : Ref sig .tc := ⟨.hbm, 98, rfl⟩
abbrev main_v55 : Ref sig .tc := ⟨.hbm, 99, rfl⟩
abbrev main_c_5 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_6 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_c_7 : Ref sig .tc := ⟨.hbm, 120, rfl⟩
abbrev main_v74 : Ref sig .tc := ⟨.hbm, 121, rfl⟩
abbrev main_v75 : Ref sig .tc := ⟨.hbm, 122, rfl⟩
abbrev main_c_8 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_9 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_call0_cst : Ref sig .tc := ⟨.hbm, 149, rfl⟩
abbrev main_call0_v0 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_10 : Ref sig .tc := ⟨.hbm, 159, rfl⟩
abbrev main_v108 : Ref sig .tc := ⟨.hbm, 160, rfl⟩
abbrev main_v109 : Ref sig .tc := ⟨.hbm, 161, rfl⟩
abbrev main_c_11 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_12 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_13 : Ref sig .tc := ⟨.hbm, 182, rfl⟩
abbrev main_v128 : Ref sig .tc := ⟨.hbm, 183, rfl⟩
abbrev main_v129 : Ref sig .tc := ⟨.hbm, 184, rfl⟩
abbrev main_c_14 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_15 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_c_16 : Ref sig .tc := ⟨.hbm, 207, rfl⟩
abbrev main_v150 : Ref sig .tc := ⟨.hbm, 208, rfl⟩
abbrev main_v151 : Ref sig .tc := ⟨.hbm, 209, rfl⟩
abbrev main_c_17 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_18 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_c_19 : Ref sig .tc := ⟨.hbm, 230, rfl⟩
abbrev main_v170 : Ref sig .tc := ⟨.hbm, 231, rfl⟩
abbrev main_v171 : Ref sig .tc := ⟨.hbm, 232, rfl⟩
abbrev main_c_20 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst_21 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_call1_cst : Ref sig .tc := ⟨.hbm, 255, rfl⟩
abbrev main_call1_v0 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_c_22 : Ref sig .tc := ⟨.hbm, 265, rfl⟩
abbrev main_v200 : Ref sig .tc := ⟨.hbm, 266, rfl⟩
abbrev main_v201 : Ref sig .tc := ⟨.hbm, 267, rfl⟩
abbrev main_c_23 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_cst_24 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_c_25 : Ref sig .tc := ⟨.hbm, 288, rfl⟩
abbrev main_v220 : Ref sig .tc := ⟨.hbm, 289, rfl⟩
abbrev main_v221 : Ref sig .tc := ⟨.hbm, 290, rfl⟩
abbrev main_c_26 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_cst_27 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_c_28 : Ref sig .tc := ⟨.hbm, 313, rfl⟩
abbrev main_v242 : Ref sig .tc := ⟨.hbm, 314, rfl⟩
abbrev main_v243 : Ref sig .tc := ⟨.hbm, 315, rfl⟩
abbrev main_c_29 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_cst_30 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_c_31 : Ref sig .tc := ⟨.hbm, 336, rfl⟩
abbrev main_v262 : Ref sig .tc := ⟨.hbm, 337, rfl⟩
abbrev main_v263 : Ref sig .tc := ⟨.hbm, 338, rfl⟩
abbrev main_c_32 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_cst_33 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_call2_v0 : Ref sig .tc := ⟨.hbm, 361, rfl⟩
abbrev main_call2_cst : Ref sig .tc := ⟨.hbm, 362, rfl⟩
abbrev main_call2_v1 : Ref sig .tc := ⟨.hbm, 363, rfl⟩
abbrev main_call2_v2 : Ref sig .tc := ⟨.hbm, 364, rfl⟩
abbrev main_v284 : Ref sig .tc := ⟨.hbm, 365, rfl⟩
abbrev main_cst_34 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_call3_cst : Ref sig .tc := ⟨.hbm, 375, rfl⟩
abbrev main_call3_v0 : Ref sig .tc := ⟨.hbm, 376, rfl⟩
abbrev main_call3_cst_0 : Ref sig .tc := ⟨.hbm, 377, rfl⟩
abbrev main_call3_v1 : Ref sig .tc := ⟨.hbm, 378, rfl⟩
abbrev main_call3_v2 : Ref sig .tc := ⟨.hbm, 379, rfl⟩
abbrev main_call3_v3 : Ref sig .tc := ⟨.hbm, 380, rfl⟩
abbrev main_call3_v4 : Ref sig .tc := ⟨.hbm, 381, rfl⟩
abbrev main_call3_v5 : Ref sig .tc := ⟨.hbm, 382, rfl⟩
abbrev main_call3_v6 : Ref sig .tc := ⟨.hbm, 383, rfl⟩
abbrev main_call3_cst_1 : Ref sig .tc := ⟨.hbm, 384, rfl⟩
abbrev main_call3_v7 : Ref sig .tc := ⟨.hbm, 385, rfl⟩
abbrev main_call3_v8 : Ref sig .tc := ⟨.hbm, 386, rfl⟩
abbrev main_call3_v9 : Ref sig .tc := ⟨.hbm, 387, rfl⟩
abbrev main_call3_v10 : Ref sig .tc := ⟨.hbm, 388, rfl⟩
abbrev main_v293 : Ref sig .tc := ⟨.hbm, 389, rfl⟩

abbrev nD : Nat := 1
abbrev τ : Topo := Topo.v7x

variable {F : FTy → Type} [FloatOps F]

class Facts₀ : Prop where
  shapeCasts_S50000x96_S50000x3x32 : S50000x96.ShapeCasts S50000x3x32
  bcast_S3x32_S1x3x32_1_2 : S3x32.BroadcastsInDim S1x3x32 (![1, 2] : Fin 2 → Fin S1x3x32.rank)
  bcast_S1x3x32_S50000x3x32_0_1_2 : S1x3x32.BroadcastsInDim S50000x3x32 (![0, 1, 2] : Fin 3 → Fin S50000x3x32.rank)
  shapeCasts_S50000x3x32_S50000x96 : S50000x3x32.ShapeCasts S50000x96
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  bcast_S_S50000 : S_.BroadcastsInDim S50000 (![] : Fin 0 → Fin S50000.rank)
  bcast_S50000x1_S50000x256_0_1 : S50000x1.BroadcastsInDim S50000x256 (![0, 1] : Fin 2 → Fin S50000x256.rank)
  dot_S50000x96_S96x128_S50000x128_1_0_0_1_n_n_wf : DotDims.WF S50000x96 S96x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []

variable [Facts₀]

def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.K.Region0.lean ====
/-
  Region 0 of the program: the first projection, a (50000 × 96) by (96 × 512) matrix product tiled over ten
  row blocks of 5000 rows. At each grid point the body reads the point's 5000 × 96 block of the left operand and the
  whole right operand, and stores their product (the two operands rounded to bf16 first, the accumulator zero)
  into the point's 5000 × 512 block of the result.

  Stated at any entry contents V of the core's buffers and at any float instance:
  * what each window's block is at a point (the array read through the block's view);
  * that an input window's staging buffer holds that block at every point, fetched there or not (the right
    operand is fetched at the first point only: its block index never moves);
  * what the body leaves in the output's staging buffer: the one whole-block store, read back;
  * the body's triple, the proof data of the pipeline, and the obligation the launch asks per point.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole weight matrix at every point: it is fetched once, and its
    block index is the same at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each the whole staging buffer. -/
abbrev rA0 : Rect S5000x96 := Rect.unit (s := S5000x96) ![0, 0] S5000x96.size inb_S5000x96_S5000x96_0_0
abbrev rB0 : Rect S96x512 := Rect.unit (s := S96x512) ![0, 0] S96x512.size inb_S96x512_S96x512_0_0
abbrev rC0 : Rect S5000x512 := Rect.unit (s := S5000x512) ![0, 0] S5000x512.size inb_S5000x512_S5000x512_0_0

/-- The output's staging buffer after the body: the one store of the product of the two loaded blocks. -/
def out0_2 (x0 : Vec F S5000x96 .f32) (x1 : Vec F S96x512 .f32) : Vec F S5000x512 .f32 :=
  View.canon [⟨rC0, k0_pay1 (View.ld x0 rA0) (View.ld x1 rB0)⟩]

/-- The one store covers the whole buffer. -/
theorem cover0_2 (p0 : Vec F S5000x512 .f32) (y : S5000x512.Idx) :
    ∃ pc ∈ ([⟨rC0, p0⟩] : List (View.Piece (Elt F) S5000x512 .f32)), y ∈ pc.1.set :=
  View.cover_of_tiled [⟨rC0, p0⟩] S5000x512.size (by rfl) y

set_option maxHeartbeats 1000000 in
/-- The body on whole staging memrefs: the inputs at contents x0, x1 and the output at anything run to the
    continuation with the inputs as they were and the output at the stored product. -/
theorem sound_kernel0 (c : Dev nD) (E : Set ℕ) (i : grid0.Coords)
    (arg1 : Memref sig .tc .vmem S5000x96 .f32) (harg1 : arg1.IsWhole)
    (arg2 : Memref sig .tc .vmem S96x512 .f32) (harg2 : arg2.IsWhole)
    (arg3 : Memref sig .tc .vmem S5000x512 .f32) (harg3 : arg3.IsWhole)
    (x0 : Vec F S5000x96 .f32) (x1 : Vec F S96x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body each input's
    buffer at its block and the output's at the product of the two input blocks; the untouched rest as the
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1.lean ====
/-
  Region 1 of the program: one layer's combine, tiled over ten row blocks of 5000 rows. At each grid point the body
  reads the row blocks of the four propagated sums, the four bias rows, the two per-row coefficient columns, the
  residual block and its bias row, and stores c_in * (ic_m + b_mi + ic_s + b_si) + c_out * (oc_m + b_mo + oc_s + b_so)
  + residual + residual bias, clamped below at zero, into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not: a window fetched
    once only (a whole weight or bias array) has the same block index at every point. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each a whole staging buffer. -/
abbrev r1_S5000x128 : Rect S5000x128 := Rect.unit (s := S5000x128) ![0, 0] S5000x128.size inb_S5000x128_S5000x128_0_0
abbrev r1_S1x128 : Rect S1x128 := Rect.unit (s := S1x128) ![0, 0] S1x128.size inb_S1x128_S1x128_0_0
abbrev r1_S5000x1 : Rect S5000x1 := Rect.unit (s := S5000x1) ![0, 0] S5000x1.size inb_S5000x1_S5000x1_0_0

/-- The output's staging buffer after the body: the one store of the combined block — the two propagated sums with their biases, each scaled by its per-row coefficient, plus the residual block and its bias. -/
def out1_12 (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) : Vec F S5000x128 .f32 :=
  View.canon [⟨r1_S5000x128, k1_pay1 (k1_pay2 (View.ld x0 r1_S5000x128) (View.ld x4 r1_S1x128) (View.ld x1 r1_S5000x128) (View.ld x5 r1_S1x128) (View.ld x2 r1_S5000x128) (View.ld x6 r1_S1x128) (View.ld x3 r1_S5000x128) (View.ld x7 r1_S1x128) (View.ld x8 r1_S5000x1) (View.ld x9 r1_S5000x1) (View.ld x10 r1_S5000x128)) (View.ld x11 r1_S1x128)⟩]

/-- The one store covers the whole buffer. -/
theorem cover1_12 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 4000000 in
/-- The body on whole staging memrefs: the inputs at the contents given and the outputs at anything run to the
    continuation with the inputs as they were and each output at what its one store wrote. -/
theorem sound_kernel1 (c : Dev nD) (E : Set ℕ) (i : grid1.Coords)
    (arg1 : Memref sig .tc .vmem S5000x128 .f32) (harg1 : arg1.IsWhole)
    (arg2 : Memref sig .tc .vmem S5000x128 .f32) (harg2 : arg2.IsWhole)
    (arg3 : Memref sig .tc .vmem S5000x128 .f32) (harg3 : arg3.IsWhole)
    (arg4 : Memref sig .tc .vmem S5000x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x1 .f32) (harg9 : arg9.IsWhole)
    (arg10 : Memref sig .tc .vmem S5000x1 .f32) (harg10 : arg10.IsWhole)
    (arg11 : Memref sig .tc .vmem S5000x128 .f32) (harg11 : arg11.IsWhole)
    (arg12 : Memref sig .tc .vmem S1x128 .f32) (harg12 : arg12.IsWhole)
    (arg13 : Memref sig .tc .vmem S5000x128 .f32) (harg13 : arg13.IsWhole)
    (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare (out1_12 x0 x1 x2 x3 x4 x5 x6 x7 x8 x9 x10 x11)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12 arg13 harg13) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1_12 _)

/-- The proof data of pipeline 1 on core c: the arrays as the region finds them; after the body each input's
    buffer at its block and each output's at what the body stored, a function of the input blocks; the untouched
    rest as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Region2.lean ====
/-
  Region 2 of the program: the second layer's projection, a (50000 × 128) by (128 × 384) matrix product, tiled over ten row blocks of 5000 rows. At each grid point the body reads
  the point's row block of the left operand and the whole right operand, and stores their product (the operands
  rounded to bf16 first, the accumulator zero) into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, fetched there or not: a window fetched
    once only (a whole weight or bias array) has the same block index at every point. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each a whole staging buffer. -/
abbrev r2_S5000x128 : Rect S5000x128 := Rect.unit (s := S5000x128) ![0, 0] S5000x128.size inb_S5000x128_S5000x128_0_0
abbrev r2_S128x384 : Rect S128x384 := Rect.unit (s := S128x384) ![0, 0] S128x384.size inb_S128x384_S128x384_0_0
abbrev r2_S5000x384 : Rect S5000x384 := Rect.unit (s := S5000x384) ![0, 0] S5000x384.size inb_S5000x384_S5000x384_0_0

/-- The output's staging buffer after the body: the one store of the product of the two loaded blocks. -/
def out2_2 (x0 : Vec F S5000x128 .f32) (x1 : Vec F S128x384 .f32) : Vec F S5000x384 .f32 :=
  View.canon [⟨r2_S5000x384, k2_pay1 (View.ld x0 r2_S5000x128) (View.ld x1 r2_S128x384)⟩]

/-- The one store covers the whole buffer. -/
theorem cover2_2 (p0 : Vec F S5000x384 .f32) (y : S5000x384.Idx) :
    ∃ pc ∈ ([⟨r2_S5000x384, p0⟩] : List (View.Piece (Elt F) S5000x384 .f32)), y ∈ pc.1.set :=
  View.cover_of_tiled [⟨r2_S5000x384, p0⟩] S5000x384.size (by rfl) y

set_option maxHeartbeats 4000000 in
/-- The body on whole staging memrefs: the inputs at the contents given and the outputs at anything run to the
    continuation with the inputs as they were and each output at what its one store wrote. -/
theorem sound_kernel2 (c : Dev nD) (E : Set ℕ) (i : grid2.Coords)
    (arg1 : Memref sig .tc .vmem S5000x128 .f32) (harg1 : arg1.IsWhole)
    (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c: the arrays as the region finds them; after the body each input's
    buffer at its block and each output's at what the body stored, a function of the input blocks; the untouched
    rest as the invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Region3.lean ====
/-
  Region 3 of the program: one layer's combine, tiled over ten row blocks of 5000 rows. At each grid point the body
  reads the row blocks of the four propagated sums, the four bias rows, the two per-row coefficient columns, the
  residual block and its bias row, and stores c_in * (ic_m + b_mi + ic_s + b_si) + c_out * (oc_m + b_mo + oc_s + b_so)
  + residual + residual bias, clamped below at zero, into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's staging buffer holds its block at every point, fetched there or not: a window fetched
    once only (a whole weight or bias array) has the same block index at every point. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes: each a whole staging buffer. -/
abbrev r3_S5000x128 : Rect S5000x128 := Rect.unit (s := S5000x128) ![0, 0] S5000x128.size inb_S5000x128_S5000x128_0_0
abbrev r3_S1x128 : Rect S1x128 := Rect.unit (s := S1x128) ![0, 0] S1x128.size inb_S1x128_S1x128_0_0
abbrev r3_S5000x1 : Rect S5000x1 := Rect.unit (s := S5000x1) ![0, 0] S5000x1.size inb_S5000x1_S5000x1_0_0

/-- The output's staging buffer after the body: the one store of the combined block — the two propagated sums with their biases, each scaled by its per-row coefficient, plus the residual block and its bias. -/
def out3_12 (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) : Vec F S5000x128 .f32 :=
  View.canon [⟨r3_S5000x128, k3_pay1 (k3_pay2 (View.ld x0 r3_S5000x128) (View.ld x4 r3_S1x128) (View.ld x1 r3_S5000x128) (View.ld x5 r3_S1x128) (View.ld x2 r3_S5000x128) (View.ld x6 r3_S1x128) (View.ld x3 r3_S5000x128) (View.ld x7 r3_S1x128) (View.ld x8 r3_S5000x1) (View.ld x9 r3_S5000x1) (View.ld x10 r3_S5000x128)) (View.ld x11 r3_S1x128)⟩]

/-- The one store covers the whole buffer. -/
theorem cover3_12 (p0 : Vec F S5000x128 .f32) (y : S5000x128.Idx) :
    ∃ pc ∈ ([⟨r3_S5000x128, p0⟩] : List (View.Piece (Elt F) S5000x128 .f32)), y ∈ pc.1.set :=
  View.cover_of_tiled [⟨r3_S5000x128, p0⟩] S5000x128.size (by rfl) y

set_option maxHeartbeats 4000000 in
/-- The body on whole staging memrefs: the inputs at the contents given and the outputs at anything run to the
    continuation with the inputs as they were and each output at what its one store wrote. -/
theorem sound_kernel3 (c : Dev nD) (E : Set ℕ) (i : grid3.Coords)
    (arg1 : Memref sig .tc .vmem S5000x128 .f32) (harg1 : arg1.IsWhole)
    (arg2 : Memref sig .tc .vmem S5000x128 .f32) (harg2 : arg2.IsWhole)
    (arg3 : Memref sig .tc .vmem S5000x128 .f32) (harg3 : arg3.IsWhole)
    (arg4 : Memref sig .tc .vmem S5000x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x1 .f32) (harg9 : arg9.IsWhole)
    (arg10 : Memref sig .tc .vmem S5000x1 .f32) (harg10 : arg10.IsWhole)
    (arg11 : Memref sig .tc .vmem S5000x128 .f32) (harg11 : arg11.IsWhole)
    (arg12 : Memref sig .tc .vmem S1x128 .f32) (harg12 : arg12.IsWhole)
    (arg13 : Memref sig .tc .vmem S5000x128 .f32) (harg13 : arg13.IsWhole)
    (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare (out3_12 x0 x1 x2 x3 x4 x5 x6 x7 x8 x9 x10 x11)) -∗ K ⟨⟩))
      ⊢ wp frame (wpE (defs₀ (F := F)) Variants.none c none) E (cc3__combine_kernel i arg1 harg1 arg2 harg2 arg3 harg3 arg4 harg4 arg5 harg5 arg6 harg6 arg7 harg7 arg8 harg8 arg9 harg9 arg10 harg10 arg11 harg11 arg12 harg12 arg13 harg13) K := by
  simp only [cc3__combine_kernel_eq_skeleton]; unfold cc3__combine_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover3_12 _)

/-- The proof data of pipeline 3 on core c: the arrays as the region finds them; after the body each input's
    buffer at its block and each output's at what the body stored, a function of the input blocks; the untouched
    rest as the invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel3 c Set.univ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Region4.lean ====
/-
  Region 4 of the program: the third layer's projection, a (50000 × 128) by (128 × 384) matrix product, tiled over ten row blocks of 5000 rows. At each grid point the body reads
  the point's row block of the left operand and the whole right operand, and stores their product (the operands
  rounded to bf16 first, the accumulator zero) into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's staging buffer holds its block at every point, fetched there or not: a window fetched
    once only (a whole weight or bias array) has the same block index at every point. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body reads and writes: each a whole staging buffer. -/
abbrev r4_S5000x128 : Rect S5000x128 := Rect.unit (s := S5000x128) ![0, 0] S5000x128.size inb_S5000x128_S5000x128_0_0
abbrev r4_S128x384 : Rect S128x384 := Rect.unit (s := S128x384) ![0, 0] S128x384.size inb_S128x384_S128x384_0_0
abbrev r4_S5000x384 : Rect S5000x384 := Rect.unit (s := S5000x384) ![0, 0] S5000x384.size inb_S5000x384_S5000x384_0_0

/-- The output's staging buffer after the body: the one store of the product of the two loaded blocks. -/
def out4_2 (x0 : Vec F S5000x128 .f32) (x1 : Vec F S128x384 .f32) : Vec F S5000x384 .f32 :=
  View.canon [⟨r4_S5000x384, k4_pay1 (View.ld x0 r4_S5000x128) (View.ld x1 r4_S128x384)⟩]

/-- The one store covers the whole buffer. -/
theorem cover4_2 (p0 : Vec F S5000x384 .f32) (y : S5000x384.Idx) :
    ∃ pc ∈ ([⟨r4_S5000x384, p0⟩] : List (View.Piece (Elt F) S5000x384 .f32)), y ∈ pc.1.set :=
  View.cover_of_tiled [⟨r4_S5000x384, p0⟩] S5000x384.size (by rfl) y

set_option maxHeartbeats 4000000 in
/-- The body on whole staging memrefs: the inputs at the contents given and the outputs at anything run to the
    continuation with the inputs as they were and each output at what its one store wrote. -/
theorem sound_kernel4 (c : Dev nD) (E : Set ℕ) (i : grid4.Coords)
    (arg1 : Memref sig .tc .vmem S5000x128 .f32) (harg1 : arg1.IsWhole)
    (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 4 on core c: the arrays as the region finds them; after the body each input's
    buffer at its block and each output's at what the body stored, a function of the input blocks; the untouched
    rest as the invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.K.Region5.lean ====
/-
  Region 5 of the program: one layer's combine, tiled over ten row blocks of 5000 rows. At each grid point the body
  reads the row blocks of the four propagated sums, the four bias rows, the two per-row coefficient columns, the
  residual block and its bias row, and stores c_in * (ic_m + b_mi + ic_s + b_si) + c_out * (oc_m + b_mo + oc_s + b_so)
  + residual + residual bias into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's staging buffer holds its block at every point, fetched there or not: a window fetched
    once only (a whole weight or bias array) has the same block index at every point. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body reads and writes: each a whole staging buffer. -/
abbrev r5_S5000x128 : Rect S5000x128 := Rect.unit (s := S5000x128) ![0, 0] S5000x128.size inb_S5000x128_S5000x128_0_0
abbrev r5_S1x128 : Rect S1x128 := Rect.unit (s := S1x128) ![0, 0] S1x128.size inb_S1x128_S1x128_0_0
abbrev r5_S5000x1 : Rect S5000x1 := Rect.unit (s := S5000x1) ![0, 0] S5000x1.size inb_S5000x1_S5000x1_0_0

/-- The output's staging buffer after the body: the one store of the combined block — the two propagated sums with their biases, each scaled by its per-row coefficient, plus the residual block and its bias. -/
def out5_12 (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) : Vec F S5000x128 .f32 :=
  View.canon [⟨r5_S5000x128, k5_pay1 (k5_pay2 (View.ld x0 r5_S5000x128) (View.ld x4 r5_S1x128) (View.ld x1 r5_S5000x128) (View.ld x5 r5_S1x128) (View.ld x2 r5_S5000x128) (View.ld x6 r5_S1x128) (View.ld x3 r5_S5000x128) (View.ld x7 r5_S1x128) (View.ld x8 r5_S5000x1) (View.ld x9 r5_S5000x1) (View.ld x10 r5_S5000x128)) (View.ld x11 r5_S1x128)⟩]

/-- The one store covers the whole buffer. -/
theorem cover5_12 (p0 : Vec F S5000x128 .f32) (y : S5000x128.Idx) :
    ∃ pc ∈ ([⟨r5_S5000x128, p0⟩] : List (View.Piece (Elt F) S5000x128 .f32)), y ∈ pc.1.set :=
  View.cover_of_tiled [⟨r5_S5000x128, p0⟩] S5000x128.size (by rfl) y

set_option maxHeartbeats 4000000 in
/-- The body on whole staging memrefs: the inputs at the contents given and the outputs at anything run to the
    continuation with the inputs as they were and each output at what its one store wrote. -/
theorem sound_kernel5 (c : Dev nD) (E : Set ℕ) (i : grid5.Coords)
    (arg1 : Memref sig .tc .vmem S5000x128 .f32) (harg1 : arg1.IsWhole)
    (arg2 : Memref sig .tc .vmem S5000x128 .f32) (harg2 : arg2.IsWhole)
    (arg3 : Memref sig .tc .vmem S5000x128 .f32) (harg3 : arg3.IsWhole)
    (arg4 : Memref sig .tc .vmem S5000x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x1 .f32) (harg9 : arg9.IsWhole)
    (arg10 : Memref sig .tc .vmem S5000x1 .f32) (harg10 : arg10.IsWhole)
    (arg11 : Memref sig .tc .vmem S5000x128 .f32) (harg11 : arg11.IsWhole)
    (arg12 : Memref sig .tc .vmem S1x128 .f32) (harg12 : arg12.IsWhole)
    (arg13 : Memref sig .tc .vmem S5000x128 .f32) (harg13 : arg13.IsWhole)
    (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare (out5_12 x0 x1 x2 x3 x4 x5 x6 x7 x8 x9 x10 x11)) -∗ K ⟨⟩))
      ⊢ wp frame (wpE (defs₀ (F := F)) Variants.none c none) E (cc5__combine_kernel i arg1 harg1 arg2 harg2 arg3 harg3 arg4 harg4 arg5 harg5 arg6 harg6 arg7 harg7 arg8 harg8 arg9 harg9 arg10 harg10 arg11 harg11 arg12 harg12 arg13 harg13) K := by
  simp only [cc5__combine_kernel_eq_skeleton]; unfold cc5__combine_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover5_12 _)

/-- The proof data of pipeline 5 on core c: the arrays as the region finds them; after the body each input's
    buffer at its block and each output's at what the body stored, a function of the input blocks; the untouched
    rest as the invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t = out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel5 c Set.univ _ _ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.K.Region6.lean ====
/-
  Region 6 of the program: the row normalisation, the decoder and the log-softmax, tiled over ten row blocks of 5000
  rows. At each grid point the body reads the point's 5000 × 128 block h, stores h divided row by row by
  max(sqrt(sum of squares of the row), eps) into the first output's block, then reads the whole decoder matrix and its
  bias row and stores the log-softmax of (normalised block times decoder + bias) into the second output's block.
  Stated at any entry contents V of the core's buffers and at any float instance: the windows' blocks, each input's
  staging buffer at its block at every point, what each of the two stores leaves, the body's triple, the pipeline's
  proof data and the per-point obligation of the launch.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's staging buffer holds its block at every point, fetched there or not: a window fetched
    once only (a whole weight or bias array) has the same block index at every point. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body reads and writes: each a whole staging buffer. -/
abbrev r6_S5000x128 : Rect S5000x128 := Rect.unit (s := S5000x128) ![0, 0] S5000x128.size inb_S5000x128_S5000x128_0_0
abbrev r6_S128x256 : Rect S128x256 := Rect.unit (s := S128x256) ![0, 0] S128x256.size inb_S128x256_S128x256_0_0
abbrev r6_S1x256 : Rect S1x256 := Rect.unit (s := S1x256) ![0, 0] S1x256.size inb_S1x256_S1x256_0_0
abbrev r6_S5000x256 : Rect S5000x256 := Rect.unit (s := S5000x256) ![0, 0] S5000x256.size inb_S5000x256_S5000x256_0_0

/-- The first output's staging buffer after the body: the one store of the row-normalised block. -/
def out6_3 (x0 : Vec F S5000x128 .f32) (x1 : Vec F S128x256 .f32) (x2 : Vec F S1x256 .f32) : Vec F S5000x128 .f32 :=
  View.canon [⟨r6_S5000x128, k6_pay1 (View.ld x0 r6_S5000x128)⟩]

/-- The one store covers the whole buffer. -/
theorem cover6_3 (p0 : Vec F S5000x128 .f32) (y : S5000x128.Idx) :
    ∃ pc ∈ ([⟨r6_S5000x128, p0⟩] : List (View.Piece (Elt F) S5000x128 .f32)), y ∈ pc.1.set :=
  View.cover_of_tiled [⟨r6_S5000x128, p0⟩] S5000x128.size (by rfl) y

/-- The second output's staging buffer after the body: the one store of the log-softmax of the decoded block. -/
def out6_4 (x0 : Vec F S5000x128 .f32) (x1 : Vec F S128x256 .f32) (x2 : Vec F S1x256 .f32) : Vec F S5000x256 .f32 :=
  View.canon [⟨r6_S5000x256, k6_pay2 (View.ld x0 r6_S5000x128) (View.ld x1 r6_S128x256) (View.ld x2 r6_S1x256)⟩]

/-- The one store covers the whole buffer. -/
theorem cover6_4 (p0 : Vec F S5000x256 .f32) (y : S5000x256.Idx) :
    ∃ pc ∈ ([⟨r6_S5000x256, p0⟩] : List (View.Piece (Elt F) S5000x256 .f32)), y ∈ pc.1.set :=
  View.cover_of_tiled [⟨r6_S5000x256, p0⟩] S5000x256.size (by rfl) y

set_option maxHeartbeats 4000000 in
/-- The body on whole staging memrefs: the inputs at the contents given and the outputs at anything run to the
    continuation with the inputs as they were and each output at what its one store wrote. -/
theorem sound_kernel6 (c : Dev nD) (E : Set ℕ) (i : grid6.Coords)
    (arg1 : Memref sig .tc .vmem S5000x128 .f32) (harg1 : arg1.IsWhole)
    (arg2 : Memref sig .tc .vmem S128x256 .f32) (harg2 : arg2.IsWhole)
    (arg3 : Memref sig .tc .vmem S1x256 .f32) (harg3 : arg3.IsWhole)
    (arg4 : Memref sig .tc .vmem S5000x128 .f32) (harg4 : arg4.IsWhole)
    (arg5 : Memref sig .tc .vmem S5000x256 .f32) (harg5 : arg5.IsWhole)
    (x0 : Vec F S5000x128 .f32) (x1 : Vec F S128x256 .f32) (x2 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (∃ d, owns (c : Thread nD τ) arg5 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (out6_3 x0 x1 x2)
            ∗ owns (c : Thread nD τ) arg5 fullShare (out6_4 x0 x1 x2)) -∗ K ⟨⟩))
      ⊢ wp frame (wpE (defs₀ (F := F)) Variants.none c none) E (cc6__final_kernel i arg1 harg1 arg2 harg2 arg3 harg3 arg4 harg4 arg5 harg5) K := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_3 _)
  iexists _; isplitr
  swap; · iexact H4
  ipureintro
  exact View.read_writes_eq_canon _ _ _ (cover6_4 _)

/-- The proof data of pipeline 6 on core c: the arrays as the region finds them; after the body each input's
    buffer at its block and each output's at what the body stored, a function of the input blocks; the untouched
    rest as the invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
    | ⟨4, _⟩ => out6_4 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]
theorem after6_4 (c : Dev nD) (t : Fin cfg6.N) : (dat6 V c).after 4 t = out6_4 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Hand

end
-- ==== Proof.K.Fold.lean ====
/-
  The contents of the core's buffers at every boundary of the program's 14 items (a stretch of host operations,
  then a kernel region, seven times), as a fold from the launch memory:
  * after a stretch, the stretch's operations applied to the contents before it;
  * after a region, the region's arrays at what its pipeline leaves (an input array as entered, an output array
    with every write-back folded in) and every other buffer as entered.
  No stretch writes an argument (each writes only the results it names), and a region changes only its output
  arrays, none of which is an argument: so every argument's buffer, read through the whole fold, is its launch
  contents. Last, the family of the seven pipelines' proof data, each at its region's entry contents.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import proofs.«106078_j59889023976011_1_alg».proof.Proof.K.Region0
import proofs.«106078_j59889023976011_1_alg».proof.Proof.K.Region1
import proofs.«106078_j59889023976011_1_alg».proof.Proof.K.Region2
import proofs.«106078_j59889023976011_1_alg».proof.Proof.K.Region3
import proofs.«106078_j59889023976011_1_alg».proof.Proof.K.Region4
import proofs.«106078_j59889023976011_1_alg».proof.Proof.K.Region5
import proofs.«106078_j59889023976011_1_alg».proof.Proof.K.Region6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)

/-! ## Item 0: the stretch hostOps0; item 1: region 0 -/

/-- No operation of the stretch allocates a buffer. -/
theorem hostOps0_fresh : (hostOps0 : List (HloOp τ sig (Elt F))).Forall fun op => op.fresh = ∅ := by
  simp only [List.Forall]; repeat' constructor
/-- A list holding every reference the stretch's operations write (and some they only read): no argument is in it. -/
abbrev hostOps0_Wl : List (Ref sig .tc) := [main_v0, main_v1, main_v2, main_v3, main_v4, main_v5, main_v6, main_v7, main_v8, main_v9, main_v10, main_v11, main_v12, main_v13]
theorem hostOps0_writes : (hostOps0 : List (HloOp τ sig (Elt F))).Forall fun op => op.writes ⊆ (hostOps0_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 0's entry). -/
abbrev W1 : Dev nD → Valuation τ sig (Elt F) := fun c => StableHlo.after hostOps0 (W0 m ρ c)
theorem W1_of (c : Dev nD) (r : Ref sig .tc) (h : r ∉ hostOps0_Wl) : W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ## Item 2: the stretch hostOps1; item 3: region 1 -/

/-- No operation of the stretch allocates a buffer. -/
theorem hostOps1_fresh : (hostOps1 : List (HloOp τ sig (Elt F))).Forall fun op => op.fresh = ∅ := by
  simp only [List.Forall]; repeat' constructor
/-- A list holding every reference the stretch's operations write (and some they only read): no argument is in it. -/
abbrev hostOps1_Wl : List (Ref sig .tc) := [main_v14, main_v15, main_v16, main_v17, main_v18, main_v19, main_c, main_v20, main_v6, main_v21, main_c_0, main_v22, main_v23, main_v24, main_v25, main_v26, main_v27, main_v28, main_cst, main_v29, main_v8, main_v30, main_v31, main_v32, main_c_1, main_v33, main_v34, main_c_2, main_v35, main_v36, main_v37, main_v38, main_v39, main_v40, main_v41, main_cst_3, main_v42, main_v43, main_v44, main_v45, main_c_4, main_v46, main_v10, main_v47, main_c_5, main_v48, main_v49, main_v50, main_v51, main_v52, main_v53, main_v54, main_cst_6, main_v55, main_v12, main_v56, main_v57, main_v58, main_c_7, main_v59, main_v60, main_c_8, main_v61, main_v62, main_v63, main_v64, main_v65, main_v66, main_v67, main_cst_9, main_v68, main_v69, main_v70, main_v71, main_v72, main_v73, main_v74, main_v75]
theorem hostOps1_writes : (hostOps1 : List (HloOp τ sig (Elt F))).Forall fun op => op.writes ⊆ (hostOps1_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 1's entry). -/
abbrev W3 : Dev nD → Valuation τ sig (Elt F) := fun c => StableHlo.after hostOps1 (W2 m ρ c)
theorem W3_of (c : Dev nD) (r : Ref sig .tc) (h : r ∉ hostOps1_Wl) : W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Item 4: the stretch hostOps2; item 5: region 2 -/

/-- No operation of the stretch allocates a buffer. -/
theorem hostOps2_fresh : (hostOps2 : List (HloOp τ sig (Elt F))).Forall fun op => op.fresh = ∅ := by
  simp only [List.Forall]; repeat' constructor
/-- A list holding every reference the stretch's operations write (and some they only read): no argument is in it. -/
abbrev hostOps2_Wl : List (Ref sig .tc) := [main_v77]
theorem hostOps2_writes : (hostOps2 : List (HloOp τ sig (Elt F))).Forall fun op => op.writes ⊆ (hostOps2_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 2's entry). -/
abbrev W5 : Dev nD → Valuation τ sig (Elt F) := fun c => StableHlo.after hostOps2 (W4 m ρ c)
theorem W5_of (c : Dev nD) (r : Ref sig .tc) (h : r ∉ hostOps2_Wl) : W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## Item 6: the stretch hostOps3; item 7: region 3 -/

/-- No operation of the stretch allocates a buffer. -/
theorem hostOps3_fresh : (hostOps3 : List (HloOp τ sig (Elt F))).Forall fun op => op.fresh = ∅ := by
  simp only [List.Forall]; repeat' constructor
/-- A list holding every reference the stretch's operations write (and some they only read): no argument is in it. -/
abbrev hostOps3_Wl : List (Ref sig .tc) := [main_v78, main_v79, main_v80, main_v81, main_v82, main_c_10, main_v83, main_v6, main_v84, main_c_11, main_v85, main_v86, main_v87, main_v88, main_v89, main_v90, main_v91, main_cst_12, main_v92, main_v8, main_v93, main_v94, main_v95, main_c_13, main_v96, main_v97, main_c_14, main_v98, main_v99, main_v100, main_v101, main_v102, main_v103, main_v104, main_cst_15, main_v105, main_v106, main_v107, main_v108, main_c_16, main_v109, main_v10, main_v110, main_c_17, main_v111, main_v112, main_v113, main_v114, main_v115, main_v116, main_v117, main_cst_18, main_v118, main_v12, main_v119, main_v120, main_v121, main_c_19, main_v122, main_v123, main_c_20, main_v124, main_v125, main_v126, main_v127, main_v128, main_v129, main_v130, main_cst_21, main_v131, main_v132, main_v133, main_cst_22, main_v134, main_v135, main_v136, main_v137, main_v138, main_v139]
theorem hostOps3_writes : (hostOps3 : List (HloOp τ sig (Elt F))).Forall fun op => op.writes ⊆ (hostOps3_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 3's entry). -/
abbrev W7 : Dev nD → Valuation τ sig (Elt F) := fun c => StableHlo.after hostOps3 (W6 m ρ c)
theorem W7_of (c : Dev nD) (r : Ref sig .tc) (h : r ∉ hostOps3_Wl) : W7 m ρ c (Proc.devRef .tc r) = W6 m ρ c (Proc.devRef .tc r) :=
  StableHlo.after_of_writes_sub hostOps3 _ hostOps3_writes h
/-- The same read at the TensorCore's references (what region 3's proof data take). -/
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## Item 8: the stretch hostOps4; item 9: region 4 -/

/-- No operation of the stretch allocates a buffer. -/
theorem hostOps4_fresh : (hostOps4 : List (HloOp τ sig (Elt F))).Forall fun op => op.fresh = ∅ := by
  simp only [List.Forall]; repeat' constructor
/-- A list holding every reference the stretch's operations write (and some they only read): no argument is in it. -/
abbrev hostOps4_Wl : List (Ref sig .tc) := [main_v141]
theorem hostOps4_writes : (hostOps4 : List (HloOp τ sig (Elt F))).Forall fun op => op.writes ⊆ (hostOps4_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 4's entry). -/
abbrev W9 : Dev nD → Valuation τ sig (Elt F) := fun c => StableHlo.after hostOps4 (W8 m ρ c)
theorem W9_of (c : Dev nD) (r : Ref sig .tc) (h : r ∉ hostOps4_Wl) : W9 m ρ c (Proc.devRef .tc r) = W8 m ρ c (Proc.devRef .tc r) :=
  StableHlo.after_of_writes_sub hostOps4 _ hostOps4_writes h
/-- The same read at the TensorCore's references (what region 4's proof data take). -/
abbrev V9 : (c : Dev nD) → (b : Ref sig .tc) → Buf (Elt F) ((c : Thread nD τ).loc b) := fun c b => W9 m ρ c b
/-- At region 4's exit. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## Item 10: the stretch hostOps5; item 11: region 5 -/

/-- No operation of the stretch allocates a buffer. -/
theorem hostOps5_fresh : (hostOps5 : List (HloOp τ sig (Elt F))).Forall fun op => op.fresh = ∅ := by
  simp only [List.Forall]; repeat' constructor
/-- A list holding every reference the stretch's operations write (and some they only read): no argument is in it. -/
abbrev hostOps5_Wl : List (Ref sig .tc) := [main_v142, main_v143, main_v144, main_v145, main_v146, main_c_23, main_v147, main_v6, main_v148, main_c_24, main_v149, main_v150, main_v151, main_v152, main_v153, main_v154, main_v155, main_cst_25, main_v156, main_v8, main_v157, main_v158, main_v159, main_c_26, main_v160, main_v161, main_c_27, main_v162, main_v163, main_v164, main_v165, main_v166, main_v167, main_v168, main_cst_28, main_v169, main_v170, main_v171, main_v172, main_c_29, main_v173, main_v10, main_v174, main_c_30, main_v175, main_v176, main_v177, main_v178, main_v179, main_v180, main_v181, main_cst_31, main_v182, main_v12, main_v183, main_v184, main_v185, main_c_32, main_v186, main_v187, main_c_33, main_v188, main_v189, main_v190, main_v191, main_v192, main_v193, main_v194, main_cst_34, main_v195, main_v196, main_v197, main_cst_35, main_v198, main_v199, main_v200, main_v201, main_v202, main_v203]
theorem hostOps5_writes : (hostOps5 : List (HloOp τ sig (Elt F))).Forall fun op => op.writes ⊆ (hostOps5_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 5's entry). -/
abbrev W11 : Dev nD → Valuation τ sig (Elt F) := fun c => StableHlo.after hostOps5 (W10 m ρ c)
theorem W11_of (c : Dev nD) (r : Ref sig .tc) (h : r ∉ hostOps5_Wl) : W11 m ρ c (Proc.devRef .tc r) = W10 m ρ c (Proc.devRef .tc r) :=
  StableHlo.after_of_writes_sub hostOps5 _ hostOps5_writes h
/-- The same read at the TensorCore's references (what region 5's proof data take). -/
abbrev V11 : (c : Dev nD) → (b : Ref sig .tc) → Buf (Elt F) ((c : Thread nD τ).loc b) := fun c b => W11 m ρ c b
/-- At region 5's exit. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-! ## Item 12: the stretch hostOps6; item 13: region 6 -/

/-- No operation of the stretch allocates a buffer. -/
theorem hostOps6_fresh : (hostOps6 : List (HloOp τ sig (Elt F))).Forall fun op => op.fresh = ∅ := by
  simp only [List.Forall]; repeat' constructor
/-- A list holding every reference the stretch's operations write (and some they only read): no argument is in it. -/
abbrev hostOps6_Wl : List (Ref sig .tc) := [main_v205]
theorem hostOps6_writes : (hostOps6 : List (HloOp τ sig (Elt F))).Forall fun op => op.writes ⊆ (hostOps6_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 6's entry). -/
abbrev W13 : Dev nD → Valuation τ sig (Elt F) := fun c => StableHlo.after hostOps6 (W12 m ρ c)
theorem W13_of (c : Dev nD) (r : Ref sig .tc) (h : r ∉ hostOps6_Wl) : W13 m ρ c (Proc.devRef .tc r) = W12 m ρ c (Proc.devRef .tc r) :=
  StableHlo.after_of_writes_sub hostOps6 _ hostOps6_writes h
/-- The same read at the TensorCore's references (what region 6's proof data take). -/
abbrev V13 : (c : Dev nD) → (b : Ref sig .tc) → Buf (Elt F) ((c : Thread nD τ).loc b) := fun c b => W13 m ρ c b
/-- At region 6's exit. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-! ## Every argument ends as launched -/
theorem W14_main_arg0 (c : Dev nD) : W14 m ρ c (Proc.devRef .tc main_arg0) = m ((c : Thread nD τ).loc main_arg0) :=
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <| rfl
theorem W14_main_arg1 (c : Dev nD) : W14 m ρ c (Proc.devRef .tc main_arg1) = m ((c : Thread nD τ).loc main_arg1) :=
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <| rfl
theorem W14_main_arg2 (c : Dev nD) : W14 m ρ c (Proc.devRef .tc main_arg2) = m ((c : Thread nD τ).loc main_arg2) :=
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl
theorem W14_main_arg3 (c : Dev nD) : W14 m ρ c (Proc.devRef .tc main_arg3) = m ((c : Thread nD τ).loc main_arg3) :=
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <| rfl
theorem W14_main_arg4 (c : Dev nD) : W14 m ρ c (Proc.devRef .tc main_arg4) = m ((c : Thread nD τ).loc main_arg4) :=
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl
theorem W14_main_arg5 (c : Dev nD) : W14 m ρ c (Proc.devRef .tc main_arg5) = m ((c : Thread nD τ).loc main_arg5) :=
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <| rfl
theorem W14_main_arg6 (c : Dev nD) : W14 m ρ c (Proc.devRef .tc main_arg6) = m ((c : Thread nD τ).loc main_arg6) :=
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <| rfl
theorem W14_main_arg7 (c : Dev nD) : W14 m ρ c (Proc.devRef .tc main_arg7) = m ((c : Thread nD τ).loc main_arg7) :=
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <| rfl
theorem W14_main_arg8 (c : Dev nD) : W14 m ρ c (Proc.devRef .tc main_arg8) = m ((c : Thread nD τ).loc main_arg8) :=
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <| rfl
theorem W14_main_arg9 (c : Dev nD) : W14 m ρ c (Proc.devRef .tc main_arg9) = m ((c : Thread nD τ).loc main_arg9) :=
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans <| rfl
theorem W14_main_arg10 (c : Dev nD) : W14 m ρ c (Proc.devRef .tc main_arg10) = m ((c : Thread nD τ).loc main_arg10) :=
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans <| rfl
theorem W14_main_arg11 (c : Dev nD) : W14 m ρ c (Proc.devRef .tc main_arg11) = m ((c : Thread nD τ).loc main_arg11) :=
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans <| rfl
theorem W14_main_arg12 (c : Dev nD) : W14 m ρ c (Proc.devRef .tc main_arg12) = m ((c : Thread nD τ).loc main_arg12) :=
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans <| rfl
theorem W14_main_arg13 (c : Dev nD) : W14 m ρ c (Proc.devRef .tc main_arg13) = m ((c : Thread nD τ).loc main_arg13) :=
  (W14_of_ne m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  ((W4_arr m ρ c 8).trans (((dat1 (V3 m ρ) c).arrAt_in 8 rfl _).trans (A_eq1 (V3 m ρ) c 8))).trans <|
  (W3_of m ρ c main_arg13 (by decide)).trans <|
  (W2_of_ne m ρ c main_arg13 (by decide)).trans <|
  (W1_of m ρ c main_arg13 (by decide)).trans <| rfl
theorem W14_main_arg14 (c : Dev nD) : W14 m ρ c (Proc.devRef .tc main_arg14) = m ((c : Thread nD τ).loc main_arg14) :=
  (W14_of_ne m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of_ne m ρ c main_arg14 (by decide)).trans <|
  (W7_of m ρ c main_arg14 (by decide)).trans <|
  (W6_of_ne m ρ c main_arg14 (by decide)).trans <|
  (W5_of m ρ c main_arg14 (by decide)).trans <|
  ((W4_arr m ρ c 9).trans (((dat1 (V3 m ρ) c).arrAt_in 9 rfl _).trans (A_eq1 (V3 m ρ) c 9))).trans <|
  (W3_of m ρ c main_arg14 (by decide)).trans <|
  (W2_of_ne m ρ c main_arg14 (by decide)).trans <|
  (W1_of m ρ c main_arg14 (by decide)).trans <| rfl
theorem W14_main_arg15 (c : Dev nD) : W14 m ρ c (Proc.devRef .tc main_arg15) = m ((c : Thread nD τ).loc main_arg15) :=
  (W14_of_ne m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of_ne m ρ c main_arg15 (by decide)).trans <|
  (W3_of m ρ c main_arg15 (by decide)).trans <|
  (W2_of_ne m ρ c main_arg15 (by decide)).trans <|
  (W1_of m ρ c main_arg15 (by decide)).trans <| rfl
theorem W14_main_arg16 (c : Dev nD) : W14 m ρ c (Proc.devRef .tc main_arg16) = m ((c : Thread nD τ).loc main_arg16) :=
  (W14_of_ne m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of_ne m ρ c main_arg16 (by decide)).trans <|
  (W3_of m ρ c main_arg16 (by decide)).trans <|
  (W2_of_ne m ρ c main_arg16 (by decide)).trans <|
  (W1_of m ρ c main_arg16 (by decide)).trans <| rfl
theorem W14_main_arg17 (c : Dev nD) : W14 m ρ c (Proc.devRef .tc main_arg17) = m ((c : Thread nD τ).loc main_arg17) :=
  (W14_of_ne m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of_ne m ρ c main_arg17 (by decide)).trans <|
  (W7_of m ρ c main_arg17 (by decide)).trans <|
  (W6_of_ne m ρ c main_arg17 (by decide)).trans <|
  (W5_of m ρ c main_arg17 (by decide)).trans <|
  (W4_of_ne m ρ c main_arg17 (by decide)).trans <|
  (W3_of m ρ c main_arg17 (by decide)).trans <|
  (W2_of_ne m ρ c main_arg17 (by decide)).trans <|
  (W1_of m ρ c main_arg17 (by decide)).trans <| rfl
theorem W14_main_arg18 (c : Dev nD) : W14 m ρ c (Proc.devRef .tc main_arg18) = m ((c : Thread nD τ).loc main_arg18) :=
  (W14_of_ne m ρ c main_arg18 (by decide)).trans <|
  (W13_of m ρ c main_arg18 (by decide)).trans <|
  (W12_of_ne m ρ c main_arg18 (by decide)).trans <|
  (W11_of m ρ c main_arg18 (by decide)).trans <|
  (W10_of_ne m ρ c main_arg18 (by decide)).trans <|
  (W9_of m ρ c main_arg18 (by decide)).trans <|
  (W8_of_ne m ρ c main_arg18 (by decide)).trans <|
  (W7_of m ρ c main_arg18 (by decide)).trans <|
  (W6_of_ne m ρ c main_arg18 (by decide)).trans <|
  (W5_of m ρ c main_arg18 (by decide)).trans <|
  (W4_of_ne m ρ c main_arg18 (by decide)).trans <|
  (W3_of m ρ c main_arg18 (by decide)).trans <|
  (W2_of_ne m ρ c main_arg18 (by decide)).trans <|
  (W1_of m ρ c main_arg18 (by decide)).trans <| rfl
theorem W14_main_arg19 (c : Dev nD) : W14 m ρ c (Proc.devRef .tc main_arg19) = m ((c : Thread nD τ).loc main_arg19) :=
  (W14_of_ne m ρ c main_arg19 (by decide)).trans <|
  (W13_of m ρ c main_arg19 (by decide)).trans <|
  (W12_of_ne m ρ c main_arg19 (by decide)).trans <|
  (W11_of m ρ c main_arg19 (by decide)).trans <|
  (W10_of_ne m ρ c main_arg19 (by decide)).trans <|
  (W9_of m ρ c main_arg19 (by decide)).trans <|
  (W8_of_ne m ρ c main_arg19 (by decide)).trans <|
  (W7_of m ρ c main_arg19 (by decide)).trans <|
  (W6_of_ne m ρ c main_arg19 (by decide)).trans <|
  (W5_of m ρ c main_arg19 (by decide)).trans <|
  (W4_of_ne m ρ c main_arg19 (by decide)).trans <|
  (W3_of m ρ c main_arg19 (by decide)).trans <|
  (W2_of_ne m ρ c main_arg19 (by decide)).trans <|
  (W1_of m ρ c main_arg19 (by decide)).trans <| rfl
theorem W14_main_arg20 (c : Dev nD) : W14 m ρ c (Proc.devRef .tc main_arg20) = m ((c : Thread nD τ).loc main_arg20) :=
  (W14_of_ne m ρ c main_arg20 (by decide)).trans <|
  (W13_of m ρ c main_arg20 (by decide)).trans <|
  (W12_of_ne m ρ c main_arg20 (by decide)).trans <|
  (W11_of m ρ c main_arg20 (by decide)).trans <|
  (W10_of_ne m ρ c main_arg20 (by decide)).trans <|
  (W9_of m ρ c main_arg20 (by decide)).trans <|
  (W8_of_ne m ρ c main_arg20 (by decide)).trans <|
  (W7_of m ρ c main_arg20 (by decide)).trans <|
  (W6_of_ne m ρ c main_arg20 (by decide)).trans <|
  (W5_of m ρ c main_arg20 (by decide)).trans <|
  (W4_of_ne m ρ c main_arg20 (by decide)).trans <|
  (W3_of m ρ c main_arg20 (by decide)).trans <|
  (W2_of_ne m ρ c main_arg20 (by decide)).trans <|
  (W1_of m ρ c main_arg20 (by decide)).trans <| rfl
theorem W14_main_arg21 (c : Dev nD) : W14 m ρ c (Proc.devRef .tc main_arg21) = m ((c : Thread nD τ).loc main_arg21) :=
  (W14_of_ne m ρ c main_arg21 (by decide)).trans <|
  (W13_of m ρ c main_arg21 (by decide)).trans <|
  (W12_of_ne m ρ c main_arg21 (by decide)).trans <|
  (W11_of m ρ c main_arg21 (by decide)).trans <|
  (W10_of_ne m ρ c main_arg21 (by decide)).trans <|
  (W9_of m ρ c main_arg21 (by decide)).trans <|
  (W8_of_ne m ρ c main_arg21 (by decide)).trans <|
  (W7_of m ρ c main_arg21 (by decide)).trans <|
  (W6_of_ne m ρ c main_arg21 (by decide)).trans <|
  (W5_of m ρ c main_arg21 (by decide)).trans <|
  (W4_of_ne m ρ c main_arg21 (by decide)).trans <|
  (W3_of m ρ c main_arg21 (by decide)).trans <|
  (W2_of_ne m ρ c main_arg21 (by decide)).trans <|
  (W1_of m ρ c main_arg21 (by decide)).trans <| rfl
theorem W14_main_arg22 (c : Dev nD) : W14 m ρ c (Proc.devRef .tc main_arg22) = m ((c : Thread nD τ).loc main_arg22) :=
  (W14_of_ne m ρ c main_arg22 (by decide)).trans <|
  (W13_of m ρ c main_arg22 (by decide)).trans <|
  (W12_of_ne m ρ c main_arg22 (by decide)).trans <|
  (W11_of m ρ c main_arg22 (by decide)).trans <|
  (W10_of_ne m ρ c main_arg22 (by decide)).trans <|
  (W9_of m ρ c main_arg22 (by decide)).trans <|
  ((W8_arr m ρ c 8).trans (((dat3 (V7 m ρ) c).arrAt_in 8 rfl _).trans (A_eq3 (V7 m ρ) c 8))).trans <|
  (W7_of m ρ c main_arg22 (by decide)).trans <|
  (W6_of_ne m ρ c main_arg22 (by decide)).trans <|
  (W5_of m ρ c main_arg22 (by decide)).trans <|
  (W4_of_ne m ρ c main_arg22 (by decide)).trans <|
  (W3_of m ρ c main_arg22 (by decide)).trans <|
  (W2_of_ne m ρ c main_arg22 (by decide)).trans <|
  (W1_of m ρ c main_arg22 (by decide)).trans <| rfl
theorem W14_main_arg23 (c : Dev nD) : W14 m ρ c (Proc.devRef .tc main_arg23) = m ((c : Thread nD τ).loc main_arg23) :=
  (W14_of_ne m ρ c main_arg23 (by decide)).trans <|
  (W13_of m ρ c main_arg23 (by decide)).trans <|
  (W12_of_ne m ρ c main_arg23 (by decide)).trans <|
  (W11_of m ρ c main_arg23 (by decide)).trans <|
  (W10_of_ne m ρ c main_arg23 (by decide)).trans <|
  (W9_of m ρ c main_arg23 (by decide)).trans <|
  ((W8_arr m ρ c 9).trans (((dat3 (V7 m ρ) c).arrAt_in 9 rfl _).trans (A_eq3 (V7 m ρ) c 9))).trans <|
  (W7_of m ρ c main_arg23 (by decide)).trans <|
  (W6_of_ne m ρ c main_arg23 (by decide)).trans <|
  (W5_of m ρ c main_arg23 (by decide)).trans <|
  (W4_of_ne m ρ c main_arg23 (by decide)).trans <|
  (W3_of m ρ c main_arg23 (by decide)).trans <|
  (W2_of_ne m ρ c main_arg23 (by decide)).trans <|
  (W1_of m ρ c main_arg23 (by decide)).trans <| rfl
theorem W14_main_arg24 (c : Dev nD) : W14 m ρ c (Proc.devRef .tc main_arg24) = m ((c : Thread nD τ).loc main_arg24) :=
  (W14_of_ne m ρ c main_arg24 (by decide)).trans <|
  (W13_of m ρ c main_arg24 (by decide)).trans <|
  (W12_of_ne m ρ c main_arg24 (by decide)).trans <|
  (W11_of m ρ c main_arg24 (by decide)).trans <|
  (W10_of_ne m ρ c main_arg24 (by decide)).trans <|
  (W9_of m ρ c main_arg24 (by decide)).trans <|
  (W8_of_ne m ρ c main_arg24 (by decide)).trans <|
  (W7_of m ρ c main_arg24 (by decide)).trans <|
  (W6_of_ne m ρ c main_arg24 (by decide)).trans <|
  (W5_of m ρ c main_arg24 (by decide)).trans <|
  (W4_of_ne m ρ c main_arg24 (by decide)).trans <|
  (W3_of m ρ c main_arg24 (by decide)).trans <|
  (W2_of_ne m ρ c main_arg24 (by decide)).trans <|
  (W1_of m ρ c main_arg24 (by decide)).trans <| rfl
theorem W14_main_arg25 (c : Dev nD) : W14 m ρ c (Proc.devRef .tc main_arg25) = m ((c : Thread nD τ).loc main_arg25) :=
  (W14_of_ne m ρ c main_arg25 (by decide)).trans <|
  (W13_of m ρ c main_arg25 (by decide)).trans <|
  (W12_of_ne m ρ c main_arg25 (by decide)).trans <|
  (W11_of m ρ c main_arg25 (by decide)).trans <|
  (W10_of_ne m ρ c main_arg25 (by decide)).trans <|
  (W9_of m ρ c main_arg25 (by decide)).trans <|
  (W8_of_ne m ρ c main_arg25 (by decide)).trans <|
  (W7_of m ρ c main_arg25 (by decide)).trans <|
  (W6_of_ne m ρ c main_arg25 (by decide)).trans <|
  (W5_of m ρ c main_arg25 (by decide)).trans <|
  (W4_of_ne m ρ c main_arg25 (by decide)).trans <|
  (W3_of m ρ c main_arg25 (by decide)).trans <|
  (W2_of_ne m ρ c main_arg25 (by decide)).trans <|
  (W1_of m ρ c main_arg25 (by decide)).trans <| rfl
theorem W14_main_arg26 (c : Dev nD) : W14 m ρ c (Proc.devRef .tc main_arg26) = m ((c : Thread nD τ).loc main_arg26) :=
  (W14_of_ne m ρ c main_arg26 (by decide)).trans <|
  (W13_of m ρ c main_arg26 (by decide)).trans <|
  (W12_of_ne m ρ c main_arg26 (by decide)).trans <|
  (W11_of m ρ c main_arg26 (by decide)).trans <|
  (W10_of_ne m ρ c main_arg26 (by decide)).trans <|
  (W9_of m ρ c main_arg26 (by decide)).trans <|
  (W8_of_ne m ρ c main_arg26 (by decide)).trans <|
  (W7_of m ρ c main_arg26 (by decide)).trans <|
  (W6_of_ne m ρ c main_arg26 (by decide)).trans <|
  (W5_of m ρ c main_arg26 (by decide)).trans <|
  (W4_of_ne m ρ c main_arg26 (by decide)).trans <|
  (W3_of m ρ c main_arg26 (by decide)).trans <|
  (W2_of_ne m ρ c main_arg26 (by decide)).trans <|
  (W1_of m ρ c main_arg26 (by decide)).trans <| rfl
theorem W14_main_arg27 (c : Dev nD) : W14 m ρ c (Proc.devRef .tc main_arg27) = m ((c : Thread nD τ).loc main_arg27) :=
  (W14_of_ne m ρ c main_arg27 (by decide)).trans <|
  (W13_of m ρ c main_arg27 (by decide)).trans <|
  (W12_of_ne m ρ c main_arg27 (by decide)).trans <|
  (W11_of m ρ c main_arg27 (by decide)).trans <|
  (W10_of_ne m ρ c main_arg27 (by decide)).trans <|
  (W9_of m ρ c main_arg27 (by decide)).trans <|
  (W8_of_ne m ρ c main_arg27 (by decide)).trans <|
  (W7_of m ρ c main_arg27 (by decide)).trans <|
  (W6_of_ne m ρ c main_arg27 (by decide)).trans <|
  (W5_of m ρ c main_arg27 (by decide)).trans <|
  (W4_of_ne m ρ c main_arg27 (by decide)).trans <|
  (W3_of m ρ c main_arg27 (by decide)).trans <|
  (W2_of_ne m ρ c main_arg27 (by decide)).trans <|
  (W1_of m ρ c main_arg27 (by decide)).trans <| rfl
theorem W14_main_arg28 (c : Dev nD) : W14 m ρ c (Proc.devRef .tc main_arg28) = m ((c : Thread nD τ).loc main_arg28) :=
  (W14_of_ne m ρ c main_arg28 (by decide)).trans <|
  (W13_of m ρ c main_arg28 (by decide)).trans <|
  (W12_of_ne m ρ c main_arg28 (by decide)).trans <|
  (W11_of m ρ c main_arg28 (by decide)).trans <|
  (W10_of_ne m ρ c main_arg28 (by decide)).trans <|
  (W9_of m ρ c main_arg28 (by decide)).trans <|
  (W8_of_ne m ρ c main_arg28 (by decide)).trans <|
  (W7_of m ρ c main_arg28 (by decide)).trans <|
  (W6_of_ne m ρ c main_arg28 (by decide)).trans <|
  (W5_of m ρ c main_arg28 (by decide)).trans <|
  (W4_of_ne m ρ c main_arg28 (by decide)).trans <|
  (W3_of m ρ c main_arg28 (by decide)).trans <|
  (W2_of_ne m ρ c main_arg28 (by decide)).trans <|
  (W1_of m ρ c main_arg28 (by decide)).trans <| rfl
theorem W14_main_arg29 (c : Dev nD) : W14 m ρ c (Proc.devRef .tc main_arg29) = m ((c : Thread nD τ).loc main_arg29) :=
  (W14_of_ne m ρ c main_arg29 (by decide)).trans <|
  (W13_of m ρ c main_arg29 (by decide)).trans <|
  (W12_of_ne m ρ c main_arg29 (by decide)).trans <|
  (W11_of m ρ c main_arg29 (by decide)).trans <|
  (W10_of_ne m ρ c main_arg29 (by decide)).trans <|
  (W9_of m ρ c main_arg29 (by decide)).trans <|
  (W8_of_ne m ρ c main_arg29 (by decide)).trans <|
  (W7_of m ρ c main_arg29 (by decide)).trans <|
  (W6_of_ne m ρ c main_arg29 (by decide)).trans <|
  (W5_of m ρ c main_arg29 (by decide)).trans <|
  (W4_of_ne m ρ c main_arg29 (by decide)).trans <|
  (W3_of m ρ c main_arg29 (by decide)).trans <|
  (W2_of_ne m ρ c main_arg29 (by decide)).trans <|
  (W1_of m ρ c main_arg29 (by decide)).trans <| rfl
theorem W14_main_arg30 (c : Dev nD) : W14 m ρ c (Proc.devRef .tc main_arg30) = m ((c : Thread nD τ).loc main_arg30) :=
  (W14_of_ne m ρ c main_arg30 (by decide)).trans <|
  (W13_of m ρ c main_arg30 (by decide)).trans <|
  (W12_of_ne m ρ c main_arg30 (by decide)).trans <|
  (W11_of m ρ c main_arg30 (by decide)).trans <|
  (W10_of_ne m ρ c main_arg30 (by decide)).trans <|
  (W9_of m ρ c main_arg30 (by decide)).trans <|
  (W8_of_ne m ρ c main_arg30 (by decide)).trans <|
  (W7_of m ρ c main_arg30 (by decide)).trans <|
  (W6_of_ne m ρ c main_arg30 (by decide)).trans <|
  (W5_of m ρ c main_arg30 (by decide)).trans <|
  (W4_of_ne m ρ c main_arg30 (by decide)).trans <|
  (W3_of m ρ c main_arg30 (by decide)).trans <|
  (W2_of_ne m ρ c main_arg30 (by decide)).trans <|
  (W1_of m ρ c main_arg30 (by decide)).trans <| rfl
theorem W14_main_arg31 (c : Dev nD) : W14 m ρ c (Proc.devRef .tc main_arg31) = m ((c : Thread nD τ).loc main_arg31) :=
  (W14_of_ne m ρ c main_arg31 (by decide)).trans <|
  (W13_of m ρ c main_arg31 (by decide)).trans <|
  ((W12_arr m ρ c 8).trans (((dat5 (V11 m ρ) c).arrAt_in 8 rfl _).trans (A_eq5 (V11 m ρ) c 8))).trans <|
  (W11_of m ρ c main_arg31 (by decide)).trans <|
  (W10_of_ne m ρ c main_arg31 (by decide)).trans <|
  (W9_of m ρ c main_arg31 (by decide)).trans <|
  (W8_of_ne m ρ c main_arg31 (by decide)).trans <|
  (W7_of m ρ c main_arg31 (by decide)).trans <|
  (W6_of_ne m ρ c main_arg31 (by decide)).trans <|
  (W5_of m ρ c main_arg31 (by decide)).trans <|
  (W4_of_ne m ρ c main_arg31 (by decide)).trans <|
  (W3_of m ρ c main_arg31 (by decide)).trans <|
  (W2_of_ne m ρ c main_arg31 (by decide)).trans <|
  (W1_of m ρ c main_arg31 (by decide)).trans <| rfl
theorem W14_main_arg32 (c : Dev nD) : W14 m ρ c (Proc.devRef .tc main_arg32) = m ((c : Thread nD τ).loc main_arg32) :=
  (W14_of_ne m ρ c main_arg32 (by decide)).trans <|
  (W13_of m ρ c main_arg32 (by decide)).trans <|
  ((W12_arr m ρ c 9).trans (((dat5 (V11 m ρ) c).arrAt_in 9 rfl _).trans (A_eq5 (V11 m ρ) c 9))).trans <|
  (W11_of m ρ c main_arg32 (by decide)).trans <|
  (W10_of_ne m ρ c main_arg32 (by decide)).trans <|
  (W9_of m ρ c main_arg32 (by decide)).trans <|
  (W8_of_ne m ρ c main_arg32 (by decide)).trans <|
  (W7_of m ρ c main_arg32 (by decide)).trans <|
  (W6_of_ne m ρ c main_arg32 (by decide)).trans <|
  (W5_of m ρ c main_arg32 (by decide)).trans <|
  (W4_of_ne m ρ c main_arg32 (by decide)).trans <|
  (W3_of m ρ c main_arg32 (by decide)).trans <|
  (W2_of_ne m ρ c main_arg32 (by decide)).trans <|
  (W1_of m ρ c main_arg32 (by decide)).trans <| rfl
theorem W14_main_arg33 (c : Dev nD) : W14 m ρ c (Proc.devRef .tc main_arg33) = m ((c : Thread nD τ).loc main_arg33) :=
  (W14_of_ne m ρ c main_arg33 (by decide)).trans <|
  (W13_of m ρ c main_arg33 (by decide)).trans <|
  (W12_of_ne m ρ c main_arg33 (by decide)).trans <|
  (W11_of m ρ c main_arg33 (by decide)).trans <|
  (W10_of_ne m ρ c main_arg33 (by decide)).trans <|
  (W9_of m ρ c main_arg33 (by decide)).trans <|
  (W8_of_ne m ρ c main_arg33 (by decide)).trans <|
  (W7_of m ρ c main_arg33 (by decide)).trans <|
  (W6_of_ne m ρ c main_arg33 (by decide)).trans <|
  (W5_of m ρ c main_arg33 (by decide)).trans <|
  (W4_of_ne m ρ c main_arg33 (by decide)).trans <|
  (W3_of m ρ c main_arg33 (by decide)).trans <|
  (W2_of_ne m ρ c main_arg33 (by decide)).trans <|
  (W1_of m ρ c main_arg33 (by decide)).trans <| rfl
theorem W14_main_arg34 (c : Dev nD) : W14 m ρ c (Proc.devRef .tc main_arg34) = m ((c : Thread nD τ).loc main_arg34) :=
  (W14_of_ne m ρ c main_arg34 (by decide)).trans <|
  (W13_of m ρ c main_arg34 (by decide)).trans <|
  (W12_of_ne m ρ c main_arg34 (by decide)).trans <|
  (W11_of m ρ c main_arg34 (by decide)).trans <|
  (W10_of_ne m ρ c main_arg34 (by decide)).trans <|
  (W9_of m ρ c main_arg34 (by decide)).trans <|
  (W8_of_ne m ρ c main_arg34 (by decide)).trans <|
  (W7_of m ρ c main_arg34 (by decide)).trans <|
  (W6_of_ne m ρ c main_arg34 (by decide)).trans <|
  (W5_of m ρ c main_arg34 (by decide)).trans <|
  (W4_of_ne m ρ c main_arg34 (by decide)).trans <|
  (W3_of m ρ c main_arg34 (by decide)).trans <|
  (W2_of_ne m ρ c main_arg34 (by decide)).trans <|
  (W1_of m ρ c main_arg34 (by decide)).trans <| rfl
theorem W14_main_arg35 (c : Dev nD) : W14 m ρ c (Proc.devRef .tc main_arg35) = m ((c : Thread nD τ).loc main_arg35) :=
  ((W14_arr m ρ c 1).trans (((dat6 (V13 m ρ) c).arrAt_in 1 rfl _).trans (A_eq6 (V13 m ρ) c 1))).trans <|
  (W13_of m ρ c main_arg35 (by decide)).trans <|
  (W12_of_ne m ρ c main_arg35 (by decide)).trans <|
  (W11_of m ρ c main_arg35 (by decide)).trans <|
  (W10_of_ne m ρ c main_arg35 (by decide)).trans <|
  (W9_of m ρ c main_arg35 (by decide)).trans <|
  (W8_of_ne m ρ c main_arg35 (by decide)).trans <|
  (W7_of m ρ c main_arg35 (by decide)).trans <|
  (W6_of_ne m ρ c main_arg35 (by decide)).trans <|
  (W5_of m ρ c main_arg35 (by decide)).trans <|
  (W4_of_ne m ρ c main_arg35 (by decide)).trans <|
  (W3_of m ρ c main_arg35 (by decide)).trans <|
  (W2_of_ne m ρ c main_arg35 (by decide)).trans <|
  (W1_of m ρ c main_arg35 (by decide)).trans <| rfl
theorem W14_main_arg36 (c : Dev nD) : W14 m ρ c (Proc.devRef .tc main_arg36) = m ((c : Thread nD τ).loc main_arg36) :=
  (W14_of_ne m ρ c main_arg36 (by decide)).trans <|
  (W13_of m ρ c main_arg36 (by decide)).trans <|
  (W12_of_ne m ρ c main_arg36 (by decide)).trans <|
  (W11_of m ρ c main_arg36 (by decide)).trans <|
  (W10_of_ne m ρ c main_arg36 (by decide)).trans <|
  (W9_of m ρ c main_arg36 (by decide)).trans <|
  (W8_of_ne m ρ c main_arg36 (by decide)).trans <|
  (W7_of m ρ c main_arg36 (by decide)).trans <|
  (W6_of_ne m ρ c main_arg36 (by decide)).trans <|
  (W5_of m ρ c main_arg36 (by decide)).trans <|
  (W4_of_ne m ρ c main_arg36 (by decide)).trans <|
  (W3_of m ρ c main_arg36 (by decide)).trans <|
  (W2_of_ne m ρ c main_arg36 (by decide)).trans <|
  (W1_of m ρ c main_arg36 (by decide)).trans <| rfl

/-! ## The proof data family and what rides beside the buffers -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and its dues at nothing. -/
abbrev R (c : Dev nD) : sProp 𝕄 := iprop((∃ r, prngReg c r) ∗ ∃ W, owes (c : Thread nD τ) (0 : CellTallies nD τ sig Unit) W)
/-- A stretch of host operations as a segment, from the contents W, with R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W14 m ρ c) ∗ ∃ r, prngReg c r)

end Cert.Kernel.Hand

end
-- ==== Proof.K.Reg0.lean ====
/-
  Region 0 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import proofs.«106078_j59889023976011_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Region 1 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import proofs.«106078_j59889023976011_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Region 2 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import proofs.«106078_j59889023976011_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  Region 3 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import proofs.«106078_j59889023976011_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
/-
  Region 4 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import proofs.«106078_j59889023976011_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
/-
  Region 5 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import proofs.«106078_j59889023976011_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6.lean ====
/-
  Region 6 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import proofs.«106078_j59889023976011_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
/-
  The frame: from any launch memory with zero counters, every weakly fair execution of the program on the
  TensorCores terminates without a fault and leaves each of the 37 argument arrays holding its launch contents.
  The program is the run of its 14 items in order — a segment of host operations from each boundary's contents, a
  region record per kernel launch —; the launch theorem for such a list gives the run, the last thread state is read
  against the final memory, and each argument's buffer there is its launch contents because the fold through the
  boundaries never writes it.
-/
import proofs.«106078_j59889023976011_1_alg».proof.Proof.Gen.Kernel.Launch
import proofs.«106078_j59889023976011_1_alg».proof.Proof.Gen.Kernel.Skeleton
import proofs.«106078_j59889023976011_1_alg».proof.Proof.Gen.Kernel.Points
import proofs.«106078_j59889023976011_1_alg».proof.Proof.K.Reg0
import proofs.«106078_j59889023976011_1_alg».proof.Proof.K.Reg1
import proofs.«106078_j59889023976011_1_alg».proof.Proof.K.Reg2
import proofs.«106078_j59889023976011_1_alg».proof.Proof.K.Reg3
import proofs.«106078_j59889023976011_1_alg».proof.Proof.K.Reg4
import proofs.«106078_j59889023976011_1_alg».proof.Proof.K.Reg5
import proofs.«106078_j59889023976011_1_alg».proof.Proof.K.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's 14 items in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

/-- The program IS the run of the items: it is the chain of the items' programs, and so is the run. -/
theorem main_run (c : Dev nD) : main (F := F) c = Pipeline.Seg.run (segs m ρ) := by
  rw [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()) ] from rfl]

set_option backward.isDefEq.respectTransparency.types false in
/-- The run with everything it leaves: every weakly fair execution terminates without a fault, and in every final
    state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W14 m ρ c) ∗ R c)
          ⊢ iprop(Tₙ m ρ c ∗ ∃ W, owes (c : Thread nD τ) (0 : CellTallies nD τ sig Unit) W)
        iintro ⟨Hh, Hp, HO⟩
        isplitr [HO]
        · isplitl [Hh]; · iexact Hh
          iexact Hp
        · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The frame: the run's post weakened to the 37 arguments, each buffer read back through the fold to its launch
    contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun s h c =>
      ⟨(h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c),
       (h c _ (mem_uc main_arg27 (by decide))).trans (W14_main_arg27 m ρ c),
       (h c _ (mem_uc main_arg28 (by decide))).trans (W14_main_arg28 m ρ c),
       (h c _ (mem_uc main_arg29 (by decide))).trans (W14_main_arg29 m ρ c),
       (h c _ (mem_uc main_arg30 (by decide))).trans (W14_main_arg30 m ρ c),
       (h c _ (mem_uc main_arg31 (by decide))).trans (W14_main_arg31 m ρ c),
       (h c _ (mem_uc main_arg32 (by decide))).trans (W14_main_arg32 m ρ c),
       (h c _ (mem_uc main_arg33 (by decide))).trans (W14_main_arg33 m ρ c),
       (h c _ (mem_uc main_arg34 (by decide))).trans (W14_main_arg34 m ρ c),
       (h c _ (mem_uc main_arg35 (by decide))).trans (W14_main_arg35 m ρ c),
       (h c _ (mem_uc main_arg36 (by decide))).trans (W14_main_arg36 m ρ c)⟩)
    (run_all m ρ)

end Cert.Kernel.Hand

end
-- ==== Proof.KI.Region0.lean ====
/-
  Region 0 of the program: the first projection, a (50000 × 96) by (96 × 512) matrix product tiled over ten
  row blocks of 5000 rows. At each grid point the body reads the point's 5000 × 96 block of the left operand and the
  whole right operand, and stores their product (the two operands rounded to bf16 first, the accumulator zero)
  into the point's 5000 × 512 block of the result.

  Stated at any entry contents V of the core's buffers and at any float instance:
  * what each window's block is at a point (the array read through the block's view);
  * that an input window's staging buffer holds that block at every point, fetched there or not (the right
    operand is fetched at the first point only: its block index never moves);
  * what the body leaves in the output's staging buffer: the one whole-block store, read back;
  * the body's triple, the proof data of the pipeline, and the obligation the launch asks per point.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole weight matrix at every point: it is fetched once, and its
    block index is the same at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each the whole staging buffer. -/
abbrev rA0 : Rect S5000x96 := Rect.unit (s := S5000x96) ![0, 0] S5000x96.size inb_S5000x96_S5000x96_0_0
abbrev rB0 : Rect S96x512 := Rect.unit (s := S96x512) ![0, 0] S96x512.size inb_S96x512_S96x512_0_0
abbrev rC0 : Rect S5000x512 := Rect.unit (s := S5000x512) ![0, 0] S5000x512.size inb_S5000x512_S5000x512_0_0

/-- The output's staging buffer after the body: the one store of the product of the two loaded blocks. -/
def out0_2 (x0 : Vec F S5000x96 .f32) (x1 : Vec F S96x512 .f32) : Vec F S5000x512 .f32 :=
  View.canon [⟨rC0, k0_pay1 (View.ld x0 rA0) (View.ld x1 rB0)⟩]

/-- The one store covers the whole buffer. -/
theorem cover0_2 (p0 : Vec F S5000x512 .f32) (y : S5000x512.Idx) :
    ∃ pc ∈ ([⟨rC0, p0⟩] : List (View.Piece (Elt F) S5000x512 .f32)), y ∈ pc.1.set :=
  View.cover_of_tiled [⟨rC0, p0⟩] S5000x512.size (by rfl) y

set_option maxHeartbeats 1000000 in
/-- The body on whole staging memrefs: the inputs at contents x0, x1 and the output at anything run to the
    continuation with the inputs as they were and the output at the stored product. -/
theorem sound_kernel0 (c : Dev nD) (E : Set ℕ) (i : grid0.Coords)
    (arg1 : Memref sig .tc .vmem S5000x96 .f32) (harg1 : arg1.IsWhole)
    (arg2 : Memref sig .tc .vmem S96x512 .f32) (harg2 : arg2.IsWhole)
    (arg3 : Memref sig .tc .vmem S5000x512 .f32) (harg3 : arg3.IsWhole)
    (x0 : Vec F S5000x96 .f32) (x1 : Vec F S96x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body each input's
    buffer at its block and the output's at the product of the two input blocks; the untouched rest as the
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  Region 1 of the program: one layer's combine, tiled over ten row blocks of 5000 rows. At each grid point the body
  reads the row blocks of the four propagated sums, the four bias rows, the two per-row coefficient columns, the
  residual block and its bias row, and stores c_in * (ic_m + b_mi + ic_s + b_si) + c_out * (oc_m + b_mo + oc_s + b_so)
  + residual + residual bias, clamped below at zero, into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not: a window fetched
    once only (a whole weight or bias array) has the same block index at every point. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each a whole staging buffer. -/
abbrev r1_S5000x128 : Rect S5000x128 := Rect.unit (s := S5000x128) ![0, 0] S5000x128.size inb_S5000x128_S5000x128_0_0
abbrev r1_S1x128 : Rect S1x128 := Rect.unit (s := S1x128) ![0, 0] S1x128.size inb_S1x128_S1x128_0_0
abbrev r1_S5000x1 : Rect S5000x1 := Rect.unit (s := S5000x1) ![0, 0] S5000x1.size inb_S5000x1_S5000x1_0_0

/-- The output's staging buffer after the body: the one store of the combined block — the two propagated sums with their biases, each scaled by its per-row coefficient, plus the residual block and its bias. -/
def out1_12 (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) : Vec F S5000x128 .f32 :=
  View.canon [⟨r1_S5000x128, k1_pay1 (k1_pay2 (View.ld x0 r1_S5000x128) (View.ld x4 r1_S1x128) (View.ld x1 r1_S5000x128) (View.ld x5 r1_S1x128) (View.ld x2 r1_S5000x128) (View.ld x6 r1_S1x128) (View.ld x3 r1_S5000x128) (View.ld x7 r1_S1x128) (View.ld x8 r1_S5000x1) (View.ld x9 r1_S5000x1) (View.ld x10 r1_S5000x128)) (View.ld x11 r1_S1x128)⟩]

/-- The one store covers the whole buffer. -/
theorem cover1_12 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 4000000 in
/-- The body on whole staging memrefs: the inputs at the contents given and the outputs at anything run to the
    continuation with the inputs as they were and each output at what its one store wrote. -/
theorem sound_kernel1 (c : Dev nD) (E : Set ℕ) (i : grid1.Coords)
    (arg1 : Memref sig .tc .vmem S5000x128 .f32) (harg1 : arg1.IsWhole)
    (arg2 : Memref sig .tc .vmem S5000x128 .f32) (harg2 : arg2.IsWhole)
    (arg3 : Memref sig .tc .vmem S5000x128 .f32) (harg3 : arg3.IsWhole)
    (arg4 : Memref sig .tc .vmem S5000x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x1 .f32) (harg9 : arg9.IsWhole)
    (arg10 : Memref sig .tc .vmem S5000x1 .f32) (harg10 : arg10.IsWhole)
    (arg11 : Memref sig .tc .vmem S5000x128 .f32) (harg11 : arg11.IsWhole)
    (arg12 : Memref sig .tc .vmem S1x128 .f32) (harg12 : arg12.IsWhole)
    (arg13 : Memref sig .tc .vmem S5000x128 .f32) (harg13 : arg13.IsWhole)
    (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare (out1_12 x0 x1 x2 x3 x4 x5 x6 x7 x8 x9 x10 x11)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12 arg13 harg13) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1_12 _)

/-- The proof data of pipeline 1 on core c: the arrays as the region finds them; after the body each input's
    buffer at its block and each output's at what the body stored, a function of the input blocks; the untouched
    rest as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Region2.lean ====
/-
  Region 2 of the program: the second layer's projection, a (50000 × 128) by (128 × 384) matrix product, tiled over ten row blocks of 5000 rows. At each grid point the body reads
  the point's row block of the left operand and the whole right operand, and stores their product (the operands
  rounded to bf16 first, the accumulator zero) into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, fetched there or not: a window fetched
    once only (a whole weight or bias array) has the same block index at every point. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each a whole staging buffer. -/
abbrev r2_S5000x128 : Rect S5000x128 := Rect.unit (s := S5000x128) ![0, 0] S5000x128.size inb_S5000x128_S5000x128_0_0
abbrev r2_S128x384 : Rect S128x384 := Rect.unit (s := S128x384) ![0, 0] S128x384.size inb_S128x384_S128x384_0_0
abbrev r2_S5000x384 : Rect S5000x384 := Rect.unit (s := S5000x384) ![0, 0] S5000x384.size inb_S5000x384_S5000x384_0_0

/-- The output's staging buffer after the body: the one store of the product of the two loaded blocks. -/
def out2_2 (x0 : Vec F S5000x128 .f32) (x1 : Vec F S128x384 .f32) : Vec F S5000x384 .f32 :=
  View.canon [⟨r2_S5000x384, k2_pay1 (View.ld x0 r2_S5000x128) (View.ld x1 r2_S128x384)⟩]

/-- The one store covers the whole buffer. -/
theorem cover2_2 (p0 : Vec F S5000x384 .f32) (y : S5000x384.Idx) :
    ∃ pc ∈ ([⟨r2_S5000x384, p0⟩] : List (View.Piece (Elt F) S5000x384 .f32)), y ∈ pc.1.set :=
  View.cover_of_tiled [⟨r2_S5000x384, p0⟩] S5000x384.size (by rfl) y

set_option maxHeartbeats 4000000 in
/-- The body on whole staging memrefs: the inputs at the contents given and the outputs at anything run to the
    continuation with the inputs as they were and each output at what its one store wrote. -/
theorem sound_kernel2 (c : Dev nD) (E : Set ℕ) (i : grid2.Coords)
    (arg1 : Memref sig .tc .vmem S5000x128 .f32) (harg1 : arg1.IsWhole)
    (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c: the arrays as the region finds them; after the body each input's
    buffer at its block and each output's at what the body stored, a function of the input blocks; the untouched
    rest as the invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Region3.lean ====
/-
  Region 3 of the program: one layer's combine, tiled over ten row blocks of 5000 rows. At each grid point the body
  reads the row blocks of the four propagated sums, the four bias rows, the two per-row coefficient columns, the
  residual block and its bias row, and stores c_in * (ic_m + b_mi + ic_s + b_si) + c_out * (oc_m + b_mo + oc_s + b_so)
  + residual + residual bias, clamped below at zero, into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's staging buffer holds its block at every point, fetched there or not: a window fetched
    once only (a whole weight or bias array) has the same block index at every point. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes: each a whole staging buffer. -/
abbrev r3_S5000x128 : Rect S5000x128 := Rect.unit (s := S5000x128) ![0, 0] S5000x128.size inb_S5000x128_S5000x128_0_0
abbrev r3_S1x128 : Rect S1x128 := Rect.unit (s := S1x128) ![0, 0] S1x128.size inb_S1x128_S1x128_0_0
abbrev r3_S5000x1 : Rect S5000x1 := Rect.unit (s := S5000x1) ![0, 0] S5000x1.size inb_S5000x1_S5000x1_0_0

/-- The output's staging buffer after the body: the one store of the combined block — the two propagated sums with their biases, each scaled by its per-row coefficient, plus the residual block and its bias. -/
def out3_12 (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) : Vec F S5000x128 .f32 :=
  View.canon [⟨r3_S5000x128, k3_pay1 (k3_pay2 (View.ld x0 r3_S5000x128) (View.ld x4 r3_S1x128) (View.ld x1 r3_S5000x128) (View.ld x5 r3_S1x128) (View.ld x2 r3_S5000x128) (View.ld x6 r3_S1x128) (View.ld x3 r3_S5000x128) (View.ld x7 r3_S1x128) (View.ld x8 r3_S5000x1) (View.ld x9 r3_S5000x1) (View.ld x10 r3_S5000x128)) (View.ld x11 r3_S1x128)⟩]

/-- The one store covers the whole buffer. -/
theorem cover3_12 (p0 : Vec F S5000x128 .f32) (y : S5000x128.Idx) :
    ∃ pc ∈ ([⟨r3_S5000x128, p0⟩] : List (View.Piece (Elt F) S5000x128 .f32)), y ∈ pc.1.set :=
  View.cover_of_tiled [⟨r3_S5000x128, p0⟩] S5000x128.size (by rfl) y

set_option maxHeartbeats 4000000 in
/-- The body on whole staging memrefs: the inputs at the contents given and the outputs at anything run to the
    continuation with the inputs as they were and each output at what its one store wrote. -/
theorem sound_kernel3 (c : Dev nD) (E : Set ℕ) (i : grid3.Coords)
    (arg1 : Memref sig .tc .vmem S5000x128 .f32) (harg1 : arg1.IsWhole)
    (arg2 : Memref sig .tc .vmem S5000x128 .f32) (harg2 : arg2.IsWhole)
    (arg3 : Memref sig .tc .vmem S5000x128 .f32) (harg3 : arg3.IsWhole)
    (arg4 : Memref sig .tc .vmem S5000x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x1 .f32) (harg9 : arg9.IsWhole)
    (arg10 : Memref sig .tc .vmem S5000x1 .f32) (harg10 : arg10.IsWhole)
    (arg11 : Memref sig .tc .vmem S5000x128 .f32) (harg11 : arg11.IsWhole)
    (arg12 : Memref sig .tc .vmem S1x128 .f32) (harg12 : arg12.IsWhole)
    (arg13 : Memref sig .tc .vmem S5000x128 .f32) (harg13 : arg13.IsWhole)
    (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare (out3_12 x0 x1 x2 x3 x4 x5 x6 x7 x8 x9 x10 x11)) -∗ K ⟨⟩))
      ⊢ wp frame (wpE (defs₀ (F := F)) Variants.none c none) E (cc3__combine_kernel i arg1 harg1 arg2 harg2 arg3 harg3 arg4 harg4 arg5 harg5 arg6 harg6 arg7 harg7 arg8 harg8 arg9 harg9 arg10 harg10 arg11 harg11 arg12 harg12 arg13 harg13) K := by
  simp only [cc3__combine_kernel_eq_skeleton]; unfold cc3__combine_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover3_12 _)

/-- The proof data of pipeline 3 on core c: the arrays as the region finds them; after the body each input's
    buffer at its block and each output's at what the body stored, a function of the input blocks; the untouched
    rest as the invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel3 c Set.univ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Region4.lean ====
/-
  Region 4 of the program: the third layer's projection, a (50000 × 128) by (128 × 384) matrix product, tiled over ten row blocks of 5000 rows. At each grid point the body reads
  the point's row block of the left operand and the whole right operand, and stores their product (the operands
  rounded to bf16 first, the accumulator zero) into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's staging buffer holds its block at every point, fetched there or not: a window fetched
    once only (a whole weight or bias array) has the same block index at every point. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body reads and writes: each a whole staging buffer. -/
abbrev r4_S5000x128 : Rect S5000x128 := Rect.unit (s := S5000x128) ![0, 0] S5000x128.size inb_S5000x128_S5000x128_0_0
abbrev r4_S128x384 : Rect S128x384 := Rect.unit (s := S128x384) ![0, 0] S128x384.size inb_S128x384_S128x384_0_0
abbrev r4_S5000x384 : Rect S5000x384 := Rect.unit (s := S5000x384) ![0, 0] S5000x384.size inb_S5000x384_S5000x384_0_0

/-- The output's staging buffer after the body: the one store of the product of the two loaded blocks. -/
def out4_2 (x0 : Vec F S5000x128 .f32) (x1 : Vec F S128x384 .f32) : Vec F S5000x384 .f32 :=
  View.canon [⟨r4_S5000x384, k4_pay1 (View.ld x0 r4_S5000x128) (View.ld x1 r4_S128x384)⟩]

/-- The one store covers the whole buffer. -/
theorem cover4_2 (p0 : Vec F S5000x384 .f32) (y : S5000x384.Idx) :
    ∃ pc ∈ ([⟨r4_S5000x384, p0⟩] : List (View.Piece (Elt F) S5000x384 .f32)), y ∈ pc.1.set :=
  View.cover_of_tiled [⟨r4_S5000x384, p0⟩] S5000x384.size (by rfl) y

set_option maxHeartbeats 4000000 in
/-- The body on whole staging memrefs: the inputs at the contents given and the outputs at anything run to the
    continuation with the inputs as they were and each output at what its one store wrote. -/
theorem sound_kernel4 (c : Dev nD) (E : Set ℕ) (i : grid4.Coords)
    (arg1 : Memref sig .tc .vmem S5000x128 .f32) (harg1 : arg1.IsWhole)
    (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 4 on core c: the arrays as the region finds them; after the body each input's
    buffer at its block and each output's at what the body stored, a function of the input blocks; the untouched
    rest as the invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.Region5.lean ====
/-
  Region 5 of the program: one layer's combine, tiled over ten row blocks of 5000 rows. At each grid point the body
  reads the row blocks of the four propagated sums, the four bias rows, the two per-row coefficient columns, the
  residual block and its bias row, and stores c_in * (ic_m + b_mi + ic_s + b_si) + c_out * (oc_m + b_mo + oc_s + b_so)
  + residual + residual bias into the point's row block of the result.
  Stated at any entry contents V of the core's buffers and at any float instance: the windows' blocks, each input's
  staging buffer at its block at every point, what the one store leaves in the output's buffer, the body's triple,
  the pipeline's proof data and the per-point obligation of the launch.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's staging buffer holds its block at every point, fetched there or not: a window fetched
    once only (a whole weight or bias array) has the same block index at every point. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body reads and writes: each a whole staging buffer. -/
abbrev r5_S5000x128 : Rect S5000x128 := Rect.unit (s := S5000x128) ![0, 0] S5000x128.size inb_S5000x128_S5000x128_0_0
abbrev r5_S1x128 : Rect S1x128 := Rect.unit (s := S1x128) ![0, 0] S1x128.size inb_S1x128_S1x128_0_0
abbrev r5_S5000x1 : Rect S5000x1 := Rect.unit (s := S5000x1) ![0, 0] S5000x1.size inb_S5000x1_S5000x1_0_0

/-- The output's staging buffer after the body: the one store of the combined block — the two propagated sums with their biases, each scaled by its per-row coefficient, plus the residual block and its bias. -/
def out5_12 (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) : Vec F S5000x128 .f32 :=
  View.canon [⟨r5_S5000x128, k5_pay1 (k5_pay2 (View.ld x0 r5_S5000x128) (View.ld x4 r5_S1x128) (View.ld x1 r5_S5000x128) (View.ld x5 r5_S1x128) (View.ld x2 r5_S5000x128) (View.ld x6 r5_S1x128) (View.ld x3 r5_S5000x128) (View.ld x7 r5_S1x128) (View.ld x8 r5_S5000x1) (View.ld x9 r5_S5000x1) (View.ld x10 r5_S5000x128)) (View.ld x11 r5_S1x128)⟩]

/-- The one store covers the whole buffer. -/
theorem cover5_12 (p0 : Vec F S5000x128 .f32) (y : S5000x128.Idx) :
    ∃ pc ∈ ([⟨r5_S5000x128, p0⟩] : List (View.Piece (Elt F) S5000x128 .f32)), y ∈ pc.1.set :=
  View.cover_of_tiled [⟨r5_S5000x128, p0⟩] S5000x128.size (by rfl) y

set_option maxHeartbeats 4000000 in
/-- The body on whole staging memrefs: the inputs at the contents given and the outputs at anything run to the
    continuation with the inputs as they were and each output at what its one store wrote. -/
theorem sound_kernel5 (c : Dev nD) (E : Set ℕ) (i : grid5.Coords)
    (arg1 : Memref sig .tc .vmem S5000x128 .f32) (harg1 : arg1.IsWhole)
    (arg2 : Memref sig .tc .vmem S5000x128 .f32) (harg2 : arg2.IsWhole)
    (arg3 : Memref sig .tc .vmem S5000x128 .f32) (harg3 : arg3.IsWhole)
    (arg4 : Memref sig .tc .vmem S5000x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x1 .f32) (harg9 : arg9.IsWhole)
    (arg10 : Memref sig .tc .vmem S5000x1 .f32) (harg10 : arg10.IsWhole)
    (arg11 : Memref sig .tc .vmem S5000x128 .f32) (harg11 : arg11.IsWhole)
    (arg12 : Memref sig .tc .vmem S1x128 .f32) (harg12 : arg12.IsWhole)
    (arg13 : Memref sig .tc .vmem S5000x128 .f32) (harg13 : arg13.IsWhole)
    (x0 : Vec F S5000x128 .f32) (x1 : Vec F S5000x128 .f32) (x2 : Vec F S5000x128 .f32) (x3 : Vec F S5000x128 .f32) (x4 : Vec F S1x128 .f32) (x5 : Vec F S1x128 .f32) (x6 : Vec F S1x128 .f32) (x7 : Vec F S1x128 .f32) (x8 : Vec F S5000x1 .f32) (x9 : Vec F S5000x1 .f32) (x10 : Vec F S5000x128 .f32) (x11 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare (out5_12 x0 x1 x2 x3 x4 x5 x6 x7 x8 x9 x10 x11)) -∗ K ⟨⟩))
      ⊢ wp frame (wpE (defs₀ (F := F)) Variants.none c none) E (cc5__combine_kernel i arg1 harg1 arg2 harg2 arg3 harg3 arg4 harg4 arg5 harg5 arg6 harg6 arg7 harg7 arg8 harg8 arg9 harg9 arg10 harg10 arg11 harg11 arg12 harg12 arg13 harg13) K := by
  simp only [cc5__combine_kernel_eq_skeleton]; unfold cc5__combine_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover5_12 _)

/-- The proof data of pipeline 5 on core c: the arrays as the region finds them; after the body each input's
    buffer at its block and each output's at what the body stored, a function of the input blocks; the untouched
    rest as the invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t = out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel5 c Set.univ _ _ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.Region6.lean ====
/-
  Region 6 of the program: the row normalisation, the decoder and the log-softmax, tiled over ten row blocks of 5000
  rows. At each grid point the body reads the point's 5000 × 128 block h, stores h divided row by row by
  max(sqrt(sum of squares of the row), eps) into the first output's block, then reads the whole decoder matrix and its
  bias row and stores the log-softmax of (normalised block times decoder + bias) into the second output's block.
  Stated at any entry contents V of the core's buffers and at any float instance: the windows' blocks, each input's
  staging buffer at its block at every point, what each of the two stores leaves, the body's triple, the pipeline's
  proof data and the per-point obligation of the launch.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's staging buffer holds its block at every point, fetched there or not: a window fetched
    once only (a whole weight or bias array) has the same block index at every point. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body reads and writes: each a whole staging buffer. -/
abbrev r6_S5000x128 : Rect S5000x128 := Rect.unit (s := S5000x128) ![0, 0] S5000x128.size inb_S5000x128_S5000x128_0_0
abbrev r6_S128x256 : Rect S128x256 := Rect.unit (s := S128x256) ![0, 0] S128x256.size inb_S128x256_S128x256_0_0
abbrev r6_S1x256 : Rect S1x256 := Rect.unit (s := S1x256) ![0, 0] S1x256.size inb_S1x256_S1x256_0_0
abbrev r6_S5000x256 : Rect S5000x256 := Rect.unit (s := S5000x256) ![0, 0] S5000x256.size inb_S5000x256_S5000x256_0_0

/-- The first output's staging buffer after the body: the one store of the row-normalised block. -/
def out6_3 (x0 : Vec F S5000x128 .f32) (x1 : Vec F S128x256 .f32) (x2 : Vec F S1x256 .f32) : Vec F S5000x128 .f32 :=
  View.canon [⟨r6_S5000x128, k6_pay1 (View.ld x0 r6_S5000x128)⟩]

/-- The one store covers the whole buffer. -/
theorem cover6_3 (p0 : Vec F S5000x128 .f32) (y : S5000x128.Idx) :
    ∃ pc ∈ ([⟨r6_S5000x128, p0⟩] : List (View.Piece (Elt F) S5000x128 .f32)), y ∈ pc.1.set :=
  View.cover_of_tiled [⟨r6_S5000x128, p0⟩] S5000x128.size (by rfl) y

/-- The second output's staging buffer after the body: the one store of the log-softmax of the decoded block. -/
def out6_4 (x0 : Vec F S5000x128 .f32) (x1 : Vec F S128x256 .f32) (x2 : Vec F S1x256 .f32) : Vec F S5000x256 .f32 :=
  View.canon [⟨r6_S5000x256, k6_pay2 (View.ld x0 r6_S5000x128) (View.ld x1 r6_S128x256) (View.ld x2 r6_S1x256)⟩]

/-- The one store covers the whole buffer. -/
theorem cover6_4 (p0 : Vec F S5000x256 .f32) (y : S5000x256.Idx) :
    ∃ pc ∈ ([⟨r6_S5000x256, p0⟩] : List (View.Piece (Elt F) S5000x256 .f32)), y ∈ pc.1.set :=
  View.cover_of_tiled [⟨r6_S5000x256, p0⟩] S5000x256.size (by rfl) y

set_option maxHeartbeats 4000000 in
/-- The body on whole staging memrefs: the inputs at the contents given and the outputs at anything run to the
    continuation with the inputs as they were and each output at what its one store wrote. -/
theorem sound_kernel6 (c : Dev nD) (E : Set ℕ) (i : grid6.Coords)
    (arg1 : Memref sig .tc .vmem S5000x128 .f32) (harg1 : arg1.IsWhole)
    (arg2 : Memref sig .tc .vmem S128x256 .f32) (harg2 : arg2.IsWhole)
    (arg3 : Memref sig .tc .vmem S1x256 .f32) (harg3 : arg3.IsWhole)
    (arg4 : Memref sig .tc .vmem S5000x128 .f32) (harg4 : arg4.IsWhole)
    (arg5 : Memref sig .tc .vmem S5000x256 .f32) (harg5 : arg5.IsWhole)
    (x0 : Vec F S5000x128 .f32) (x1 : Vec F S128x256 .f32) (x2 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (∃ d, owns (c : Thread nD τ) arg5 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (out6_3 x0 x1 x2)
            ∗ owns (c : Thread nD τ) arg5 fullShare (out6_4 x0 x1 x2)) -∗ K ⟨⟩))
      ⊢ wp frame (wpE (defs₀ (F := F)) Variants.none c none) E (cc6__final_kernel i arg1 harg1 arg2 harg2 arg3 harg3 arg4 harg4 arg5 harg5) K := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_3 _)
  iexists _; isplitr
  swap; · iexact H4
  ipureintro
  exact View.read_writes_eq_canon _ _ _ (cover6_4 _)

/-- The proof data of pipeline 6 on core c: the arrays as the region finds them; after the body each input's
    buffer at its block and each output's at what the body stored, a function of the input blocks; the untouched
    rest as the invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
    | ⟨4, _⟩ => out6_4 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]
theorem after6_4 (c : Dev nD) (t : Fin cfg6.N) : (dat6 V c).after 4 t = out6_4 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Hand

end
-- ==== Proof.KI.Fold.lean ====
/-
  The contents of the core's buffers at every boundary of the program's 14 items (a stretch of host operations,
  then a kernel region, seven times), as a fold from the launch memory:
  * after a stretch, the stretch's operations applied to the contents before it;
  * after a region, the region's arrays at what its pipeline leaves (an input array as entered, an output array
    with every write-back folded in) and every other buffer as entered.
  No stretch writes an argument (each writes only the results it names), and a region changes only its output
  arrays, none of which is an argument: so every argument's buffer, read through the whole fold, is its launch
  contents. Last, the family of the seven pipelines' proof data, each at its region's entry contents.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Region0
import proofs.«106078_j59889023976011_1_alg».proof.Proof.KI.Region1
import proofs.«106078_j59889023976011_1_alg».proof.Proof.KI.Region2
import proofs.«106078_j59889023976011_1_alg».proof.Proof.KI.Region3
import proofs.«106078_j59889023976011_1_alg».proof.Proof.KI.Region4
import proofs.«106078_j59889023976011_1_alg».proof.Proof.KI.Region5
import proofs.«106078_j59889023976011_1_alg».proof.Proof.KI.Region6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)

/-! ## Item 0: the stretch hostOps0; item 1: region 0 -/

/-- No operation of the stretch allocates a buffer. -/
theorem hostOps0_fresh : (hostOps0 : List (HloOp τ sig (Elt F))).Forall fun op => op.fresh = ∅ := by
  simp only [List.Forall]; repeat' constructor
/-- A list holding every reference the stretch's operations write (and some they only read): no argument is in it. -/
abbrev hostOps0_Wl : List (Ref sig .tc) := [main_v0, main_v1, main_v2, main_v3, main_v4, main_v5, main_v6, main_v7, main_v8, main_v9, main_v10, main_v11, main_v12, main_v13]
theorem hostOps0_writes : (hostOps0 : List (HloOp τ sig (Elt F))).Forall fun op => op.writes ⊆ (hostOps0_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 0's entry). -/
abbrev W1 : Dev nD → Valuation τ sig (Elt F) := fun c => StableHlo.after hostOps0 (W0 m ρ c)
theorem W1_of (c : Dev nD) (r : Ref sig .tc) (h : r ∉ hostOps0_Wl) : W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ## Item 2: the stretch hostOps1; item 3: region 1 -/

/-- No operation of the stretch allocates a buffer. -/
theorem hostOps1_fresh : (hostOps1 : List (HloOp τ sig (Elt F))).Forall fun op => op.fresh = ∅ := by
  simp only [List.Forall]; repeat' constructor
/-- A list holding every reference the stretch's operations write (and some they only read): no argument is in it. -/
abbrev hostOps1_Wl : List (Ref sig .tc) := [main_v14, main_v15, main_v16, main_v17, main_v18, main_v19, main_c, main_v20, main_v6, main_v21, main_c_0, main_v22, main_v23, main_v24, main_v25, main_v26, main_v27, main_v28, main_cst, main_v29, main_v8, main_v30, main_v31, main_v32, main_c_1, main_v33, main_v34, main_c_2, main_v35, main_v36, main_v37, main_v38, main_v39, main_v40, main_v41, main_cst_3, main_v42, main_v43, main_v44, main_v45, main_c_4, main_v46, main_v10, main_v47, main_c_5, main_v48, main_v49, main_v50, main_v51, main_v52, main_v53, main_v54, main_cst_6, main_v55, main_v12, main_v56, main_v57, main_v58, main_c_7, main_v59, main_v60, main_c_8, main_v61, main_v62, main_v63, main_v64, main_v65, main_v66, main_v67, main_cst_9, main_v68, main_v69, main_v70, main_v71, main_v72, main_v73, main_v74, main_v75]
theorem hostOps1_writes : (hostOps1 : List (HloOp τ sig (Elt F))).Forall fun op => op.writes ⊆ (hostOps1_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 1's entry). -/
abbrev W3 : Dev nD → Valuation τ sig (Elt F) := fun c => StableHlo.after hostOps1 (W2 m ρ c)
theorem W3_of (c : Dev nD) (r : Ref sig .tc) (h : r ∉ hostOps1_Wl) : W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Item 4: the stretch hostOps2; item 5: region 2 -/

/-- No operation of the stretch allocates a buffer. -/
theorem hostOps2_fresh : (hostOps2 : List (HloOp τ sig (Elt F))).Forall fun op => op.fresh = ∅ := by
  simp only [List.Forall]; repeat' constructor
/-- A list holding every reference the stretch's operations write (and some they only read): no argument is in it. -/
abbrev hostOps2_Wl : List (Ref sig .tc) := [main_v77]
theorem hostOps2_writes : (hostOps2 : List (HloOp τ sig (Elt F))).Forall fun op => op.writes ⊆ (hostOps2_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 2's entry). -/
abbrev W5 : Dev nD → Valuation τ sig (Elt F) := fun c => StableHlo.after hostOps2 (W4 m ρ c)
theorem W5_of (c : Dev nD) (r : Ref sig .tc) (h : r ∉ hostOps2_Wl) : W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## Item 6: the stretch hostOps3; item 7: region 3 -/

/-- No operation of the stretch allocates a buffer. -/
theorem hostOps3_fresh : (hostOps3 : List (HloOp τ sig (Elt F))).Forall fun op => op.fresh = ∅ := by
  simp only [List.Forall]; repeat' constructor
/-- A list holding every reference the stretch's operations write (and some they only read): no argument is in it. -/
abbrev hostOps3_Wl : List (Ref sig .tc) := [main_v78, main_v79, main_v80, main_v81, main_v82, main_c_10, main_v83, main_v6, main_v84, main_c_11, main_v85, main_v86, main_v87, main_v88, main_v89, main_v90, main_v91, main_cst_12, main_v92, main_v8, main_v93, main_v94, main_v95, main_c_13, main_v96, main_v97, main_c_14, main_v98, main_v99, main_v100, main_v101, main_v102, main_v103, main_v104, main_cst_15, main_v105, main_v106, main_v107, main_v108, main_c_16, main_v109, main_v10, main_v110, main_c_17, main_v111, main_v112, main_v113, main_v114, main_v115, main_v116, main_v117, main_cst_18, main_v118, main_v12, main_v119, main_v120, main_v121, main_c_19, main_v122, main_v123, main_c_20, main_v124, main_v125, main_v126, main_v127, main_v128, main_v129, main_v130, main_cst_21, main_v131, main_v132, main_v133, main_cst_22, main_v134, main_v135, main_v136, main_v137, main_v138, main_v139]
theorem hostOps3_writes : (hostOps3 : List (HloOp τ sig (Elt F))).Forall fun op => op.writes ⊆ (hostOps3_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 3's entry). -/
abbrev W7 : Dev nD → Valuation τ sig (Elt F) := fun c => StableHlo.after hostOps3 (W6 m ρ c)
theorem W7_of (c : Dev nD) (r : Ref sig .tc) (h : r ∉ hostOps3_Wl) : W7 m ρ c (Proc.devRef .tc r) = W6 m ρ c (Proc.devRef .tc r) :=
  StableHlo.after_of_writes_sub hostOps3 _ hostOps3_writes h
/-- The same read at the TensorCore's references (what region 3's proof data take). -/
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## Item 8: the stretch hostOps4; item 9: region 4 -/

/-- No operation of the stretch allocates a buffer. -/
theorem hostOps4_fresh : (hostOps4 : List (HloOp τ sig (Elt F))).Forall fun op => op.fresh = ∅ := by
  simp only [List.Forall]; repeat' constructor
/-- A list holding every reference the stretch's operations write (and some they only read): no argument is in it. -/
abbrev hostOps4_Wl : List (Ref sig .tc) := [main_v141]
theorem hostOps4_writes : (hostOps4 : List (HloOp τ sig (Elt F))).Forall fun op => op.writes ⊆ (hostOps4_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 4's entry). -/
abbrev W9 : Dev nD → Valuation τ sig (Elt F) := fun c => StableHlo.after hostOps4 (W8 m ρ c)
theorem W9_of (c : Dev nD) (r : Ref sig .tc) (h : r ∉ hostOps4_Wl) : W9 m ρ c (Proc.devRef .tc r) = W8 m ρ c (Proc.devRef .tc r) :=
  StableHlo.after_of_writes_sub hostOps4 _ hostOps4_writes h
/-- The same read at the TensorCore's references (what region 4's proof data take). -/
abbrev V9 : (c : Dev nD) → (b : Ref sig .tc) → Buf (Elt F) ((c : Thread nD τ).loc b) := fun c b => W9 m ρ c b
/-- At region 4's exit. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## Item 10: the stretch hostOps5; item 11: region 5 -/

/-- No operation of the stretch allocates a buffer. -/
theorem hostOps5_fresh : (hostOps5 : List (HloOp τ sig (Elt F))).Forall fun op => op.fresh = ∅ := by
  simp only [List.Forall]; repeat' constructor
/-- A list holding every reference the stretch's operations write (and some they only read): no argument is in it. -/
abbrev hostOps5_Wl : List (Ref sig .tc) := [main_v142, main_v143, main_v144, main_v145, main_v146, main_c_23, main_v147, main_v6, main_v148, main_c_24, main_v149, main_v150, main_v151, main_v152, main_v153, main_v154, main_v155, main_cst_25, main_v156, main_v8, main_v157, main_v158, main_v159, main_c_26, main_v160, main_v161, main_c_27, main_v162, main_v163, main_v164, main_v165, main_v166, main_v167, main_v168, main_cst_28, main_v169, main_v170, main_v171, main_v172, main_c_29, main_v173, main_v10, main_v174, main_c_30, main_v175, main_v176, main_v177, main_v178, main_v179, main_v180, main_v181, main_cst_31, main_v182, main_v12, main_v183, main_v184, main_v185, main_c_32, main_v186, main_v187, main_c_33, main_v188, main_v189, main_v190, main_v191, main_v192, main_v193, main_v194, main_cst_34, main_v195, main_v196, main_v197, main_cst_35, main_v198, main_v199, main_v200, main_v201, main_v202, main_v203]
theorem hostOps5_writes : (hostOps5 : List (HloOp τ sig (Elt F))).Forall fun op => op.writes ⊆ (hostOps5_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 5's entry). -/
abbrev W11 : Dev nD → Valuation τ sig (Elt F) := fun c => StableHlo.after hostOps5 (W10 m ρ c)
theorem W11_of (c : Dev nD) (r : Ref sig .tc) (h : r ∉ hostOps5_Wl) : W11 m ρ c (Proc.devRef .tc r) = W10 m ρ c (Proc.devRef .tc r) :=
  StableHlo.after_of_writes_sub hostOps5 _ hostOps5_writes h
/-- The same read at the TensorCore's references (what region 5's proof data take). -/
abbrev V11 : (c : Dev nD) → (b : Ref sig .tc) → Buf (Elt F) ((c : Thread nD τ).loc b) := fun c b => W11 m ρ c b
/-- At region 5's exit. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-! ## Item 12: the stretch hostOps6; item 13: region 6 -/

/-- No operation of the stretch allocates a buffer. -/
theorem hostOps6_fresh : (hostOps6 : List (HloOp τ sig (Elt F))).Forall fun op => op.fresh = ∅ := by
  simp only [List.Forall]; repeat' constructor
/-- A list holding every reference the stretch's operations write (and some they only read): no argument is in it. -/
abbrev hostOps6_Wl : List (Ref sig .tc) := [main_v205]
theorem hostOps6_writes : (hostOps6 : List (HloOp τ sig (Elt F))).Forall fun op => op.writes ⊆ (hostOps6_Wl.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- After the stretch (region 6's entry). -/
abbrev W13 : Dev nD → Valuation τ sig (Elt F) := fun c => StableHlo.after hostOps6 (W12 m ρ c)
theorem W13_of (c : Dev nD) (r : Ref sig .tc) (h : r ∉ hostOps6_Wl) : W13 m ρ c (Proc.devRef .tc r) = W12 m ρ c (Proc.devRef .tc r) :=
  StableHlo.after_of_writes_sub hostOps6 _ hostOps6_writes h
/-- The same read at the TensorCore's references (what region 6's proof data take). -/
abbrev V13 : (c : Dev nD) → (b : Ref sig .tc) → Buf (Elt F) ((c : Thread nD τ).loc b) := fun c b => W13 m ρ c b
/-- At region 6's exit. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-! ## Every argument ends as launched -/
theorem W14_main_arg0 (c : Dev nD) : W14 m ρ c (Proc.devRef .tc main_arg0) = m ((c : Thread nD τ).loc main_arg0) :=
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <| rfl
theorem W14_main_arg1 (c : Dev nD) : W14 m ρ c (Proc.devRef .tc main_arg1) = m ((c : Thread nD τ).loc main_arg1) :=
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <| rfl
theorem W14_main_arg2 (c : Dev nD) : W14 m ρ c (Proc.devRef .tc main_arg2) = m ((c : Thread nD τ).loc main_arg2) :=
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl
theorem W14_main_arg3 (c : Dev nD) : W14 m ρ c (Proc.devRef .tc main_arg3) = m ((c : Thread nD τ).loc main_arg3) :=
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <| rfl
theorem W14_main_arg4 (c : Dev nD) : W14 m ρ c (Proc.devRef .tc main_arg4) = m ((c : Thread nD τ).loc main_arg4) :=
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl
theorem W14_main_arg5 (c : Dev nD) : W14 m ρ c (Proc.devRef .tc main_arg5) = m ((c : Thread nD τ).loc main_arg5) :=
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <| rfl
theorem W14_main_arg6 (c : Dev nD) : W14 m ρ c (Proc.devRef .tc main_arg6) = m ((c : Thread nD τ).loc main_arg6) :=
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <| rfl
theorem W14_main_arg7 (c : Dev nD) : W14 m ρ c (Proc.devRef .tc main_arg7) = m ((c : Thread nD τ).loc main_arg7) :=
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <| rfl
theorem W14_main_arg8 (c : Dev nD) : W14 m ρ c (Proc.devRef .tc main_arg8) = m ((c : Thread nD τ).loc main_arg8) :=
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <| rfl
theorem W14_main_arg9 (c : Dev nD) : W14 m ρ c (Proc.devRef .tc main_arg9) = m ((c : Thread nD τ).loc main_arg9) :=
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans <| rfl
theorem W14_main_arg10 (c : Dev nD) : W14 m ρ c (Proc.devRef .tc main_arg10) = m ((c : Thread nD τ).loc main_arg10) :=
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans <| rfl
theorem W14_main_arg11 (c : Dev nD) : W14 m ρ c (Proc.devRef .tc main_arg11) = m ((c : Thread nD τ).loc main_arg11) :=
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans <| rfl
theorem W14_main_arg12 (c : Dev nD) : W14 m ρ c (Proc.devRef .tc main_arg12) = m ((c : Thread nD τ).loc main_arg12) :=
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans <| rfl
theorem W14_main_arg13 (c : Dev nD) : W14 m ρ c (Proc.devRef .tc main_arg13) = m ((c : Thread nD τ).loc main_arg13) :=
  (W14_of_ne m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  ((W4_arr m ρ c 8).trans (((dat1 (V3 m ρ) c).arrAt_in 8 rfl _).trans (A_eq1 (V3 m ρ) c 8))).trans <|
  (W3_of m ρ c main_arg13 (by decide)).trans <|
  (W2_of_ne m ρ c main_arg13 (by decide)).trans <|
  (W1_of m ρ c main_arg13 (by decide)).trans <| rfl
theorem W14_main_arg14 (c : Dev nD) : W14 m ρ c (Proc.devRef .tc main_arg14) = m ((c : Thread nD τ).loc main_arg14) :=
  (W14_of_ne m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of_ne m ρ c main_arg14 (by decide)).trans <|
  (W7_of m ρ c main_arg14 (by decide)).trans <|
  (W6_of_ne m ρ c main_arg14 (by decide)).trans <|
  (W5_of m ρ c main_arg14 (by decide)).trans <|
  ((W4_arr m ρ c 9).trans (((dat1 (V3 m ρ) c).arrAt_in 9 rfl _).trans (A_eq1 (V3 m ρ) c 9))).trans <|
  (W3_of m ρ c main_arg14 (by decide)).trans <|
  (W2_of_ne m ρ c main_arg14 (by decide)).trans <|
  (W1_of m ρ c main_arg14 (by decide)).trans <| rfl
theorem W14_main_arg15 (c : Dev nD) : W14 m ρ c (Proc.devRef .tc main_arg15) = m ((c : Thread nD τ).loc main_arg15) :=
  (W14_of_ne m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of_ne m ρ c main_arg15 (by decide)).trans <|
  (W3_of m ρ c main_arg15 (by decide)).trans <|
  (W2_of_ne m ρ c main_arg15 (by decide)).trans <|
  (W1_of m ρ c main_arg15 (by decide)).trans <| rfl
theorem W14_main_arg16 (c : Dev nD) : W14 m ρ c (Proc.devRef .tc main_arg16) = m ((c : Thread nD τ).loc main_arg16) :=
  (W14_of_ne m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of_ne m ρ c main_arg16 (by decide)).trans <|
  (W3_of m ρ c main_arg16 (by decide)).trans <|
  (W2_of_ne m ρ c main_arg16 (by decide)).trans <|
  (W1_of m ρ c main_arg16 (by decide)).trans <| rfl
theorem W14_main_arg17 (c : Dev nD) : W14 m ρ c (Proc.devRef .tc main_arg17) = m ((c : Thread nD τ).loc main_arg17) :=
  (W14_of_ne m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of_ne m ρ c main_arg17 (by decide)).trans <|
  (W7_of m ρ c main_arg17 (by decide)).trans <|
  (W6_of_ne m ρ c main_arg17 (by decide)).trans <|
  (W5_of m ρ c main_arg17 (by decide)).trans <|
  (W4_of_ne m ρ c main_arg17 (by decide)).trans <|
  (W3_of m ρ c main_arg17 (by decide)).trans <|
  (W2_of_ne m ρ c main_arg17 (by decide)).trans <|
  (W1_of m ρ c main_arg17 (by decide)).trans <| rfl
theorem W14_main_arg18 (c : Dev nD) : W14 m ρ c (Proc.devRef .tc main_arg18) = m ((c : Thread nD τ).loc main_arg18) :=
  (W14_of_ne m ρ c main_arg18 (by decide)).trans <|
  (W13_of m ρ c main_arg18 (by decide)).trans <|
  (W12_of_ne m ρ c main_arg18 (by decide)).trans <|
  (W11_of m ρ c main_arg18 (by decide)).trans <|
  (W10_of_ne m ρ c main_arg18 (by decide)).trans <|
  (W9_of m ρ c main_arg18 (by decide)).trans <|
  (W8_of_ne m ρ c main_arg18 (by decide)).trans <|
  (W7_of m ρ c main_arg18 (by decide)).trans <|
  (W6_of_ne m ρ c main_arg18 (by decide)).trans <|
  (W5_of m ρ c main_arg18 (by decide)).trans <|
  (W4_of_ne m ρ c main_arg18 (by decide)).trans <|
  (W3_of m ρ c main_arg18 (by decide)).trans <|
  (W2_of_ne m ρ c main_arg18 (by decide)).trans <|
  (W1_of m ρ c main_arg18 (by decide)).trans <| rfl
theorem W14_main_arg19 (c : Dev nD) : W14 m ρ c (Proc.devRef .tc main_arg19) = m ((c : Thread nD τ).loc main_arg19) :=
  (W14_of_ne m ρ c main_arg19 (by decide)).trans <|
  (W13_of m ρ c main_arg19 (by decide)).trans <|
  (W12_of_ne m ρ c main_arg19 (by decide)).trans <|
  (W11_of m ρ c main_arg19 (by decide)).trans <|
  (W10_of_ne m ρ c main_arg19 (by decide)).trans <|
  (W9_of m ρ c main_arg19 (by decide)).trans <|
  (W8_of_ne m ρ c main_arg19 (by decide)).trans <|
  (W7_of m ρ c main_arg19 (by decide)).trans <|
  (W6_of_ne m ρ c main_arg19 (by decide)).trans <|
  (W5_of m ρ c main_arg19 (by decide)).trans <|
  (W4_of_ne m ρ c main_arg19 (by decide)).trans <|
  (W3_of m ρ c main_arg19 (by decide)).trans <|
  (W2_of_ne m ρ c main_arg19 (by decide)).trans <|
  (W1_of m ρ c main_arg19 (by decide)).trans <| rfl
theorem W14_main_arg20 (c : Dev nD) : W14 m ρ c (Proc.devRef .tc main_arg20) = m ((c : Thread nD τ).loc main_arg20) :=
  (W14_of_ne m ρ c main_arg20 (by decide)).trans <|
  (W13_of m ρ c main_arg20 (by decide)).trans <|
  (W12_of_ne m ρ c main_arg20 (by decide)).trans <|
  (W11_of m ρ c main_arg20 (by decide)).trans <|
  (W10_of_ne m ρ c main_arg20 (by decide)).trans <|
  (W9_of m ρ c main_arg20 (by decide)).trans <|
  (W8_of_ne m ρ c main_arg20 (by decide)).trans <|
  (W7_of m ρ c main_arg20 (by decide)).trans <|
  (W6_of_ne m ρ c main_arg20 (by decide)).trans <|
  (W5_of m ρ c main_arg20 (by decide)).trans <|
  (W4_of_ne m ρ c main_arg20 (by decide)).trans <|
  (W3_of m ρ c main_arg20 (by decide)).trans <|
  (W2_of_ne m ρ c main_arg20 (by decide)).trans <|
  (W1_of m ρ c main_arg20 (by decide)).trans <| rfl
theorem W14_main_arg21 (c : Dev nD) : W14 m ρ c (Proc.devRef .tc main_arg21) = m ((c : Thread nD τ).loc main_arg21) :=
  (W14_of_ne m ρ c main_arg21 (by decide)).trans <|
  (W13_of m ρ c main_arg21 (by decide)).trans <|
  (W12_of_ne m ρ c main_arg21 (by decide)).trans <|
  (W11_of m ρ c main_arg21 (by decide)).trans <|
  (W10_of_ne m ρ c main_arg21 (by decide)).trans <|
  (W9_of m ρ c main_arg21 (by decide)).trans <|
  (W8_of_ne m ρ c main_arg21 (by decide)).trans <|
  (W7_of m ρ c main_arg21 (by decide)).trans <|
  (W6_of_ne m ρ c main_arg21 (by decide)).trans <|
  (W5_of m ρ c main_arg21 (by decide)).trans <|
  (W4_of_ne m ρ c main_arg21 (by decide)).trans <|
  (W3_of m ρ c main_arg21 (by decide)).trans <|
  (W2_of_ne m ρ c main_arg21 (by decide)).trans <|
  (W1_of m ρ c main_arg21 (by decide)).trans <| rfl
theorem W14_main_arg22 (c : Dev nD) : W14 m ρ c (Proc.devRef .tc main_arg22) = m ((c : Thread nD τ).loc main_arg22) :=
  (W14_of_ne m ρ c main_arg22 (by decide)).trans <|
  (W13_of m ρ c main_arg22 (by decide)).trans <|
  (W12_of_ne m ρ c main_arg22 (by decide)).trans <|
  (W11_of m ρ c main_arg22 (by decide)).trans <|
  (W10_of_ne m ρ c main_arg22 (by decide)).trans <|
  (W9_of m ρ c main_arg22 (by decide)).trans <|
  ((W8_arr m ρ c 8).trans (((dat3 (V7 m ρ) c).arrAt_in 8 rfl _).trans (A_eq3 (V7 m ρ) c 8))).trans <|
  (W7_of m ρ c main_arg22 (by decide)).trans <|
  (W6_of_ne m ρ c main_arg22 (by decide)).trans <|
  (W5_of m ρ c main_arg22 (by decide)).trans <|
  (W4_of_ne m ρ c main_arg22 (by decide)).trans <|
  (W3_of m ρ c main_arg22 (by decide)).trans <|
  (W2_of_ne m ρ c main_arg22 (by decide)).trans <|
  (W1_of m ρ c main_arg22 (by decide)).trans <| rfl
theorem W14_main_arg23 (c : Dev nD) : W14 m ρ c (Proc.devRef .tc main_arg23) = m ((c : Thread nD τ).loc main_arg23) :=
  (W14_of_ne m ρ c main_arg23 (by decide)).trans <|
  (W13_of m ρ c main_arg23 (by decide)).trans <|
  (W12_of_ne m ρ c main_arg23 (by decide)).trans <|
  (W11_of m ρ c main_arg23 (by decide)).trans <|
  (W10_of_ne m ρ c main_arg23 (by decide)).trans <|
  (W9_of m ρ c main_arg23 (by decide)).trans <|
  ((W8_arr m ρ c 9).trans (((dat3 (V7 m ρ) c).arrAt_in 9 rfl _).trans (A_eq3 (V7 m ρ) c 9))).trans <|
  (W7_of m ρ c main_arg23 (by decide)).trans <|
  (W6_of_ne m ρ c main_arg23 (by decide)).trans <|
  (W5_of m ρ c main_arg23 (by decide)).trans <|
  (W4_of_ne m ρ c main_arg23 (by decide)).trans <|
  (W3_of m ρ c main_arg23 (by decide)).trans <|
  (W2_of_ne m ρ c main_arg23 (by decide)).trans <|
  (W1_of m ρ c main_arg23 (by decide)).trans <| rfl
theorem W14_main_arg24 (c : Dev nD) : W14 m ρ c (Proc.devRef .tc main_arg24) = m ((c : Thread nD τ).loc main_arg24) :=
  (W14_of_ne m ρ c main_arg24 (by decide)).trans <|
  (W13_of m ρ c main_arg24 (by decide)).trans <|
  (W12_of_ne m ρ c main_arg24 (by decide)).trans <|
  (W11_of m ρ c main_arg24 (by decide)).trans <|
  (W10_of_ne m ρ c main_arg24 (by decide)).trans <|
  (W9_of m ρ c main_arg24 (by decide)).trans <|
  (W8_of_ne m ρ c main_arg24 (by decide)).trans <|
  (W7_of m ρ c main_arg24 (by decide)).trans <|
  (W6_of_ne m ρ c main_arg24 (by decide)).trans <|
  (W5_of m ρ c main_arg24 (by decide)).trans <|
  (W4_of_ne m ρ c main_arg24 (by decide)).trans <|
  (W3_of m ρ c main_arg24 (by decide)).trans <|
  (W2_of_ne m ρ c main_arg24 (by decide)).trans <|
  (W1_of m ρ c main_arg24 (by decide)).trans <| rfl
theorem W14_main_arg25 (c : Dev nD) : W14 m ρ c (Proc.devRef .tc main_arg25) = m ((c : Thread nD τ).loc main_arg25) :=
  (W14_of_ne m ρ c main_arg25 (by decide)).trans <|
  (W13_of m ρ c main_arg25 (by decide)).trans <|
  (W12_of_ne m ρ c main_arg25 (by decide)).trans <|
  (W11_of m ρ c main_arg25 (by decide)).trans <|
  (W10_of_ne m ρ c main_arg25 (by decide)).trans <|
  (W9_of m ρ c main_arg25 (by decide)).trans <|
  (W8_of_ne m ρ c main_arg25 (by decide)).trans <|
  (W7_of m ρ c main_arg25 (by decide)).trans <|
  (W6_of_ne m ρ c main_arg25 (by decide)).trans <|
  (W5_of m ρ c main_arg25 (by decide)).trans <|
  (W4_of_ne m ρ c main_arg25 (by decide)).trans <|
  (W3_of m ρ c main_arg25 (by decide)).trans <|
  (W2_of_ne m ρ c main_arg25 (by decide)).trans <|
  (W1_of m ρ c main_arg25 (by decide)).trans <| rfl
theorem W14_main_arg26 (c : Dev nD) : W14 m ρ c (Proc.devRef .tc main_arg26) = m ((c : Thread nD τ).loc main_arg26) :=
  (W14_of_ne m ρ c main_arg26 (by decide)).trans <|
  (W13_of m ρ c main_arg26 (by decide)).trans <|
  (W12_of_ne m ρ c main_arg26 (by decide)).trans <|
  (W11_of m ρ c main_arg26 (by decide)).trans <|
  (W10_of_ne m ρ c main_arg26 (by decide)).trans <|
  (W9_of m ρ c main_arg26 (by decide)).trans <|
  (W8_of_ne m ρ c main_arg26 (by decide)).trans <|
  (W7_of m ρ c main_arg26 (by decide)).trans <|
  (W6_of_ne m ρ c main_arg26 (by decide)).trans <|
  (W5_of m ρ c main_arg26 (by decide)).trans <|
  (W4_of_ne m ρ c main_arg26 (by decide)).trans <|
  (W3_of m ρ c main_arg26 (by decide)).trans <|
  (W2_of_ne m ρ c main_arg26 (by decide)).trans <|
  (W1_of m ρ c main_arg26 (by decide)).trans <| rfl
theorem W14_main_arg27 (c : Dev nD) : W14 m ρ c (Proc.devRef .tc main_arg27) = m ((c : Thread nD τ).loc main_arg27) :=
  (W14_of_ne m ρ c main_arg27 (by decide)).trans <|
  (W13_of m ρ c main_arg27 (by decide)).trans <|
  (W12_of_ne m ρ c main_arg27 (by decide)).trans <|
  (W11_of m ρ c main_arg27 (by decide)).trans <|
  (W10_of_ne m ρ c main_arg27 (by decide)).trans <|
  (W9_of m ρ c main_arg27 (by decide)).trans <|
  (W8_of_ne m ρ c main_arg27 (by decide)).trans <|
  (W7_of m ρ c main_arg27 (by decide)).trans <|
  (W6_of_ne m ρ c main_arg27 (by decide)).trans <|
  (W5_of m ρ c main_arg27 (by decide)).trans <|
  (W4_of_ne m ρ c main_arg27 (by decide)).trans <|
  (W3_of m ρ c main_arg27 (by decide)).trans <|
  (W2_of_ne m ρ c main_arg27 (by decide)).trans <|
  (W1_of m ρ c main_arg27 (by decide)).trans <| rfl
theorem W14_main_arg28 (c : Dev nD) : W14 m ρ c (Proc.devRef .tc main_arg28) = m ((c : Thread nD τ).loc main_arg28) :=
  (W14_of_ne m ρ c main_arg28 (by decide)).trans <|
  (W13_of m ρ c main_arg28 (by decide)).trans <|
  (W12_of_ne m ρ c main_arg28 (by decide)).trans <|
  (W11_of m ρ c main_arg28 (by decide)).trans <|
  (W10_of_ne m ρ c main_arg28 (by decide)).trans <|
  (W9_of m ρ c main_arg28 (by decide)).trans <|
  (W8_of_ne m ρ c main_arg28 (by decide)).trans <|
  (W7_of m ρ c main_arg28 (by decide)).trans <|
  (W6_of_ne m ρ c main_arg28 (by decide)).trans <|
  (W5_of m ρ c main_arg28 (by decide)).trans <|
  (W4_of_ne m ρ c main_arg28 (by decide)).trans <|
  (W3_of m ρ c main_arg28 (by decide)).trans <|
  (W2_of_ne m ρ c main_arg28 (by decide)).trans <|
  (W1_of m ρ c main_arg28 (by decide)).trans <| rfl
theorem W14_main_arg29 (c : Dev nD) : W14 m ρ c (Proc.devRef .tc main_arg29) = m ((c : Thread nD τ).loc main_arg29) :=
  (W14_of_ne m ρ c main_arg29 (by decide)).trans <|
  (W13_of m ρ c main_arg29 (by decide)).trans <|
  (W12_of_ne m ρ c main_arg29 (by decide)).trans <|
  (W11_of m ρ c main_arg29 (by decide)).trans <|
  (W10_of_ne m ρ c main_arg29 (by decide)).trans <|
  (W9_of m ρ c main_arg29 (by decide)).trans <|
  (W8_of_ne m ρ c main_arg29 (by decide)).trans <|
  (W7_of m ρ c main_arg29 (by decide)).trans <|
  (W6_of_ne m ρ c main_arg29 (by decide)).trans <|
  (W5_of m ρ c main_arg29 (by decide)).trans <|
  (W4_of_ne m ρ c main_arg29 (by decide)).trans <|
  (W3_of m ρ c main_arg29 (by decide)).trans <|
  (W2_of_ne m ρ c main_arg29 (by decide)).trans <|
  (W1_of m ρ c main_arg29 (by decide)).trans <| rfl
theorem W14_main_arg30 (c : Dev nD) : W14 m ρ c (Proc.devRef .tc main_arg30) = m ((c : Thread nD τ).loc main_arg30) :=
  (W14_of_ne m ρ c main_arg30 (by decide)).trans <|
  (W13_of m ρ c main_arg30 (by decide)).trans <|
  (W12_of_ne m ρ c main_arg30 (by decide)).trans <|
  (W11_of m ρ c main_arg30 (by decide)).trans <|
  (W10_of_ne m ρ c main_arg30 (by decide)).trans <|
  (W9_of m ρ c main_arg30 (by decide)).trans <|
  (W8_of_ne m ρ c main_arg30 (by decide)).trans <|
  (W7_of m ρ c main_arg30 (by decide)).trans <|
  (W6_of_ne m ρ c main_arg30 (by decide)).trans <|
  (W5_of m ρ c main_arg30 (by decide)).trans <|
  (W4_of_ne m ρ c main_arg30 (by decide)).trans <|
  (W3_of m ρ c main_arg30 (by decide)).trans <|
  (W2_of_ne m ρ c main_arg30 (by decide)).trans <|
  (W1_of m ρ c main_arg30 (by decide)).trans <| rfl
theorem W14_main_arg31 (c : Dev nD) : W14 m ρ c (Proc.devRef .tc main_arg31) = m ((c : Thread nD τ).loc main_arg31) :=
  (W14_of_ne m ρ c main_arg31 (by decide)).trans <|
  (W13_of m ρ c main_arg31 (by decide)).trans <|
  ((W12_arr m ρ c 8).trans (((dat5 (V11 m ρ) c).arrAt_in 8 rfl _).trans (A_eq5 (V11 m ρ) c 8))).trans <|
  (W11_of m ρ c main_arg31 (by decide)).trans <|
  (W10_of_ne m ρ c main_arg31 (by decide)).trans <|
  (W9_of m ρ c main_arg31 (by decide)).trans <|
  (W8_of_ne m ρ c main_arg31 (by decide)).trans <|
  (W7_of m ρ c main_arg31 (by decide)).trans <|
  (W6_of_ne m ρ c main_arg31 (by decide)).trans <|
  (W5_of m ρ c main_arg31 (by decide)).trans <|
  (W4_of_ne m ρ c main_arg31 (by decide)).trans <|
  (W3_of m ρ c main_arg31 (by decide)).trans <|
  (W2_of_ne m ρ c main_arg31 (by decide)).trans <|
  (W1_of m ρ c main_arg31 (by decide)).trans <| rfl
theorem W14_main_arg32 (c : Dev nD) : W14 m ρ c (Proc.devRef .tc main_arg32) = m ((c : Thread nD τ).loc main_arg32) :=
  (W14_of_ne m ρ c main_arg32 (by decide)).trans <|
  (W13_of m ρ c main_arg32 (by decide)).trans <|
  ((W12_arr m ρ c 9).trans (((dat5 (V11 m ρ) c).arrAt_in 9 rfl _).trans (A_eq5 (V11 m ρ) c 9))).trans <|
  (W11_of m ρ c main_arg32 (by decide)).trans <|
  (W10_of_ne m ρ c main_arg32 (by decide)).trans <|
  (W9_of m ρ c main_arg32 (by decide)).trans <|
  (W8_of_ne m ρ c main_arg32 (by decide)).trans <|
  (W7_of m ρ c main_arg32 (by decide)).trans <|
  (W6_of_ne m ρ c main_arg32 (by decide)).trans <|
  (W5_of m ρ c main_arg32 (by decide)).trans <|
  (W4_of_ne m ρ c main_arg32 (by decide)).trans <|
  (W3_of m ρ c main_arg32 (by decide)).trans <|
  (W2_of_ne m ρ c main_arg32 (by decide)).trans <|
  (W1_of m ρ c main_arg32 (by decide)).trans <| rfl
theorem W14_main_arg33 (c : Dev nD) : W14 m ρ c (Proc.devRef .tc main_arg33) = m ((c : Thread nD τ).loc main_arg33) :=
  (W14_of_ne m ρ c main_arg33 (by decide)).trans <|
  (W13_of m ρ c main_arg33 (by decide)).trans <|
  (W12_of_ne m ρ c main_arg33 (by decide)).trans <|
  (W11_of m ρ c main_arg33 (by decide)).trans <|
  (W10_of_ne m ρ c main_arg33 (by decide)).trans <|
  (W9_of m ρ c main_arg33 (by decide)).trans <|
  (W8_of_ne m ρ c main_arg33 (by decide)).trans <|
  (W7_of m ρ c main_arg33 (by decide)).trans <|
  (W6_of_ne m ρ c main_arg33 (by decide)).trans <|
  (W5_of m ρ c main_arg33 (by decide)).trans <|
  (W4_of_ne m ρ c main_arg33 (by decide)).trans <|
  (W3_of m ρ c main_arg33 (by decide)).trans <|
  (W2_of_ne m ρ c main_arg33 (by decide)).trans <|
  (W1_of m ρ c main_arg33 (by decide)).trans <| rfl
theorem W14_main_arg34 (c : Dev nD) : W14 m ρ c (Proc.devRef .tc main_arg34) = m ((c : Thread nD τ).loc main_arg34) :=
  (W14_of_ne m ρ c main_arg34 (by decide)).trans <|
  (W13_of m ρ c main_arg34 (by decide)).trans <|
  (W12_of_ne m ρ c main_arg34 (by decide)).trans <|
  (W11_of m ρ c main_arg34 (by decide)).trans <|
  (W10_of_ne m ρ c main_arg34 (by decide)).trans <|
  (W9_of m ρ c main_arg34 (by decide)).trans <|
  (W8_of_ne m ρ c main_arg34 (by decide)).trans <|
  (W7_of m ρ c main_arg34 (by decide)).trans <|
  (W6_of_ne m ρ c main_arg34 (by decide)).trans <|
  (W5_of m ρ c main_arg34 (by decide)).trans <|
  (W4_of_ne m ρ c main_arg34 (by decide)).trans <|
  (W3_of m ρ c main_arg34 (by decide)).trans <|
  (W2_of_ne m ρ c main_arg34 (by decide)).trans <|
  (W1_of m ρ c main_arg34 (by decide)).trans <| rfl
theorem W14_main_arg35 (c : Dev nD) : W14 m ρ c (Proc.devRef .tc main_arg35) = m ((c : Thread nD τ).loc main_arg35) :=
  ((W14_arr m ρ c 1).trans (((dat6 (V13 m ρ) c).arrAt_in 1 rfl _).trans (A_eq6 (V13 m ρ) c 1))).trans <|
  (W13_of m ρ c main_arg35 (by decide)).trans <|
  (W12_of_ne m ρ c main_arg35 (by decide)).trans <|
  (W11_of m ρ c main_arg35 (by decide)).trans <|
  (W10_of_ne m ρ c main_arg35 (by decide)).trans <|
  (W9_of m ρ c main_arg35 (by decide)).trans <|
  (W8_of_ne m ρ c main_arg35 (by decide)).trans <|
  (W7_of m ρ c main_arg35 (by decide)).trans <|
  (W6_of_ne m ρ c main_arg35 (by decide)).trans <|
  (W5_of m ρ c main_arg35 (by decide)).trans <|
  (W4_of_ne m ρ c main_arg35 (by decide)).trans <|
  (W3_of m ρ c main_arg35 (by decide)).trans <|
  (W2_of_ne m ρ c main_arg35 (by decide)).trans <|
  (W1_of m ρ c main_arg35 (by decide)).trans <| rfl
theorem W14_main_arg36 (c : Dev nD) : W14 m ρ c (Proc.devRef .tc main_arg36) = m ((c : Thread nD τ).loc main_arg36) :=
  (W14_of_ne m ρ c main_arg36 (by decide)).trans <|
  (W13_of m ρ c main_arg36 (by decide)).trans <|
  (W12_of_ne m ρ c main_arg36 (by decide)).trans <|
  (W11_of m ρ c main_arg36 (by decide)).trans <|
  (W10_of_ne m ρ c main_arg36 (by decide)).trans <|
  (W9_of m ρ c main_arg36 (by decide)).trans <|
  (W8_of_ne m ρ c main_arg36 (by decide)).trans <|
  (W7_of m ρ c main_arg36 (by decide)).trans <|
  (W6_of_ne m ρ c main_arg36 (by decide)).trans <|
  (W5_of m ρ c main_arg36 (by decide)).trans <|
  (W4_of_ne m ρ c main_arg36 (by decide)).trans <|
  (W3_of m ρ c main_arg36 (by decide)).trans <|
  (W2_of_ne m ρ c main_arg36 (by decide)).trans <|
  (W1_of m ρ c main_arg36 (by decide)).trans <| rfl

/-! ## The proof data family and what rides beside the buffers -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and its dues at nothing. -/
abbrev R (c : Dev nD) : sProp 𝕄 := iprop((∃ r, prngReg c r) ∗ ∃ W, owes (c : Thread nD τ) (0 : CellTallies nD τ sig Unit) W)
/-- A stretch of host operations as a segment, from the contents W, with R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W14 m ρ c) ∗ ∃ r, prngReg c r)

end Cert.KernelIdeal.Hand

end
-- ==== Proof.KI.Reg0.lean ====
/-
  Region 0 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Region 3 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/-
  Region 4 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
/-
  Region 5 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
/-
  Region 6 as an item of the run: entered with every unscoped buffer of the core at the contents before it and left
  with them at the contents after it. On entry the region's arrays are split out of the unscoped buffers and the
  generator register goes into the pipeline's invariant; on exit the arrays go back, the outputs at what the
  write-backs left, and the register comes out. The kernel has no semaphore of its own and nothing is owed.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/-
  The frame: from any launch memory with zero counters, every weakly fair execution of the program on the
  TensorCores terminates without a fault and leaves each of the 37 argument arrays holding its launch contents.
  The program is the run of its 14 items in order — a segment of host operations from each boundary's contents, a
  region record per kernel launch —; the launch theorem for such a list gives the run, the last thread state is read
  against the final memory, and each argument's buffer there is its launch contents because the fold through the
  boundaries never writes it.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Reg0
import proofs.«106078_j59889023976011_1_alg».proof.Proof.KI.Reg1
import proofs.«106078_j59889023976011_1_alg».proof.Proof.KI.Reg2
import proofs.«106078_j59889023976011_1_alg».proof.Proof.KI.Reg3
import proofs.«106078_j59889023976011_1_alg».proof.Proof.KI.Reg4
import proofs.«106078_j59889023976011_1_alg».proof.Proof.KI.Reg5
import proofs.«106078_j59889023976011_1_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's 14 items in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

/-- The program IS the run of the items: it is the chain of the items' programs, and so is the run. -/
theorem main_run (c : Dev nD) : main (F := F) c = Pipeline.Seg.run (segs m ρ) := by
  rw [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()) ] from rfl]

set_option backward.isDefEq.respectTransparency.types false in
/-- The run with everything it leaves: every weakly fair execution terminates without a fault, and in every final
    state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W14 m ρ c) ∗ R c)
          ⊢ iprop(Tₙ m ρ c ∗ ∃ W, owes (c : Thread nD τ) (0 : CellTallies nD τ sig Unit) W)
        iintro ⟨Hh, Hp, HO⟩
        isplitr [HO]
        · isplitl [Hh]; · iexact Hh
          iexact Hp
        · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The frame: the run's post weakened to the 37 arguments, each buffer read back through the fold to its launch
    contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun s h c =>
      ⟨(h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c),
       (h c _ (mem_uc main_arg27 (by decide))).trans (W14_main_arg27 m ρ c),
       (h c _ (mem_uc main_arg28 (by decide))).trans (W14_main_arg28 m ρ c),
       (h c _ (mem_uc main_arg29 (by decide))).trans (W14_main_arg29 m ρ c),
       (h c _ (mem_uc main_arg30 (by decide))).trans (W14_main_arg30 m ρ c),
       (h c _ (mem_uc main_arg31 (by decide))).trans (W14_main_arg31 m ρ c),
       (h c _ (mem_uc main_arg32 (by decide))).trans (W14_main_arg32 m ρ c),
       (h c _ (mem_uc main_arg33 (by decide))).trans (W14_main_arg33 m ρ c),
       (h c _ (mem_uc main_arg34 (by decide))).trans (W14_main_arg34 m ρ c),
       (h c _ (mem_uc main_arg35 (by decide))).trans (W14_main_arg35 m ρ c),
       (h c _ (mem_uc main_arg36 (by decide))).trans (W14_main_arg36 m ρ c)⟩)
    (run_all m ρ)

end Cert.KernelIdeal.Hand

end
-- ==== Proof.RefOps.lean ====
/-
  The reference program, a host program with no kernel launch, and its frame.

  Its 353 operations in order (a called function's operations standing at its call), cut into 6 consecutive pieces;
  the program is their sequence. Every weakly fair execution of such a program terminates with each buffer at the
  fold of the operations over the launch contents. Each operation writes only the result it names, and no result is
  an argument: so each argument's buffer, read through the fold, is its launch contents.
-/
import proofs.«106078_j59889023976011_1_alg».proof.Defs
import proofs.«106078_j59889023976011_1_alg».proof.Proof.Gen.ReferenceIdeal
import proofs.«106078_j59889023976011_1_alg».proof.Proof.Gen.Pre_finite_inputs
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- Operations 1 to 60. -/
abbrev ops0 : List (HloOp τ sig (Elt F)) :=
  ( reshape main_arg0 main_v0 rfl shapeCasts_S50000x96_S50000x3x32
  :: unary main_arg5 main_v1 (broadcastInDim S1x3x32 ![1, 2] bcast_S3x32_S1x3x32_1_2 : (⟨S3x32, .f32⟩ : BufTy).Contents (Elt F) → (⟨S1x3x32, .f32⟩ : BufTy).Contents (Elt F))
  :: unary main_v1 main_v2 (broadcastInDim S50000x3x32 ![0, 1, 2] bcast_S1x3x32_S50000x3x32_0_1_2 : (⟨S1x3x32, .f32⟩ : BufTy).Contents (Elt F) → (⟨S50000x3x32, .f32⟩ : BufTy).Contents (Elt F))
  :: binary main_v0 main_v2 main_v3 (addf : (⟨S50000x3x32, .f32⟩ : BufTy).Contents (Elt F) → (⟨S50000x3x32, .f32⟩ : BufTy).Contents (Elt F) → (⟨S50000x3x32, .f32⟩ : BufTy).Contents (Elt F))
  :: reshape main_v3 main_v4 rfl shapeCasts_S50000x3x32_S50000x96
  :: binary main_v4 main_arg8 main_v5 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F))
  :: binary main_v4 main_arg6 main_v6 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F))
  :: unary main_arg1 main_v7 ((extractStridedSlice S1x640000 ![0, 0] · slices_S2x640000_S1x640000_0_0) : (⟨S2x640000, .i32⟩ : BufTy).Contents (Elt F) → (⟨S1x640000, .i32⟩ : BufTy).Contents (Elt F))
  :: reshape main_v7 main_v8 rfl shapeCasts_S1x640000_S640000
  :: unary main_arg1 main_v9 ((extractStridedSlice S1x640000 ![1, 0] · slices_S2x640000_S1x640000_1_0) : (⟨S2x640000, .i32⟩ : BufTy).Contents (Elt F) → (⟨S1x640000, .i32⟩ : BufTy).Contents (Elt F))
  :: reshape main_v9 main_v10 rfl shapeCasts_S1x640000_S640000
  :: unary main_arg2 main_v11 (broadcastInDim S640000x1 ![0] bcast_S640000_S640000x1_0 : (⟨S640000, .f32⟩ : BufTy).Contents (Elt F) → (⟨S640000x1, .f32⟩ : BufTy).Contents (Elt F))
  :: nullary main_c (constantI S_ 32 0#32)
  :: unary main_c main_v12 (broadcastInDim S640000 ![] bcast_S_S640000 : (⟨S_, .i32⟩ : BufTy).Contents (Elt F) → (⟨S640000, .i32⟩ : BufTy).Contents (Elt F))
  :: binary main_v8 main_v12 main_v13 (cmpi .slt : (⟨S640000, .i32⟩ : BufTy).Contents (Elt F) → (⟨S640000, .i32⟩ : BufTy).Contents (Elt F) → (⟨S640000, .i1⟩ : BufTy).Contents (Elt F))
  :: nullary main_c_0 (constantI S_ 32 50000#32)
  :: unary main_c_0 main_v14 (broadcastInDim S640000 ![] bcast_S_S640000 : (⟨S_, .i32⟩ : BufTy).Contents (Elt F) → (⟨S640000, .i32⟩ : BufTy).Contents (Elt F))
  :: binary main_v8 main_v14 main_v15 (addi : (⟨S640000, .i32⟩ : BufTy).Contents (Elt F) → (⟨S640000, .i32⟩ : BufTy).Contents (Elt F) → (⟨S640000, .i32⟩ : BufTy).Contents (Elt F))
  :: ternary main_v13 main_v15 main_v8 main_v16 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v16 main_v17 (broadcastInDim S640000x1 ![0] bcast_S640000_S640000x1_0 : (⟨S640000, .i32⟩ : BufTy).Contents (Elt F) → (⟨S640000x1, .i32⟩ : BufTy).Contents (Elt F))
  :: binary main_v6 main_v17 main_v18 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v11 main_v19 (broadcastInDim S640000x128 ![0, 1] bcast_S640000x1_S640000x128_0_1 : (⟨S640000x1, .f32⟩ : BufTy).Contents (Elt F) → (⟨S640000x128, .f32⟩ : BufTy).Contents (Elt F))
  :: binary main_v19 main_v18 main_v20 (mulf : (⟨S640000x128, .f32⟩ : BufTy).Contents (Elt F) → (⟨S640000x128, .f32⟩ : BufTy).Contents (Elt F) → (⟨S640000x128, .f32⟩ : BufTy).Contents (Elt F))
  :: nullary main_cst (constant S_ .f32 0x00000000#32)
  :: unary main_cst main_v21 (broadcastInDim S50000x128 ![] bcast_S_S50000x128 : (⟨S_, .f32⟩ : BufTy).Contents (Elt F) → (⟨S50000x128, .f32⟩ : BufTy).Contents (Elt F))
  :: unary main_v10 main_v22 (broadcastInDim S640000x1 ![0] bcast_S640000_S640000x1_0 : (⟨S640000, .i32⟩ : BufTy).Contents (Elt F) → (⟨S640000x1, .i32⟩ : BufTy).Contents (Elt F))
  :: ternary main_v21 main_v22 main_v20 main_v23 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg9 main_v24 (broadcastInDim S1x128 ![1] bcast_S128_S1x128_1 : (⟨S128, .f32⟩ : BufTy).Contents (Elt F) → (⟨S1x128, .f32⟩ : BufTy).Contents (Elt F))
  :: unary main_v24 main_v25 (broadcastInDim S50000x128 ![0, 1] bcast_S1x128_S50000x128_0_1 : (⟨S1x128, .f32⟩ : BufTy).Contents (Elt F) → (⟨S50000x128, .f32⟩ : BufTy).Contents (Elt F))
  :: binary main_v23 main_v25 main_v26 (addf : (⟨S50000x128, .f32⟩ : BufTy).Contents (Elt F) → (⟨S50000x128, .f32⟩ : BufTy).Contents (Elt F) → (⟨S50000x128, .f32⟩ : BufTy).Contents (Elt F))
  :: unary main_arg1 main_v27 ((extractStridedSlice S1x640000 ![0, 0] · slices_S2x640000_S1x640000_0_0) : (⟨S2x640000, .i32⟩ : BufTy).Contents (Elt F) → (⟨S1x640000, .i32⟩ : BufTy).Contents (Elt F))
  :: reshape main_v27 main_v28 rfl shapeCasts_S1x640000_S640000
  :: unary main_arg1 main_v29 ((extractStridedSlice S1x640000 ![1, 0] · slices_S2x640000_S1x640000_1_0) : (⟨S2x640000, .i32⟩ : BufTy).Contents (Elt F) → (⟨S1x640000, .i32⟩ : BufTy).Contents (Elt F))
  :: reshape main_v29 main_v30 rfl shapeCasts_S1x640000_S640000
  :: unary main_arg2 main_v31 (broadcastInDim S640000x1 ![0] bcast_S640000_S640000x1_0 : (⟨S640000, .f32⟩ : BufTy).Contents (Elt F) → (⟨S640000x1, .f32⟩ : BufTy).Contents (Elt F))
  :: nullary main_c_1 (constantI S_ 32 0#32)
  :: unary main_c_1 main_v32 (broadcastInDim S640000 ![] bcast_S_S640000 : (⟨S_, .i32⟩ : BufTy).Contents (Elt F) → (⟨S640000, .i32⟩ : BufTy).Contents (Elt F))
  :: binary main_v28 main_v32 main_v33 (cmpi .slt : (⟨S640000, .i32⟩ : BufTy).Contents (Elt F) → (⟨S640000, .i32⟩ : BufTy).Contents (Elt F) → (⟨S640000, .i1⟩ : BufTy).Contents (Elt F))
  :: nullary main_c_2 (constantI S_ 32 50000#32)
  :: unary main_c_2 main_v34 (broadcastInDim S640000 ![] bcast_S_S640000 : (⟨S_, .i32⟩ : BufTy).Contents (Elt F) → (⟨S640000, .i32⟩ : BufTy).Contents (Elt F))
  :: binary main_v28 main_v34 main_v35 (addi : (⟨S640000, .i32⟩ : BufTy).Contents (Elt F) → (⟨S640000, .i32⟩ : BufTy).Contents (Elt F) → (⟨S640000, .i32⟩ : BufTy).Contents (Elt F))
  :: ternary main_v33 main_v35 main_v28 main_v36 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v36 main_v37 (broadcastInDim S640000x1 ![0] bcast_S640000_S640000x1_0 : (⟨S640000, .i32⟩ : BufTy).Contents (Elt F) → (⟨S640000x1, .i32⟩ : BufTy).Contents (Elt F))
  :: binary main_v5 main_v37 main_v38 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v31 main_v39 (broadcastInDim S640000x128 ![0, 1] bcast_S640000x1_S640000x128_0_1 : (⟨S640000x1, .f32⟩ : BufTy).Contents (Elt F) → (⟨S640000x128, .f32⟩ : BufTy).Contents (Elt F))
  :: binary main_v39 main_v38 main_v40 (mulf : (⟨S640000x128, .f32⟩ : BufTy).Contents (Elt F) → (⟨S640000x128, .f32⟩ : BufTy).Contents (Elt F) → (⟨S640000x128, .f32⟩ : BufTy).Contents (Elt F))
  :: nullary main_cst_3 (constant S_ .f32 0x00000000#32)
  :: unary main_cst_3 main_v41 (broadcastInDim S50000x128 ![] bcast_S_S50000x128 : (⟨S_, .f32⟩ : BufTy).Contents (Elt F) → (⟨S50000x128, .f32⟩ : BufTy).Contents (Elt F))
  :: unary main_v30 main_v42 (broadcastInDim S640000x1 ![0] bcast_S640000_S640000x1_0 : (⟨S640000, .i32⟩ : BufTy).Contents (Elt F) → (⟨S640000x1, .i32⟩ : BufTy).Contents (Elt F))
  :: ternary main_v41 main_v42 main_v40 main_v43 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v26 main_v43 main_v44 (addf : (⟨S50000x128, .f32⟩ : BufTy).Contents (Elt F) → (⟨S50000x128, .f32⟩ : BufTy).Contents (Elt F) → (⟨S50000x128, .f32⟩ : BufTy).Contents (Elt F))
  :: unary main_arg11 main_v45 (broadcastInDim S1x128 ![1] bcast_S128_S1x128_1 : (⟨S128, .f32⟩ : BufTy).Contents (Elt F) → (⟨S1x128, .f32⟩ : BufTy).Contents (Elt F))
  :: unary main_v45 main_v46 (broadcastInDim S50000x128 ![0, 1] bcast_S1x128_S50000x128_0_1 : (⟨S1x128, .f32⟩ : BufTy).Contents (Elt F) → (⟨S50000x128, .f32⟩ : BufTy).Contents (Elt F))
  :: binary main_v44 main_v46 main_v47 (addf : (⟨S50000x128, .f32⟩ : BufTy).Contents (Elt F) → (⟨S50000x128, .f32⟩ : BufTy).Contents (Elt F) → (⟨S50000x128, .f32⟩ : BufTy).Contents (Elt F))
  :: binary main_v4 main_arg7 main_v48 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F))
  :: unary main_arg3 main_v49 ((extractStridedSlice S1x640000 ![0, 0] · slices_S2x640000_S1x640000_0_0) : (⟨S2x640000, .i32⟩ : BufTy).Contents (Elt F) → (⟨S1x640000, .i32⟩ : BufTy).Contents (Elt F))
  :: reshape main_v49 main_v50 rfl shapeCasts_S1x640000_S640000
  :: unary main_arg3 main_v51 ((extractStridedSlice S1x640000 ![1, 0] · slices_S2x640000_S1x640000_1_0) : (⟨S2x640000, .i32⟩ : BufTy).Contents (Elt F) → (⟨S1x640000, .i32⟩ : BufTy).Contents (Elt F))
  :: reshape main_v51 main_v52 rfl shapeCasts_S1x640000_S640000
  :: unary main_arg4 main_v53 (broadcastInDim S640000x1 ![0] bcast_S640000_S640000x1_0 : (⟨S640000, .f32⟩ : BufTy).Contents (Elt F) → (⟨S640000x1, .f32⟩ : BufTy).Contents (Elt F))
  :: [])
theorem ops0_sub : (ops0 : List (HloOp τ sig (Elt F))).Forall fun op => op.bufs ⊆ tcRefs τ sig :=
  ⟨reshape_bufs_sub .., unary_bufs_sub .., unary_bufs_sub .., binary_bufs_sub .., reshape_bufs_sub .., binary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., reshape_bufs_sub .., unary_bufs_sub .., reshape_bufs_sub .., unary_bufs_sub ..⟩
theorem ops0_fresh : (ops0 : List (HloOp τ sig (Elt F))).Forall fun op => op.fresh = ∅ := by
  simp only [List.Forall]; repeat' constructor

/-- Operations 61 to 120. -/
abbrev ops1 : List (HloOp τ sig (Elt F)) :=
  ( nullary main_c_4 (constantI S_ 32 0#32)
  :: unary main_c_4 main_v54 (broadcastInDim S640000 ![] bcast_S_S640000 : (⟨S_, .i32⟩ : BufTy).Contents (Elt F) → (⟨S640000, .i32⟩ : BufTy).Contents (Elt F))
  :: binary main_v50 main_v54 main_v55 (cmpi .slt : (⟨S640000, .i32⟩ : BufTy).Contents (Elt F) → (⟨S640000, .i32⟩ : BufTy).Contents (Elt F) → (⟨S640000, .i1⟩ : BufTy).Contents (Elt F))
  :: nullary main_c_5 (constantI S_ 32 50000#32)
  :: unary main_c_5 main_v56 (broadcastInDim S640000 ![] bcast_S_S640000 : (⟨S_, .i32⟩ : BufTy).Contents (Elt F) → (⟨S640000, .i32⟩ : BufTy).Contents (Elt F))
  :: binary main_v50 main_v56 main_v57 (addi : (⟨S640000, .i32⟩ : BufTy).Contents (Elt F) → (⟨S640000, .i32⟩ : BufTy).Contents (Elt F) → (⟨S640000, .i32⟩ : BufTy).Contents (Elt F))
  :: ternary main_v55 main_v57 main_v50 main_v58 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v58 main_v59 (broadcastInDim S640000x1 ![0] bcast_S640000_S640000x1_0 : (⟨S640000, .i32⟩ : BufTy).Contents (Elt F) → (⟨S640000x1, .i32⟩ : BufTy).Contents (Elt F))
  :: binary main_v48 main_v59 main_v60 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v53 main_v61 (broadcastInDim S640000x128 ![0, 1] bcast_S640000x1_S640000x128_0_1 : (⟨S640000x1, .f32⟩ : BufTy).Contents (Elt F) → (⟨S640000x128, .f32⟩ : BufTy).Contents (Elt F))
  :: binary main_v61 main_v60 main_v62 (mulf : (⟨S640000x128, .f32⟩ : BufTy).Contents (Elt F) → (⟨S640000x128, .f32⟩ : BufTy).Contents (Elt F) → (⟨S640000x128, .f32⟩ : BufTy).Contents (Elt F))
  :: nullary main_cst_6 (constant S_ .f32 0x00000000#32)
  :: unary main_cst_6 main_v63 (broadcastInDim S50000x128 ![] bcast_S_S50000x128 : (⟨S_, .f32⟩ : BufTy).Contents (Elt F) → (⟨S50000x128, .f32⟩ : BufTy).Contents (Elt F))
  :: unary main_v52 main_v64 (broadcastInDim S640000x1 ![0] bcast_S640000_S640000x1_0 : (⟨S640000, .i32⟩ : BufTy).Contents (Elt F) → (⟨S640000x1, .i32⟩ : BufTy).Contents (Elt F))
  :: ternary main_v63 main_v64 main_v62 main_v65 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg10 main_v66 (broadcastInDim S1x128 ![1] bcast_S128_S1x128_1 : (⟨S128, .f32⟩ : BufTy).Contents (Elt F) → (⟨S1x128, .f32⟩ : BufTy).Contents (Elt F))
  :: unary main_v66 main_v67 (broadcastInDim S50000x128 ![0, 1] bcast_S1x128_S50000x128_0_1 : (⟨S1x128, .f32⟩ : BufTy).Contents (Elt F) → (⟨S50000x128, .f32⟩ : BufTy).Contents (Elt F))
  :: binary main_v65 main_v67 main_v68 (addf : (⟨S50000x128, .f32⟩ : BufTy).Contents (Elt F) → (⟨S50000x128, .f32⟩ : BufTy).Contents (Elt F) → (⟨S50000x128, .f32⟩ : BufTy).Contents (Elt F))
  :: unary main_arg3 main_v69 ((extractStridedSlice S1x640000 ![0, 0] · slices_S2x640000_S1x640000_0_0) : (⟨S2x640000, .i32⟩ : BufTy).Contents (Elt F) → (⟨S1x640000, .i32⟩ : BufTy).Contents (Elt F))
  :: reshape main_v69 main_v70 rfl shapeCasts_S1x640000_S640000
  :: unary main_arg3 main_v71 ((extractStridedSlice S1x640000 ![1, 0] · slices_S2x640000_S1x640000_1_0) : (⟨S2x640000, .i32⟩ : BufTy).Contents (Elt F) → (⟨S1x640000, .i32⟩ : BufTy).Contents (Elt F))
  :: reshape main_v71 main_v72 rfl shapeCasts_S1x640000_S640000
  :: unary main_arg4 main_v73 (broadcastInDim S640000x1 ![0] bcast_S640000_S640000x1_0 : (⟨S640000, .f32⟩ : BufTy).Contents (Elt F) → (⟨S640000x1, .f32⟩ : BufTy).Contents (Elt F))
  :: nullary main_c_7 (constantI S_ 32 0#32)
  :: unary main_c_7 main_v74 (broadcastInDim S640000 ![] bcast_S_S640000 : (⟨S_, .i32⟩ : BufTy).Contents (Elt F) → (⟨S640000, .i32⟩ : BufTy).Contents (Elt F))
  :: binary main_v70 main_v74 main_v75 (cmpi .slt : (⟨S640000, .i32⟩ : BufTy).Contents (Elt F) → (⟨S640000, .i32⟩ : BufTy).Contents (Elt F) → (⟨S640000, .i1⟩ : BufTy).Contents (Elt F))
  :: nullary main_c_8 (constantI S_ 32 50000#32)
  :: unary main_c_8 main_v76 (broadcastInDim S640000 ![] bcast_S_S640000 : (⟨S_, .i32⟩ : BufTy).Contents (Elt F) → (⟨S640000, .i32⟩ : BufTy).Contents (Elt F))
  :: binary main_v70 main_v76 main_v77 (addi : (⟨S640000, .i32⟩ : BufTy).Contents (Elt F) → (⟨S640000, .i32⟩ : BufTy).Contents (Elt F) → (⟨S640000, .i32⟩ : BufTy).Contents (Elt F))
  :: ternary main_v75 main_v77 main_v70 main_v78 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v78 main_v79 (broadcastInDim S640000x1 ![0] bcast_S640000_S640000x1_0 : (⟨S640000, .i32⟩ : BufTy).Contents (Elt F) → (⟨S640000x1, .i32⟩ : BufTy).Contents (Elt F))
  :: binary main_v5 main_v79 main_v80 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v73 main_v81 (broadcastInDim S640000x128 ![0, 1] bcast_S640000x1_S640000x128_0_1 : (⟨S640000x1, .f32⟩ : BufTy).Contents (Elt F) → (⟨S640000x128, .f32⟩ : BufTy).Contents (Elt F))
  :: binary main_v81 main_v80 main_v82 (mulf : (⟨S640000x128, .f32⟩ : BufTy).Contents (Elt F) → (⟨S640000x128, .f32⟩ : BufTy).Contents (Elt F) → (⟨S640000x128, .f32⟩ : BufTy).Contents (Elt F))
  :: nullary main_cst_9 (constant S_ .f32 0x00000000#32)
  :: unary main_cst_9 main_v83 (broadcastInDim S50000x128 ![] bcast_S_S50000x128 : (⟨S_, .f32⟩ : BufTy).Contents (Elt F) → (⟨S50000x128, .f32⟩ : BufTy).Contents (Elt F))
  :: unary main_v72 main_v84 (broadcastInDim S640000x1 ![0] bcast_S640000_S640000x1_0 : (⟨S640000, .i32⟩ : BufTy).Contents (Elt F) → (⟨S640000x1, .i32⟩ : BufTy).Contents (Elt F))
  :: ternary main_v83 main_v84 main_v82 main_v85 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v68 main_v85 main_v86 (addf : (⟨S50000x128, .f32⟩ : BufTy).Contents (Elt F) → (⟨S50000x128, .f32⟩ : BufTy).Contents (Elt F) → (⟨S50000x128, .f32⟩ : BufTy).Contents (Elt F))
  :: unary main_arg12 main_v87 (broadcastInDim S1x128 ![1] bcast_S128_S1x128_1 : (⟨S128, .f32⟩ : BufTy).Contents (Elt F) → (⟨S1x128, .f32⟩ : BufTy).Contents (Elt F))
  :: unary main_v87 main_v88 (broadcastInDim S50000x128 ![0, 1] bcast_S1x128_S50000x128_0_1 : (⟨S1x128, .f32⟩ : BufTy).Contents (Elt F) → (⟨S50000x128, .f32⟩ : BufTy).Contents (Elt F))
  :: binary main_v86 main_v88 main_v89 (addf : (⟨S50000x128, .f32⟩ : BufTy).Contents (Elt F) → (⟨S50000x128, .f32⟩ : BufTy).Contents (Elt F) → (⟨S50000x128, .f32⟩ : BufTy).Contents (Elt F))
  :: unary main_arg13 main_v90 (broadcastInDim S50000x128 ![0, 1] bcast_S50000x1_S50000x128_0_1 : (⟨S50000x1, .f32⟩ : BufTy).Contents (Elt F) → (⟨S50000x128, .f32⟩ : BufTy).Contents (Elt F))
  :: binary main_v90 main_v47 main_v91 (mulf : (⟨S50000x128, .f32⟩ : BufTy).Contents (Elt F) → (⟨S50000x128, .f32⟩ : BufTy).Contents (Elt F) → (⟨S50000x128, .f32⟩ : BufTy).Contents (Elt F))
  :: unary main_arg14 main_v92 (broadcastInDim S50000x128 ![0, 1] bcast_S50000x1_S50000x128_0_1 : (⟨S50000x1, .f32⟩ : BufTy).Contents (Elt F) → (⟨S50000x128, .f32⟩ : BufTy).Contents (Elt F))
  :: binary main_v92 main_v89 main_v93 (mulf : (⟨S50000x128, .f32⟩ : BufTy).Contents (Elt F) → (⟨S50000x128, .f32⟩ : BufTy).Contents (Elt F) → (⟨S50000x128, .f32⟩ : BufTy).Contents (Elt F))
  :: binary main_v91 main_v93 main_v94 (addf : (⟨S50000x128, .f32⟩ : BufTy).Contents (Elt F) → (⟨S50000x128, .f32⟩ : BufTy).Contents (Elt F) → (⟨S50000x128, .f32⟩ : BufTy).Contents (Elt F))
  :: binary main_v4 main_arg33 main_v95 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F))
  :: unary main_arg34 main_v96 (broadcastInDim S1x128 ![1] bcast_S128_S1x128_1 : (⟨S128, .f32⟩ : BufTy).Contents (Elt F) → (⟨S1x128, .f32⟩ : BufTy).Contents (Elt F))
  :: unary main_v96 main_v97 (broadcastInDim S50000x128 ![0, 1] bcast_S1x128_S50000x128_0_1 : (⟨S1x128, .f32⟩ : BufTy).Contents (Elt F) → (⟨S50000x128, .f32⟩ : BufTy).Contents (Elt F))
  :: binary main_v95 main_v97 main_v98 (addf : (⟨S50000x128, .f32⟩ : BufTy).Contents (Elt F) → (⟨S50000x128, .f32⟩ : BufTy).Contents (Elt F) → (⟨S50000x128, .f32⟩ : BufTy).Contents (Elt F))
  :: binary main_v94 main_v98 main_v99 (addf : (⟨S50000x128, .f32⟩ : BufTy).Contents (Elt F) → (⟨S50000x128, .f32⟩ : BufTy).Contents (Elt F) → (⟨S50000x128, .f32⟩ : BufTy).Contents (Elt F))
  :: TRef.nullary (TRef.of (T := ⟨S_, .f32⟩) main_call0_cst) (constant S_ .f32 0x00000000#32)
  :: TRef.unary (TRef.of (T := ⟨S_, .f32⟩) main_call0_cst) (TRef.of (T := ⟨S50000x128, .f32⟩) main_call0_v0) (broadcastInDim S50000x128 ![] bcast_S_S50000x128)
  :: TRef.binary (TRef.of (T := ⟨S50000x128, .f32⟩) main_v99) (TRef.of (T := ⟨S50000x128, .f32⟩) main_call0_v0) (TRef.of (T := ⟨S50000x128, .f32⟩) main_v100) maximumf
  :: binary main_v100 main_arg17 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v100 main_arg15 main_v102 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg1 main_v103 ((extractStridedSlice S1x640000 ![0, 0] · slices_S2x640000_S1x640000_0_0) : (⟨S2x640000, .i32⟩ : BufTy).Contents (Elt F) → (⟨S1x640000, .i32⟩ : BufTy).Contents (Elt F))
  :: reshape main_v103 main_v104 rfl shapeCasts_S1x640000_S640000
  :: unary main_arg1 main_v105 ((extractStridedSlice S1x640000 ![1, 0] · slices_S2x640000_S1x640000_1_0) : (⟨S2x640000, .i32⟩ : BufTy).Contents (Elt F) → (⟨S1x640000, .i32⟩ : BufTy).Contents (Elt F))
  :: [])
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., unary_bufs_sub .., binary_bufs_sub .., unary_bufs_sub .., binary_bufs_sub .., binary_bufs_sub .., binary_bufs_sub .., unary_bufs_sub .., unary_bufs_sub .., binary_bufs_sub .., binary_bufs_sub .., nullary_bufs_sub .., unary_bufs_sub .., binary_bufs_sub .., binary_bufs_sub .., binary_bufs_sub .., unary_bufs_sub .., reshape_bufs_sub .., unary_bufs_sub ..⟩
theorem ops1_fresh : (ops1 : List (HloOp τ sig (Elt F))).Forall fun op => op.fresh = ∅ := by
  simp only [List.Forall]; repeat' constructor

/-- Operations 121 to 180. -/
abbrev ops2 : List (HloOp τ sig (Elt F)) :=
  ( reshape main_v105 main_v106 rfl shapeCasts_S1x640000_S640000
  :: unary main_arg2 main_v107 (broadcastInDim S640000x1 ![0] bcast_S640000_S640000x1_0 : (⟨S640000, .f32⟩ : BufTy).Contents (Elt F) → (⟨S640000x1, .f32⟩ : BufTy).Contents (Elt F))
  :: nullary main_c_10 (constantI S_ 32 0#32)
  :: unary main_c_10 main_v108 (broadcastInDim S640000 ![] bcast_S_S640000 : (⟨S_, .i32⟩ : BufTy).Contents (Elt F) → (⟨S640000, .i32⟩ : BufTy).Contents (Elt F))
  :: binary main_v104 main_v108 main_v109 (cmpi .slt : (⟨S640000, .i32⟩ : BufTy).Contents (Elt F) → (⟨S640000, .i32⟩ : BufTy).Contents (Elt F) → (⟨S640000, .i1⟩ : BufTy).Contents (Elt F))
  :: nullary main_c_11 (constantI S_ 32 50000#32)
  :: unary main_c_11 main_v110 (broadcastInDim S640000 ![] bcast_S_S640000 : (⟨S_, .i32⟩ : BufTy).Contents (Elt F) → (⟨S640000, .i32⟩ : BufTy).Contents (Elt F))
  :: binary main_v104 main_v110 main_v111 (addi : (⟨S640000, .i32⟩ : BufTy).Contents (Elt F) → (⟨S640000, .i32⟩ : BufTy).Contents (Elt F) → (⟨S640000, .i32⟩ : BufTy).Contents (Elt F))
  :: ternary main_v109 main_v111 main_v104 main_v112 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v112 main_v113 (broadcastInDim S640000x1 ![0] bcast_S640000_S640000x1_0 : (⟨S640000, .i32⟩ : BufTy).Contents (Elt F) → (⟨S640000x1, .i32⟩ : BufTy).Contents (Elt F))
  :: binary main_v102 main_v113 main_v114 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v107 main_v115 (broadcastInDim S640000x128 ![0, 1] bcast_S640000x1_S640000x128_0_1 : (⟨S640000x1, .f32⟩ : BufTy).Contents (Elt F) → (⟨S640000x128, .f32⟩ : BufTy).Contents (Elt F))
  :: binary main_v115 main_v114 main_v116 (mulf : (⟨S640000x128, .f32⟩ : BufTy).Contents (Elt F) → (⟨S640000x128, .f32⟩ : BufTy).Contents (Elt F) → (⟨S640000x128, .f32⟩ : BufTy).Contents (Elt F))
  :: nullary main_cst_12 (constant S_ .f32 0x00000000#32)
  :: unary main_cst_12 main_v117 (broadcastInDim S50000x128 ![] bcast_S_S50000x128 : (⟨S_, .f32⟩ : BufTy).Contents (Elt F) → (⟨S50000x128, .f32⟩ : BufTy).Contents (Elt F))
  :: unary main_v106 main_v118 (broadcastInDim S640000x1 ![0] bcast_S640000_S640000x1_0 : (⟨S640000, .i32⟩ : BufTy).Contents (Elt F) → (⟨S640000x1, .i32⟩ : BufTy).Contents (Elt F))
  :: ternary main_v117 main_v118 main_v116 main_v119 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg18 main_v120 (broadcastInDim S1x128 ![1] bcast_S128_S1x128_1 : (⟨S128, .f32⟩ : BufTy).Contents (Elt F) → (⟨S1x128, .f32⟩ : BufTy).Contents (Elt F))
  :: unary main_v120 main_v121 (broadcastInDim S50000x128 ![0, 1] bcast_S1x128_S50000x128_0_1 : (⟨S1x128, .f32⟩ : BufTy).Contents (Elt F) → (⟨S50000x128, .f32⟩ : BufTy).Contents (Elt F))
  :: binary main_v119 main_v121 main_v122 (addf : (⟨S50000x128, .f32⟩ : BufTy).Contents (Elt F) → (⟨S50000x128, .f32⟩ : BufTy).Contents (Elt F) → (⟨S50000x128, .f32⟩ : BufTy).Contents (Elt F))
  :: unary main_arg1 main_v123 ((extractStridedSlice S1x640000 ![0, 0] · slices_S2x640000_S1x640000_0_0) : (⟨S2x640000, .i32⟩ : BufTy).Contents (Elt F) → (⟨S1x640000, .i32⟩ : BufTy).Contents (Elt F))
  :: reshape main_v123 main_v124 rfl shapeCasts_S1x640000_S640000
  :: unary main_arg1 main_v125 ((extractStridedSlice S1x640000 ![1, 0] · slices_S2x640000_S1x640000_1_0) : (⟨S2x640000, .i32⟩ : BufTy).Contents (Elt F) → (⟨S1x640000, .i32⟩ : BufTy).Contents (Elt F))
  :: reshape main_v125 main_v126 rfl shapeCasts_S1x640000_S640000
  :: unary main_arg2 main_v127 (broadcastInDim S640000x1 ![0] bcast_S640000_S640000x1_0 : (⟨S640000, .f32⟩ : BufTy).Contents (Elt F) → (⟨S640000x1, .f32⟩ : BufTy).Contents (Elt F))
  :: nullary main_c_13 (constantI S_ 32 0#32)
  :: unary main_c_13 main_v128 (broadcastInDim S640000 ![] bcast_S_S640000 : (⟨S_, .i32⟩ : BufTy).Contents (Elt F) → (⟨S640000, .i32⟩ : BufTy).Contents (Elt F))
  :: binary main_v124 main_v128 main_v129 (cmpi .slt : (⟨S640000, .i32⟩ : BufTy).Contents (Elt F) → (⟨S640000, .i32⟩ : BufTy).Contents (Elt F) → (⟨S640000, .i1⟩ : BufTy).Contents (Elt F))
  :: nullary main_c_14 (constantI S_ 32 50000#32)
  :: unary main_c_14 main_v130 (broadcastInDim S640000 ![] bcast_S_S640000 : (⟨S_, .i32⟩ : BufTy).Contents (Elt F) → (⟨S640000, .i32⟩ : BufTy).Contents (Elt F))
  :: binary main_v124 main_v130 main_v131 (addi : (⟨S640000, .i32⟩ : BufTy).Contents (Elt F) → (⟨S640000, .i32⟩ : BufTy).Contents (Elt F) → (⟨S640000, .i32⟩ : BufTy).Contents (Elt F))
  :: ternary main_v129 main_v131 main_v124 main_v132 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v132 main_v133 (broadcastInDim S640000x1 ![0] bcast_S640000_S640000x1_0 : (⟨S640000, .i32⟩ : BufTy).Contents (Elt F) → (⟨S640000x1, .i32⟩ : BufTy).Contents (Elt F))
  :: binary main_v101 main_v133 main_v134 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v127 main_v135 (broadcastInDim S640000x128 ![0, 1] bcast_S640000x1_S640000x128_0_1 : (⟨S640000x1, .f32⟩ : BufTy).Contents (Elt F) → (⟨S640000x128, .f32⟩ : BufTy).Contents (Elt F))
  :: binary main_v135 main_v134 main_v136 (mulf : (⟨S640000x128, .f32⟩ : BufTy).Contents (Elt F) → (⟨S640000x128, .f32⟩ : BufTy).Contents (Elt F) → (⟨S640000x128, .f32⟩ : BufTy).Contents (Elt F))
  :: nullary main_cst_15 (constant S_ .f32 0x00000000#32)
  :: unary main_cst_15 main_v137 (broadcastInDim S50000x128 ![] bcast_S_S50000x128 : (⟨S_, .f32⟩ : BufTy).Contents (Elt F) → (⟨S50000x128, .f32⟩ : BufTy).Contents (Elt F))
  :: unary main_v126 main_v138 (broadcastInDim S640000x1 ![0] bcast_S640000_S640000x1_0 : (⟨S640000, .i32⟩ : BufTy).Contents (Elt F) → (⟨S640000x1, .i32⟩ : BufTy).Contents (Elt F))
  :: ternary main_v137 main_v138 main_v136 main_v139 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v122 main_v139 main_v140 (addf : (⟨S50000x128, .f32⟩ : BufTy).Contents (Elt F) → (⟨S50000x128, .f32⟩ : BufTy).Contents (Elt F) → (⟨S50000x128, .f32⟩ : BufTy).Contents (Elt F))
  :: unary main_arg20 main_v141 (broadcastInDim S1x128 ![1] bcast_S128_S1x128_1 : (⟨S128, .f32⟩ : BufTy).Contents (Elt F) → (⟨S1x128, .f32⟩ : BufTy).Contents (Elt F))
  :: unary main_v141 main_v142 (broadcastInDim S50000x128 ![0, 1] bcast_S1x128_S50000x128_0_1 : (⟨S1x128, .f32⟩ : BufTy).Contents (Elt F) → (⟨S50000x128, .f32⟩ : BufTy).Contents (Elt F))
  :: binary main_v140 main_v142 main_v143 (addf : (⟨S50000x128, .f32⟩ : BufTy).Contents (Elt F) → (⟨S50000x128, .f32⟩ : BufTy).Contents (Elt F) → (⟨S50000x128, .f32⟩ : BufTy).Contents (Elt F))
  :: binary main_v100 main_arg16 main_v144 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg3 main_v145 ((extractStridedSlice S1x640000 ![0, 0] · slices_S2x640000_S1x640000_0_0) : (⟨S2x640000, .i32⟩ : BufTy).Contents (Elt F) → (⟨S1x640000, .i32⟩ : BufTy).Contents (Elt F))
  :: reshape main_v145 main_v146 rfl shapeCasts_S1x640000_S640000
  :: unary main_arg3 main_v147 ((extractStridedSlice S1x640000 ![1, 0] · slices_S2x640000_S1x640000_1_0) : (⟨S2x640000, .i32⟩ : BufTy).Contents (Elt F) → (⟨S1x640000, .i32⟩ : BufTy).Contents (Elt F))
  :: reshape main_v147 main_v148 rfl shapeCasts_S1x640000_S640000
  :: unary main_arg4 main_v149 (broadcastInDim S640000x1 ![0] bcast_S640000_S640000x1_0 : (⟨S640000, .f32⟩ : BufTy).Contents (Elt F) → (⟨S640000x1, .f32⟩ : BufTy).Contents (Elt F))
  :: nullary main_c_16 (constantI S_ 32 0#32)
  :: unary main_c_16 main_v150 (broadcastInDim S640000 ![] bcast_S_S640000 : (⟨S_, .i32⟩ : BufTy).Contents (Elt F) → (⟨S640000, .i32⟩ : BufTy).Contents (Elt F))
  :: binary main_v146 main_v150 main_v151 (cmpi .slt : (⟨S640000, .i32⟩ : BufTy).Contents (Elt F) → (⟨S640000, .i32⟩ : BufTy).Contents (Elt F) → (⟨S640000, .i1⟩ : BufTy).Contents (Elt F))
  :: nullary main_c_17 (constantI S_ 32 50000#32)
  :: unary main_c_17 main_v152 (broadcastInDim S640000 ![] bcast_S_S640000 : (⟨S_, .i32⟩ : BufTy).Contents (Elt F) → (⟨S640000, .i32⟩ : BufTy).Contents (Elt F))
  :: binary main_v146 main_v152 main_v153 (addi : (⟨S640000, .i32⟩ : BufTy).Contents (Elt F) → (⟨S640000, .i32⟩ : BufTy).Contents (Elt F) → (⟨S640000, .i32⟩ : BufTy).Contents (Elt F))
  :: ternary main_v151 main_v153 main_v146 main_v154 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v154 main_v155 (broadcastInDim S640000x1 ![0] bcast_S640000_S640000x1_0 : (⟨S640000, .i32⟩ : BufTy).Contents (Elt F) → (⟨S640000x1, .i32⟩ : BufTy).Contents (Elt F))
  :: binary main_v144 main_v155 main_v156 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v149 main_v157 (broadcastInDim S640000x128 ![0, 1] bcast_S640000x1_S640000x128_0_1 : (⟨S640000x1, .f32⟩ : BufTy).Contents (Elt F) → (⟨S640000x128, .f32⟩ : BufTy).Contents (Elt F))
  :: [])
theorem ops2_sub : (ops2 : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩
theorem ops2_fresh : (ops2 : List (HloOp τ sig (Elt F))).Forall fun op => op.fresh = ∅ := by
  simp only [List.Forall]; repeat' constructor

/-- Operations 181 to 240. -/
abbrev ops3 : List (HloOp τ sig (Elt F)) :=
  ( binary main_v157 main_v156 main_v158 (mulf : (⟨S640000x128, .f32⟩ : BufTy).Contents (Elt F) → (⟨S640000x128, .f32⟩ : BufTy).Contents (Elt F) → (⟨S640000x128, .f32⟩ : BufTy).Contents (Elt F))
  :: nullary main_cst_18 (constant S_ .f32 0x00000000#32)
  :: unary main_cst_18 main_v159 (broadcastInDim S50000x128 ![] bcast_S_S50000x128 : (⟨S_, .f32⟩ : BufTy).Contents (Elt F) → (⟨S50000x128, .f32⟩ : BufTy).Contents (Elt F))
  :: unary main_v148 main_v160 (broadcastInDim S640000x1 ![0] bcast_S640000_S640000x1_0 : (⟨S640000, .i32⟩ : BufTy).Contents (Elt F) → (⟨S640000x1, .i32⟩ : BufTy).Contents (Elt F))
  :: ternary main_v159 main_v160 main_v158 main_v161 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg19 main_v162 (broadcastInDim S1x128 ![1] bcast_S128_S1x128_1 : (⟨S128, .f32⟩ : BufTy).Contents (Elt F) → (⟨S1x128, .f32⟩ : BufTy).Contents (Elt F))
  :: unary main_v162 main_v163 (broadcastInDim S50000x128 ![0, 1] bcast_S1x128_S50000x128_0_1 : (⟨S1x128, .f32⟩ : BufTy).Contents (Elt F) → (⟨S50000x128, .f32⟩ : BufTy).Contents (Elt F))
  :: binary main_v161 main_v163 main_v164 (addf : (⟨S50000x128, .f32⟩ : BufTy).Contents (Elt F) → (⟨S50000x128, .f32⟩ : BufTy).Contents (Elt F) → (⟨S50000x128, .f32⟩ : BufTy).Contents (Elt F))
  :: unary main_arg3 main_v165 ((extractStridedSlice S1x640000 ![0, 0] · slices_S2x640000_S1x640000_0_0) : (⟨S2x640000, .i32⟩ : BufTy).Contents (Elt F) → (⟨S1x640000, .i32⟩ : BufTy).Contents (Elt F))
  :: reshape main_v165 main_v166 rfl shapeCasts_S1x640000_S640000
  :: unary main_arg3 main_v167 ((extractStridedSlice S1x640000 ![1, 0] · slices_S2x640000_S1x640000_1_0) : (⟨S2x640000, .i32⟩ : BufTy).Contents (Elt F) → (⟨S1x640000, .i32⟩ : BufTy).Contents (Elt F))
  :: reshape main_v167 main_v168 rfl shapeCasts_S1x640000_S640000
  :: unary main_arg4 main_v169 (broadcastInDim S640000x1 ![0] bcast_S640000_S640000x1_0 : (⟨S640000, .f32⟩ : BufTy).Contents (Elt F) → (⟨S640000x1, .f32⟩ : BufTy).Contents (Elt F))
  :: nullary main_c_19 (constantI S_ 32 0#32)
  :: unary main_c_19 main_v170 (broadcastInDim S640000 ![] bcast_S_S640000 : (⟨S_, .i32⟩ : BufTy).Contents (Elt F) → (⟨S640000, .i32⟩ : BufTy).Contents (Elt F))
  :: binary main_v166 main_v170 main_v171 (cmpi .slt : (⟨S640000, .i32⟩ : BufTy).Contents (Elt F) → (⟨S640000, .i32⟩ : BufTy).Contents (Elt F) → (⟨S640000, .i1⟩ : BufTy).Contents (Elt F))
  :: nullary main_c_20 (constantI S_ 32 50000#32)
  :: unary main_c_20 main_v172 (broadcastInDim S640000 ![] bcast_S_S640000 : (⟨S_, .i32⟩ : BufTy).Contents (Elt F) → (⟨S640000, .i32⟩ : BufTy).Contents (Elt F))
  :: binary main_v166 main_v172 main_v173 (addi : (⟨S640000, .i32⟩ : BufTy).Contents (Elt F) → (⟨S640000, .i32⟩ : BufTy).Contents (Elt F) → (⟨S640000, .i32⟩ : BufTy).Contents (Elt F))
  :: ternary main_v171 main_v173 main_v166 main_v174 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v174 main_v175 (broadcastInDim S640000x1 ![0] bcast_S640000_S640000x1_0 : (⟨S640000, .i32⟩ : BufTy).Contents (Elt F) → (⟨S640000x1, .i32⟩ : BufTy).Contents (Elt F))
  :: binary main_v101 main_v175 main_v176 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v169 main_v177 (broadcastInDim S640000x128 ![0, 1] bcast_S640000x1_S640000x128_0_1 : (⟨S640000x1, .f32⟩ : BufTy).Contents (Elt F) → (⟨S640000x128, .f32⟩ : BufTy).Contents (Elt F))
  :: binary main_v177 main_v176 main_v178 (mulf : (⟨S640000x128, .f32⟩ : BufTy).Contents (Elt F) → (⟨S640000x128, .f32⟩ : BufTy).Contents (Elt F) → (⟨S640000x128, .f32⟩ : BufTy).Contents (Elt F))
  :: nullary main_cst_21 (constant S_ .f32 0x00000000#32)
  :: unary main_cst_21 main_v179 (broadcastInDim S50000x128 ![] bcast_S_S50000x128 : (⟨S_, .f32⟩ : BufTy).Contents (Elt F) → (⟨S50000x128, .f32⟩ : BufTy).Contents (Elt F))
  :: unary main_v168 main_v180 (broadcastInDim S640000x1 ![0] bcast_S640000_S640000x1_0 : (⟨S640000, .i32⟩ : BufTy).Contents (Elt F) → (⟨S640000x1, .i32⟩ : BufTy).Contents (Elt F))
  :: ternary main_v179 main_v180 main_v178 main_v181 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v164 main_v181 main_v182 (addf : (⟨S50000x128, .f32⟩ : BufTy).Contents (Elt F) → (⟨S50000x128, .f32⟩ : BufTy).Contents (Elt F) → (⟨S50000x128, .f32⟩ : BufTy).Contents (Elt F))
  :: unary main_arg21 main_v183 (broadcastInDim S1x128 ![1] bcast_S128_S1x128_1 : (⟨S128, .f32⟩ : BufTy).Contents (Elt F) → (⟨S1x128, .f32⟩ : BufTy).Contents (Elt F))
  :: unary main_v183 main_v184 (broadcastInDim S50000x128 ![0, 1] bcast_S1x128_S50000x128_0_1 : (⟨S1x128, .f32⟩ : BufTy).Contents (Elt F) → (⟨S50000x128, .f32⟩ : BufTy).Contents (Elt F))
  :: binary main_v182 main_v184 main_v185 (addf : (⟨S50000x128, .f32⟩ : BufTy).Contents (Elt F) → (⟨S50000x128, .f32⟩ : BufTy).Contents (Elt F) → (⟨S50000x128, .f32⟩ : BufTy).Contents (Elt F))
  :: unary main_arg22 main_v186 (broadcastInDim S50000x128 ![0, 1] bcast_S50000x1_S50000x128_0_1 : (⟨S50000x1, .f32⟩ : BufTy).Contents (Elt F) → (⟨S50000x128, .f32⟩ : BufTy).Contents (Elt F))
  :: binary main_v186 main_v143 main_v187 (mulf : (⟨S50000x128, .f32⟩ : BufTy).Contents (Elt F) → (⟨S50000x128, .f32⟩ : BufTy).Contents (Elt F) → (⟨S50000x128, .f32⟩ : BufTy).Contents (Elt F))
  :: unary main_arg23 main_v188 (broadcastInDim S50000x128 ![0, 1] bcast_S50000x1_S50000x128_0_1 : (⟨S50000x1, .f32⟩ : BufTy).Contents (Elt F) → (⟨S50000x128, .f32⟩ : BufTy).Contents (Elt F))
  :: binary main_v188 main_v185 main_v189 (mulf : (⟨S50000x128, .f32⟩ : BufTy).Contents (Elt F) → (⟨S50000x128, .f32⟩ : BufTy).Contents (Elt F) → (⟨S50000x128, .f32⟩ : BufTy).Contents (Elt F))
  :: binary main_v187 main_v189 main_v190 (addf : (⟨S50000x128, .f32⟩ : BufTy).Contents (Elt F) → (⟨S50000x128, .f32⟩ : BufTy).Contents (Elt F) → (⟨S50000x128, .f32⟩ : BufTy).Contents (Elt F))
  :: binary main_v190 main_v100 main_v191 (addf : (⟨S50000x128, .f32⟩ : BufTy).Contents (Elt F) → (⟨S50000x128, .f32⟩ : BufTy).Contents (Elt F) → (⟨S50000x128, .f32⟩ : BufTy).Contents (Elt F))
  :: TRef.nullary (TRef.of (T := ⟨S_, .f32⟩) main_call1_cst) (constant S_ .f32 0x00000000#32)
  :: TRef.unary (TRef.of (T := ⟨S_, .f32⟩) main_call1_cst) (TRef.of (T := ⟨S50000x128, .f32⟩) main_call1_v0) (broadcastInDim S50000x128 ![] bcast_S_S50000x128)
  :: TRef.binary (TRef.of (T := ⟨S50000x128, .f32⟩) main_v191) (TRef.of (T := ⟨S50000x128, .f32⟩) main_call1_v0) (TRef.of (T := ⟨S50000x128, .f32⟩) main_v192) maximumf
  :: binary main_v192 main_arg26 main_v193 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v192 main_arg24 main_v194 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg1 main_v195 ((extractStridedSlice S1x640000 ![0, 0] · slices_S2x640000_S1x640000_0_0) : (⟨S2x640000, .i32⟩ : BufTy).Contents (Elt F) → (⟨S1x640000, .i32⟩ : BufTy).Contents (Elt F))
  :: reshape main_v195 main_v196 rfl shapeCasts_S1x640000_S640000
  :: unary main_arg1 main_v197 ((extractStridedSlice S1x640000 ![1, 0] · slices_S2x640000_S1x640000_1_0) : (⟨S2x640000, .i32⟩ : BufTy).Contents (Elt F) → (⟨S1x640000, .i32⟩ : BufTy).Contents (Elt F))
  :: reshape main_v197 main_v198 rfl shapeCasts_S1x640000_S640000
  :: unary main_arg2 main_v199 (broadcastInDim S640000x1 ![0] bcast_S640000_S640000x1_0 : (⟨S640000, .f32⟩ : BufTy).Contents (Elt F) → (⟨S640000x1, .f32⟩ : BufTy).Contents (Elt F))
  :: nullary main_c_22 (constantI S_ 32 0#32)
  :: unary main_c_22 main_v200 (broadcastInDim S640000 ![] bcast_S_S640000 : (⟨S_, .i32⟩ : BufTy).Contents (Elt F) → (⟨S640000, .i32⟩ : BufTy).Contents (Elt F))
  :: binary main_v196 main_v200 main_v201 (cmpi .slt : (⟨S640000, .i32⟩ : BufTy).Contents (Elt F) → (⟨S640000, .i32⟩ : BufTy).Contents (Elt F) → (⟨S640000, .i1⟩ : BufTy).Contents (Elt F))
  :: nullary main_c_23 (constantI S_ 32 50000#32)
  :: unary main_c_23 main_v202 (broadcastInDim S640000 ![] bcast_S_S640000 : (⟨S_, .i32⟩ : BufTy).Contents (Elt F) → (⟨S640000, .i32⟩ : BufTy).Contents (Elt F))
  :: binary main_v196 main_v202 main_v203 (addi : (⟨S640000, .i32⟩ : BufTy).Contents (Elt F) → (⟨S640000, .i32⟩ : BufTy).Contents (Elt F) → (⟨S640000, .i32⟩ : BufTy).Contents (Elt F))
  :: ternary main_v201 main_v203 main_v196 main_v204 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v204 main_v205 (broadcastInDim S640000x1 ![0] bcast_S640000_S640000x1_0 : (⟨S640000, .i32⟩ : BufTy).Contents (Elt F) → (⟨S640000x1, .i32⟩ : BufTy).Contents (Elt F))
  :: binary main_v194 main_v205 main_v206 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v199 main_v207 (broadcastInDim S640000x128 ![0, 1] bcast_S640000x1_S640000x128_0_1 : (⟨S640000x1, .f32⟩ : BufTy).Contents (Elt F) → (⟨S640000x128, .f32⟩ : BufTy).Contents (Elt F))
  :: binary main_v207 main_v206 main_v208 (mulf : (⟨S640000x128, .f32⟩ : BufTy).Contents (Elt F) → (⟨S640000x128, .f32⟩ : BufTy).Contents (Elt F) → (⟨S640000x128, .f32⟩ : BufTy).Contents (Elt F))
  :: nullary main_cst_24 (constant S_ .f32 0x00000000#32)
  :: [])
theorem ops3_sub : (ops3 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., unary_bufs_sub .., binary_bufs_sub .., unary_bufs_sub .., binary_bufs_sub .., binary_bufs_sub .., binary_bufs_sub .., nullary_bufs_sub .., unary_bufs_sub .., binary_bufs_sub .., binary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub ..⟩
theorem ops3_fresh : (ops3 : List (HloOp τ sig (Elt F))).Forall fun op => op.fresh = ∅ := by
  simp only [List.Forall]; repeat' constructor

/-- Operations 241 to 300. -/
abbrev ops4 : List (HloOp τ sig (Elt F)) :=
  ( unary main_cst_24 main_v209 (broadcastInDim S50000x128 ![] bcast_S_S50000x128 : (⟨S_, .f32⟩ : BufTy).Contents (Elt F) → (⟨S50000x128, .f32⟩ : BufTy).Contents (Elt F))
  :: unary main_v198 main_v210 (broadcastInDim S640000x1 ![0] bcast_S640000_S640000x1_0 : (⟨S640000, .i32⟩ : BufTy).Contents (Elt F) → (⟨S640000x1, .i32⟩ : BufTy).Contents (Elt F))
  :: ternary main_v209 main_v210 main_v208 main_v211 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg27 main_v212 (broadcastInDim S1x128 ![1] bcast_S128_S1x128_1 : (⟨S128, .f32⟩ : BufTy).Contents (Elt F) → (⟨S1x128, .f32⟩ : BufTy).Contents (Elt F))
  :: unary main_v212 main_v213 (broadcastInDim S50000x128 ![0, 1] bcast_S1x128_S50000x128_0_1 : (⟨S1x128, .f32⟩ : BufTy).Contents (Elt F) → (⟨S50000x128, .f32⟩ : BufTy).Contents (Elt F))
  :: binary main_v211 main_v213 main_v214 (addf : (⟨S50000x128, .f32⟩ : BufTy).Contents (Elt F) → (⟨S50000x128, .f32⟩ : BufTy).Contents (Elt F) → (⟨S50000x128, .f32⟩ : BufTy).Contents (Elt F))
  :: unary main_arg1 main_v215 ((extractStridedSlice S1x640000 ![0, 0] · slices_S2x640000_S1x640000_0_0) : (⟨S2x640000, .i32⟩ : BufTy).Contents (Elt F) → (⟨S1x640000, .i32⟩ : BufTy).Contents (Elt F))
  :: reshape main_v215 main_v216 rfl shapeCasts_S1x640000_S640000
  :: unary main_arg1 main_v217 ((extractStridedSlice S1x640000 ![1, 0] · slices_S2x640000_S1x640000_1_0) : (⟨S2x640000, .i32⟩ : BufTy).Contents (Elt F) → (⟨S1x640000, .i32⟩ : BufTy).Contents (Elt F))
  :: reshape main_v217 main_v218 rfl shapeCasts_S1x640000_S640000
  :: unary main_arg2 main_v219 (broadcastInDim S640000x1 ![0] bcast_S640000_S640000x1_0 : (⟨S640000, .f32⟩ : BufTy).Contents (Elt F) → (⟨S640000x1, .f32⟩ : BufTy).Contents (Elt F))
  :: nullary main_c_25 (constantI S_ 32 0#32)
  :: unary main_c_25 main_v220 (broadcastInDim S640000 ![] bcast_S_S640000 : (⟨S_, .i32⟩ : BufTy).Contents (Elt F) → (⟨S640000, .i32⟩ : BufTy).Contents (Elt F))
  :: binary main_v216 main_v220 main_v221 (cmpi .slt : (⟨S640000, .i32⟩ : BufTy).Contents (Elt F) → (⟨S640000, .i32⟩ : BufTy).Contents (Elt F) → (⟨S640000, .i1⟩ : BufTy).Contents (Elt F))
  :: nullary main_c_26 (constantI S_ 32 50000#32)
  :: unary main_c_26 main_v222 (broadcastInDim S640000 ![] bcast_S_S640000 : (⟨S_, .i32⟩ : BufTy).Contents (Elt F) → (⟨S640000, .i32⟩ : BufTy).Contents (Elt F))
  :: binary main_v216 main_v222 main_v223 (addi : (⟨S640000, .i32⟩ : BufTy).Contents (Elt F) → (⟨S640000, .i32⟩ : BufTy).Contents (Elt F) → (⟨S640000, .i32⟩ : BufTy).Contents (Elt F))
  :: ternary main_v221 main_v223 main_v216 main_v224 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v224 main_v225 (broadcastInDim S640000x1 ![0] bcast_S640000_S640000x1_0 : (⟨S640000, .i32⟩ : BufTy).Contents (Elt F) → (⟨S640000x1, .i32⟩ : BufTy).Contents (Elt F))
  :: binary main_v193 main_v225 main_v226 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v219 main_v227 (broadcastInDim S640000x128 ![0, 1] bcast_S640000x1_S640000x128_0_1 : (⟨S640000x1, .f32⟩ : BufTy).Contents (Elt F) → (⟨S640000x128, .f32⟩ : BufTy).Contents (Elt F))
  :: binary main_v227 main_v226 main_v228 (mulf : (⟨S640000x128, .f32⟩ : BufTy).Contents (Elt F) → (⟨S640000x128, .f32⟩ : BufTy).Contents (Elt F) → (⟨S640000x128, .f32⟩ : BufTy).Contents (Elt F))
  :: nullary main_cst_27 (constant S_ .f32 0x00000000#32)
  :: unary main_cst_27 main_v229 (broadcastInDim S50000x128 ![] bcast_S_S50000x128 : (⟨S_, .f32⟩ : BufTy).Contents (Elt F) → (⟨S50000x128, .f32⟩ : BufTy).Contents (Elt F))
  :: unary main_v218 main_v230 (broadcastInDim S640000x1 ![0] bcast_S640000_S640000x1_0 : (⟨S640000, .i32⟩ : BufTy).Contents (Elt F) → (⟨S640000x1, .i32⟩ : BufTy).Contents (Elt F))
  :: ternary main_v229 main_v230 main_v228 main_v231 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v214 main_v231 main_v232 (addf : (⟨S50000x128, .f32⟩ : BufTy).Contents (Elt F) → (⟨S50000x128, .f32⟩ : BufTy).Contents (Elt F) → (⟨S50000x128, .f32⟩ : BufTy).Contents (Elt F))
  :: unary main_arg29 main_v233 (broadcastInDim S1x128 ![1] bcast_S128_S1x128_1 : (⟨S128, .f32⟩ : BufTy).Contents (Elt F) → (⟨S1x128, .f32⟩ : BufTy).Contents (Elt F))
  :: unary main_v233 main_v234 (broadcastInDim S50000x128 ![0, 1] bcast_S1x128_S50000x128_0_1 : (⟨S1x128, .f32⟩ : BufTy).Contents (Elt F) → (⟨S50000x128, .f32⟩ : BufTy).Contents (Elt F))
  :: binary main_v232 main_v234 main_v235 (addf : (⟨S50000x128, .f32⟩ : BufTy).Contents (Elt F) → (⟨S50000x128, .f32⟩ : BufTy).Contents (Elt F) → (⟨S50000x128, .f32⟩ : BufTy).Contents (Elt F))
  :: binary main_v192 main_arg25 main_v236 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg3 main_v237 ((extractStridedSlice S1x640000 ![0, 0] · slices_S2x640000_S1x640000_0_0) : (⟨S2x640000, .i32⟩ : BufTy).Contents (Elt F) → (⟨S1x640000, .i32⟩ : BufTy).Contents (Elt F))
  :: reshape main_v237 main_v238 rfl shapeCasts_S1x640000_S640000
  :: unary main_arg3 main_v239 ((extractStridedSlice S1x640000 ![1, 0] · slices_S2x640000_S1x640000_1_0) : (⟨S2x640000, .i32⟩ : BufTy).Contents (Elt F) → (⟨S1x640000, .i32⟩ : BufTy).Contents (Elt F))
  :: reshape main_v239 main_v240 rfl shapeCasts_S1x640000_S640000
  :: unary main_arg4 main_v241 (broadcastInDim S640000x1 ![0] bcast_S640000_S640000x1_0 : (⟨S640000, .f32⟩ : BufTy).Contents (Elt F) → (⟨S640000x1, .f32⟩ : BufTy).Contents (Elt F))
  :: nullary main_c_28 (constantI S_ 32 0#32)
  :: unary main_c_28 main_v242 (broadcastInDim S640000 ![] bcast_S_S640000 : (⟨S_, .i32⟩ : BufTy).Contents (Elt F) → (⟨S640000, .i32⟩ : BufTy).Contents (Elt F))
  :: binary main_v238 main_v242 main_v243 (cmpi .slt : (⟨S640000, .i32⟩ : BufTy).Contents (Elt F) → (⟨S640000, .i32⟩ : BufTy).Contents (Elt F) → (⟨S640000, .i1⟩ : BufTy).Contents (Elt F))
  :: nullary main_c_29 (constantI S_ 32 50000#32)
  :: unary main_c_29 main_v244 (broadcastInDim S640000 ![] bcast_S_S640000 : (⟨S_, .i32⟩ : BufTy).Contents (Elt F) → (⟨S640000, .i32⟩ : BufTy).Contents (Elt F))
  :: binary main_v238 main_v244 main_v245 (addi : (⟨S640000, .i32⟩ : BufTy).Contents (Elt F) → (⟨S640000, .i32⟩ : BufTy).Contents (Elt F) → (⟨S640000, .i32⟩ : BufTy).Contents (Elt F))
  :: ternary main_v243 main_v245 main_v238 main_v246 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v246 main_v247 (broadcastInDim S640000x1 ![0] bcast_S640000_S640000x1_0 : (⟨S640000, .i32⟩ : BufTy).Contents (Elt F) → (⟨S640000x1, .i32⟩ : BufTy).Contents (Elt F))
  :: binary main_v236 main_v247 main_v248 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v241 main_v249 (broadcastInDim S640000x128 ![0, 1] bcast_S640000x1_S640000x128_0_1 : (⟨S640000x1, .f32⟩ : BufTy).Contents (Elt F) → (⟨S640000x128, .f32⟩ : BufTy).Contents (Elt F))
  :: binary main_v249 main_v248 main_v250 (mulf : (⟨S640000x128, .f32⟩ : BufTy).Contents (Elt F) → (⟨S640000x128, .f32⟩ : BufTy).Contents (Elt F) → (⟨S640000x128, .f32⟩ : BufTy).Contents (Elt F))
  :: nullary main_cst_30 (constant S_ .f32 0x00000000#32)
  :: unary main_cst_30 main_v251 (broadcastInDim S50000x128 ![] bcast_S_S50000x128 : (⟨S_, .f32⟩ : BufTy).Contents (Elt F) → (⟨S50000x128, .f32⟩ : BufTy).Contents (Elt F))
  :: unary main_v240 main_v252 (broadcastInDim S640000x1 ![0] bcast_S640000_S640000x1_0 : (⟨S640000, .i32⟩ : BufTy).Contents (Elt F) → (⟨S640000x1, .i32⟩ : BufTy).Contents (Elt F))
  :: ternary main_v251 main_v252 main_v250 main_v253 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg28 main_v254 (broadcastInDim S1x128 ![1] bcast_S128_S1x128_1 : (⟨S128, .f32⟩ : BufTy).Contents (Elt F) → (⟨S1x128, .f32⟩ : BufTy).Contents (Elt F))
  :: unary main_v254 main_v255 (broadcastInDim S50000x128 ![0, 1] bcast_S1x128_S50000x128_0_1 : (⟨S1x128, .f32⟩ : BufTy).Contents (Elt F) → (⟨S50000x128, .f32⟩ : BufTy).Contents (Elt F))
  :: binary main_v253 main_v255 main_v256 (addf : (⟨S50000x128, .f32⟩ : BufTy).Contents (Elt F) → (⟨S50000x128, .f32⟩ : BufTy).Contents (Elt F) → (⟨S50000x128, .f32⟩ : BufTy).Contents (Elt F))
  :: unary main_arg3 main_v257 ((extractStridedSlice S1x640000 ![0, 0] · slices_S2x640000_S1x640000_0_0) : (⟨S2x640000, .i32⟩ : BufTy).Contents (Elt F) → (⟨S1x640000, .i32⟩ : BufTy).Contents (Elt F))
  :: reshape main_v257 main_v258 rfl shapeCasts_S1x640000_S640000
  :: unary main_arg3 main_v259 ((extractStridedSlice S1x640000 ![1, 0] · slices_S2x640000_S1x640000_1_0) : (⟨S2x640000, .i32⟩ : BufTy).Contents (Elt F) → (⟨S1x640000, .i32⟩ : BufTy).Contents (Elt F))
  :: reshape main_v259 main_v260 rfl shapeCasts_S1x640000_S640000
  :: unary main_arg4 main_v261 (broadcastInDim S640000x1 ![0] bcast_S640000_S640000x1_0 : (⟨S640000, .f32⟩ : BufTy).Contents (Elt F) → (⟨S640000x1, .f32⟩ : BufTy).Contents (Elt F))
  :: nullary main_c_31 (constantI S_ 32 0#32)
  :: [])
theorem ops4_sub : (ops4 : List (HloOp τ sig (Elt F))).Forall fun op => op.bufs ⊆ tcRefs τ sig :=
  ⟨unary_bufs_sub .., unary_bufs_sub .., ternary_bufs_sub .., unary_bufs_sub .., unary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., nullary_bufs_sub ..⟩
theorem ops4_fresh : (ops4 : List (HloOp τ sig (Elt F))).Forall fun op => op.fresh = ∅ := by
  simp only [List.Forall]; repeat' constructor

/-- Operations 301 to 353. -/
abbrev ops5 : List (HloOp τ sig (Elt F)) :=
  ( unary main_c_31 main_v262 (broadcastInDim S640000 ![] bcast_S_S640000 : (⟨S_, .i32⟩ : BufTy).Contents (Elt F) → (⟨S640000, .i32⟩ : BufTy).Contents (Elt F))
  :: binary main_v258 main_v262 main_v263 (cmpi .slt : (⟨S640000, .i32⟩ : BufTy).Contents (Elt F) → (⟨S640000, .i32⟩ : BufTy).Contents (Elt F) → (⟨S640000, .i1⟩ : BufTy).Contents (Elt F))
  :: nullary main_c_32 (constantI S_ 32 50000#32)
  :: unary main_c_32 main_v264 (broadcastInDim S640000 ![] bcast_S_S640000 : (⟨S_, .i32⟩ : BufTy).Contents (Elt F) → (⟨S640000, .i32⟩ : BufTy).Contents (Elt F))
  :: binary main_v258 main_v264 main_v265 (addi : (⟨S640000, .i32⟩ : BufTy).Contents (Elt F) → (⟨S640000, .i32⟩ : BufTy).Contents (Elt F) → (⟨S640000, .i32⟩ : BufTy).Contents (Elt F))
  :: ternary main_v263 main_v265 main_v258 main_v266 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v266 main_v267 (broadcastInDim S640000x1 ![0] bcast_S640000_S640000x1_0 : (⟨S640000, .i32⟩ : BufTy).Contents (Elt F) → (⟨S640000x1, .i32⟩ : BufTy).Contents (Elt F))
  :: binary main_v193 main_v267 main_v268 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v261 main_v269 (broadcastInDim S640000x128 ![0, 1] bcast_S640000x1_S640000x128_0_1 : (⟨S640000x1, .f32⟩ : BufTy).Contents (Elt F) → (⟨S640000x128, .f32⟩ : BufTy).Contents (Elt F))
  :: binary main_v269 main_v268 main_v270 (mulf : (⟨S640000x128, .f32⟩ : BufTy).Contents (Elt F) → (⟨S640000x128, .f32⟩ : BufTy).Contents (Elt F) → (⟨S640000x128, .f32⟩ : BufTy).Contents (Elt F))
  :: nullary main_cst_33 (constant S_ .f32 0x00000000#32)
  :: unary main_cst_33 main_v271 (broadcastInDim S50000x128 ![] bcast_S_S50000x128 : (⟨S_, .f32⟩ : BufTy).Contents (Elt F) → (⟨S50000x128, .f32⟩ : BufTy).Contents (Elt F))
  :: unary main_v260 main_v272 (broadcastInDim S640000x1 ![0] bcast_S640000_S640000x1_0 : (⟨S640000, .i32⟩ : BufTy).Contents (Elt F) → (⟨S640000x1, .i32⟩ : BufTy).Contents (Elt F))
  :: ternary main_v271 main_v272 main_v270 main_v273 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v256 main_v273 main_v274 (addf : (⟨S50000x128, .f32⟩ : BufTy).Contents (Elt F) → (⟨S50000x128, .f32⟩ : BufTy).Contents (Elt F) → (⟨S50000x128, .f32⟩ : BufTy).Contents (Elt F))
  :: unary main_arg30 main_v275 (broadcastInDim S1x128 ![1] bcast_S128_S1x128_1 : (⟨S128, .f32⟩ : BufTy).Contents (Elt F) → (⟨S1x128, .f32⟩ : BufTy).Contents (Elt F))
  :: unary main_v275 main_v276 (broadcastInDim S50000x128 ![0, 1] bcast_S1x128_S50000x128_0_1 : (⟨S1x128, .f32⟩ : BufTy).Contents (Elt F) → (⟨S50000x128, .f32⟩ : BufTy).Contents (Elt F))
  :: binary main_v274 main_v276 main_v277 (addf : (⟨S50000x128, .f32⟩ : BufTy).Contents (Elt F) → (⟨S50000x128, .f32⟩ : BufTy).Contents (Elt F) → (⟨S50000x128, .f32⟩ : BufTy).Contents (Elt F))
  :: unary main_arg31 main_v278 (broadcastInDim S50000x128 ![0, 1] bcast_S50000x1_S50000x128_0_1 : (⟨S50000x1, .f32⟩ : BufTy).Contents (Elt F) → (⟨S50000x128, .f32⟩ : BufTy).Contents (Elt F))
  :: binary main_v278 main_v235 main_v279 (mulf : (⟨S50000x128, .f32⟩ : BufTy).Contents (Elt F) → (⟨S50000x128, .f32⟩ : BufTy).Contents (Elt F) → (⟨S50000x128, .f32⟩ : BufTy).Contents (Elt F))
  :: unary main_arg32 main_v280 (broadcastInDim S50000x128 ![0, 1] bcast_S50000x1_S50000x128_0_1 : (⟨S50000x1, .f32⟩ : BufTy).Contents (Elt F) → (⟨S50000x128, .f32⟩ : BufTy).Contents (Elt F))
  :: binary main_v280 main_v277 main_v281 (mulf : (⟨S50000x128, .f32⟩ : BufTy).Contents (Elt F) → (⟨S50000x128, .f32⟩ : BufTy).Contents (Elt F) → (⟨S50000x128, .f32⟩ : BufTy).Contents (Elt F))
  :: binary main_v279 main_v281 main_v282 (addf : (⟨S50000x128, .f32⟩ : BufTy).Contents (Elt F) → (⟨S50000x128, .f32⟩ : BufTy).Contents (Elt F) → (⟨S50000x128, .f32⟩ : BufTy).Contents (Elt F))
  :: binary main_v282 main_v192 main_v283 (addf : (⟨S50000x128, .f32⟩ : BufTy).Contents (Elt F) → (⟨S50000x128, .f32⟩ : BufTy).Contents (Elt F) → (⟨S50000x128, .f32⟩ : BufTy).Contents (Elt F))
  :: TRef.binary (TRef.of (T := ⟨S50000x128, .f32⟩) main_v283) (TRef.of (T := ⟨S50000x128, .f32⟩) main_v283) (TRef.of (T := ⟨S50000x128, .f32⟩) main_call2_v0) mulf
  :: TRef.nullary (TRef.of (T := ⟨S_, .f32⟩) main_call2_cst) (constant S_ .f32 0x00000000#32)
  :: TRef.binary (TRef.of (T := ⟨S50000x128, .f32⟩) main_call2_v0) (TRef.of (T := ⟨S_, .f32⟩) main_call2_cst) (TRef.of (T := ⟨S50000, .f32⟩) main_call2_v1) (fun x v => Host.reduceAdd x v reducesTo_S50000x128_S50000_d1 h_S_)
  :: TRef.unary (TRef.of (T := ⟨S50000, .f32⟩) main_call2_v1) (TRef.of (T := ⟨S50000x1, .f32⟩) main_call2_v2) (broadcastInDim S50000x1 ![0] bcast_S50000_S50000x1_0)
  :: TRef.unary (TRef.of (T := ⟨S50000x1, .f32⟩) main_call2_v2) (TRef.of (T := ⟨S50000x1, .f32⟩) main_v284) Host.sqrt
  :: nullary main_cst_34 (constant S_ .f32 0x2B8CBCCC#32)
  :: unary main_cst_34 main_v285 (broadcastInDim S50000x1 ![] bcast_S_S50000x1 : (⟨S_, .f32⟩ : BufTy).Contents (Elt F) → (⟨S50000x1, .f32⟩ : BufTy).Contents (Elt F))
  :: binary main_v284 main_v285 main_v286 (maximumf : (⟨S50000x1, .f32⟩ : BufTy).Contents (Elt F) → (⟨S50000x1, .f32⟩ : BufTy).Contents (Elt F) → (⟨S50000x1, .f32⟩ : BufTy).Contents (Elt F))
  :: unary main_v286 main_v287 (broadcastInDim S50000x128 ![0, 1] bcast_S50000x1_S50000x128_0_1 : (⟨S50000x1, .f32⟩ : BufTy).Contents (Elt F) → (⟨S50000x128, .f32⟩ : BufTy).Contents (Elt F))
  :: binary main_v283 main_v287 main_v288 (Host.divf : (⟨S50000x128, .f32⟩ : BufTy).Contents (Elt F) → (⟨S50000x128, .f32⟩ : BufTy).Contents (Elt F) → (⟨S50000x128, .f32⟩ : BufTy).Contents (Elt F))
  :: binary main_v288 main_arg35 main_v289 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
  :: unary main_arg36 main_v290 (broadcastInDim S1x256 ![1] bcast_S256_S1x256_1 : (⟨S256, .f32⟩ : BufTy).Contents (Elt F) → (⟨S1x256, .f32⟩ : BufTy).Contents (Elt F))
  :: unary main_v290 main_v291 (broadcastInDim S50000x256 ![0, 1] bcast_S1x256_S50000x256_0_1 : (⟨S1x256, .f32⟩ : BufTy).Contents (Elt F) → (⟨S50000x256, .f32⟩ : BufTy).Contents (Elt F))
  :: binary main_v289 main_v291 main_v292 (addf : (⟨S50000x256, .f32⟩ : BufTy).Contents (Elt F) → (⟨S50000x256, .f32⟩ : BufTy).Contents (Elt F) → (⟨S50000x256, .f32⟩ : BufTy).Contents (Elt F))
  :: TRef.nullary (TRef.of (T := ⟨S_, .f32⟩) main_call3_cst) (constant S_ .f32 0xFF800000#32)
  :: TRef.binary (TRef.of (T := ⟨S50000x256, .f32⟩) main_v292) (TRef.of (T := ⟨S_, .f32⟩) main_call3_cst) (TRef.of (T := ⟨S50000, .f32⟩) main_call3_v0) (fun x v => Host.reduce FloatOps.maximumf x v reducesTo_S50000x256_S50000_d1 h_S_)
  :: TRef.nullary (TRef.of (T := ⟨S_, .f32⟩) main_call3_cst_0) (constant S_ .f32 0xFF800000#32)
  :: TRef.unary (TRef.of (T := ⟨S_, .f32⟩) main_call3_cst_0) (TRef.of (T := ⟨S50000, .f32⟩) main_call3_v1) (broadcastInDim S50000 ![] bcast_S_S50000)
  :: TRef.binary (TRef.of (T := ⟨S50000, .f32⟩) main_call3_v1) (TRef.of (T := ⟨S50000, .f32⟩) main_call3_v0) (TRef.of (T := ⟨S50000, .f32⟩) main_call3_v2) maximumf
  :: TRef.unary (TRef.of (T := ⟨S50000, .f32⟩) main_call3_v2) (TRef.of (T := ⟨S50000x1, .f32⟩) main_call3_v3) (broadcastInDim S50000x1 ![0] bcast_S50000_S50000x1_0)
  :: TRef.unary (TRef.of (T := ⟨S50000x1, .f32⟩) main_call3_v3) (TRef.of (T := ⟨S50000x256, .f32⟩) main_call3_v4) (broadcastInDim S50000x256 ![0, 1] bcast_S50000x1_S50000x256_0_1)
  :: TRef.binary (TRef.of (T := ⟨S50000x256, .f32⟩) main_v292) (TRef.of (T := ⟨S50000x256, .f32⟩) main_call3_v4) (TRef.of (T := ⟨S50000x256, .f32⟩) main_call3_v5) subf
  :: TRef.unary (TRef.of (T := ⟨S50000x256, .f32⟩) main_call3_v5) (TRef.of (T := ⟨S50000x256, .f32⟩) main_call3_v6) Host.exp
  :: TRef.nullary (TRef.of (T := ⟨S_, .f32⟩) main_call3_cst_1) (constant S_ .f32 0x00000000#32)
  :: TRef.binary (TRef.of (T := ⟨S50000x256, .f32⟩) main_call3_v6) (TRef.of (T := ⟨S_, .f32⟩) main_call3_cst_1) (TRef.of (T := ⟨S50000, .f32⟩) main_call3_v7) (fun x v => Host.reduceAdd x v reducesTo_S50000x256_S50000_d1 h_S_)
  :: TRef.unary (TRef.of (T := ⟨S50000, .f32⟩) main_call3_v7) (TRef.of (T := ⟨S50000x1, .f32⟩) main_call3_v8) (broadcastInDim S50000x1 ![0] bcast_S50000_S50000x1_0)
  :: TRef.unary (TRef.of (T := ⟨S50000x1, .f32⟩) main_call3_v8) (TRef.of (T := ⟨S50000x1, .f32⟩) main_call3_v9) Host.log
  :: TRef.unary (TRef.of (T := ⟨S50000x1, .f32⟩) main_call3_v9) (TRef.of (T := ⟨S50000x256, .f32⟩) main_call3_v10) (broadcastInDim S50000x256 ![0, 1] bcast_S50000x1_S50000x256_0_1)
  :: TRef.binary (TRef.of (T := ⟨S50000x256, .f32⟩) main_call3_v5) (TRef.of (T := ⟨S50000x256, .f32⟩) main_call3_v10) (TRef.of (T := ⟨S50000x256, .f32⟩) main_v293) subf
  :: [])
theorem ops5_sub : (ops5 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., unary_bufs_sub .., binary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops5_fresh : (ops5 : List (HloOp τ sig (Elt F))).Forall fun op => op.fresh = ∅ := by
  simp only [List.Forall]; repeat' constructor

/-- A list holding every reference some operation writes (and some only read): no argument is in it. -/
abbrev opsWl : List (Ref sig .tc) := [main_v0, main_v1, main_v2, main_v3, main_v4, main_v5, main_v6, main_v7, main_v8, main_v9, main_v10, main_v11, main_c, main_v12, main_v13, main_c_0, main_v14, main_v15, main_v16, main_v17, main_v18, main_v19, main_v20, main_cst, main_v21, main_v22, main_v23, main_v24, main_v25, main_v26, main_v27, main_v28, main_v29, main_v30, main_v31, main_c_1, main_v32, main_v33, main_c_2, main_v34, main_v35, main_v36, main_v37, main_v38, main_v39, main_v40, main_cst_3, main_v41, main_v42, main_v43, main_v44, main_v45, main_v46, main_v47, main_v48, main_v49, main_v50, main_v51, main_v52, main_v53, main_c_4, main_v54, main_v55, main_c_5, main_v56, main_v57, main_v58, main_v59, main_v60, main_v61, main_v62, main_cst_6, main_v63, main_v64, main_v65, main_v66, main_v67, main_v68, main_v69, main_v70, main_v71, main_v72, main_v73, main_c_7, main_v74, main_v75, main_c_8, main_v76, main_v77, main_v78, main_v79, main_v80, main_v81, main_v82, main_cst_9, main_v83, main_v84, main_v85, main_v86, main_v87, main_v88, main_v89, main_v90, main_v91, main_v92, main_v93, main_v94, main_v95, main_v96, main_v97, main_v98, main_v99, main_call0_cst, main_call0_v0, main_v100, main_v101, main_v102, main_v103, main_v104, main_v105, main_v106, main_v107, main_c_10, main_v108, main_v109, main_c_11, main_v110, main_v111, main_v112, main_v113, main_v114, main_v115, main_v116, main_cst_12, main_v117, main_v118, main_v119, main_v120, main_v121, main_v122, main_v123, main_v124, main_v125, main_v126, main_v127, main_c_13, main_v128, main_v129, main_c_14, main_v130, main_v131, main_v132, main_v133, main_v134, main_v135, main_v136, main_cst_15, main_v137, main_v138, main_v139, main_v140, main_v141, main_v142, main_v143, main_v144, main_v145, main_v146, main_v147, main_v148, main_v149, main_c_16, main_v150, main_v151, main_c_17, main_v152, main_v153, main_v154, main_v155, main_v156, main_v157, main_v158, main_cst_18, main_v159, main_v160, main_v161, main_v162, main_v163, main_v164, main_v165, main_v166, main_v167, main_v168, main_v169, main_c_19, main_v170, main_v171, main_c_20, main_v172, main_v173, main_v174, main_v175, main_v176, main_v177, main_v178, main_cst_21, main_v179, main_v180, main_v181, main_v182, main_v183, main_v184, main_v185, main_v186, main_v187, main_v188, main_v189, main_v190, main_v191, main_call1_cst, main_call1_v0, main_v192, main_v193, main_v194, main_v195, main_v196, main_v197, main_v198, main_v199, main_c_22, main_v200, main_v201, main_c_23, main_v202, main_v203, main_v204, main_v205, main_v206, main_v207, main_v208, main_cst_24, main_v209, main_v210, main_v211, main_v212, main_v213, main_v214, main_v215, main_v216, main_v217, main_v218, main_v219, main_c_25, main_v220, main_v221, main_c_26, main_v222, main_v223, main_v224, main_v225, main_v226, main_v227, main_v228, main_cst_27, main_v229, main_v230, main_v231, main_v232, main_v233, main_v234, main_v235, main_v236, main_v237, main_v238, main_v239, main_v240, main_v241, main_c_28, main_v242, main_v243, main_c_29, main_v244, main_v245, main_v246, main_v247, main_v248, main_v249, main_v250, main_cst_30, main_v251, main_v252, main_v253, main_v254, main_v255, main_v256, main_v257, main_v258, main_v259, main_v260, main_v261, main_c_31, main_v262, main_v263, main_c_32, main_v264, main_v265, main_v266, main_v267, main_v268, main_v269, main_v270, main_cst_33, main_v271, main_v272, main_v273, main_v274, main_v275, main_v276, main_v277, main_v278, main_v279, main_v280, main_v281, main_v282, main_v283, main_call2_v0, main_call2_cst, main_call2_v1, main_call2_v2, main_v284, main_cst_34, main_v285, main_v286, main_v287, main_v288, main_v289, main_v290, main_v291, main_v292, main_call3_cst, main_call3_v0, main_call3_cst_0, main_call3_v1, main_call3_v2, main_call3_v3, main_call3_v4, main_call3_v5, main_call3_v6, main_call3_cst_1, main_call3_v7, main_call3_v8, main_call3_v9, main_call3_v10, main_v293]
theorem ops0_writes : (ops0 : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))
theorem ops1_writes : (ops1 : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))
theorem ops2_writes : (ops2 : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))
theorem ops3_writes : (ops3 : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))
theorem ops4_writes : (ops4 : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))
theorem ops5_writes : (ops5 : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))

/-- The program's operations. -/
abbrev ops : List (HloOp τ sig (Elt F)) := ops0 ++ ops1 ++ ops2 ++ ops3 ++ ops4 ++ ops5
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with (((((h | h) | h) | h) | h) | h)
    exacts [(List.forall_iff_forall_mem.mp ops0_sub) op h, (List.forall_iff_forall_mem.mp ops1_sub) op h, (List.forall_iff_forall_mem.mp ops2_sub) op h, (List.forall_iff_forall_mem.mp ops3_sub) op h, (List.forall_iff_forall_mem.mp ops4_sub) op h, (List.forall_iff_forall_mem.mp ops5_sub) op h]
theorem ops_fresh : (ops : List (HloOp τ sig (Elt F))).Forall fun op => op.fresh = ∅ :=
  List.forall_iff_forall_mem.mpr fun op h => by
    simp only [ops, List.mem_append] at h
    rcases h with (((((h | h) | h) | h) | h) | h)
    exacts [(List.forall_iff_forall_mem.mp ops0_fresh) op h, (List.forall_iff_forall_mem.mp ops1_fresh) op h, (List.forall_iff_forall_mem.mp ops2_fresh) op h, (List.forall_iff_forall_mem.mp ops3_fresh) op h, (List.forall_iff_forall_mem.mp ops4_fresh) op h, (List.forall_iff_forall_mem.mp ops5_fresh) op h]
theorem ops_writes : (ops : List (HloOp τ sig (Elt F))).Forall fun op => op.writes ⊆ (opsWl.map (Proc.devRef (τ := τ) .tc)).toFinset :=
  List.forall_iff_forall_mem.mpr fun op h => by
    simp only [ops, List.mem_append] at h
    rcases h with (((((h | h) | h) | h) | h) | h)
    exacts [(List.forall_iff_forall_mem.mp ops0_writes) op h, (List.forall_iff_forall_mem.mp ops1_writes) op h, (List.forall_iff_forall_mem.mp ops2_writes) op h, (List.forall_iff_forall_mem.mp ops3_writes) op h, (List.forall_iff_forall_mem.mp ops4_writes) op h, (List.forall_iff_forall_mem.mp ops5_writes) op h]

/-- The run: every buffer ends at the fold of the operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-- An argument's buffer is never written. -/
theorem kept (m : (ℓ : Loc nD τ sig) → Buf (Elt F) ℓ) (d : Dev nD) (r : Ref sig .tc) (h : r ∉ opsWl) :
    after (ops (F := F)) (launchContents m d) (Proc.devRef .tc r) = m ((d.tc : Thread nD τ).loc r) :=
  (after_of_writes_sub ops _ ops_writes h).trans rfl

end Cert.ReferenceIdeal.Hand

namespace Cert.Proof.RefClaims

open Cert.ReferenceIdeal Cert.ReferenceIdeal.Hand

/-- The reference runs to the end without a fault and leaves its 37 argument arrays unchanged. -/
theorem frame_ri : Cert.frame_ReferenceIdeal := fun m ρ _ =>
  (θ_run Cert.ReferenceIdeal.defs _ _).mono (fun r h c =>
      ⟨(h c main_arg0).trans (kept m c main_arg0 (by decide)),
       (h c main_arg1).trans (kept m c main_arg1 (by decide)),
       (h c main_arg2).trans (kept m c main_arg2 (by decide)),
       (h c main_arg3).trans (kept m c main_arg3 (by decide)),
       (h c main_arg4).trans (kept m c main_arg4 (by decide)),
       (h c main_arg5).trans (kept m c main_arg5 (by decide)),
       (h c main_arg6).trans (kept m c main_arg6 (by decide)),
       (h c main_arg7).trans (kept m c main_arg7 (by decide)),
       (h c main_arg8).trans (kept m c main_arg8 (by decide)),
       (h c main_arg9).trans (kept m c main_arg9 (by decide)),
       (h c main_arg10).trans (kept m c main_arg10 (by decide)),
       (h c main_arg11).trans (kept m c main_arg11 (by decide)),
       (h c main_arg12).trans (kept m c main_arg12 (by decide)),
       (h c main_arg13).trans (kept m c main_arg13 (by decide)),
       (h c main_arg14).trans (kept m c main_arg14 (by decide)),
       (h c main_arg15).trans (kept m c main_arg15 (by decide)),
       (h c main_arg16).trans (kept m c main_arg16 (by decide)),
       (h c main_arg17).trans (kept m c main_arg17 (by decide)),
       (h c main_arg18).trans (kept m c main_arg18 (by decide)),
       (h c main_arg19).trans (kept m c main_arg19 (by decide)),
       (h c main_arg20).trans (kept m c main_arg20 (by decide)),
       (h c main_arg21).trans (kept m c main_arg21 (by decide)),
       (h c main_arg22).trans (kept m c main_arg22 (by decide)),
       (h c main_arg23).trans (kept m c main_arg23 (by decide)),
       (h c main_arg24).trans (kept m c main_arg24 (by decide)),
       (h c main_arg25).trans (kept m c main_arg25 (by decide)),
       (h c main_arg26).trans (kept m c main_arg26 (by decide)),
       (h c main_arg27).trans (kept m c main_arg27 (by decide)),
       (h c main_arg28).trans (kept m c main_arg28 (by decide)),
       (h c main_arg29).trans (kept m c main_arg29 (by decide)),
       (h c main_arg30).trans (kept m c main_arg30 (by decide)),
       (h c main_arg31).trans (kept m c main_arg31 (by decide)),
       (h c main_arg32).trans (kept m c main_arg32 (by decide)),
       (h c main_arg33).trans (kept m c main_arg33 (by decide)),
       (h c main_arg34).trans (kept m c main_arg34 (by decide)),
       (h c main_arg35).trans (kept m c main_arg35 (by decide)),
       (h c main_arg36).trans (kept m c main_arg36 (by decide))⟩)
    (run_fold (F := Ideal) m ρ)

end Cert.Proof.RefClaims

end
-- ==== Proof.AlgDefs.lean ====
/-
  What the algebraic claim is stated over: the agreement of the two launch memories on the 37 arguments, and the
  kernel program's two results after its run (the witnesses of the claim).
-/
import proofs.«106078_j59889023976011_1_alg».proof.Defs
import proofs.«106078_j59889023976011_1_alg».proof.Proof.KI.Frame

set_option maxRecDepth 16384

noncomputable section

open Idealize.ShloMosaic Idealize.ShloMosaic.TcCoe Idealize.SL.Sem Idealize.ShloMosaic.StableHlo

namespace Cert.Proof.Alg

open Cert.KernelIdeal.Hand

/-- The arguments' agreement, as the claim states it. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)

/-- The kernel program's first result (the log-probabilities) after its run. -/
abbrev kLogp (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Buf (Elt Ideal) ((c.tc : Thread Cert.KernelIdeal.nD Cert.KernelIdeal.τ).loc Cert.KernelIdeal.main_v206_1) :=
  W14 (F := Ideal) m ρ c (Proc.devRef .tc Cert.KernelIdeal.main_v206_1)
/-- The kernel program's second result (the normalised embedding) after its run. -/
abbrev kEmb (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Buf (Elt Ideal) ((c.tc : Thread Cert.KernelIdeal.nD Cert.KernelIdeal.τ).loc Cert.KernelIdeal.main_v206_0) :=
  W14 (F := Ideal) m ρ c (Proc.devRef .tc Cert.KernelIdeal.main_v206_0)

end Cert.Proof.Alg

end
-- ==== Proof.RefStage.lean ====
/-
  The reference's 353 operations cut where the network's stages end — the positional encoding (5 operations), the
  three layers (110, 106 and 103 operations), and the normalise / decode / log-softmax tail (29) — and its fold split
  accordingly: the fold of a concatenation is the fold of the second list from the fold of the first.
-/
import proofs.«106078_j59889023976011_1_alg».proof.Proof.RefOps
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- Operations 1 to 5: the positional encoding. -/
abbrev cX : List (HloOp τ sig (Elt F)) :=
  ( reshape main_arg0 main_v0 rfl shapeCasts_S50000x96_S50000x3x32
  :: unary main_arg5 main_v1 (broadcastInDim S1x3x32 ![1, 2] bcast_S3x32_S1x3x32_1_2 : (⟨S3x32, .f32⟩ : BufTy).Contents (Elt F) → (⟨S1x3x32, .f32⟩ : BufTy).Contents (Elt F))
  :: unary main_v1 main_v2 (broadcastInDim S50000x3x32 ![0, 1, 2] bcast_S1x3x32_S50000x3x32_0_1_2 : (⟨S1x3x32, .f32⟩ : BufTy).Contents (Elt F) → (⟨S50000x3x32, .f32⟩ : BufTy).Contents (Elt F))
  :: binary main_v0 main_v2 main_v3 (addf : (⟨S50000x3x32, .f32⟩ : BufTy).Contents (Elt F) → (⟨S50000x3x32, .f32⟩ : BufTy).Contents (Elt F) → (⟨S50000x3x32, .f32⟩ : BufTy).Contents (Elt F))
  :: reshape main_v3 main_v4 rfl shapeCasts_S50000x3x32_S50000x96
  :: [])

/-- Operations 6 to 115: layer 1. -/
abbrev cL1 : List (HloOp τ sig (Elt F)) :=
  ( binary main_v4 main_arg8 main_v5 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F))
  :: binary main_v4 main_arg6 main_v6 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F))
  :: unary main_arg1 main_v7 ((extractStridedSlice S1x640000 ![0, 0] · slices_S2x640000_S1x640000_0_0) : (⟨S2x640000, .i32⟩ : BufTy).Contents (Elt F) → (⟨S1x640000, .i32⟩ : BufTy).Contents (Elt F))
  :: reshape main_v7 main_v8 rfl shapeCasts_S1x640000_S640000
  :: unary main_arg1 main_v9 ((extractStridedSlice S1x640000 ![1, 0] · slices_S2x640000_S1x640000_1_0) : (⟨S2x640000, .i32⟩ : BufTy).Contents (Elt F) → (⟨S1x640000, .i32⟩ : BufTy).Contents (Elt F))
  :: reshape main_v9 main_v10 rfl shapeCasts_S1x640000_S640000
  :: unary main_arg2 main_v11 (broadcastInDim S640000x1 ![0] bcast_S640000_S640000x1_0 : (⟨S640000, .f32⟩ : BufTy).Contents (Elt F) → (⟨S640000x1, .f32⟩ : BufTy).Contents (Elt F))
  :: nullary main_c (constantI S_ 32 0#32)
  :: unary main_c main_v12 (broadcastInDim S640000 ![] bcast_S_S640000 : (⟨S_, .i32⟩ : BufTy).Contents (Elt F) → (⟨S640000, .i32⟩ : BufTy).Contents (Elt F))
  :: binary main_v8 main_v12 main_v13 (cmpi .slt : (⟨S640000, .i32⟩ : BufTy).Contents (Elt F) → (⟨S640000, .i32⟩ : BufTy).Contents (Elt F) → (⟨S640000, .i1⟩ : BufTy).Contents (Elt F))
  :: nullary main_c_0 (constantI S_ 32 50000#32)
  :: unary main_c_0 main_v14 (broadcastInDim S640000 ![] bcast_S_S640000 : (⟨S_, .i32⟩ : BufTy).Contents (Elt F) → (⟨S640000, .i32⟩ : BufTy).Contents (Elt F))
  :: binary main_v8 main_v14 main_v15 (addi : (⟨S640000, .i32⟩ : BufTy).Contents (Elt F) → (⟨S640000, .i32⟩ : BufTy).Contents (Elt F) → (⟨S640000, .i32⟩ : BufTy).Contents (Elt F))
  :: ternary main_v13 main_v15 main_v8 main_v16 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v16 main_v17 (broadcastInDim S640000x1 ![0] bcast_S640000_S640000x1_0 : (⟨S640000, .i32⟩ : BufTy).Contents (Elt F) → (⟨S640000x1, .i32⟩ : BufTy).Contents (Elt F))
  :: binary main_v6 main_v17 main_v18 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v11 main_v19 (broadcastInDim S640000x128 ![0, 1] bcast_S640000x1_S640000x128_0_1 : (⟨S640000x1, .f32⟩ : BufTy).Contents (Elt F) → (⟨S640000x128, .f32⟩ : BufTy).Contents (Elt F))
  :: binary main_v19 main_v18 main_v20 (mulf : (⟨S640000x128, .f32⟩ : BufTy).Contents (Elt F) → (⟨S640000x128, .f32⟩ : BufTy).Contents (Elt F) → (⟨S640000x128, .f32⟩ : BufTy).Contents (Elt F))
  :: nullary main_cst (constant S_ .f32 0x00000000#32)
  :: unary main_cst main_v21 (broadcastInDim S50000x128 ![] bcast_S_S50000x128 : (⟨S_, .f32⟩ : BufTy).Contents (Elt F) → (⟨S50000x128, .f32⟩ : BufTy).Contents (Elt F))
  :: unary main_v10 main_v22 (broadcastInDim S640000x1 ![0] bcast_S640000_S640000x1_0 : (⟨S640000, .i32⟩ : BufTy).Contents (Elt F) → (⟨S640000x1, .i32⟩ : BufTy).Contents (Elt F))
  :: ternary main_v21 main_v22 main_v20 main_v23 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg9 main_v24 (broadcastInDim S1x128 ![1] bcast_S128_S1x128_1 : (⟨S128, .f32⟩ : BufTy).Contents (Elt F) → (⟨S1x128, .f32⟩ : BufTy).Contents (Elt F))
  :: unary main_v24 main_v25 (broadcastInDim S50000x128 ![0, 1] bcast_S1x128_S50000x128_0_1 : (⟨S1x128, .f32⟩ : BufTy).Contents (Elt F) → (⟨S50000x128, .f32⟩ : BufTy).Contents (Elt F))
  :: binary main_v23 main_v25 main_v26 (addf : (⟨S50000x128, .f32⟩ : BufTy).Contents (Elt F) → (⟨S50000x128, .f32⟩ : BufTy).Contents (Elt F) → (⟨S50000x128, .f32⟩ : BufTy).Contents (Elt F))
  :: unary main_arg1 main_v27 ((extractStridedSlice S1x640000 ![0, 0] · slices_S2x640000_S1x640000_0_0) : (⟨S2x640000, .i32⟩ : BufTy).Contents (Elt F) → (⟨S1x640000, .i32⟩ : BufTy).Contents (Elt F))
  :: reshape main_v27 main_v28 rfl shapeCasts_S1x640000_S640000
  :: unary main_arg1 main_v29 ((extractStridedSlice S1x640000 ![1, 0] · slices_S2x640000_S1x640000_1_0) : (⟨S2x640000, .i32⟩ : BufTy).Contents (Elt F) → (⟨S1x640000, .i32⟩ : BufTy).Contents (Elt F))
  :: reshape main_v29 main_v30 rfl shapeCasts_S1x640000_S640000
  :: unary main_arg2 main_v31 (broadcastInDim S640000x1 ![0] bcast_S640000_S640000x1_0 : (⟨S640000, .f32⟩ : BufTy).Contents (Elt F) → (⟨S640000x1, .f32⟩ : BufTy).Contents (Elt F))
  :: nullary main_c_1 (constantI S_ 32 0#32)
  :: unary main_c_1 main_v32 (broadcastInDim S640000 ![] bcast_S_S640000 : (⟨S_, .i32⟩ : BufTy).Contents (Elt F) → (⟨S640000, .i32⟩ : BufTy).Contents (Elt F))
  :: binary main_v28 main_v32 main_v33 (cmpi .slt : (⟨S640000, .i32⟩ : BufTy).Contents (Elt F) → (⟨S640000, .i32⟩ : BufTy).Contents (Elt F) → (⟨S640000, .i1⟩ : BufTy).Contents (Elt F))
  :: nullary main_c_2 (constantI S_ 32 50000#32)
  :: unary main_c_2 main_v34 (broadcastInDim S640000 ![] bcast_S_S640000 : (⟨S_, .i32⟩ : BufTy).Contents (Elt F) → (⟨S640000, .i32⟩ : BufTy).Contents (Elt F))
  :: binary main_v28 main_v34 main_v35 (addi : (⟨S640000, .i32⟩ : BufTy).Contents (Elt F) → (⟨S640000, .i32⟩ : BufTy).Contents (Elt F) → (⟨S640000, .i32⟩ : BufTy).Contents (Elt F))
  :: ternary main_v33 main_v35 main_v28 main_v36 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v36 main_v37 (broadcastInDim S640000x1 ![0] bcast_S640000_S640000x1_0 : (⟨S640000, .i32⟩ : BufTy).Contents (Elt F) → (⟨S640000x1, .i32⟩ : BufTy).Contents (Elt F))
  :: binary main_v5 main_v37 main_v38 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v31 main_v39 (broadcastInDim S640000x128 ![0, 1] bcast_S640000x1_S640000x128_0_1 : (⟨S640000x1, .f32⟩ : BufTy).Contents (Elt F) → (⟨S640000x128, .f32⟩ : BufTy).Contents (Elt F))
  :: binary main_v39 main_v38 main_v40 (mulf : (⟨S640000x128, .f32⟩ : BufTy).Contents (Elt F) → (⟨S640000x128, .f32⟩ : BufTy).Contents (Elt F) → (⟨S640000x128, .f32⟩ : BufTy).Contents (Elt F))
  :: nullary main_cst_3 (constant S_ .f32 0x00000000#32)
  :: unary main_cst_3 main_v41 (broadcastInDim S50000x128 ![] bcast_S_S50000x128 : (⟨S_, .f32⟩ : BufTy).Contents (Elt F) → (⟨S50000x128, .f32⟩ : BufTy).Contents (Elt F))
  :: unary main_v30 main_v42 (broadcastInDim S640000x1 ![0] bcast_S640000_S640000x1_0 : (⟨S640000, .i32⟩ : BufTy).Contents (Elt F) → (⟨S640000x1, .i32⟩ : BufTy).Contents (Elt F))
  :: ternary main_v41 main_v42 main_v40 main_v43 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v26 main_v43 main_v44 (addf : (⟨S50000x128, .f32⟩ : BufTy).Contents (Elt F) → (⟨S50000x128, .f32⟩ : BufTy).Contents (Elt F) → (⟨S50000x128, .f32⟩ : BufTy).Contents (Elt F))
  :: unary main_arg11 main_v45 (broadcastInDim S1x128 ![1] bcast_S128_S1x128_1 : (⟨S128, .f32⟩ : BufTy).Contents (Elt F) → (⟨S1x128, .f32⟩ : BufTy).Contents (Elt F))
  :: unary main_v45 main_v46 (broadcastInDim S50000x128 ![0, 1] bcast_S1x128_S50000x128_0_1 : (⟨S1x128, .f32⟩ : BufTy).Contents (Elt F) → (⟨S50000x128, .f32⟩ : BufTy).Contents (Elt F))
  :: binary main_v44 main_v46 main_v47 (addf : (⟨S50000x128, .f32⟩ : BufTy).Contents (Elt F) → (⟨S50000x128, .f32⟩ : BufTy).Contents (Elt F) → (⟨S50000x128, .f32⟩ : BufTy).Contents (Elt F))
  :: binary main_v4 main_arg7 main_v48 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F))
  :: unary main_arg3 main_v49 ((extractStridedSlice S1x640000 ![0, 0] · slices_S2x640000_S1x640000_0_0) : (⟨S2x640000, .i32⟩ : BufTy).Contents (Elt F) → (⟨S1x640000, .i32⟩ : BufTy).Contents (Elt F))
  :: reshape main_v49 main_v50 rfl shapeCasts_S1x640000_S640000
  :: unary main_arg3 main_v51 ((extractStridedSlice S1x640000 ![1, 0] · slices_S2x640000_S1x640000_1_0) : (⟨S2x640000, .i32⟩ : BufTy).Contents (Elt F) → (⟨S1x640000, .i32⟩ : BufTy).Contents (Elt F))
  :: reshape main_v51 main_v52 rfl shapeCasts_S1x640000_S640000
  :: unary main_arg4 main_v53 (broadcastInDim S640000x1 ![0] bcast_S640000_S640000x1_0 : (⟨S640000, .f32⟩ : BufTy).Contents (Elt F) → (⟨S640000x1, .f32⟩ : BufTy).Contents (Elt F))
  :: nullary main_c_4 (constantI S_ 32 0#32)
  :: unary main_c_4 main_v54 (broadcastInDim S640000 ![] bcast_S_S640000 : (⟨S_, .i32⟩ : BufTy).Contents (Elt F) → (⟨S640000, .i32⟩ : BufTy).Contents (Elt F))
  :: binary main_v50 main_v54 main_v55 (cmpi .slt : (⟨S640000, .i32⟩ : BufTy).Contents (Elt F) → (⟨S640000, .i32⟩ : BufTy).Contents (Elt F) → (⟨S640000, .i1⟩ : BufTy).Contents (Elt F))
  :: nullary main_c_5 (constantI S_ 32 50000#32)
  :: unary main_c_5 main_v56 (broadcastInDim S640000 ![] bcast_S_S640000 : (⟨S_, .i32⟩ : BufTy).Contents (Elt F) → (⟨S640000, .i32⟩ : BufTy).Contents (Elt F))
  :: binary main_v50 main_v56 main_v57 (addi : (⟨S640000, .i32⟩ : BufTy).Contents (Elt F) → (⟨S640000, .i32⟩ : BufTy).Contents (Elt F) → (⟨S640000, .i32⟩ : BufTy).Contents (Elt F))
  :: ternary main_v55 main_v57 main_v50 main_v58 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v58 main_v59 (broadcastInDim S640000x1 ![0] bcast_S640000_S640000x1_0 : (⟨S640000, .i32⟩ : BufTy).Contents (Elt F) → (⟨S640000x1, .i32⟩ : BufTy).Contents (Elt F))
  :: binary main_v48 main_v59 main_v60 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v53 main_v61 (broadcastInDim S640000x128 ![0, 1] bcast_S640000x1_S640000x128_0_1 : (⟨S640000x1, .f32⟩ : BufTy).Contents (Elt F) → (⟨S640000x128, .f32⟩ : BufTy).Contents (Elt F))
  :: binary main_v61 main_v60 main_v62 (mulf : (⟨S640000x128, .f32⟩ : BufTy).Contents (Elt F) → (⟨S640000x128, .f32⟩ : BufTy).Contents (Elt F) → (⟨S640000x128, .f32⟩ : BufTy).Contents (Elt F))
  :: nullary main_cst_6 (constant S_ .f32 0x00000000#32)
  :: unary main_cst_6 main_v63 (broadcastInDim S50000x128 ![] bcast_S_S50000x128 : (⟨S_, .f32⟩ : BufTy).Contents (Elt F) → (⟨S50000x128, .f32⟩ : BufTy).Contents (Elt F))
  :: unary main_v52 main_v64 (broadcastInDim S640000x1 ![0] bcast_S640000_S640000x1_0 : (⟨S640000, .i32⟩ : BufTy).Contents (Elt F) → (⟨S640000x1, .i32⟩ : BufTy).Contents (Elt F))
  :: ternary main_v63 main_v64 main_v62 main_v65 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg10 main_v66 (broadcastInDim S1x128 ![1] bcast_S128_S1x128_1 : (⟨S128, .f32⟩ : BufTy).Contents (Elt F) → (⟨S1x128, .f32⟩ : BufTy).Contents (Elt F))
  :: unary main_v66 main_v67 (broadcastInDim S50000x128 ![0, 1] bcast_S1x128_S50000x128_0_1 : (⟨S1x128, .f32⟩ : BufTy).Contents (Elt F) → (⟨S50000x128, .f32⟩ : BufTy).Contents (Elt F))
  :: binary main_v65 main_v67 main_v68 (addf : (⟨S50000x128, .f32⟩ : BufTy).Contents (Elt F) → (⟨S50000x128, .f32⟩ : BufTy).Contents (Elt F) → (⟨S50000x128, .f32⟩ : BufTy).Contents (Elt F))
  :: unary main_arg3 main_v69 ((extractStridedSlice S1x640000 ![0, 0] · slices_S2x640000_S1x640000_0_0) : (⟨S2x640000, .i32⟩ : BufTy).Contents (Elt F) → (⟨S1x640000, .i32⟩ : BufTy).Contents (Elt F))
  :: reshape main_v69 main_v70 rfl shapeCasts_S1x640000_S640000
  :: unary main_arg3 main_v71 ((extractStridedSlice S1x640000 ![1, 0] · slices_S2x640000_S1x640000_1_0) : (⟨S2x640000, .i32⟩ : BufTy).Contents (Elt F) → (⟨S1x640000, .i32⟩ : BufTy).Contents (Elt F))
  :: reshape main_v71 main_v72 rfl shapeCasts_S1x640000_S640000
  :: unary main_arg4 main_v73 (broadcastInDim S640000x1 ![0] bcast_S640000_S640000x1_0 : (⟨S640000, .f32⟩ : BufTy).Contents (Elt F) → (⟨S640000x1, .f32⟩ : BufTy).Contents (Elt F))
  :: nullary main_c_7 (constantI S_ 32 0#32)
  :: unary main_c_7 main_v74 (broadcastInDim S640000 ![] bcast_S_S640000 : (⟨S_, .i32⟩ : BufTy).Contents (Elt F) → (⟨S640000, .i32⟩ : BufTy).Contents (Elt F))
  :: binary main_v70 main_v74 main_v75 (cmpi .slt : (⟨S640000, .i32⟩ : BufTy).Contents (Elt F) → (⟨S640000, .i32⟩ : BufTy).Contents (Elt F) → (⟨S640000, .i1⟩ : BufTy).Contents (Elt F))
  :: nullary main_c_8 (constantI S_ 32 50000#32)
  :: unary main_c_8 main_v76 (broadcastInDim S640000 ![] bcast_S_S640000 : (⟨S_, .i32⟩ : BufTy).Contents (Elt F) → (⟨S640000, .i32⟩ : BufTy).Contents (Elt F))
  :: binary main_v70 main_v76 main_v77 (addi : (⟨S640000, .i32⟩ : BufTy).Contents (Elt F) → (⟨S640000, .i32⟩ : BufTy).Contents (Elt F) → (⟨S640000, .i32⟩ : BufTy).Contents (Elt F))
  :: ternary main_v75 main_v77 main_v70 main_v78 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v78 main_v79 (broadcastInDim S640000x1 ![0] bcast_S640000_S640000x1_0 : (⟨S640000, .i32⟩ : BufTy).Contents (Elt F) → (⟨S640000x1, .i32⟩ : BufTy).Contents (Elt F))
  :: binary main_v5 main_v79 main_v80 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v73 main_v81 (broadcastInDim S640000x128 ![0, 1] bcast_S640000x1_S640000x128_0_1 : (⟨S640000x1, .f32⟩ : BufTy).Contents (Elt F) → (⟨S640000x128, .f32⟩ : BufTy).Contents (Elt F))
  :: binary main_v81 main_v80 main_v82 (mulf : (⟨S640000x128, .f32⟩ : BufTy).Contents (Elt F) → (⟨S640000x128, .f32⟩ : BufTy).Contents (Elt F) → (⟨S640000x128, .f32⟩ : BufTy).Contents (Elt F))
  :: nullary main_cst_9 (constant S_ .f32 0x00000000#32)
  :: unary main_cst_9 main_v83 (broadcastInDim S50000x128 ![] bcast_S_S50000x128 : (⟨S_, .f32⟩ : BufTy).Contents (Elt F) → (⟨S50000x128, .f32⟩ : BufTy).Contents (Elt F))
  :: unary main_v72 main_v84 (broadcastInDim S640000x1 ![0] bcast_S640000_S640000x1_0 : (⟨S640000, .i32⟩ : BufTy).Contents (Elt F) → (⟨S640000x1, .i32⟩ : BufTy).Contents (Elt F))
  :: ternary main_v83 main_v84 main_v82 main_v85 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v68 main_v85 main_v86 (addf : (⟨S50000x128, .f32⟩ : BufTy).Contents (Elt F) → (⟨S50000x128, .f32⟩ : BufTy).Contents (Elt F) → (⟨S50000x128, .f32⟩ : BufTy).Contents (Elt F))
  :: unary main_arg12 main_v87 (broadcastInDim S1x128 ![1] bcast_S128_S1x128_1 : (⟨S128, .f32⟩ : BufTy).Contents (Elt F) → (⟨S1x128, .f32⟩ : BufTy).Contents (Elt F))
  :: unary main_v87 main_v88 (broadcastInDim S50000x128 ![0, 1] bcast_S1x128_S50000x128_0_1 : (⟨S1x128, .f32⟩ : BufTy).Contents (Elt F) → (⟨S50000x128, .f32⟩ : BufTy).Contents (Elt F))
  :: binary main_v86 main_v88 main_v89 (addf : (⟨S50000x128, .f32⟩ : BufTy).Contents (Elt F) → (⟨S50000x128, .f32⟩ : BufTy).Contents (Elt F) → (⟨S50000x128, .f32⟩ : BufTy).Contents (Elt F))
  :: unary main_arg13 main_v90 (broadcastInDim S50000x128 ![0, 1] bcast_S50000x1_S50000x128_0_1 : (⟨S50000x1, .f32⟩ : BufTy).Contents (Elt F) → (⟨S50000x128, .f32⟩ : BufTy).Contents (Elt F))
  :: binary main_v90 main_v47 main_v91 (mulf : (⟨S50000x128, .f32⟩ : BufTy).Contents (Elt F) → (⟨S50000x128, .f32⟩ : BufTy).Contents (Elt F) → (⟨S50000x128, .f32⟩ : BufTy).Contents (Elt F))
  :: unary main_arg14 main_v92 (broadcastInDim S50000x128 ![0, 1] bcast_S50000x1_S50000x128_0_1 : (⟨S50000x1, .f32⟩ : BufTy).Contents (Elt F) → (⟨S50000x128, .f32⟩ : BufTy).Contents (Elt F))
  :: binary main_v92 main_v89 main_v93 (mulf : (⟨S50000x128, .f32⟩ : BufTy).Contents (Elt F) → (⟨S50000x128, .f32⟩ : BufTy).Contents (Elt F) → (⟨S50000x128, .f32⟩ : BufTy).Contents (Elt F))
  :: binary main_v91 main_v93 main_v94 (addf : (⟨S50000x128, .f32⟩ : BufTy).Contents (Elt F) → (⟨S50000x128, .f32⟩ : BufTy).Contents (Elt F) → (⟨S50000x128, .f32⟩ : BufTy).Contents (Elt F))
  :: binary main_v4 main_arg33 main_v95 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F))
  :: unary main_arg34 main_v96 (broadcastInDim S1x128 ![1] bcast_S128_S1x128_1 : (⟨S128, .f32⟩ : BufTy).Contents (Elt F) → (⟨S1x128, .f32⟩ : BufTy).Contents (Elt F))
  :: unary main_v96 main_v97 (broadcastInDim S50000x128 ![0, 1] bcast_S1x128_S50000x128_0_1 : (⟨S1x128, .f32⟩ : BufTy).Contents (Elt F) → (⟨S50000x128, .f32⟩ : BufTy).Contents (Elt F))
  :: binary main_v95 main_v97 main_v98 (addf : (⟨S50000x128, .f32⟩ : BufTy).Contents (Elt F) → (⟨S50000x128, .f32⟩ : BufTy).Contents (Elt F) → (⟨S50000x128, .f32⟩ : BufTy).Contents (Elt F))
  :: binary main_v94 main_v98 main_v99 (addf : (⟨S50000x128, .f32⟩ : BufTy).Contents (Elt F) → (⟨S50000x128, .f32⟩ : BufTy).Contents (Elt F) → (⟨S50000x128, .f32⟩ : BufTy).Contents (Elt F))
  :: TRef.nullary (TRef.of (T := ⟨S_, .f32⟩) main_call0_cst) (constant S_ .f32 0x00000000#32)
  :: TRef.unary (TRef.of (T := ⟨S_, .f32⟩) main_call0_cst) (TRef.of (T := ⟨S50000x128, .f32⟩) main_call0_v0) (broadcastInDim S50000x128 ![] bcast_S_S50000x128)
  :: TRef.binary (TRef.of (T := ⟨S50000x128, .f32⟩) main_v99) (TRef.of (T := ⟨S50000x128, .f32⟩) main_call0_v0) (TRef.of (T := ⟨S50000x128, .f32⟩) main_v100) maximumf
  :: [])

/-- Operations 116 to 221: layer 2. -/
abbrev cL2 : List (HloOp τ sig (Elt F)) :=
  ( binary main_v100 main_arg17 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v100 main_arg15 main_v102 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg1 main_v103 ((extractStridedSlice S1x640000 ![0, 0] · slices_S2x640000_S1x640000_0_0) : (⟨S2x640000, .i32⟩ : BufTy).Contents (Elt F) → (⟨S1x640000, .i32⟩ : BufTy).Contents (Elt F))
  :: reshape main_v103 main_v104 rfl shapeCasts_S1x640000_S640000
  :: unary main_arg1 main_v105 ((extractStridedSlice S1x640000 ![1, 0] · slices_S2x640000_S1x640000_1_0) : (⟨S2x640000, .i32⟩ : BufTy).Contents (Elt F) → (⟨S1x640000, .i32⟩ : BufTy).Contents (Elt F))
  :: reshape main_v105 main_v106 rfl shapeCasts_S1x640000_S640000
  :: unary main_arg2 main_v107 (broadcastInDim S640000x1 ![0] bcast_S640000_S640000x1_0 : (⟨S640000, .f32⟩ : BufTy).Contents (Elt F) → (⟨S640000x1, .f32⟩ : BufTy).Contents (Elt F))
  :: nullary main_c_10 (constantI S_ 32 0#32)
  :: unary main_c_10 main_v108 (broadcastInDim S640000 ![] bcast_S_S640000 : (⟨S_, .i32⟩ : BufTy).Contents (Elt F) → (⟨S640000, .i32⟩ : BufTy).Contents (Elt F))
  :: binary main_v104 main_v108 main_v109 (cmpi .slt : (⟨S640000, .i32⟩ : BufTy).Contents (Elt F) → (⟨S640000, .i32⟩ : BufTy).Contents (Elt F) → (⟨S640000, .i1⟩ : BufTy).Contents (Elt F))
  :: nullary main_c_11 (constantI S_ 32 50000#32)
  :: unary main_c_11 main_v110 (broadcastInDim S640000 ![] bcast_S_S640000 : (⟨S_, .i32⟩ : BufTy).Contents (Elt F) → (⟨S640000, .i32⟩ : BufTy).Contents (Elt F))
  :: binary main_v104 main_v110 main_v111 (addi : (⟨S640000, .i32⟩ : BufTy).Contents (Elt F) → (⟨S640000, .i32⟩ : BufTy).Contents (Elt F) → (⟨S640000, .i32⟩ : BufTy).Contents (Elt F))
  :: ternary main_v109 main_v111 main_v104 main_v112 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v112 main_v113 (broadcastInDim S640000x1 ![0] bcast_S640000_S640000x1_0 : (⟨S640000, .i32⟩ : BufTy).Contents (Elt F) → (⟨S640000x1, .i32⟩ : BufTy).Contents (Elt F))
  :: binary main_v102 main_v113 main_v114 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v107 main_v115 (broadcastInDim S640000x128 ![0, 1] bcast_S640000x1_S640000x128_0_1 : (⟨S640000x1, .f32⟩ : BufTy).Contents (Elt F) → (⟨S640000x128, .f32⟩ : BufTy).Contents (Elt F))
  :: binary main_v115 main_v114 main_v116 (mulf : (⟨S640000x128, .f32⟩ : BufTy).Contents (Elt F) → (⟨S640000x128, .f32⟩ : BufTy).Contents (Elt F) → (⟨S640000x128, .f32⟩ : BufTy).Contents (Elt F))
  :: nullary main_cst_12 (constant S_ .f32 0x00000000#32)
  :: unary main_cst_12 main_v117 (broadcastInDim S50000x128 ![] bcast_S_S50000x128 : (⟨S_, .f32⟩ : BufTy).Contents (Elt F) → (⟨S50000x128, .f32⟩ : BufTy).Contents (Elt F))
  :: unary main_v106 main_v118 (broadcastInDim S640000x1 ![0] bcast_S640000_S640000x1_0 : (⟨S640000, .i32⟩ : BufTy).Contents (Elt F) → (⟨S640000x1, .i32⟩ : BufTy).Contents (Elt F))
  :: ternary main_v117 main_v118 main_v116 main_v119 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg18 main_v120 (broadcastInDim S1x128 ![1] bcast_S128_S1x128_1 : (⟨S128, .f32⟩ : BufTy).Contents (Elt F) → (⟨S1x128, .f32⟩ : BufTy).Contents (Elt F))
  :: unary main_v120 main_v121 (broadcastInDim S50000x128 ![0, 1] bcast_S1x128_S50000x128_0_1 : (⟨S1x128, .f32⟩ : BufTy).Contents (Elt F) → (⟨S50000x128, .f32⟩ : BufTy).Contents (Elt F))
  :: binary main_v119 main_v121 main_v122 (addf : (⟨S50000x128, .f32⟩ : BufTy).Contents (Elt F) → (⟨S50000x128, .f32⟩ : BufTy).Contents (Elt F) → (⟨S50000x128, .f32⟩ : BufTy).Contents (Elt F))
  :: unary main_arg1 main_v123 ((extractStridedSlice S1x640000 ![0, 0] · slices_S2x640000_S1x640000_0_0) : (⟨S2x640000, .i32⟩ : BufTy).Contents (Elt F) → (⟨S1x640000, .i32⟩ : BufTy).Contents (Elt F))
  :: reshape main_v123 main_v124 rfl shapeCasts_S1x640000_S640000
  :: unary main_arg1 main_v125 ((extractStridedSlice S1x640000 ![1, 0] · slices_S2x640000_S1x640000_1_0) : (⟨S2x640000, .i32⟩ : BufTy).Contents (Elt F) → (⟨S1x640000, .i32⟩ : BufTy).Contents (Elt F))
  :: reshape main_v125 main_v126 rfl shapeCasts_S1x640000_S640000
  :: unary main_arg2 main_v127 (broadcastInDim S640000x1 ![0] bcast_S640000_S640000x1_0 : (⟨S640000, .f32⟩ : BufTy).Contents (Elt F) → (⟨S640000x1, .f32⟩ : BufTy).Contents (Elt F))
  :: nullary main_c_13 (constantI S_ 32 0#32)
  :: unary main_c_13 main_v128 (broadcastInDim S640000 ![] bcast_S_S640000 : (⟨S_, .i32⟩ : BufTy).Contents (Elt F) → (⟨S640000, .i32⟩ : BufTy).Contents (Elt F))
  :: binary main_v124 main_v128 main_v129 (cmpi .slt : (⟨S640000, .i32⟩ : BufTy).Contents (Elt F) → (⟨S640000, .i32⟩ : BufTy).Contents (Elt F) → (⟨S640000, .i1⟩ : BufTy).Contents (Elt F))
  :: nullary main_c_14 (constantI S_ 32 50000#32)
  :: unary main_c_14 main_v130 (broadcastInDim S640000 ![] bcast_S_S640000 : (⟨S_, .i32⟩ : BufTy).Contents (Elt F) → (⟨S640000, .i32⟩ : BufTy).Contents (Elt F))
  :: binary main_v124 main_v130 main_v131 (addi : (⟨S640000, .i32⟩ : BufTy).Contents (Elt F) → (⟨S640000, .i32⟩ : BufTy).Contents (Elt F) → (⟨S640000, .i32⟩ : BufTy).Contents (Elt F))
  :: ternary main_v129 main_v131 main_v124 main_v132 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v132 main_v133 (broadcastInDim S640000x1 ![0] bcast_S640000_S640000x1_0 : (⟨S640000, .i32⟩ : BufTy).Contents (Elt F) → (⟨S640000x1, .i32⟩ : BufTy).Contents (Elt F))
  :: binary main_v101 main_v133 main_v134 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v127 main_v135 (broadcastInDim S640000x128 ![0, 1] bcast_S640000x1_S640000x128_0_1 : (⟨S640000x1, .f32⟩ : BufTy).Contents (Elt F) → (⟨S640000x128, .f32⟩ : BufTy).Contents (Elt F))
  :: binary main_v135 main_v134 main_v136 (mulf : (⟨S640000x128, .f32⟩ : BufTy).Contents (Elt F) → (⟨S640000x128, .f32⟩ : BufTy).Contents (Elt F) → (⟨S640000x128, .f32⟩ : BufTy).Contents (Elt F))
  :: nullary main_cst_15 (constant S_ .f32 0x00000000#32)
  :: unary main_cst_15 main_v137 (broadcastInDim S50000x128 ![] bcast_S_S50000x128 : (⟨S_, .f32⟩ : BufTy).Contents (Elt F) → (⟨S50000x128, .f32⟩ : BufTy).Contents (Elt F))
  :: unary main_v126 main_v138 (broadcastInDim S640000x1 ![0] bcast_S640000_S640000x1_0 : (⟨S640000, .i32⟩ : BufTy).Contents (Elt F) → (⟨S640000x1, .i32⟩ : BufTy).Contents (Elt F))
  :: ternary main_v137 main_v138 main_v136 main_v139 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v122 main_v139 main_v140 (addf : (⟨S50000x128, .f32⟩ : BufTy).Contents (Elt F) → (⟨S50000x128, .f32⟩ : BufTy).Contents (Elt F) → (⟨S50000x128, .f32⟩ : BufTy).Contents (Elt F))
  :: unary main_arg20 main_v141 (broadcastInDim S1x128 ![1] bcast_S128_S1x128_1 : (⟨S128, .f32⟩ : BufTy).Contents (Elt F) → (⟨S1x128, .f32⟩ : BufTy).Contents (Elt F))
  :: unary main_v141 main_v142 (broadcastInDim S50000x128 ![0, 1] bcast_S1x128_S50000x128_0_1 : (⟨S1x128, .f32⟩ : BufTy).Contents (Elt F) → (⟨S50000x128, .f32⟩ : BufTy).Contents (Elt F))
  :: binary main_v140 main_v142 main_v143 (addf : (⟨S50000x128, .f32⟩ : BufTy).Contents (Elt F) → (⟨S50000x128, .f32⟩ : BufTy).Contents (Elt F) → (⟨S50000x128, .f32⟩ : BufTy).Contents (Elt F))
  :: binary main_v100 main_arg16 main_v144 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg3 main_v145 ((extractStridedSlice S1x640000 ![0, 0] · slices_S2x640000_S1x640000_0_0) : (⟨S2x640000, .i32⟩ : BufTy).Contents (Elt F) → (⟨S1x640000, .i32⟩ : BufTy).Contents (Elt F))
  :: reshape main_v145 main_v146 rfl shapeCasts_S1x640000_S640000
  :: unary main_arg3 main_v147 ((extractStridedSlice S1x640000 ![1, 0] · slices_S2x640000_S1x640000_1_0) : (⟨S2x640000, .i32⟩ : BufTy).Contents (Elt F) → (⟨S1x640000, .i32⟩ : BufTy).Contents (Elt F))
  :: reshape main_v147 main_v148 rfl shapeCasts_S1x640000_S640000
  :: unary main_arg4 main_v149 (broadcastInDim S640000x1 ![0] bcast_S640000_S640000x1_0 : (⟨S640000, .f32⟩ : BufTy).Contents (Elt F) → (⟨S640000x1, .f32⟩ : BufTy).Contents (Elt F))
  :: nullary main_c_16 (constantI S_ 32 0#32)
  :: unary main_c_16 main_v150 (broadcastInDim S640000 ![] bcast_S_S640000 : (⟨S_, .i32⟩ : BufTy).Contents (Elt F) → (⟨S640000, .i32⟩ : BufTy).Contents (Elt F))
  :: binary main_v146 main_v150 main_v151 (cmpi .slt : (⟨S640000, .i32⟩ : BufTy).Contents (Elt F) → (⟨S640000, .i32⟩ : BufTy).Contents (Elt F) → (⟨S640000, .i1⟩ : BufTy).Contents (Elt F))
  :: nullary main_c_17 (constantI S_ 32 50000#32)
  :: unary main_c_17 main_v152 (broadcastInDim S640000 ![] bcast_S_S640000 : (⟨S_, .i32⟩ : BufTy).Contents (Elt F) → (⟨S640000, .i32⟩ : BufTy).Contents (Elt F))
  :: binary main_v146 main_v152 main_v153 (addi : (⟨S640000, .i32⟩ : BufTy).Contents (Elt F) → (⟨S640000, .i32⟩ : BufTy).Contents (Elt F) → (⟨S640000, .i32⟩ : BufTy).Contents (Elt F))
  :: ternary main_v151 main_v153 main_v146 main_v154 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v154 main_v155 (broadcastInDim S640000x1 ![0] bcast_S640000_S640000x1_0 : (⟨S640000, .i32⟩ : BufTy).Contents (Elt F) → (⟨S640000x1, .i32⟩ : BufTy).Contents (Elt F))
  :: binary main_v144 main_v155 main_v156 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v149 main_v157 (broadcastInDim S640000x128 ![0, 1] bcast_S640000x1_S640000x128_0_1 : (⟨S640000x1, .f32⟩ : BufTy).Contents (Elt F) → (⟨S640000x128, .f32⟩ : BufTy).Contents (Elt F))
  :: binary main_v157 main_v156 main_v158 (mulf : (⟨S640000x128, .f32⟩ : BufTy).Contents (Elt F) → (⟨S640000x128, .f32⟩ : BufTy).Contents (Elt F) → (⟨S640000x128, .f32⟩ : BufTy).Contents (Elt F))
  :: nullary main_cst_18 (constant S_ .f32 0x00000000#32)
  :: unary main_cst_18 main_v159 (broadcastInDim S50000x128 ![] bcast_S_S50000x128 : (⟨S_, .f32⟩ : BufTy).Contents (Elt F) → (⟨S50000x128, .f32⟩ : BufTy).Contents (Elt F))
  :: unary main_v148 main_v160 (broadcastInDim S640000x1 ![0] bcast_S640000_S640000x1_0 : (⟨S640000, .i32⟩ : BufTy).Contents (Elt F) → (⟨S640000x1, .i32⟩ : BufTy).Contents (Elt F))
  :: ternary main_v159 main_v160 main_v158 main_v161 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg19 main_v162 (broadcastInDim S1x128 ![1] bcast_S128_S1x128_1 : (⟨S128, .f32⟩ : BufTy).Contents (Elt F) → (⟨S1x128, .f32⟩ : BufTy).Contents (Elt F))
  :: unary main_v162 main_v163 (broadcastInDim S50000x128 ![0, 1] bcast_S1x128_S50000x128_0_1 : (⟨S1x128, .f32⟩ : BufTy).Contents (Elt F) → (⟨S50000x128, .f32⟩ : BufTy).Contents (Elt F))
  :: binary main_v161 main_v163 main_v164 (addf : (⟨S50000x128, .f32⟩ : BufTy).Contents (Elt F) → (⟨S50000x128, .f32⟩ : BufTy).Contents (Elt F) → (⟨S50000x128, .f32⟩ : BufTy).Contents (Elt F))
  :: unary main_arg3 main_v165 ((extractStridedSlice S1x640000 ![0, 0] · slices_S2x640000_S1x640000_0_0) : (⟨S2x640000, .i32⟩ : BufTy).Contents (Elt F) → (⟨S1x640000, .i32⟩ : BufTy).Contents (Elt F))
  :: reshape main_v165 main_v166 rfl shapeCasts_S1x640000_S640000
  :: unary main_arg3 main_v167 ((extractStridedSlice S1x640000 ![1, 0] · slices_S2x640000_S1x640000_1_0) : (⟨S2x640000, .i32⟩ : BufTy).Contents (Elt F) → (⟨S1x640000, .i32⟩ : BufTy).Contents (Elt F))
  :: reshape main_v167 main_v168 rfl shapeCasts_S1x640000_S640000
  :: unary main_arg4 main_v169 (broadcastInDim S640000x1 ![0] bcast_S640000_S640000x1_0 : (⟨S640000, .f32⟩ : BufTy).Contents (Elt F) → (⟨S640000x1, .f32⟩ : BufTy).Contents (Elt F))
  :: nullary main_c_19 (constantI S_ 32 0#32)
  :: unary main_c_19 main_v170 (broadcastInDim S640000 ![] bcast_S_S640000 : (⟨S_, .i32⟩ : BufTy).Contents (Elt F) → (⟨S640000, .i32⟩ : BufTy).Contents (Elt F))
  :: binary main_v166 main_v170 main_v171 (cmpi .slt : (⟨S640000, .i32⟩ : BufTy).Contents (Elt F) → (⟨S640000, .i32⟩ : BufTy).Contents (Elt F) → (⟨S640000, .i1⟩ : BufTy).Contents (Elt F))
  :: nullary main_c_20 (constantI S_ 32 50000#32)
  :: unary main_c_20 main_v172 (broadcastInDim S640000 ![] bcast_S_S640000 : (⟨S_, .i32⟩ : BufTy).Contents (Elt F) → (⟨S640000, .i32⟩ : BufTy).Contents (Elt F))
  :: binary main_v166 main_v172 main_v173 (addi : (⟨S640000, .i32⟩ : BufTy).Contents (Elt F) → (⟨S640000, .i32⟩ : BufTy).Contents (Elt F) → (⟨S640000, .i32⟩ : BufTy).Contents (Elt F))
  :: ternary main_v171 main_v173 main_v166 main_v174 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v174 main_v175 (broadcastInDim S640000x1 ![0] bcast_S640000_S640000x1_0 : (⟨S640000, .i32⟩ : BufTy).Contents (Elt F) → (⟨S640000x1, .i32⟩ : BufTy).Contents (Elt F))
  :: binary main_v101 main_v175 main_v176 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v169 main_v177 (broadcastInDim S640000x128 ![0, 1] bcast_S640000x1_S640000x128_0_1 : (⟨S640000x1, .f32⟩ : BufTy).Contents (Elt F) → (⟨S640000x128, .f32⟩ : BufTy).Contents (Elt F))
  :: binary main_v177 main_v176 main_v178 (mulf : (⟨S640000x128, .f32⟩ : BufTy).Contents (Elt F) → (⟨S640000x128, .f32⟩ : BufTy).Contents (Elt F) → (⟨S640000x128, .f32⟩ : BufTy).Contents (Elt F))
  :: nullary main_cst_21 (constant S_ .f32 0x00000000#32)
  :: unary main_cst_21 main_v179 (broadcastInDim S50000x128 ![] bcast_S_S50000x128 : (⟨S_, .f32⟩ : BufTy).Contents (Elt F) → (⟨S50000x128, .f32⟩ : BufTy).Contents (Elt F))
  :: unary main_v168 main_v180 (broadcastInDim S640000x1 ![0] bcast_S640000_S640000x1_0 : (⟨S640000, .i32⟩ : BufTy).Contents (Elt F) → (⟨S640000x1, .i32⟩ : BufTy).Contents (Elt F))
  :: ternary main_v179 main_v180 main_v178 main_v181 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v164 main_v181 main_v182 (addf : (⟨S50000x128, .f32⟩ : BufTy).Contents (Elt F) → (⟨S50000x128, .f32⟩ : BufTy).Contents (Elt F) → (⟨S50000x128, .f32⟩ : BufTy).Contents (Elt F))
  :: unary main_arg21 main_v183 (broadcastInDim S1x128 ![1] bcast_S128_S1x128_1 : (⟨S128, .f32⟩ : BufTy).Contents (Elt F) → (⟨S1x128, .f32⟩ : BufTy).Contents (Elt F))
  :: unary main_v183 main_v184 (broadcastInDim S50000x128 ![0, 1] bcast_S1x128_S50000x128_0_1 : (⟨S1x128, .f32⟩ : BufTy).Contents (Elt F) → (⟨S50000x128, .f32⟩ : BufTy).Contents (Elt F))
  :: binary main_v182 main_v184 main_v185 (addf : (⟨S50000x128, .f32⟩ : BufTy).Contents (Elt F) → (⟨S50000x128, .f32⟩ : BufTy).Contents (Elt F) → (⟨S50000x128, .f32⟩ : BufTy).Contents (Elt F))
  :: unary main_arg22 main_v186 (broadcastInDim S50000x128 ![0, 1] bcast_S50000x1_S50000x128_0_1 : (⟨S50000x1, .f32⟩ : BufTy).Contents (Elt F) → (⟨S50000x128, .f32⟩ : BufTy).Contents (Elt F))
  :: binary main_v186 main_v143 main_v187 (mulf : (⟨S50000x128, .f32⟩ : BufTy).Contents (Elt F) → (⟨S50000x128, .f32⟩ : BufTy).Contents (Elt F) → (⟨S50000x128, .f32⟩ : BufTy).Contents (Elt F))
  :: unary main_arg23 main_v188 (broadcastInDim S50000x128 ![0, 1] bcast_S50000x1_S50000x128_0_1 : (⟨S50000x1, .f32⟩ : BufTy).Contents (Elt F) → (⟨S50000x128, .f32⟩ : BufTy).Contents (Elt F))
  :: binary main_v188 main_v185 main_v189 (mulf : (⟨S50000x128, .f32⟩ : BufTy).Contents (Elt F) → (⟨S50000x128, .f32⟩ : BufTy).Contents (Elt F) → (⟨S50000x128, .f32⟩ : BufTy).Contents (Elt F))
  :: binary main_v187 main_v189 main_v190 (addf : (⟨S50000x128, .f32⟩ : BufTy).Contents (Elt F) → (⟨S50000x128, .f32⟩ : BufTy).Contents (Elt F) → (⟨S50000x128, .f32⟩ : BufTy).Contents (Elt F))
  :: binary main_v190 main_v100 main_v191 (addf : (⟨S50000x128, .f32⟩ : BufTy).Contents (Elt F) → (⟨S50000x128, .f32⟩ : BufTy).Contents (Elt F) → (⟨S50000x128, .f32⟩ : BufTy).Contents (Elt F))
  :: TRef.nullary (TRef.of (T := ⟨S_, .f32⟩) main_call1_cst) (constant S_ .f32 0x00000000#32)
  :: TRef.unary (TRef.of (T := ⟨S_, .f32⟩) main_call1_cst) (TRef.of (T := ⟨S50000x128, .f32⟩) main_call1_v0) (broadcastInDim S50000x128 ![] bcast_S_S50000x128)
  :: TRef.binary (TRef.of (T := ⟨S50000x128, .f32⟩) main_v191) (TRef.of (T := ⟨S50000x128, .f32⟩) main_call1_v0) (TRef.of (T := ⟨S50000x128, .f32⟩) main_v192) maximumf
  :: [])

/-- Operations 222 to 324: layer 3. -/
abbrev cL3 : List (HloOp τ sig (Elt F)) :=
  ( binary main_v192 main_arg26 main_v193 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v192 main_arg24 main_v194 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg1 main_v195 ((extractStridedSlice S1x640000 ![0, 0] · slices_S2x640000_S1x640000_0_0) : (⟨S2x640000, .i32⟩ : BufTy).Contents (Elt F) → (⟨S1x640000, .i32⟩ : BufTy).Contents (Elt F))
  :: reshape main_v195 main_v196 rfl shapeCasts_S1x640000_S640000
  :: unary main_arg1 main_v197 ((extractStridedSlice S1x640000 ![1, 0] · slices_S2x640000_S1x640000_1_0) : (⟨S2x640000, .i32⟩ : BufTy).Contents (Elt F) → (⟨S1x640000, .i32⟩ : BufTy).Contents (Elt F))
  :: reshape main_v197 main_v198 rfl shapeCasts_S1x640000_S640000
  :: unary main_arg2 main_v199 (broadcastInDim S640000x1 ![0] bcast_S640000_S640000x1_0 : (⟨S640000, .f32⟩ : BufTy).Contents (Elt F) → (⟨S640000x1, .f32⟩ : BufTy).Contents (Elt F))
  :: nullary main_c_22 (constantI S_ 32 0#32)
  :: unary main_c_22 main_v200 (broadcastInDim S640000 ![] bcast_S_S640000 : (⟨S_, .i32⟩ : BufTy).Contents (Elt F) → (⟨S640000, .i32⟩ : BufTy).Contents (Elt F))
  :: binary main_v196 main_v200 main_v201 (cmpi .slt : (⟨S640000, .i32⟩ : BufTy).Contents (Elt F) → (⟨S640000, .i32⟩ : BufTy).Contents (Elt F) → (⟨S640000, .i1⟩ : BufTy).Contents (Elt F))
  :: nullary main_c_23 (constantI S_ 32 50000#32)
  :: unary main_c_23 main_v202 (broadcastInDim S640000 ![] bcast_S_S640000 : (⟨S_, .i32⟩ : BufTy).Contents (Elt F) → (⟨S640000, .i32⟩ : BufTy).Contents (Elt F))
  :: binary main_v196 main_v202 main_v203 (addi : (⟨S640000, .i32⟩ : BufTy).Contents (Elt F) → (⟨S640000, .i32⟩ : BufTy).Contents (Elt F) → (⟨S640000, .i32⟩ : BufTy).Contents (Elt F))
  :: ternary main_v201 main_v203 main_v196 main_v204 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v204 main_v205 (broadcastInDim S640000x1 ![0] bcast_S640000_S640000x1_0 : (⟨S640000, .i32⟩ : BufTy).Contents (Elt F) → (⟨S640000x1, .i32⟩ : BufTy).Contents (Elt F))
  :: binary main_v194 main_v205 main_v206 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v199 main_v207 (broadcastInDim S640000x128 ![0, 1] bcast_S640000x1_S640000x128_0_1 : (⟨S640000x1, .f32⟩ : BufTy).Contents (Elt F) → (⟨S640000x128, .f32⟩ : BufTy).Contents (Elt F))
  :: binary main_v207 main_v206 main_v208 (mulf : (⟨S640000x128, .f32⟩ : BufTy).Contents (Elt F) → (⟨S640000x128, .f32⟩ : BufTy).Contents (Elt F) → (⟨S640000x128, .f32⟩ : BufTy).Contents (Elt F))
  :: nullary main_cst_24 (constant S_ .f32 0x00000000#32)
  :: unary main_cst_24 main_v209 (broadcastInDim S50000x128 ![] bcast_S_S50000x128 : (⟨S_, .f32⟩ : BufTy).Contents (Elt F) → (⟨S50000x128, .f32⟩ : BufTy).Contents (Elt F))
  :: unary main_v198 main_v210 (broadcastInDim S640000x1 ![0] bcast_S640000_S640000x1_0 : (⟨S640000, .i32⟩ : BufTy).Contents (Elt F) → (⟨S640000x1, .i32⟩ : BufTy).Contents (Elt F))
  :: ternary main_v209 main_v210 main_v208 main_v211 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg27 main_v212 (broadcastInDim S1x128 ![1] bcast_S128_S1x128_1 : (⟨S128, .f32⟩ : BufTy).Contents (Elt F) → (⟨S1x128, .f32⟩ : BufTy).Contents (Elt F))
  :: unary main_v212 main_v213 (broadcastInDim S50000x128 ![0, 1] bcast_S1x128_S50000x128_0_1 : (⟨S1x128, .f32⟩ : BufTy).Contents (Elt F) → (⟨S50000x128, .f32⟩ : BufTy).Contents (Elt F))
  :: binary main_v211 main_v213 main_v214 (addf : (⟨S50000x128, .f32⟩ : BufTy).Contents (Elt F) → (⟨S50000x128, .f32⟩ : BufTy).Contents (Elt F) → (⟨S50000x128, .f32⟩ : BufTy).Contents (Elt F))
  :: unary main_arg1 main_v215 ((extractStridedSlice S1x640000 ![0, 0] · slices_S2x640000_S1x640000_0_0) : (⟨S2x640000, .i32⟩ : BufTy).Contents (Elt F) → (⟨S1x640000, .i32⟩ : BufTy).Contents (Elt F))
  :: reshape main_v215 main_v216 rfl shapeCasts_S1x640000_S640000
  :: unary main_arg1 main_v217 ((extractStridedSlice S1x640000 ![1, 0] · slices_S2x640000_S1x640000_1_0) : (⟨S2x640000, .i32⟩ : BufTy).Contents (Elt F) → (⟨S1x640000, .i32⟩ : BufTy).Contents (Elt F))
  :: reshape main_v217 main_v218 rfl shapeCasts_S1x640000_S640000
  :: unary main_arg2 main_v219 (broadcastInDim S640000x1 ![0] bcast_S640000_S640000x1_0 : (⟨S640000, .f32⟩ : BufTy).Contents (Elt F) → (⟨S640000x1, .f32⟩ : BufTy).Contents (Elt F))
  :: nullary main_c_25 (constantI S_ 32 0#32)
  :: unary main_c_25 main_v220 (broadcastInDim S640000 ![] bcast_S_S640000 : (⟨S_, .i32⟩ : BufTy).Contents (Elt F) → (⟨S640000, .i32⟩ : BufTy).Contents (Elt F))
  :: binary main_v216 main_v220 main_v221 (cmpi .slt : (⟨S640000, .i32⟩ : BufTy).Contents (Elt F) → (⟨S640000, .i32⟩ : BufTy).Contents (Elt F) → (⟨S640000, .i1⟩ : BufTy).Contents (Elt F))
  :: nullary main_c_26 (constantI S_ 32 50000#32)
  :: unary main_c_26 main_v222 (broadcastInDim S640000 ![] bcast_S_S640000 : (⟨S_, .i32⟩ : BufTy).Contents (Elt F) → (⟨S640000, .i32⟩ : BufTy).Contents (Elt F))
  :: binary main_v216 main_v222 main_v223 (addi : (⟨S640000, .i32⟩ : BufTy).Contents (Elt F) → (⟨S640000, .i32⟩ : BufTy).Contents (Elt F) → (⟨S640000, .i32⟩ : BufTy).Contents (Elt F))
  :: ternary main_v221 main_v223 main_v216 main_v224 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v224 main_v225 (broadcastInDim S640000x1 ![0] bcast_S640000_S640000x1_0 : (⟨S640000, .i32⟩ : BufTy).Contents (Elt F) → (⟨S640000x1, .i32⟩ : BufTy).Contents (Elt F))
  :: binary main_v193 main_v225 main_v226 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v219 main_v227 (broadcastInDim S640000x128 ![0, 1] bcast_S640000x1_S640000x128_0_1 : (⟨S640000x1, .f32⟩ : BufTy).Contents (Elt F) → (⟨S640000x128, .f32⟩ : BufTy).Contents (Elt F))
  :: binary main_v227 main_v226 main_v228 (mulf : (⟨S640000x128, .f32⟩ : BufTy).Contents (Elt F) → (⟨S640000x128, .f32⟩ : BufTy).Contents (Elt F) → (⟨S640000x128, .f32⟩ : BufTy).Contents (Elt F))
  :: nullary main_cst_27 (constant S_ .f32 0x00000000#32)
  :: unary main_cst_27 main_v229 (broadcastInDim S50000x128 ![] bcast_S_S50000x128 : (⟨S_, .f32⟩ : BufTy).Contents (Elt F) → (⟨S50000x128, .f32⟩ : BufTy).Contents (Elt F))
  :: unary main_v218 main_v230 (broadcastInDim S640000x1 ![0] bcast_S640000_S640000x1_0 : (⟨S640000, .i32⟩ : BufTy).Contents (Elt F) → (⟨S640000x1, .i32⟩ : BufTy).Contents (Elt F))
  :: ternary main_v229 main_v230 main_v228 main_v231 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v214 main_v231 main_v232 (addf : (⟨S50000x128, .f32⟩ : BufTy).Contents (Elt F) → (⟨S50000x128, .f32⟩ : BufTy).Contents (Elt F) → (⟨S50000x128, .f32⟩ : BufTy).Contents (Elt F))
  :: unary main_arg29 main_v233 (broadcastInDim S1x128 ![1] bcast_S128_S1x128_1 : (⟨S128, .f32⟩ : BufTy).Contents (Elt F) → (⟨S1x128, .f32⟩ : BufTy).Contents (Elt F))
  :: unary main_v233 main_v234 (broadcastInDim S50000x128 ![0, 1] bcast_S1x128_S50000x128_0_1 : (⟨S1x128, .f32⟩ : BufTy).Contents (Elt F) → (⟨S50000x128, .f32⟩ : BufTy).Contents (Elt F))
  :: binary main_v232 main_v234 main_v235 (addf : (⟨S50000x128, .f32⟩ : BufTy).Contents (Elt F) → (⟨S50000x128, .f32⟩ : BufTy).Contents (Elt F) → (⟨S50000x128, .f32⟩ : BufTy).Contents (Elt F))
  :: binary main_v192 main_arg25 main_v236 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg3 main_v237 ((extractStridedSlice S1x640000 ![0, 0] · slices_S2x640000_S1x640000_0_0) : (⟨S2x640000, .i32⟩ : BufTy).Contents (Elt F) → (⟨S1x640000, .i32⟩ : BufTy).Contents (Elt F))
  :: reshape main_v237 main_v238 rfl shapeCasts_S1x640000_S640000
  :: unary main_arg3 main_v239 ((extractStridedSlice S1x640000 ![1, 0] · slices_S2x640000_S1x640000_1_0) : (⟨S2x640000, .i32⟩ : BufTy).Contents (Elt F) → (⟨S1x640000, .i32⟩ : BufTy).Contents (Elt F))
  :: reshape main_v239 main_v240 rfl shapeCasts_S1x640000_S640000
  :: unary main_arg4 main_v241 (broadcastInDim S640000x1 ![0] bcast_S640000_S640000x1_0 : (⟨S640000, .f32⟩ : BufTy).Contents (Elt F) → (⟨S640000x1, .f32⟩ : BufTy).Contents (Elt F))
  :: nullary main_c_28 (constantI S_ 32 0#32)
  :: unary main_c_28 main_v242 (broadcastInDim S640000 ![] bcast_S_S640000 : (⟨S_, .i32⟩ : BufTy).Contents (Elt F) → (⟨S640000, .i32⟩ : BufTy).Contents (Elt F))
  :: binary main_v238 main_v242 main_v243 (cmpi .slt : (⟨S640000, .i32⟩ : BufTy).Contents (Elt F) → (⟨S640000, .i32⟩ : BufTy).Contents (Elt F) → (⟨S640000, .i1⟩ : BufTy).Contents (Elt F))
  :: nullary main_c_29 (constantI S_ 32 50000#32)
  :: unary main_c_29 main_v244 (broadcastInDim S640000 ![] bcast_S_S640000 : (⟨S_, .i32⟩ : BufTy).Contents (Elt F) → (⟨S640000, .i32⟩ : BufTy).Contents (Elt F))
  :: binary main_v238 main_v244 main_v245 (addi : (⟨S640000, .i32⟩ : BufTy).Contents (Elt F) → (⟨S640000, .i32⟩ : BufTy).Contents (Elt F) → (⟨S640000, .i32⟩ : BufTy).Contents (Elt F))
  :: ternary main_v243 main_v245 main_v238 main_v246 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v246 main_v247 (broadcastInDim S640000x1 ![0] bcast_S640000_S640000x1_0 : (⟨S640000, .i32⟩ : BufTy).Contents (Elt F) → (⟨S640000x1, .i32⟩ : BufTy).Contents (Elt F))
  :: binary main_v236 main_v247 main_v248 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v241 main_v249 (broadcastInDim S640000x128 ![0, 1] bcast_S640000x1_S640000x128_0_1 : (⟨S640000x1, .f32⟩ : BufTy).Contents (Elt F) → (⟨S640000x128, .f32⟩ : BufTy).Contents (Elt F))
  :: binary main_v249 main_v248 main_v250 (mulf : (⟨S640000x128, .f32⟩ : BufTy).Contents (Elt F) → (⟨S640000x128, .f32⟩ : BufTy).Contents (Elt F) → (⟨S640000x128, .f32⟩ : BufTy).Contents (Elt F))
  :: nullary main_cst_30 (constant S_ .f32 0x00000000#32)
  :: unary main_cst_30 main_v251 (broadcastInDim S50000x128 ![] bcast_S_S50000x128 : (⟨S_, .f32⟩ : BufTy).Contents (Elt F) → (⟨S50000x128, .f32⟩ : BufTy).Contents (Elt F))
  :: unary main_v240 main_v252 (broadcastInDim S640000x1 ![0] bcast_S640000_S640000x1_0 : (⟨S640000, .i32⟩ : BufTy).Contents (Elt F) → (⟨S640000x1, .i32⟩ : BufTy).Contents (Elt F))
  :: ternary main_v251 main_v252 main_v250 main_v253 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: unary main_arg28 main_v254 (broadcastInDim S1x128 ![1] bcast_S128_S1x128_1 : (⟨S128, .f32⟩ : BufTy).Contents (Elt F) → (⟨S1x128, .f32⟩ : BufTy).Contents (Elt F))
  :: unary main_v254 main_v255 (broadcastInDim S50000x128 ![0, 1] bcast_S1x128_S50000x128_0_1 : (⟨S1x128, .f32⟩ : BufTy).Contents (Elt F) → (⟨S50000x128, .f32⟩ : BufTy).Contents (Elt F))
  :: binary main_v253 main_v255 main_v256 (addf : (⟨S50000x128, .f32⟩ : BufTy).Contents (Elt F) → (⟨S50000x128, .f32⟩ : BufTy).Contents (Elt F) → (⟨S50000x128, .f32⟩ : BufTy).Contents (Elt F))
  :: unary main_arg3 main_v257 ((extractStridedSlice S1x640000 ![0, 0] · slices_S2x640000_S1x640000_0_0) : (⟨S2x640000, .i32⟩ : BufTy).Contents (Elt F) → (⟨S1x640000, .i32⟩ : BufTy).Contents (Elt F))
  :: reshape main_v257 main_v258 rfl shapeCasts_S1x640000_S640000
  :: unary main_arg3 main_v259 ((extractStridedSlice S1x640000 ![1, 0] · slices_S2x640000_S1x640000_1_0) : (⟨S2x640000, .i32⟩ : BufTy).Contents (Elt F) → (⟨S1x640000, .i32⟩ : BufTy).Contents (Elt F))
  :: reshape main_v259 main_v260 rfl shapeCasts_S1x640000_S640000
  :: unary main_arg4 main_v261 (broadcastInDim S640000x1 ![0] bcast_S640000_S640000x1_0 : (⟨S640000, .f32⟩ : BufTy).Contents (Elt F) → (⟨S640000x1, .f32⟩ : BufTy).Contents (Elt F))
  :: nullary main_c_31 (constantI S_ 32 0#32)
  :: unary main_c_31 main_v262 (broadcastInDim S640000 ![] bcast_S_S640000 : (⟨S_, .i32⟩ : BufTy).Contents (Elt F) → (⟨S640000, .i32⟩ : BufTy).Contents (Elt F))
  :: binary main_v258 main_v262 main_v263 (cmpi .slt : (⟨S640000, .i32⟩ : BufTy).Contents (Elt F) → (⟨S640000, .i32⟩ : BufTy).Contents (Elt F) → (⟨S640000, .i1⟩ : BufTy).Contents (Elt F))
  :: nullary main_c_32 (constantI S_ 32 50000#32)
  :: unary main_c_32 main_v264 (broadcastInDim S640000 ![] bcast_S_S640000 : (⟨S_, .i32⟩ : BufTy).Contents (Elt F) → (⟨S640000, .i32⟩ : BufTy).Contents (Elt F))
  :: binary main_v258 main_v264 main_v265 (addi : (⟨S640000, .i32⟩ : BufTy).Contents (Elt F) → (⟨S640000, .i32⟩ : BufTy).Contents (Elt F) → (⟨S640000, .i32⟩ : BufTy).Contents (Elt F))
  :: ternary main_v263 main_v265 main_v258 main_v266 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
  :: unary main_v266 main_v267 (broadcastInDim S640000x1 ![0] bcast_S640000_S640000x1_0 : (⟨S640000, .i32⟩ : BufTy).Contents (Elt F) → (⟨S640000x1, .i32⟩ : BufTy).Contents (Elt F))
  :: binary main_v193 main_v267 main_v268 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F))
  :: unary main_v261 main_v269 (broadcastInDim S640000x128 ![0, 1] bcast_S640000x1_S640000x128_0_1 : (⟨S640000x1, .f32⟩ : BufTy).Contents (Elt F) → (⟨S640000x128, .f32⟩ : BufTy).Contents (Elt F))
  :: binary main_v269 main_v268 main_v270 (mulf : (⟨S640000x128, .f32⟩ : BufTy).Contents (Elt F) → (⟨S640000x128, .f32⟩ : BufTy).Contents (Elt F) → (⟨S640000x128, .f32⟩ : BufTy).Contents (Elt F))
  :: nullary main_cst_33 (constant S_ .f32 0x00000000#32)
  :: unary main_cst_33 main_v271 (broadcastInDim S50000x128 ![] bcast_S_S50000x128 : (⟨S_, .f32⟩ : BufTy).Contents (Elt F) → (⟨S50000x128, .f32⟩ : BufTy).Contents (Elt F))
  :: unary main_v260 main_v272 (broadcastInDim S640000x1 ![0] bcast_S640000_S640000x1_0 : (⟨S640000, .i32⟩ : BufTy).Contents (Elt F) → (⟨S640000x1, .i32⟩ : BufTy).Contents (Elt F))
  :: ternary main_v271 main_v272 main_v270 main_v273 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F))
  :: binary main_v256 main_v273 main_v274 (addf : (⟨S50000x128, .f32⟩ : BufTy).Contents (Elt F) → (⟨S50000x128, .f32⟩ : BufTy).Contents (Elt F) → (⟨S50000x128, .f32⟩ : BufTy).Contents (Elt F))
  :: unary main_arg30 main_v275 (broadcastInDim S1x128 ![1] bcast_S128_S1x128_1 : (⟨S128, .f32⟩ : BufTy).Contents (Elt F) → (⟨S1x128, .f32⟩ : BufTy).Contents (Elt F))
  :: unary main_v275 main_v276 (broadcastInDim S50000x128 ![0, 1] bcast_S1x128_S50000x128_0_1 : (⟨S1x128, .f32⟩ : BufTy).Contents (Elt F) → (⟨S50000x128, .f32⟩ : BufTy).Contents (Elt F))
  :: binary main_v274 main_v276 main_v277 (addf : (⟨S50000x128, .f32⟩ : BufTy).Contents (Elt F) → (⟨S50000x128, .f32⟩ : BufTy).Contents (Elt F) → (⟨S50000x128, .f32⟩ : BufTy).Contents (Elt F))
  :: unary main_arg31 main_v278 (broadcastInDim S50000x128 ![0, 1] bcast_S50000x1_S50000x128_0_1 : (⟨S50000x1, .f32⟩ : BufTy).Contents (Elt F) → (⟨S50000x128, .f32⟩ : BufTy).Contents (Elt F))
  :: binary main_v278 main_v235 main_v279 (mulf : (⟨S50000x128, .f32⟩ : BufTy).Contents (Elt F) → (⟨S50000x128, .f32⟩ : BufTy).Contents (Elt F) → (⟨S50000x128, .f32⟩ : BufTy).Contents (Elt F))
  :: unary main_arg32 main_v280 (broadcastInDim S50000x128 ![0, 1] bcast_S50000x1_S50000x128_0_1 : (⟨S50000x1, .f32⟩ : BufTy).Contents (Elt F) → (⟨S50000x128, .f32⟩ : BufTy).Contents (Elt F))
  :: binary main_v280 main_v277 main_v281 (mulf : (⟨S50000x128, .f32⟩ : BufTy).Contents (Elt F) → (⟨S50000x128, .f32⟩ : BufTy).Contents (Elt F) → (⟨S50000x128, .f32⟩ : BufTy).Contents (Elt F))
  :: binary main_v279 main_v281 main_v282 (addf : (⟨S50000x128, .f32⟩ : BufTy).Contents (Elt F) → (⟨S50000x128, .f32⟩ : BufTy).Contents (Elt F) → (⟨S50000x128, .f32⟩ : BufTy).Contents (Elt F))
  :: binary main_v282 main_v192 main_v283 (addf : (⟨S50000x128, .f32⟩ : BufTy).Contents (Elt F) → (⟨S50000x128, .f32⟩ : BufTy).Contents (Elt F) → (⟨S50000x128, .f32⟩ : BufTy).Contents (Elt F))
  :: [])

/-- Operations 325 to 353: the row norm, the decoder and the log-softmax. -/
abbrev cF : List (HloOp τ sig (Elt F)) :=
  ( TRef.binary (TRef.of (T := ⟨S50000x128, .f32⟩) main_v283) (TRef.of (T := ⟨S50000x128, .f32⟩) main_v283) (TRef.of (T := ⟨S50000x128, .f32⟩) main_call2_v0) mulf
  :: TRef.nullary (TRef.of (T := ⟨S_, .f32⟩) main_call2_cst) (constant S_ .f32 0x00000000#32)
  :: TRef.binary (TRef.of (T := ⟨S50000x128, .f32⟩) main_call2_v0) (TRef.of (T := ⟨S_, .f32⟩) main_call2_cst) (TRef.of (T := ⟨S50000, .f32⟩) main_call2_v1) (fun x v => Host.reduceAdd x v reducesTo_S50000x128_S50000_d1 h_S_)
  :: TRef.unary (TRef.of (T := ⟨S50000, .f32⟩) main_call2_v1) (TRef.of (T := ⟨S50000x1, .f32⟩) main_call2_v2) (broadcastInDim S50000x1 ![0] bcast_S50000_S50000x1_0)
  :: TRef.unary (TRef.of (T := ⟨S50000x1, .f32⟩) main_call2_v2) (TRef.of (T := ⟨S50000x1, .f32⟩) main_v284) Host.sqrt
  :: nullary main_cst_34 (constant S_ .f32 0x2B8CBCCC#32)
  :: unary main_cst_34 main_v285 (broadcastInDim S50000x1 ![] bcast_S_S50000x1 : (⟨S_, .f32⟩ : BufTy).Contents (Elt F) → (⟨S50000x1, .f32⟩ : BufTy).Contents (Elt F))
  :: binary main_v284 main_v285 main_v286 (maximumf : (⟨S50000x1, .f32⟩ : BufTy).Contents (Elt F) → (⟨S50000x1, .f32⟩ : BufTy).Contents (Elt F) → (⟨S50000x1, .f32⟩ : BufTy).Contents (Elt F))
  :: unary main_v286 main_v287 (broadcastInDim S50000x128 ![0, 1] bcast_S50000x1_S50000x128_0_1 : (⟨S50000x1, .f32⟩ : BufTy).Contents (Elt F) → (⟨S50000x128, .f32⟩ : BufTy).Contents (Elt F))
  :: binary main_v283 main_v287 main_v288 (Host.divf : (⟨S50000x128, .f32⟩ : BufTy).Contents (Elt F) → (⟨S50000x128, .f32⟩ : BufTy).Contents (Elt F) → (⟨S50000x128, .f32⟩ : BufTy).Contents (Elt F))
  :: binary main_v288 main_arg35 main_v289 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
  :: unary main_arg36 main_v290 (broadcastInDim S1x256 ![1] bcast_S256_S1x256_1 : (⟨S256, .f32⟩ : BufTy).Contents (Elt F) → (⟨S1x256, .f32⟩ : BufTy).Contents (Elt F))
  :: unary main_v290 main_v291 (broadcastInDim S50000x256 ![0, 1] bcast_S1x256_S50000x256_0_1 : (⟨S1x256, .f32⟩ : BufTy).Contents (Elt F) → (⟨S50000x256, .f32⟩ : BufTy).Contents (Elt F))
  :: binary main_v289 main_v291 main_v292 (addf : (⟨S50000x256, .f32⟩ : BufTy).Contents (Elt F) → (⟨S50000x256, .f32⟩ : BufTy).Contents (Elt F) → (⟨S50000x256, .f32⟩ : BufTy).Contents (Elt F))
  :: TRef.nullary (TRef.of (T := ⟨S_, .f32⟩) main_call3_cst) (constant S_ .f32 0xFF800000#32)
  :: TRef.binary (TRef.of (T := ⟨S50000x256, .f32⟩) main_v292) (TRef.of (T := ⟨S_, .f32⟩) main_call3_cst) (TRef.of (T := ⟨S50000, .f32⟩) main_call3_v0) (fun x v => Host.reduce FloatOps.maximumf x v reducesTo_S50000x256_S50000_d1 h_S_)
  :: TRef.nullary (TRef.of (T := ⟨S_, .f32⟩) main_call3_cst_0) (constant S_ .f32 0xFF800000#32)
  :: TRef.unary (TRef.of (T := ⟨S_, .f32⟩) main_call3_cst_0) (TRef.of (T := ⟨S50000, .f32⟩) main_call3_v1) (broadcastInDim S50000 ![] bcast_S_S50000)
  :: TRef.binary (TRef.of (T := ⟨S50000, .f32⟩) main_call3_v1) (TRef.of (T := ⟨S50000, .f32⟩) main_call3_v0) (TRef.of (T := ⟨S50000, .f32⟩) main_call3_v2) maximumf
  :: TRef.unary (TRef.of (T := ⟨S50000, .f32⟩) main_call3_v2) (TRef.of (T := ⟨S50000x1, .f32⟩) main_call3_v3) (broadcastInDim S50000x1 ![0] bcast_S50000_S50000x1_0)
  :: TRef.unary (TRef.of (T := ⟨S50000x1, .f32⟩) main_call3_v3) (TRef.of (T := ⟨S50000x256, .f32⟩) main_call3_v4) (broadcastInDim S50000x256 ![0, 1] bcast_S50000x1_S50000x256_0_1)
  :: TRef.binary (TRef.of (T := ⟨S50000x256, .f32⟩) main_v292) (TRef.of (T := ⟨S50000x256, .f32⟩) main_call3_v4) (TRef.of (T := ⟨S50000x256, .f32⟩) main_call3_v5) subf
  :: TRef.unary (TRef.of (T := ⟨S50000x256, .f32⟩) main_call3_v5) (TRef.of (T := ⟨S50000x256, .f32⟩) main_call3_v6) Host.exp
  :: TRef.nullary (TRef.of (T := ⟨S_, .f32⟩) main_call3_cst_1) (constant S_ .f32 0x00000000#32)
  :: TRef.binary (TRef.of (T := ⟨S50000x256, .f32⟩) main_call3_v6) (TRef.of (T := ⟨S_, .f32⟩) main_call3_cst_1) (TRef.of (T := ⟨S50000, .f32⟩) main_call3_v7) (fun x v => Host.reduceAdd x v reducesTo_S50000x256_S50000_d1 h_S_)
  :: TRef.unary (TRef.of (T := ⟨S50000, .f32⟩) main_call3_v7) (TRef.of (T := ⟨S50000x1, .f32⟩) main_call3_v8) (broadcastInDim S50000x1 ![0] bcast_S50000_S50000x1_0)
  :: TRef.unary (TRef.of (T := ⟨S50000x1, .f32⟩) main_call3_v8) (TRef.of (T := ⟨S50000x1, .f32⟩) main_call3_v9) Host.log
  :: TRef.unary (TRef.of (T := ⟨S50000x1, .f32⟩) main_call3_v9) (TRef.of (T := ⟨S50000x256, .f32⟩) main_call3_v10) (broadcastInDim S50000x256 ![0, 1] bcast_S50000x1_S50000x256_0_1)
  :: TRef.binary (TRef.of (T := ⟨S50000x256, .f32⟩) main_call3_v5) (TRef.of (T := ⟨S50000x256, .f32⟩) main_call3_v10) (TRef.of (T := ⟨S50000x256, .f32⟩) main_v293) subf
  :: [])

/-- The same list, cut at the stages. -/
theorem ops_stages : (ops : List (HloOp τ sig (Elt F))) = cX ++ cL1 ++ cL2 ++ cL3 ++ cF := rfl

/-- The fold, stage by stage. -/
theorem after_stages (V : Valuation τ sig (Elt F)) :
    after (ops (F := F)) V = after cF (after cL3 (after cL2 (after cL1 (after cX V)))) := by
  rw [ops_stages, StableHlo.after_append, StableHlo.after_append, StableHlo.after_append, StableHlo.after_append]

end Cert.ReferenceIdeal.Hand

end
-- ==== Proof.RefKeep.lean ====
/-
  No stage of the reference writes an argument: through each stage's fold an argument's buffer is what it was.
-/
import proofs.«106078_j59889023976011_1_alg».proof.Proof.RefStage

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

theorem cX_writes : (cX : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))
theorem cX_keep (V : Valuation τ sig (Elt F)) (r : Ref sig .tc) (h : r ∉ opsWl) : after (cX (F := F)) V (Proc.devRef .tc r) = V (Proc.devRef .tc r) :=
  after_of_writes_sub cX V cX_writes h
theorem cL1_writes : (cL1 : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))
theorem cL1_keep (V : Valuation τ sig (Elt F)) (r : Ref sig .tc) (h : r ∉ opsWl) : after (cL1 (F := F)) V (Proc.devRef .tc r) = V (Proc.devRef .tc r) :=
  after_of_writes_sub cL1 V cL1_writes h
theorem cL2_writes : (cL2 : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))
theorem cL2_keep (V : Valuation τ sig (Elt F)) (r : Ref sig .tc) (h : r ∉ opsWl) : after (cL2 (F := F)) V (Proc.devRef .tc r) = V (Proc.devRef .tc r) :=
  after_of_writes_sub cL2 V cL2_writes h
theorem cL3_writes : (cL3 : List (HloOp τ sig (Elt F))).Forall fun op => op.writes ⊆ (opsWl.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))
theorem cL3_keep (V : Valuation τ sig (Elt F)) (r : Ref sig .tc) (h : r ∉ opsWl) : after (cL3 (F := F)) V (Proc.devRef .tc r) = V (Proc.devRef .tc r) :=
  after_of_writes_sub cL3 V cL3_writes h

end Cert.ReferenceIdeal.Hand

end
-- ==== Proof.AsmB.lean ====
/-
  The two equations, stage by stage. From launch memories that agree on the arguments: the features with the
  positional encoding agree; then each layer's output, because both sides' layer values are the reference's layer term
  of equal operands; then the two results, by the last stage's two comparisons.
-/

import proofs.«106078_j59889023976011_1_alg».proof.Proof.RefKeep

set_option maxRecDepth 16384

noncomputable section

open Idealize.ShloMosaic Idealize.ShloMosaic.TcCoe Idealize.SL.Sem Idealize.ShloMosaic.StableHlo

namespace Cert.Proof.Stages

open Cert.ReferenceIdeal.Hand

variable (m' : (ℓ : Loc Cert.ReferenceIdeal.nD Cert.ReferenceIdeal.τ Cert.ReferenceIdeal.sig) → Buf (Elt Ideal) ℓ)

/-- The reference's launch valuation on core c. -/
abbrev U0 (c : Dev Cert.ReferenceIdeal.nD) : Valuation Cert.ReferenceIdeal.τ Cert.ReferenceIdeal.sig (Elt Ideal) := launchContents m' c

/-- An argument's buffer through the reference's stages. -/
theorem keep0 (c : Dev Cert.ReferenceIdeal.nD) (r : Ref Cert.ReferenceIdeal.sig .tc) (h : r ∉ opsWl) :
    after (cX (F := Ideal)) (U0 m' c) (Proc.devRef .tc r) = m' ((c.tc : Thread Cert.ReferenceIdeal.nD Cert.ReferenceIdeal.τ).loc r) :=
  (cX_keep _ r h).trans rfl
theorem keep1 (c : Dev Cert.ReferenceIdeal.nD) (r : Ref Cert.ReferenceIdeal.sig .tc) (h : r ∉ opsWl) :
    after (cL1 (F := Ideal)) (after cX (U0 m' c)) (Proc.devRef .tc r) = m' ((c.tc : Thread Cert.ReferenceIdeal.nD Cert.ReferenceIdeal.τ).loc r) :=
  (cL1_keep _ r h).trans (keep0 m' c r h)
theorem keep2 (c : Dev Cert.ReferenceIdeal.nD) (r : Ref Cert.ReferenceIdeal.sig .tc) (h : r ∉ opsWl) :
    after (cL2 (F := Ideal)) (after cL1 (after cX (U0 m' c))) (Proc.devRef .tc r) = m' ((c.tc : Thread Cert.ReferenceIdeal.nD Cert.ReferenceIdeal.τ).loc r) :=
  (cL2_keep _ r h).trans (keep1 m' c r h)
theorem keep3 (c : Dev Cert.ReferenceIdeal.nD) (r : Ref Cert.ReferenceIdeal.sig .tc) (h : r ∉ opsWl) :
    after (cL3 (F := Ideal)) (after cL2 (after cL1 (after cX (U0 m' c)))) (Proc.devRef .tc r) = m' ((c.tc : Thread Cert.ReferenceIdeal.nD Cert.ReferenceIdeal.τ).loc r) :=
  (cL3_keep _ r h).trans (keep2 m' c r h)

end Cert.Proof.Stages

end
-- ==== Proof.RefFinal.lean ====
/-
  The reference's last stage as pure functions, and the readings that the fold of its 29 operations leaves them in
  the two result buffers: the rows divided by max(sqrt(sum of squares), eps); the decoder product plus bias; and the
  log-softmax — the row maximum (taken against minus infinity once more) subtracted, then the log of the row sum of
  exponentials subtracted.
-/
import proofs.«106078_j59889023976011_1_alg».proof.Proof.RefStage
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- Each row divided by the larger of its Euclidean norm and eps. -/
def embR (H : (⟨S50000x128, .f32⟩ : BufTy).Contents (Elt F)) : (⟨S50000x128, .f32⟩ : BufTy).Contents (Elt F) :=
  Host.divf H (broadcastInDim S50000x128 ![0, 1] bcast_S50000x1_S50000x128_0_1
    (maximumf (Host.sqrt (broadcastInDim S50000x1 ![0] bcast_S50000_S50000x1_0
        (Host.reduceAdd (mulf H H) (constant S_ .f32 0x00000000#32) reducesTo_S50000x128_S50000_d1 h_S_)))
      (broadcastInDim S50000x1 ![] bcast_S_S50000x1 (constant S_ .f32 0x2B8CBCCC#32))))

/-- The decoder: product with the 128 × 256 matrix plus the bias row. -/
def logitsR (E : (⟨S50000x128, .f32⟩ : BufTy).Contents (Elt F)) (a35 : (⟨S128x256, .f32⟩ : BufTy).Contents (Elt F)) (a36 : (⟨S256, .f32⟩ : BufTy).Contents (Elt F)) : (⟨S50000x256, .f32⟩ : BufTy).Contents (Elt F) :=
  addf (Host.dotGeneral dot_S50000x128_S128x256_S50000x256_1_0_0_1_n_n none E a35)
    (broadcastInDim S50000x256 ![0, 1] bcast_S1x256_S50000x256_0_1 (broadcastInDim S1x256 ![1] bcast_S256_S1x256_1 a36))

/-- Each row less its maximum. -/
def shiftedR (Lg : (⟨S50000x256, .f32⟩ : BufTy).Contents (Elt F)) : (⟨S50000x256, .f32⟩ : BufTy).Contents (Elt F) :=
  subf Lg (broadcastInDim S50000x256 ![0, 1] bcast_S50000x1_S50000x256_0_1 (broadcastInDim S50000x1 ![0] bcast_S50000_S50000x1_0
    (maximumf (broadcastInDim S50000 ![] bcast_S_S50000 (constant S_ .f32 0xFF800000#32))
      (Host.reduce FloatOps.maximumf Lg (constant S_ .f32 0xFF800000#32) reducesTo_S50000x256_S50000_d1 h_S_))))

/-- Each row less the log of the sum of its exponentials. -/
def logpR (Sh : (⟨S50000x256, .f32⟩ : BufTy).Contents (Elt F)) : (⟨S50000x256, .f32⟩ : BufTy).Contents (Elt F) :=
  subf Sh (broadcastInDim S50000x256 ![0, 1] bcast_S50000x1_S50000x256_0_1 (Host.log (broadcastInDim S50000x1 ![0] bcast_S50000_S50000x1_0
    (Host.reduceAdd (Host.exp Sh) (constant S_ .f32 0x00000000#32) reducesTo_S50000x256_S50000_d1 h_S_))))

set_option maxHeartbeats 4000000 in
theorem after_cF_emb (V : Valuation τ sig (Elt F)) :
    after (cF (F := F)) V (Proc.devRef .tc main_v288) = embR (V (Proc.devRef .tc main_v283)) := by
  dsimp only [cF]
  after_results_simp
  rfl

/-- Contents carried to a buffer's own type and back are the contents. -/
theorem ofBuf_toBuf {T : BufTy} (x : TRef sig T) (v : T.Contents (Elt F)) : x.ofBuf (x.toBuf v) = v := by
  obtain ⟨r, rfl, _, _⟩ := x
  rfl

/-- The tail's operations up to the decoded entries (14 operations), and the log-softmax's (15). -/
abbrev cFa : List (HloOp τ sig (Elt F)) :=
  ( TRef.binary (TRef.of (T := ⟨S50000x128, .f32⟩) main_v283) (TRef.of (T := ⟨S50000x128, .f32⟩) main_v283) (TRef.of (T := ⟨S50000x128, .f32⟩) main_call2_v0) mulf
  :: TRef.nullary (TRef.of (T := ⟨S_, .f32⟩) main_call2_cst) (constant S_ .f32 0x00000000#32)
  :: TRef.binary (TRef.of (T := ⟨S50000x128, .f32⟩) main_call2_v0) (TRef.of (T := ⟨S_, .f32⟩) main_call2_cst) (TRef.of (T := ⟨S50000, .f32⟩) main_call2_v1) (fun x v => Host.reduceAdd x v reducesTo_S50000x128_S50000_d1 h_S_)
  :: TRef.unary (TRef.of (T := ⟨S50000, .f32⟩) main_call2_v1) (TRef.of (T := ⟨S50000x1, .f32⟩) main_call2_v2) (broadcastInDim S50000x1 ![0] bcast_S50000_S50000x1_0)
  :: TRef.unary (TRef.of (T := ⟨S50000x1, .f32⟩) main_call2_v2) (TRef.of (T := ⟨S50000x1, .f32⟩) main_v284) Host.sqrt
  :: nullary main_cst_34 (constant S_ .f32 0x2B8CBCCC#32)
  :: unary main_cst_34 main_v285 (broadcastInDim S50000x1 ![] bcast_S_S50000x1 : (⟨S_, .f32⟩ : BufTy).Contents (Elt F) → (⟨S50000x1, .f32⟩ : BufTy).Contents (Elt F))
  :: binary main_v284 main_v285 main_v286 (maximumf : (⟨S50000x1, .f32⟩ : BufTy).Contents (Elt F) → (⟨S50000x1, .f32⟩ : BufTy).Contents (Elt F) → (⟨S50000x1, .f32⟩ : BufTy).Contents (Elt F))
  :: unary main_v286 main_v287 (broadcastInDim S50000x128 ![0, 1] bcast_S50000x1_S50000x128_0_1 : (⟨S50000x1, .f32⟩ : BufTy).Contents (Elt F) → (⟨S50000x128, .f32⟩ : BufTy).Contents (Elt F))
  :: binary main_v283 main_v287 main_v288 (Host.divf : (⟨S50000x128, .f32⟩ : BufTy).Contents (Elt F) → (⟨S50000x128, .f32⟩ : BufTy).Contents (Elt F) → (⟨S50000x128, .f32⟩ : BufTy).Contents (Elt F))
  :: binary main_v288 main_arg35 main_v289 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
  :: unary main_arg36 main_v290 (broadcastInDim S1x256 ![1] bcast_S256_S1x256_1 : (⟨S256, .f32⟩ : BufTy).Contents (Elt F) → (⟨S1x256, .f32⟩ : BufTy).Contents (Elt F))
  :: unary main_v290 main_v291 (broadcastInDim S50000x256 ![0, 1] bcast_S1x256_S50000x256_0_1 : (⟨S1x256, .f32⟩ : BufTy).Contents (Elt F) → (⟨S50000x256, .f32⟩ : BufTy).Contents (Elt F))
  :: binary main_v289 main_v291 main_v292 (addf : (⟨S50000x256, .f32⟩ : BufTy).Contents (Elt F) → (⟨S50000x256, .f32⟩ : BufTy).Contents (Elt F) → (⟨S50000x256, .f32⟩ : BufTy).Contents (Elt F))
  :: [])
abbrev cFb : List (HloOp τ sig (Elt F)) :=
  ( TRef.nullary (TRef.of (T := ⟨S_, .f32⟩) main_call3_cst) (constant S_ .f32 0xFF800000#32)
  :: TRef.binary (TRef.of (T := ⟨S50000x256, .f32⟩) main_v292) (TRef.of (T := ⟨S_, .f32⟩) main_call3_cst) (TRef.of (T := ⟨S50000, .f32⟩) main_call3_v0) (fun x v => Host.reduce FloatOps.maximumf x v reducesTo_S50000x256_S50000_d1 h_S_)
  :: TRef.nullary (TRef.of (T := ⟨S_, .f32⟩) main_call3_cst_0) (constant S_ .f32 0xFF800000#32)
  :: TRef.unary (TRef.of (T := ⟨S_, .f32⟩) main_call3_cst_0) (TRef.of (T := ⟨S50000, .f32⟩) main_call3_v1) (broadcastInDim S50000 ![] bcast_S_S50000)
  :: TRef.binary (TRef.of (T := ⟨S50000, .f32⟩) main_call3_v1) (TRef.of (T := ⟨S50000, .f32⟩) main_call3_v0) (TRef.of (T := ⟨S50000, .f32⟩) main_call3_v2) maximumf
  :: TRef.unary (TRef.of (T := ⟨S50000, .f32⟩) main_call3_v2) (TRef.of (T := ⟨S50000x1, .f32⟩) main_call3_v3) (broadcastInDim S50000x1 ![0] bcast_S50000_S50000x1_0)
  :: TRef.unary (TRef.of (T := ⟨S50000x1, .f32⟩) main_call3_v3) (TRef.of (T := ⟨S50000x256, .f32⟩) main_call3_v4) (broadcastInDim S50000x256 ![0, 1] bcast_S50000x1_S50000x256_0_1)
  :: TRef.binary (TRef.of (T := ⟨S50000x256, .f32⟩) main_v292) (TRef.of (T := ⟨S50000x256, .f32⟩) main_call3_v4) (TRef.of (T := ⟨S50000x256, .f32⟩) main_call3_v5) subf
  :: TRef.unary (TRef.of (T := ⟨S50000x256, .f32⟩) main_call3_v5) (TRef.of (T := ⟨S50000x256, .f32⟩) main_call3_v6) Host.exp
  :: TRef.nullary (TRef.of (T := ⟨S_, .f32⟩) main_call3_cst_1) (constant S_ .f32 0x00000000#32)
  :: TRef.binary (TRef.of (T := ⟨S50000x256, .f32⟩) main_call3_v6) (TRef.of (T := ⟨S_, .f32⟩) main_call3_cst_1) (TRef.of (T := ⟨S50000, .f32⟩) main_call3_v7) (fun x v => Host.reduceAdd x v reducesTo_S50000x256_S50000_d1 h_S_)
  :: TRef.unary (TRef.of (T := ⟨S50000, .f32⟩) main_call3_v7) (TRef.of (T := ⟨S50000x1, .f32⟩) main_call3_v8) (broadcastInDim S50000x1 ![0] bcast_S50000_S50000x1_0)
  :: TRef.unary (TRef.of (T := ⟨S50000x1, .f32⟩) main_call3_v8) (TRef.of (T := ⟨S50000x1, .f32⟩) main_call3_v9) Host.log
  :: TRef.unary (TRef.of (T := ⟨S50000x1, .f32⟩) main_call3_v9) (TRef.of (T := ⟨S50000x256, .f32⟩) main_call3_v10) (broadcastInDim S50000x256 ![0, 1] bcast_S50000x1_S50000x256_0_1)
  :: TRef.binary (TRef.of (T := ⟨S50000x256, .f32⟩) main_call3_v5) (TRef.of (T := ⟨S50000x256, .f32⟩) main_call3_v10) (TRef.of (T := ⟨S50000x256, .f32⟩) main_v293) subf
  :: [])
theorem cF_split : (cF : List (HloOp τ sig (Elt F))) = cFa ++ cFb := rfl

set_option maxHeartbeats 4000000 in
theorem after_cFa_logits (V : Valuation τ sig (Elt F)) :
    after (cFa (F := F)) V (Proc.devRef .tc main_v292)
      = logitsR (embR (V (Proc.devRef .tc main_v283))) (V (Proc.devRef .tc main_arg35)) (V (Proc.devRef .tc main_arg36)) := by
  dsimp only [cFa]
  after_results_simp
  simp only [ofBuf_toBuf]
  rfl

set_option maxHeartbeats 4000000 in
theorem after_cFb_logp (V : Valuation τ sig (Elt F)) :
    after (cFb (F := F)) V (Proc.devRef .tc main_v293) = logpR (shiftedR (V (Proc.devRef .tc main_v292))) := by
  dsimp only [cFb]
  after_results_simp
  simp only [ofBuf_toBuf]
  rfl

theorem after_cF_logp (V : Valuation τ sig (Elt F)) :
    after (cF (F := F)) V (Proc.devRef .tc main_v293)
      = logpR (shiftedR (logitsR (embR (V (Proc.devRef .tc main_v283))) (V (Proc.devRef .tc main_arg35)) (V (Proc.devRef .tc main_arg36)))) := by
  rw [cF_split, StableHlo.after_append, after_cFb_logp, after_cFa_logits]

/-- The positional encoding stage: the features reshaped to 3 groups of 32, the table added to every node, reshaped back. -/
theorem after_cX (V : Valuation τ sig (Elt F)) :
    after (cX (F := F)) V (Proc.devRef .tc main_v4)
      = shapeCast S50000x96 (addf (shapeCast S50000x3x32 (V (Proc.devRef .tc main_arg0)) shapeCasts_S50000x96_S50000x3x32)
          (broadcastInDim S50000x3x32 ![0, 1, 2] bcast_S1x3x32_S50000x3x32_0_1_2 (broadcastInDim S1x3x32 ![1, 2] bcast_S3x32_S1x3x32_1_2 (V (Proc.devRef .tc main_arg5))))) shapeCasts_S50000x3x32_S50000x96 := by
  dsimp only [cX]
  after_results
  rfl

end Cert.ReferenceIdeal.Hand

end
-- ==== Proof.KI.Read0.lean ====
/-
  What the first stretch of host operations leaves in the buffers the later stages read: the features with the
  positional encoding added, the four layer-1 weight matrices laid side by side, and the source and target index
  arrays of the two edge lists (rows 0 and 1 of each 2 × 640000 index array, flattened).
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-- The features with the positional encoding added. -/
theorem W1_main_v4 (c : Dev nD) : W1 m ρ c (Proc.devRef .tc main_v4)
    = shapeCast S50000x96 (addf (shapeCast S50000x3x32 (m ((c : Thread nD τ).loc main_arg0)) shapeCasts_S50000x96_S50000x3x32)
        (broadcastInDim S50000x3x32 ![0, 1, 2] bcast_S1x3x32_S50000x3x32_0_1_2 (broadcastInDim S1x3x32 ![1, 2] bcast_S3x32_S1x3x32_1_2 (m ((c : Thread nD τ).loc main_arg5))))) shapeCasts_S50000x3x32_S50000x96 := by
  dsimp only [W1, hostOps0]
  after_results
  rfl

/-- The four layer-1 weight matrices side by side. -/
theorem W1_main_v13 (c : Dev nD) : W1 m ρ c (Proc.devRef .tc main_v13)
    = concatenate S96x512 1 [⟨S96x128, m ((c : Thread nD τ).loc main_arg6)⟩, ⟨S96x128, m ((c : Thread nD τ).loc main_arg7)⟩, ⟨S96x128, m ((c : Thread nD τ).loc main_arg8)⟩, ⟨S96x128, m ((c : Thread nD τ).loc main_arg33)⟩] concatenates_S96x128_S96x128_S96x128_S96x128_S96x512_d1 := by
  dsimp only [W1, hostOps0]
  after_results
  rfl

/-- Source and target indices of the incoming edges, and of the outgoing edges. -/
theorem W1_main_v6 (c : Dev nD) : W1 m ρ c (Proc.devRef .tc main_v6)
    = shapeCast S640000 (extractStridedSlice S1x640000 ![0, 0] (m ((c : Thread nD τ).loc main_arg1)) slices_S2x640000_S1x640000_0_0) shapeCasts_S1x640000_S640000 := by
  dsimp only [W1, hostOps0]
  after_results
  rfl
theorem W1_main_v8 (c : Dev nD) : W1 m ρ c (Proc.devRef .tc main_v8)
    = shapeCast S640000 (extractStridedSlice S1x640000 ![1, 0] (m ((c : Thread nD τ).loc main_arg1)) slices_S2x640000_S1x640000_1_0) shapeCasts_S1x640000_S640000 := by
  dsimp only [W1, hostOps0]
  after_results
  rfl
theorem W1_main_v10 (c : Dev nD) : W1 m ρ c (Proc.devRef .tc main_v10)
    = shapeCast S640000 (extractStridedSlice S1x640000 ![0, 0] (m ((c : Thread nD τ).loc main_arg3)) slices_S2x640000_S1x640000_0_0) shapeCasts_S1x640000_S640000 := by
  dsimp only [W1, hostOps0]
  after_results
  rfl
theorem W1_main_v12 (c : Dev nD) : W1 m ρ c (Proc.devRef .tc main_v12)
    = shapeCast S640000 (extractStridedSlice S1x640000 ![1, 0] (m ((c : Thread nD τ).loc main_arg3)) slices_S2x640000_S1x640000_1_0) shapeCasts_S1x640000_S640000 := by
  dsimp only [W1, hostOps0]
  after_results
  rfl

end Cert.KernelIdeal.Hand

end
-- ==== Proof.AsmC.lean ====
/-
  The two equations, stage by stage. From launch memories that agree on the arguments: the features with the
  positional encoding agree; then each layer's output, because both sides' layer values are the reference's layer term
  of equal operands; then the two results, by the last stage's two comparisons.
-/

import proofs.«106078_j59889023976011_1_alg».proof.Proof.AlgDefs
import proofs.«106078_j59889023976011_1_alg».proof.Proof.RefOps
import proofs.«106078_j59889023976011_1_alg».proof.Proof.AsmB
import proofs.«106078_j59889023976011_1_alg».proof.Proof.RefFinal
import proofs.«106078_j59889023976011_1_alg».proof.Proof.KI.Read0

set_option maxRecDepth 16384

noncomputable section

open Idealize.ShloMosaic Idealize.ShloMosaic.TcCoe Idealize.SL.Sem Idealize.ShloMosaic.StableHlo

namespace Cert.Proof.Stages

open Cert.KernelIdeal.Hand Cert.ReferenceIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- Stage 0: the features with the positional encoding agree. -/
theorem stageX (hag : Cert.Proof.Alg.Agree m m') (c : Dev Cert.KernelIdeal.nD) :
    after (cX (F := Ideal)) (U0 m' c) (Proc.devRef .tc Cert.ReferenceIdeal.main_v4) = W1 (F := Ideal) m ρ c (Proc.devRef .tc Cert.KernelIdeal.main_v4) := by
  obtain ⟨a0, a1, a2, a3, a4, a5, a6, a7, a8, a9, a10, a11, a12, a13, a14, a15, a16, a17, a18, a19, a20, a21, a22, a23, a24, a25, a26, a27, a28, a29, a30, a31, a32, a33, a34, a35, a36⟩ := hag c
  have e0 : U0 m' c (Proc.devRef .tc Cert.ReferenceIdeal.main_arg0) = m ((c.tc : Thread Cert.KernelIdeal.nD Cert.KernelIdeal.τ).loc Cert.KernelIdeal.main_arg0) := a0
  have e5 : U0 m' c (Proc.devRef .tc Cert.ReferenceIdeal.main_arg5) = m ((c.tc : Thread Cert.KernelIdeal.nD Cert.KernelIdeal.τ).loc Cert.KernelIdeal.main_arg5) := a5
  rw [after_cX, W1_main_v4, e0, e5]

end Cert.Proof.Stages

end
-- ==== Proof.KI.Transport.lean ====
/-
  Which buffers each stretch of host operations writes, exactly (one result per operation), and hence which buffers a
  stretch leaves as they were: the previous layer's output and the edge-index arrays are read again by later stretches.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-- The references stretch 1's operations write. -/
abbrev hostOps1_Wx : List (Ref sig .tc) := [main_v15, main_v16, main_v17, main_v18, main_v19, main_c, main_v20, main_v21, main_c_0, main_v22, main_v23, main_v24, main_v25, main_v26, main_v27, main_v28, main_cst, main_v29, main_v30, main_v31, main_v32, main_c_1, main_v33, main_v34, main_c_2, main_v35, main_v36, main_v37, main_v38, main_v39, main_v40, main_v41, main_cst_3, main_v42, main_v43, main_v44, main_v45, main_c_4, main_v46, main_v47, main_c_5, main_v48, main_v49, main_v50, main_v51, main_v52, main_v53, main_v54, main_cst_6, main_v55, main_v56, main_v57, main_v58, main_c_7, main_v59, main_v60, main_c_8, main_v61, main_v62, main_v63, main_v64, main_v65, main_v66, main_v67, main_cst_9, main_v68, main_v69, main_v70, main_v71, main_v72, main_v73, main_v74, main_v75]
theorem hostOps1_writesx : (hostOps1 : List (HloOp τ sig (Elt F))).Forall fun op => op.writes ⊆ (hostOps1_Wx.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem W3_keep (c : Dev nD) (r : Ref sig .tc) (h : r ∉ hostOps1_Wx) : W3 m ρ c (Proc.devRef .tc r) = W2 m ρ c (Proc.devRef .tc r) :=
  StableHlo.after_of_writes_sub hostOps1 _ hostOps1_writesx h

/-- The references stretch 2's operations write. -/
abbrev hostOps2_Wx : List (Ref sig .tc) := [main_v77]
theorem hostOps2_writesx : (hostOps2 : List (HloOp τ sig (Elt F))).Forall fun op => op.writes ⊆ (hostOps2_Wx.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem W5_keep (c : Dev nD) (r : Ref sig .tc) (h : r ∉ hostOps2_Wx) : W5 m ρ c (Proc.devRef .tc r) = W4 m ρ c (Proc.devRef .tc r) :=
  StableHlo.after_of_writes_sub hostOps2 _ hostOps2_writesx h

/-- The references stretch 3's operations write. -/
abbrev hostOps3_Wx : List (Ref sig .tc) := [main_v79, main_v80, main_v81, main_v82, main_c_10, main_v83, main_v84, main_c_11, main_v85, main_v86, main_v87, main_v88, main_v89, main_v90, main_v91, main_cst_12, main_v92, main_v93, main_v94, main_v95, main_c_13, main_v96, main_v97, main_c_14, main_v98, main_v99, main_v100, main_v101, main_v102, main_v103, main_v104, main_cst_15, main_v105, main_v106, main_v107, main_v108, main_c_16, main_v109, main_v110, main_c_17, main_v111, main_v112, main_v113, main_v114, main_v115, main_v116, main_v117, main_cst_18, main_v118, main_v119, main_v120, main_v121, main_c_19, main_v122, main_v123, main_c_20, main_v124, main_v125, main_v126, main_v127, main_v128, main_v129, main_v130, main_cst_21, main_v131, main_v132, main_v133, main_cst_22, main_v134, main_v135, main_v136, main_v137, main_v138, main_v139]
theorem hostOps3_writesx : (hostOps3 : List (HloOp τ sig (Elt F))).Forall fun op => op.writes ⊆ (hostOps3_Wx.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem W7_keep (c : Dev nD) (r : Ref sig .tc) (h : r ∉ hostOps3_Wx) : W7 m ρ c (Proc.devRef .tc r) = W6 m ρ c (Proc.devRef .tc r) :=
  StableHlo.after_of_writes_sub hostOps3 _ hostOps3_writesx h

/-- The references stretch 4's operations write. -/
abbrev hostOps4_Wx : List (Ref sig .tc) := [main_v141]
theorem hostOps4_writesx : (hostOps4 : List (HloOp τ sig (Elt F))).Forall fun op => op.writes ⊆ (hostOps4_Wx.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem W9_keep (c : Dev nD) (r : Ref sig .tc) (h : r ∉ hostOps4_Wx) : W9 m ρ c (Proc.devRef .tc r) = W8 m ρ c (Proc.devRef .tc r) :=
  StableHlo.after_of_writes_sub hostOps4 _ hostOps4_writesx h

/-- The references stretch 5's operations write. -/
abbrev hostOps5_Wx : List (Ref sig .tc) := [main_v143, main_v144, main_v145, main_v146, main_c_23, main_v147, main_v148, main_c_24, main_v149, main_v150, main_v151, main_v152, main_v153, main_v154, main_v155, main_cst_25, main_v156, main_v157, main_v158, main_v159, main_c_26, main_v160, main_v161, main_c_27, main_v162, main_v163, main_v164, main_v165, main_v166, main_v167, main_v168, main_cst_28, main_v169, main_v170, main_v171, main_v172, main_c_29, main_v173, main_v174, main_c_30, main_v175, main_v176, main_v177, main_v178, main_v179, main_v180, main_v181, main_cst_31, main_v182, main_v183, main_v184, main_v185, main_c_32, main_v186, main_v187, main_c_33, main_v188, main_v189, main_v190, main_v191, main_v192, main_v193, main_v194, main_cst_34, main_v195, main_v196, main_v197, main_cst_35, main_v198, main_v199, main_v200, main_v201, main_v202, main_v203]
theorem hostOps5_writesx : (hostOps5 : List (HloOp τ sig (Elt F))).Forall fun op => op.writes ⊆ (hostOps5_Wx.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem W11_keep (c : Dev nD) (r : Ref sig .tc) (h : r ∉ hostOps5_Wx) : W11 m ρ c (Proc.devRef .tc r) = W10 m ρ c (Proc.devRef .tc r) :=
  StableHlo.after_of_writes_sub hostOps5 _ hostOps5_writesx h

/-- The references stretch 6's operations write. -/
abbrev hostOps6_Wx : List (Ref sig .tc) := [main_v205]
theorem hostOps6_writesx : (hostOps6 : List (HloOp τ sig (Elt F))).Forall fun op => op.writes ⊆ (hostOps6_Wx.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem W13_keep (c : Dev nD) (r : Ref sig .tc) (h : r ∉ hostOps6_Wx) : W13 m ρ c (Proc.devRef .tc r) = W12 m ρ c (Proc.devRef .tc r) :=
  StableHlo.after_of_writes_sub hostOps6 _ hostOps6_writesx h

end Cert.KernelIdeal.Hand

end
-- ==== Proof.AsmD.lean ====
/-
  The two equations, stage by stage. From launch memories that agree on the arguments: the features with the
  positional encoding agree; then each layer's output, because both sides' layer values are the reference's layer term
  of equal operands; then the two results, by the last stage's two comparisons.
-/

import proofs.«106078_j59889023976011_1_alg».proof.Proof.KI.Read0
import proofs.«106078_j59889023976011_1_alg».proof.Proof.KI.Transport
import proofs.«106078_j59889023976011_1_alg».proof.Proof.KI.Fold

import Idealize.ShloMosaic.PureOps.Ideal

set_option maxRecDepth 16384

noncomputable section

open Idealize.ShloMosaic Idealize.ShloMosaic.TcCoe Idealize.SL.Sem Idealize.ShloMosaic.StableHlo

namespace Cert.Proof.Stages

open Cert.KernelIdeal.Hand

variable (m : (ℓ : Loc Cert.KernelIdeal.nD Cert.KernelIdeal.τ Cert.KernelIdeal.sig) → Buf (Elt Ideal) ℓ) (ρ : Dev Cert.KernelIdeal.nD → PrngReg)

/-- The edge-index arrays at the later layers' entries: still what the first stretch left. -/
theorem idx2_v6 (c : Dev Cert.KernelIdeal.nD) : W4 (F := Ideal) m ρ c (Proc.devRef .tc Cert.KernelIdeal.main_v6) = shapeCast Cert.KernelIdeal.S640000 (extractStridedSlice Cert.KernelIdeal.S1x640000 ![0, 0] (m ((c.tc : Thread Cert.KernelIdeal.nD Cert.KernelIdeal.τ).loc Cert.KernelIdeal.main_arg1)) Cert.KernelIdeal.Facts₀.slices_S2x640000_S1x640000_0_0) Cert.KernelIdeal.Facts₀.shapeCasts_S1x640000_S640000 :=
  (W4_of_ne m ρ c Cert.KernelIdeal.main_v6 (by decide)).trans <| (W3_keep m ρ c Cert.KernelIdeal.main_v6 (by decide)).trans <| (W2_of_ne m ρ c Cert.KernelIdeal.main_v6 (by decide)).trans (W1_main_v6 m ρ c)
theorem idx3_v6 (c : Dev Cert.KernelIdeal.nD) : W8 (F := Ideal) m ρ c (Proc.devRef .tc Cert.KernelIdeal.main_v6) = shapeCast Cert.KernelIdeal.S640000 (extractStridedSlice Cert.KernelIdeal.S1x640000 ![0, 0] (m ((c.tc : Thread Cert.KernelIdeal.nD Cert.KernelIdeal.τ).loc Cert.KernelIdeal.main_arg1)) Cert.KernelIdeal.Facts₀.slices_S2x640000_S1x640000_0_0) Cert.KernelIdeal.Facts₀.shapeCasts_S1x640000_S640000 :=
  (W8_of_ne m ρ c Cert.KernelIdeal.main_v6 (by decide)).trans <| (W7_keep m ρ c Cert.KernelIdeal.main_v6 (by decide)).trans <| (W6_of_ne m ρ c Cert.KernelIdeal.main_v6 (by decide)).trans <| (W5_keep m ρ c Cert.KernelIdeal.main_v6 (by decide)).trans (idx2_v6 m ρ c)
theorem idx2_v8 (c : Dev Cert.KernelIdeal.nD) : W4 (F := Ideal) m ρ c (Proc.devRef .tc Cert.KernelIdeal.main_v8) = shapeCast Cert.KernelIdeal.S640000 (extractStridedSlice Cert.KernelIdeal.S1x640000 ![1, 0] (m ((c.tc : Thread Cert.KernelIdeal.nD Cert.KernelIdeal.τ).loc Cert.KernelIdeal.main_arg1)) Cert.KernelIdeal.Facts₀.slices_S2x640000_S1x640000_1_0) Cert.KernelIdeal.Facts₀.shapeCasts_S1x640000_S640000 :=
  (W4_of_ne m ρ c Cert.KernelIdeal.main_v8 (by decide)).trans <| (W3_keep m ρ c Cert.KernelIdeal.main_v8 (by decide)).trans <| (W2_of_ne m ρ c Cert.KernelIdeal.main_v8 (by decide)).trans (W1_main_v8 m ρ c)
theorem idx3_v8 (c : Dev Cert.KernelIdeal.nD) : W8 (F := Ideal) m ρ c (Proc.devRef .tc Cert.KernelIdeal.main_v8) = shapeCast Cert.KernelIdeal.S640000 (extractStridedSlice Cert.KernelIdeal.S1x640000 ![1, 0] (m ((c.tc : Thread Cert.KernelIdeal.nD Cert.KernelIdeal.τ).loc Cert.KernelIdeal.main_arg1)) Cert.KernelIdeal.Facts₀.slices_S2x640000_S1x640000_1_0) Cert.KernelIdeal.Facts₀.shapeCasts_S1x640000_S640000 :=
  (W8_of_ne m ρ c Cert.KernelIdeal.main_v8 (by decide)).trans <| (W7_keep m ρ c Cert.KernelIdeal.main_v8 (by decide)).trans <| (W6_of_ne m ρ c Cert.KernelIdeal.main_v8 (by decide)).trans <| (W5_keep m ρ c Cert.KernelIdeal.main_v8 (by decide)).trans (idx2_v8 m ρ c)
theorem idx2_v10 (c : Dev Cert.KernelIdeal.nD) : W4 (F := Ideal) m ρ c (Proc.devRef .tc Cert.KernelIdeal.main_v10) = shapeCast Cert.KernelIdeal.S640000 (extractStridedSlice Cert.KernelIdeal.S1x640000 ![0, 0] (m ((c.tc : Thread Cert.KernelIdeal.nD Cert.KernelIdeal.τ).loc Cert.KernelIdeal.main_arg3)) Cert.KernelIdeal.Facts₀.slices_S2x640000_S1x640000_0_0) Cert.KernelIdeal.Facts₀.shapeCasts_S1x640000_S640000 :=
  (W4_of_ne m ρ c Cert.KernelIdeal.main_v10 (by decide)).trans <| (W3_keep m ρ c Cert.KernelIdeal.main_v10 (by decide)).trans <| (W2_of_ne m ρ c Cert.KernelIdeal.main_v10 (by decide)).trans (W1_main_v10 m ρ c)
theorem idx3_v10 (c : Dev Cert.KernelIdeal.nD) : W8 (F := Ideal) m ρ c (Proc.devRef .tc Cert.KernelIdeal.main_v10) = shapeCast Cert.KernelIdeal.S640000 (extractStridedSlice Cert.KernelIdeal.S1x640000 ![0, 0] (m ((c.tc : Thread Cert.KernelIdeal.nD Cert.KernelIdeal.τ).loc Cert.KernelIdeal.main_arg3)) Cert.KernelIdeal.Facts₀.slices_S2x640000_S1x640000_0_0) Cert.KernelIdeal.Facts₀.shapeCasts_S1x640000_S640000 :=
  (W8_of_ne m ρ c Cert.KernelIdeal.main_v10 (by decide)).trans <| (W7_keep m ρ c Cert.KernelIdeal.main_v10 (by decide)).trans <| (W6_of_ne m ρ c Cert.KernelIdeal.main_v10 (by decide)).trans <| (W5_keep m ρ c Cert.KernelIdeal.main_v10 (by decide)).trans (idx2_v10 m ρ c)
theorem idx2_v12 (c : Dev Cert.KernelIdeal.nD) : W4 (F := Ideal) m ρ c (Proc.devRef .tc Cert.KernelIdeal.main_v12) = shapeCast Cert.KernelIdeal.S640000 (extractStridedSlice Cert.KernelIdeal.S1x640000 ![1, 0] (m ((c.tc : Thread Cert.KernelIdeal.nD Cert.KernelIdeal.τ).loc Cert.KernelIdeal.main_arg3)) Cert.KernelIdeal.Facts₀.slices_S2x640000_S1x640000_1_0) Cert.KernelIdeal.Facts₀.shapeCasts_S1x640000_S640000 :=
  (W4_of_ne m ρ c Cert.KernelIdeal.main_v12 (by decide)).trans <| (W3_keep m ρ c Cert.KernelIdeal.main_v12 (by decide)).trans <| (W2_of_ne m ρ c Cert.KernelIdeal.main_v12 (by decide)).trans (W1_main_v12 m ρ c)
theorem idx3_v12 (c : Dev Cert.KernelIdeal.nD) : W8 (F := Ideal) m ρ c (Proc.devRef .tc Cert.KernelIdeal.main_v12) = shapeCast Cert.KernelIdeal.S640000 (extractStridedSlice Cert.KernelIdeal.S1x640000 ![1, 0] (m ((c.tc : Thread Cert.KernelIdeal.nD Cert.KernelIdeal.τ).loc Cert.KernelIdeal.main_arg3)) Cert.KernelIdeal.Facts₀.slices_S2x640000_S1x640000_1_0) Cert.KernelIdeal.Facts₀.shapeCasts_S1x640000_S640000 :=
  (W8_of_ne m ρ c Cert.KernelIdeal.main_v12 (by decide)).trans <| (W7_keep m ρ c Cert.KernelIdeal.main_v12 (by decide)).trans <| (W6_of_ne m ρ c Cert.KernelIdeal.main_v12 (by decide)).trans <| (W5_keep m ρ c Cert.KernelIdeal.main_v12 (by decide)).trans (idx2_v12 m ρ c)

end Cert.Proof.Stages

end
-- ==== Proof.KI.Prop.lean ====
/-
  The edge propagation, as one function: from node features Y (50000 × 128), source and target node indices of
  640000 edges and the edges' weights, the array whose row v is the sum over the edges e with target v of
  weight(e) · Y[source(e)] — a source index below zero counted from the end, as the host's gather takes it.
  The program applies it twelve times (four per layer): with the incoming or the outgoing edge list, to a column
  block of the layer's projection.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Gather the source rows, scale each by its edge's weight, add into the target rows of a zero array. -/
def prop (Y : (⟨S50000x128, .f32⟩ : BufTy).Contents (Elt F)) (src dst : (⟨S640000, .i32⟩ : BufTy).Contents (Elt F))
    (ew : (⟨S640000, .f32⟩ : BufTy).Contents (Elt F)) : (⟨S50000x128, .f32⟩ : BufTy).Contents (Elt F) :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf (broadcastInDim S640000x128 ![0, 1] bcast_S640000x1_S640000x128_0_1 (broadcastInDim S640000x1 ![0] bcast_S640000_S640000x1_0 ew))
      (Host.gather gather_S50000x128_S640000x1_S640000x128_1_0_n_n_0_1_1128 Y
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))))

end Cert.KernelIdeal.Hand

end
-- ==== Proof.KI.Val0.lean ====
/-
  What region 0 leaves in its result array, and what that is at the ideal values.

  Block by block: at grid point t the pipeline writes back, into rows 5000 t to 5000 t + 4999 of the result, the
  product of rows 5000 t to 5000 t + 4999 of the left operand with the whole right operand (the body's one store,
  read back through the whole staging buffer). As one array: entry (r, j) of the result is entry (r mod 5000, j) of
  the product of row block r / 5000 of the left operand with the right operand; the ten row blocks tile the 50000
  rows, so every entry is covered.

  At the ideal values rounding to bf16 changes nothing and the accumulator is zero, so entry (r, j) is the sum over
  the 96 contracted entries of X (r, c) * W (c, j). When W is 4 matrices of 128 columns laid side by side, column
  block s of the result is therefore the product of X with matrix s: the same sums.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Region0
import Idealize.ShloMosaic.Lib.Pipeline.Value
import Idealize.ShloMosaic.Lib.ValueIdx
import Idealize.ShloMosaic.Lib.StackMember
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StackMember

section Val0

variable (V : (c : Dev nD) → (b : Ref sig .tc) → Buf (Elt F) ((c : Thread nD τ).loc b))

theorem hz0 : (![0, 0] : Fin 2 → Nat) = fun _ => 0 := funext fun a => by fin_cases a <;> rfl

/-- What point t writes back: the product of the point's row block with the whole weight matrix. -/
theorem flushed0_2 (c : Dev nD) (t : Fin cfg0.N) :
    (dat0 V c).flushed 2 t = k0_pay1 (iblk0 V c 0 t) (iblk0 V c 1 t) := by
  show (cfg0.win 2).cut (grid0.coords t) ((dat0 V c).after 2 t) = _
  rw [after0_2]
  unfold out0_2
  rw [View.canon_unit_zero hz0]
  simp only [View.ld_unit_zero (S := S5000x96) hz0, View.ld_unit_zero (S := S96x512) hz0]
  rfl

/-- Rows 5000 q to 5000 q + 4999 of the left operand. -/
def rows0 (X : S50000x96.Idx → Elt F .f32) (q : Fin 10) : S5000x96.Idx → Elt F .f32 :=
  fun y => X (ix2 (⟨q.val * 5000 + (y 0).val, by have := idx2_lt0 y; have := q.isLt; omega⟩ : Fin 50000) (y 1))

/-- The result array as one function of the two operand arrays. -/
def G0 (X : S50000x96.Idx → Elt F .f32) (Wm : S96x512.Idx → Elt F .f32) : S50000x512.Idx → Elt F .f32 :=
  fun i => k0_pay1 (rows0 X ⟨(i 0).val / 5000, by have := idx2_lt0 i; omega⟩) Wm
    (ix2 (⟨(i 0).val % 5000, Nat.mod_lt _ (by decide)⟩ : Fin 5000) (i 1))

/-- The printed index maps over the grid: the left operand's and the result's row-block index is the point, every
    other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array function at an index of row block q, local index y. -/
theorem G0_at (X : S50000x96.Idx → Elt F .f32) (Wm : S96x512.Idx → Elt F .f32) (q : Fin 10) (y : S5000x512.Idx) (i : S50000x512.Idx)
    (h0 : (i 0).val = q.val * 5000 + (y 0).val) (h1 : (i 1).val = (y 1).val) :
    G0 X Wm i = k0_pay1 (rows0 X q) Wm y := by
  have key : ∀ (q' : Fin 10) (y' : S5000x512.Idx), q' = q → y' = y → k0_pay1 (rows0 X q') Wm y' = k0_pay1 (rows0 X q) Wm y := by
    rintro _ _ rfl rfl; rfl
  have hy := idx2_lt0 y
  unfold G0
  refine key _ _ (Fin.ext ?_) ?_
  · show (i 0).val / 5000 = q.val
    rw [h0]; omega
  · funext a
    match a with
    | ⟨0, _⟩ => exact Fin.ext (by show (i 0).val % 5000 = (y 0).val; rw [h0]; omega)
    | ⟨1, _⟩ => exact Fin.ext h1

/-- What point t writes back is block t of the whole-array function of the two operand arrays as the region finds them. -/
theorem flushed0_2_eq (c : Dev nD) (t : Fin cfg0.N) :
    (dat0 V c).flushed 2 t = ((cfg0.win 2).blk t).view.read (Elt F) (G0 (V c main_v4) (V c main_v13)) := by
  obtain ⟨e0, e1, e2, e3, e4, e5⟩ := idx_facts0 t
  have hN : t.val < 10 := lt_of_lt_of_eq t.isLt N_0
  have hA : iblk0 V c 0 t = rows0 (V c main_v4) ⟨t.val, hN⟩ := by
    funext y
    show V c main_v4 (((cfg0.win 0).blk t).view.emb y) = V c main_v4 (ix2 _ (y 1))
    refine congrArg (V c main_v4) ?_
    funext a; apply Fin.ext
    match a with
    | ⟨0, _⟩ => show win0_0.index t (0 : Fin 2) * 5000 + 1 * (y 0).val = t.val * 5000 + (y 0).val; rw [e0]; omega
    | ⟨1, _⟩ => show win0_0.index t (1 : Fin 2) * 96 + 1 * (y 1).val = (y 1).val; rw [e1]; omega
  have hB : iblk0 V c 1 t = V c main_v13 := by
    funext y
    show V c main_v13 (((cfg0.win 1).blk t).view.emb y) = V c main_v13 y
    refine congrArg (V c main_v13) ?_
    funext a; apply Fin.ext
    match a with
    | ⟨0, _⟩ => show win0_1.index t (0 : Fin 2) * 96 + 1 * (y 0).val = (y 0).val; rw [e2]; omega
    | ⟨1, _⟩ => show win0_1.index t (1 : Fin 2) * 512 + 1 * (y 1).val = (y 1).val; rw [e3]; omega
  rw [flushed0_2, hA, hB]
  funext j
  show k0_pay1 (rows0 (V c main_v4) ⟨t.val, hN⟩) (V c main_v13) j = G0 (V c main_v4) (V c main_v13) (((cfg0.win 2).blk t).view.emb j)
  refine (G0_at (V c main_v4) (V c main_v13) ⟨t.val, hN⟩ j _ ?_ ?_).symm
  · show win0_2.index t (0 : Fin 2) * 5000 + 1 * (j 0).val = t.val * 5000 + (j 0).val; rw [e4]; omega
  · show win0_2.index t (1 : Fin 2) * 512 + 1 * (j 1).val = (j 1).val; rw [e5]; omega

/-- An index of the result array is in point t's block iff each coordinate is in the block's range on its axis. -/
theorem mem_blk0 (t : Fin cfg0.N) (i : S50000x512.Idx) :
    i ∈ ((cfg0.win 2).blk t).view.set ↔ ∀ a : Fin 2, win0_2.index t a * S5000x512.size a ≤ (i a).val ∧ (i a).val < win0_2.index t a * S5000x512.size a + S5000x512.size a := by
  show i ∈ ((View.whole main_v14).slice (win0_2.rect t)).set ↔ _
  rw [View.set_slice_whole, Rect.mem_set_unit]
  exact Iff.rfl

/-- Every entry of the result array lies in the block of the point its row falls under. -/
theorem cover0 (i : S50000x512.Idx) : ∃ t : Fin cfg0.N, (cfg0.win 2).flush t = true ∧ i ∈ ((cfg0.win 2).blk t).view.set := by
  have hi0 := idx2_lt0 i
  have hi1 := idx2_lt1 i
  have hlt : (i 0).val / 5000 < cfg0.N := lt_of_lt_of_eq (by omega : (i 0).val / 5000 < 10) N_0.symm
  refine ⟨⟨(i 0).val / 5000, hlt⟩, flush0_2 _, ?_⟩
  rw [mem_blk0]
  obtain ⟨-, -, -, -, e4, e5⟩ := idx_facts0 ⟨(i 0).val / 5000, hlt⟩
  have e4' : win0_2.index ⟨(i 0).val / 5000, hlt⟩ (0 : Fin 2) = (i 0).val / 5000 := e4
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4']; omega
  | ⟨1, _⟩ =>
    show win0_2.index ⟨(i 0).val / 5000, hlt⟩ (1 : Fin 2) * 512 ≤ (i 1).val ∧ (i 1).val < win0_2.index ⟨(i 0).val / 5000, hlt⟩ (1 : Fin 2) * 512 + 512
    rw [e5]; omega

/-- The result array after the region: the whole-array function of the two operand arrays as the region finds them. -/
theorem final0 (c : Dev nD) : (dat0 V c).arrAt 2 cfg0.N = G0 (V c main_v4) (V c main_v13) :=
  (dat0 V c).arrAt_eq_of_cover 2 _ (fun t _ => flushed0_2_eq V c t) cover0

end Val0

/-! ## At the ideal values -/

/-- The body's product of two blocks is the plain matrix product: rounding to bf16 and the casts between equal shapes
    change nothing, and the accumulator is zero. -/
theorem k0_pay1_apply (x0 : FVec Ideal S5000x96 .f32) (w : FVec Ideal S96x512 .f32) (a : Fin 5000) (b : Fin 512) :
    k0_pay1 (F := Ideal) x0 w (ix2 a b) = ∑ c : Fin 96, x0 (ix2 a c) * w (ix2 c b) := by
  have h := dotGeneral_plain_apply (m := 5000) (n := 512) (k := 96) (φ₁ := .f32) (φ₂ := .f32) none x0 w a b
  rw [← h]
  unfold k0_pay1
  simp only [shapeCast_self]
  show FloatOps.matmul (F := Ideal) (DotDims.plain 5000 96 512) none x0 w (constant (F := Ideal) S5000x512 .f32 0x00000000#32) (ix2 a b)
    = FloatOps.dotGeneral (F := Ideal) (DotDims.plain 5000 96 512) none _ x0 w (ix2 a b)
  rw [Ideal.matmul_constant_zero_apply, Ideal.dotGeneral_apply]

/-- Entry (r, j) of the region's result array is the sum over the contracted axis: row r lies in row block r / 5000. -/
theorem G0_apply (X : FVec Ideal S50000x96 .f32) (Wm : FVec Ideal S96x512 .f32) (r : Fin 50000) (j : Fin 512) :
    G0 (F := Ideal) X Wm (ix2 r j) = ∑ c : Fin 96, X (ix2 r c) * Wm (ix2 c j) := by
  have hr := r.isLt
  rw [G0_at (F := Ideal) X Wm ⟨r.val / 5000, by omega⟩ (ix2 (⟨r.val % 5000, Nat.mod_lt _ (by decide)⟩ : Fin 5000) j) (ix2 r j)
    (by show r.val = r.val / 5000 * 5000 + r.val % 5000; omega) rfl]
  rw [k0_pay1_apply]
  refine Finset.sum_congr rfl fun c _ => ?_
  congr 1
  unfold rows0
  refine congrArg X ?_
  funext a
  match a with
  | ⟨0, _⟩ => exact Fin.ext (by show r.val / 5000 * 5000 + r.val % 5000 = r.val; omega)
  | ⟨1, _⟩ => rfl

/-- Column block 0 of the product with the weight matrices laid side by side is the product with matrix 1. -/
theorem slice0_0_eq (X : FVec Ideal S50000x96 .f32) (W1 W2 W3 W4 : FVec Ideal S96x128 .f32) :
    extractStridedSlice S50000x128 ![0, 0] (G0 (F := Ideal) X (concatenate S96x512 1 [⟨S96x128, W1⟩, ⟨S96x128, W2⟩, ⟨S96x128, W3⟩, ⟨S96x128, W4⟩] concatenates_S96x128_S96x128_S96x128_S96x128_S96x512_d1)) slices_S50000x512_S50000x128_0_0
      = Host.dotGeneral (F := Ideal) (DotDims.plain 50000 96 128) none X W1 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨0 + j.val, by omega⟩ : Fin 512))
    (by intro a; match a with
        | ⟨0, _⟩ => show r.val = 0 + r.val; omega
        | ⟨1, _⟩ => show 0 + j.val = 0 + j.val; rfl)]
  rw [G0_apply, dotGeneral_plain_apply]
  refine Finset.sum_congr rfl fun c _ => ?_
  congr 1
  exact concatenate_apply_piece (t := S96x512) (1 : Fin 2) [⟨S96x128, W1⟩, ⟨S96x128, W2⟩, ⟨S96x128, W3⟩, ⟨S96x128, W4⟩] concatenates_S96x128_S96x128_S96x128_S96x128_S96x512_d1 (ix2 c (⟨0 + j.val, by omega⟩ : Fin 512)) 0 (by simp) S96x128 W1 rfl rfl 0 rfl (ix2 c j)
    (by intro b hb; match b with
        | ⟨0, _⟩ => rfl
        | ⟨1, _⟩ => exact absurd rfl hb)
    (by show 0 + j.val = 0 + j.val; rfl)

/-- Column block 1 of the product with the weight matrices laid side by side is the product with matrix 2. -/
theorem slice0_1_eq (X : FVec Ideal S50000x96 .f32) (W1 W2 W3 W4 : FVec Ideal S96x128 .f32) :
    extractStridedSlice S50000x128 ![0, 128] (G0 (F := Ideal) X (concatenate S96x512 1 [⟨S96x128, W1⟩, ⟨S96x128, W2⟩, ⟨S96x128, W3⟩, ⟨S96x128, W4⟩] concatenates_S96x128_S96x128_S96x128_S96x128_S96x512_d1)) slices_S50000x512_S50000x128_0_128
      = Host.dotGeneral (F := Ideal) (DotDims.plain 50000 96 128) none X W2 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨128 + j.val, by omega⟩ : Fin 512))
    (by intro a; match a with
        | ⟨0, _⟩ => show r.val = 0 + r.val; omega
        | ⟨1, _⟩ => show 128 + j.val = 128 + j.val; rfl)]
  rw [G0_apply, dotGeneral_plain_apply]
  refine Finset.sum_congr rfl fun c _ => ?_
  congr 1
  exact concatenate_apply_piece (t := S96x512) (1 : Fin 2) [⟨S96x128, W1⟩, ⟨S96x128, W2⟩, ⟨S96x128, W3⟩, ⟨S96x128, W4⟩] concatenates_S96x128_S96x128_S96x128_S96x128_S96x512_d1 (ix2 c (⟨128 + j.val, by omega⟩ : Fin 512)) 1 (by simp) S96x128 W2 rfl rfl 128 rfl (ix2 c j)
    (by intro b hb; match b with
        | ⟨0, _⟩ => rfl
        | ⟨1, _⟩ => exact absurd rfl hb)
    (by show 128 + j.val = 128 + j.val; rfl)

/-- Column block 2 of the product with the weight matrices laid side by side is the product with matrix 3. -/
theorem slice0_2_eq (X : FVec Ideal S50000x96 .f32) (W1 W2 W3 W4 : FVec Ideal S96x128 .f32) :
    extractStridedSlice S50000x128 ![0, 256] (G0 (F := Ideal) X (concatenate S96x512 1 [⟨S96x128, W1⟩, ⟨S96x128, W2⟩, ⟨S96x128, W3⟩, ⟨S96x128, W4⟩] concatenates_S96x128_S96x128_S96x128_S96x128_S96x512_d1)) slices_S50000x512_S50000x128_0_256
      = Host.dotGeneral (F := Ideal) (DotDims.plain 50000 96 128) none X W3 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨256 + j.val, by omega⟩ : Fin 512))
    (by intro a; match a with
        | ⟨0, _⟩ => show r.val = 0 + r.val; omega
        | ⟨1, _⟩ => show 256 + j.val = 256 + j.val; rfl)]
  rw [G0_apply, dotGeneral_plain_apply]
  refine Finset.sum_congr rfl fun c _ => ?_
  congr 1
  exact concatenate_apply_piece (t := S96x512) (1 : Fin 2) [⟨S96x128, W1⟩, ⟨S96x128, W2⟩, ⟨S96x128, W3⟩, ⟨S96x128, W4⟩] concatenates_S96x128_S96x128_S96x128_S96x128_S96x512_d1 (ix2 c (⟨256 + j.val, by omega⟩ : Fin 512)) 2 (by simp) S96x128 W3 rfl rfl 256 rfl (ix2 c j)
    (by intro b hb; match b with
        | ⟨0, _⟩ => rfl
        | ⟨1, _⟩ => exact absurd rfl hb)
    (by show 256 + j.val = 256 + j.val; rfl)

/-- Column block 3 of the product with the weight matrices laid side by side is the product with matrix 4. -/
theorem slice0_3_eq (X : FVec Ideal S50000x96 .f32) (W1 W2 W3 W4 : FVec Ideal S96x128 .f32) :
    extractStridedSlice S50000x128 ![0, 384] (G0 (F := Ideal) X (concatenate S96x512 1 [⟨S96x128, W1⟩, ⟨S96x128, W2⟩, ⟨S96x128, W3⟩, ⟨S96x128, W4⟩] concatenates_S96x128_S96x128_S96x128_S96x128_S96x512_d1)) slices_S50000x512_S50000x128_0_384
      = Host.dotGeneral (F := Ideal) (DotDims.plain 50000 96 128) none X W4 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨384 + j.val, by omega⟩ : Fin 512))
    (by intro a; match a with
        | ⟨0, _⟩ => show r.val = 0 + r.val; omega
        | ⟨1, _⟩ => show 384 + j.val = 384 + j.val; rfl)]
  rw [G0_apply, dotGeneral_plain_apply]
  refine Finset.sum_congr rfl fun c _ => ?_
  congr 1
  exact concatenate_apply_piece (t := S96x512) (1 : Fin 2) [⟨S96x128, W1⟩, ⟨S96x128, W2⟩, ⟨S96x128, W3⟩, ⟨S96x128, W4⟩] concatenates_S96x128_S96x128_S96x128_S96x128_S96x512_d1 (ix2 c (⟨384 + j.val, by omega⟩ : Fin 512)) 3 (by simp) S96x128 W4 rfl rfl 384 rfl (ix2 c j)
    (by intro b hb; match b with
        | ⟨0, _⟩ => rfl
        | ⟨1, _⟩ => exact absurd rfl hb)
    (by show 384 + j.val = 384 + j.val; rfl)

end Cert.KernelIdeal.Hand

end
-- ==== Proof.KI.Val1.lean ====
/-
  What region 1 (a layer's combine) leaves in its result array.

  Block by block: at grid point t the pipeline writes back, into rows 5000 t to 5000 t + 4999 of the result, the
  body's combination of rows 5000 t to 5000 t + 4999 of the four propagated sums, of the two coefficient columns and
  of the residual, with the five bias rows whole. As one array: entry (r, j) of the result is entry (r mod 5000, j) of
  that combination at row block r / 5000; the ten row blocks tile the 50000 rows, so every entry is covered.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Region1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Val1

variable (V : (c : Dev nD) → (b : Ref sig .tc) → Buf (Elt F) ((c : Thread nD τ).loc b))

theorem hz1 : (![0, 0] : Fin 2 → Nat) = fun _ => 0 := funext fun a => by fin_cases a <;> rfl

/-- What point t writes back: the body's combination of the point's blocks. -/
theorem flushed1_12 (c : Dev nD) (t : Fin cfg1.N) :
    (dat1 V c).flushed 12 t = k1_pay1 (k1_pay2 (iblk1 V c 0 t) (iblk1 V c 4 t) (iblk1 V c 1 t) (iblk1 V c 5 t) (iblk1 V c 2 t) (iblk1 V c 6 t) (iblk1 V c 3 t) (iblk1 V c 7 t) (iblk1 V c 8 t) (iblk1 V c 9 t) (iblk1 V c 10 t)) (iblk1 V c 11 t) := by
  show (cfg1.win 12).cut (grid1.coords t) ((dat1 V c).after 12 t) = _
  rw [after1_12]
  unfold out1_12
  rw [View.canon_unit_zero hz1]
  simp only [View.ld_unit_zero (S := S5000x128) hz1, View.ld_unit_zero (S := S1x128) hz1, View.ld_unit_zero (S := S5000x1) hz1]
  rfl

/-- Rows 5000 q to 5000 q + 4999 of an array of 50000 rows of 128 entries. -/
def rows1a (X : S50000x128.Idx → Elt F .f32) (q : Fin 10) : S5000x128.Idx → Elt F .f32 :=
  fun y => X (ix2 (⟨q.val * 5000 + (y 0).val, by have := idx2_lt0 y; have := q.isLt; omega⟩ : Fin 50000) (y 1))
/-- Rows 5000 q to 5000 q + 4999 of a column of 50000 entries. -/
def rows1c (X : S50000x1.Idx → Elt F .f32) (q : Fin 10) : S5000x1.Idx → Elt F .f32 :=
  fun y => X (ix2 (⟨q.val * 5000 + (y 0).val, by have := idx2_lt0 y; have := q.isLt; omega⟩ : Fin 50000) (y 1))

/-- The result array as one function of the twelve operand arrays. -/
def G1 (x0 : S50000x128.Idx → Elt F .f32) (x1 : S50000x128.Idx → Elt F .f32) (x2 : S50000x128.Idx → Elt F .f32) (x3 : S50000x128.Idx → Elt F .f32) (x4 : S1x128.Idx → Elt F .f32) (x5 : S1x128.Idx → Elt F .f32) (x6 : S1x128.Idx → Elt F .f32) (x7 : S1x128.Idx → Elt F .f32) (x8 : S50000x1.Idx → Elt F .f32) (x9 : S50000x1.Idx → Elt F .f32) (x10 : S50000x128.Idx → Elt F .f32) (x11 : S1x128.Idx → Elt F .f32) : S50000x128.Idx → Elt F .f32 :=
  fun i => k1_pay1 (k1_pay2 (rows1a x0 ⟨(i 0).val / 5000, by have := idx2_lt0 i; omega⟩) x4 (rows1a x1 ⟨(i 0).val / 5000, by have := idx2_lt0 i; omega⟩) x5 (rows1a x2 ⟨(i 0).val / 5000, by have := idx2_lt0 i; omega⟩) x6 (rows1a x3 ⟨(i 0).val / 5000, by have := idx2_lt0 i; omega⟩) x7 (rows1c x8 ⟨(i 0).val / 5000, by have := idx2_lt0 i; omega⟩) (rows1c x9 ⟨(i 0).val / 5000, by have := idx2_lt0 i; omega⟩) (rows1a x10 ⟨(i 0).val / 5000, by have := idx2_lt0 i; omega⟩)) x11 (ix2 (⟨(i 0).val % 5000, Nat.mod_lt _ (by decide)⟩ : Fin 5000) (i 1))

/-- The printed index maps over the grid: a row-blocked window's row-block index is the point, every other block
    index is zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0
    ∧ win1_11.index t (0 : Fin 2) = 0 ∧ win1_11.index t (1 : Fin 2) = 0
    ∧ win1_12.index t (0 : Fin 2) = t.val ∧ win1_12.index t (1 : Fin 2) = 0 :=
  (by decide +kernel : ∀ t : Fin grid1.N, _)

/-- The whole-array function at an index of row block q, local index y. -/
theorem G1_at (x0 : S50000x128.Idx → Elt F .f32) (x1 : S50000x128.Idx → Elt F .f32) (x2 : S50000x128.Idx → Elt F .f32) (x3 : S50000x128.Idx → Elt F .f32) (x4 : S1x128.Idx → Elt F .f32) (x5 : S1x128.Idx → Elt F .f32) (x6 : S1x128.Idx → Elt F .f32) (x7 : S1x128.Idx → Elt F .f32) (x8 : S50000x1.Idx → Elt F .f32) (x9 : S50000x1.Idx → Elt F .f32) (x10 : S50000x128.Idx → Elt F .f32) (x11 : S1x128.Idx → Elt F .f32) (q : Fin 10) (y : S5000x128.Idx) (i : S50000x128.Idx)
    (h0 : (i 0).val = q.val * 5000 + (y 0).val) (h1 : (i 1).val = (y 1).val) :
    G1 x0 x1 x2 x3 x4 x5 x6 x7 x8 x9 x10 x11 i = k1_pay1 (k1_pay2 (rows1a x0 q) x4 (rows1a x1 q) x5 (rows1a x2 q) x6 (rows1a x3 q) x7 (rows1c x8 q) (rows1c x9 q) (rows1a x10 q)) x11 y := by
  have key : ∀ (q' : Fin 10) (y' : S5000x128.Idx), q' = q → y' = y → k1_pay1 (k1_pay2 (rows1a x0 q') x4 (rows1a x1 q') x5 (rows1a x2 q') x6 (rows1a x3 q') x7 (rows1c x8 q') (rows1c x9 q') (rows1a x10 q')) x11 y' = k1_pay1 (k1_pay2 (rows1a x0 q) x4 (rows1a x1 q) x5 (rows1a x2 q) x6 (rows1a x3 q) x7 (rows1c x8 q) (rows1c x9 q) (rows1a x10 q)) x11 y := by
    rintro _ _ rfl rfl; rfl
  have hy := idx2_lt0 y
  unfold G1
  refine key _ _ (Fin.ext ?_) ?_
  · show (i 0).val / 5000 = q.val
    rw [h0]; omega
  · funext a
    match a with
    | ⟨0, _⟩ => exact Fin.ext (by show (i 0).val % 5000 = (y 0).val; rw [h0]; omega)
    | ⟨1, _⟩ => exact Fin.ext h1

set_option maxHeartbeats 4000000 in
/-- What point t writes back is block t of the whole-array function of the operand arrays as the region finds them. -/
theorem flushed1_12_eq (c : Dev nD) (t : Fin cfg1.N) :
    (dat1 V c).flushed 12 t = ((cfg1.win 12).blk t).view.read (Elt F) (G1 (V c main_v31) (V c main_v44) (V c main_v57) (V c main_v70) (V c main_v71) (V c main_v72) (V c main_v73) (V c main_v74) (V c main_arg13) (V c main_arg14) (V c main_v18) (V c main_v75)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts1 t
  have hN : t.val < 10 := lt_of_lt_of_eq t.isLt N_1
  have h0 : iblk1 V c 0 t = rows1a (V c main_v31) ⟨t.val, hN⟩ := by
    funext y
    show V c main_v31 (((cfg1.win 0).blk t).view.emb y) = V c main_v31 (ix2 _ (y 1))
    refine congrArg (V c main_v31) ?_
    funext a; apply Fin.ext
    match a with
    | ⟨0, _⟩ => show win1_0.index t (0 : Fin 2) * 5000 + 1 * (y 0).val = t.val * 5000 + (y 0).val; rw [e0_0]; omega
    | ⟨1, _⟩ => show win1_0.index t (1 : Fin 2) * 128 + 1 * (y 1).val = (y 1).val; rw [e0_1]; omega
  have h1 : iblk1 V c 1 t = rows1a (V c main_v44) ⟨t.val, hN⟩ := by
    funext y
    show V c main_v44 (((cfg1.win 1).blk t).view.emb y) = V c main_v44 (ix2 _ (y 1))
    refine congrArg (V c main_v44) ?_
    funext a; apply Fin.ext
    match a with
    | ⟨0, _⟩ => show win1_1.index t (0 : Fin 2) * 5000 + 1 * (y 0).val = t.val * 5000 + (y 0).val; rw [e1_0]; omega
    | ⟨1, _⟩ => show win1_1.index t (1 : Fin 2) * 128 + 1 * (y 1).val = (y 1).val; rw [e1_1]; omega
  have h2 : iblk1 V c 2 t = rows1a (V c main_v57) ⟨t.val, hN⟩ := by
    funext y
    show V c main_v57 (((cfg1.win 2).blk t).view.emb y) = V c main_v57 (ix2 _ (y 1))
    refine congrArg (V c main_v57) ?_
    funext a; apply Fin.ext
    match a with
    | ⟨0, _⟩ => show win1_2.index t (0 : Fin 2) * 5000 + 1 * (y 0).val = t.val * 5000 + (y 0).val; rw [e2_0]; omega
    | ⟨1, _⟩ => show win1_2.index t (1 : Fin 2) * 128 + 1 * (y 1).val = (y 1).val; rw [e2_1]; omega
  have h3 : iblk1 V c 3 t = rows1a (V c main_v70) ⟨t.val, hN⟩ := by
    funext y
    show V c main_v70 (((cfg1.win 3).blk t).view.emb y) = V c main_v70 (ix2 _ (y 1))
    refine congrArg (V c main_v70) ?_
    funext a; apply Fin.ext
    match a with
    | ⟨0, _⟩ => show win1_3.index t (0 : Fin 2) * 5000 + 1 * (y 0).val = t.val * 5000 + (y 0).val; rw [e3_0]; omega
    | ⟨1, _⟩ => show win1_3.index t (1 : Fin 2) * 128 + 1 * (y 1).val = (y 1).val; rw [e3_1]; omega
  have h4 : iblk1 V c 4 t = V c main_v71 := by
    funext y
    show V c main_v71 (((cfg1.win 4).blk t).view.emb y) = V c main_v71 y
    refine congrArg (V c main_v71) ?_
    funext a; apply Fin.ext
    match a with
    | ⟨0, _⟩ => show win1_4.index t (0 : Fin 2) * 1 + 1 * (y 0).val = (y 0).val; rw [e4_0]; omega
    | ⟨1, _⟩ => show win1_4.index t (1 : Fin 2) * 128 + 1 * (y 1).val = (y 1).val; rw [e4_1]; omega
  have h5 : iblk1 V c 5 t = V c main_v72 := by
    funext y
    show V c main_v72 (((cfg1.win 5).blk t).view.emb y) = V c main_v72 y
    refine congrArg (V c main_v72) ?_
    funext a; apply Fin.ext
    match a with
    | ⟨0, _⟩ => show win1_5.index t (0 : Fin 2) * 1 + 1 * (y 0).val = (y 0).val; rw [e5_0]; omega
    | ⟨1, _⟩ => show win1_5.index t (1 : Fin 2) * 128 + 1 * (y 1).val = (y 1).val; rw [e5_1]; omega
  have h6 : iblk1 V c 6 t = V c main_v73 := by
    funext y
    show V c main_v73 (((cfg1.win 6).blk t).view.emb y) = V c main_v73 y
    refine congrArg (V c main_v73) ?_
    funext a; apply Fin.ext
    match a with
    | ⟨0, _⟩ => show win1_6.index t (0 : Fin 2) * 1 + 1 * (y 0).val = (y 0).val; rw [e6_0]; omega
    | ⟨1, _⟩ => show win1_6.index t (1 : Fin 2) * 128 + 1 * (y 1).val = (y 1).val; rw [e6_1]; omega
  have h7 : iblk1 V c 7 t = V c main_v74 := by
    funext y
    show V c main_v74 (((cfg1.win 7).blk t).view.emb y) = V c main_v74 y
    refine congrArg (V c main_v74) ?_
    funext a; apply Fin.ext
    match a with
    | ⟨0, _⟩ => show win1_7.index t (0 : Fin 2) * 1 + 1 * (y 0).val = (y 0).val; rw [e7_0]; omega
    | ⟨1, _⟩ => show win1_7.index t (1 : Fin 2) * 128 + 1 * (y 1).val = (y 1).val; rw [e7_1]; omega
  have h8 : iblk1 V c 8 t = rows1c (V c main_arg13) ⟨t.val, hN⟩ := by
    funext y
    show V c main_arg13 (((cfg1.win 8).blk t).view.emb y) = V c main_arg13 (ix2 _ (y 1))
    refine congrArg (V c main_arg13) ?_
    funext a; apply Fin.ext
    match a with
    | ⟨0, _⟩ => show win1_8.index t (0 : Fin 2) * 5000 + 1 * (y 0).val = t.val * 5000 + (y 0).val; rw [e8_0]; omega
    | ⟨1, _⟩ => show win1_8.index t (1 : Fin 2) * 1 + 1 * (y 1).val = (y 1).val; rw [e8_1]; omega
  have h9 : iblk1 V c 9 t = rows1c (V c main_arg14) ⟨t.val, hN⟩ := by
    funext y
    show V c main_arg14 (((cfg1.win 9).blk t).view.emb y) = V c main_arg14 (ix2 _ (y 1))
    refine congrArg (V c main_arg14) ?_
    funext a; apply Fin.ext
    match a with
    | ⟨0, _⟩ => show win1_9.index t (0 : Fin 2) * 5000 + 1 * (y 0).val = t.val * 5000 + (y 0).val; rw [e9_0]; omega
    | ⟨1, _⟩ => show win1_9.index t (1 : Fin 2) * 1 + 1 * (y 1).val = (y 1).val; rw [e9_1]; omega
  have h10 : iblk1 V c 10 t = rows1a (V c main_v18) ⟨t.val, hN⟩ := by
    funext y
    show V c main_v18 (((cfg1.win 10).blk t).view.emb y) = V c main_v18 (ix2 _ (y 1))
    refine congrArg (V c main_v18) ?_
    funext a; apply Fin.ext
    match a with
    | ⟨0, _⟩ => show win1_10.index t (0 : Fin 2) * 5000 + 1 * (y 0).val = t.val * 5000 + (y 0).val; rw [e10_0]; omega
    | ⟨1, _⟩ => show win1_10.index t (1 : Fin 2) * 128 + 1 * (y 1).val = (y 1).val; rw [e10_1]; omega
  have h11 : iblk1 V c 11 t = V c main_v75 := by
    funext y
    show V c main_v75 (((cfg1.win 11).blk t).view.emb y) = V c main_v75 y
    refine congrArg (V c main_v75) ?_
    funext a; apply Fin.ext
    match a with
    | ⟨0, _⟩ => show win1_11.index t (0 : Fin 2) * 1 + 1 * (y 0).val = (y 0).val; rw [e11_0]; omega
    | ⟨1, _⟩ => show win1_11.index t (1 : Fin 2) * 128 + 1 * (y 1).val = (y 1).val; rw [e11_1]; omega
  rw [flushed1_12, h0, h1, h2, h3, h4, h5, h6, h7, h8, h9, h10, h11]
  funext j
  show _ = G1 (V c main_v31) (V c main_v44) (V c main_v57) (V c main_v70) (V c main_v71) (V c main_v72) (V c main_v73) (V c main_v74) (V c main_arg13) (V c main_arg14) (V c main_v18) (V c main_v75) (((cfg1.win 12).blk t).view.emb j)
  refine (G1_at (V c main_v31) (V c main_v44) (V c main_v57) (V c main_v70) (V c main_v71) (V c main_v72) (V c main_v73) (V c main_v74) (V c main_arg13) (V c main_arg14) (V c main_v18) (V c main_v75) ⟨t.val, hN⟩ j _ ?_ ?_).symm
  · show win1_12.index t (0 : Fin 2) * 5000 + 1 * (j 0).val = t.val * 5000 + (j 0).val; rw [e12_0]; omega
  · show win1_12.index t (1 : Fin 2) * 128 + 1 * (j 1).val = (j 1).val; rw [e12_1]; omega

/-- An index of the result array is in point t's block iff each coordinate is in the block's range on its axis. -/
theorem mem_blk1 (t : Fin cfg1.N) (i : S50000x128.Idx) :
    i ∈ ((cfg1.win 12).blk t).view.set ↔ ∀ a : Fin 2, win1_12.index t a * S5000x128.size a ≤ (i a).val ∧ (i a).val < win1_12.index t a * S5000x128.size a + S5000x128.size a := by
  show i ∈ ((View.whole main_v76).slice (win1_12.rect t)).set ↔ _
  rw [View.set_slice_whole, Rect.mem_set_unit]
  exact Iff.rfl

/-- Every entry of the result array lies in the block of the point its row falls under. -/
theorem cover1 (i : S50000x128.Idx) : ∃ t : Fin cfg1.N, (cfg1.win 12).flush t = true ∧ i ∈ ((cfg1.win 12).blk t).view.set := by
  have hi0 := idx2_lt0 i
  have hi1 := idx2_lt1 i
  have hlt : (i 0).val / 5000 < cfg1.N := lt_of_lt_of_eq (by omega : (i 0).val / 5000 < 10) N_1.symm
  refine ⟨⟨(i 0).val / 5000, hlt⟩, flush1_12 _, ?_⟩
  rw [mem_blk1]
  have hf := idx_facts1 ⟨(i 0).val / 5000, hlt⟩
  have e0 : win1_12.index ⟨(i 0).val / 5000, hlt⟩ (0 : Fin 2) = (i 0).val / 5000 := hf.2.2.2.2.2.2.2.2.2.2.2.2.2.2.2.2.2.2.2.2.2.2.2.2.1
  have e1 : win1_12.index ⟨(i 0).val / 5000, hlt⟩ (1 : Fin 2) = 0 := hf.2.2.2.2.2.2.2.2.2.2.2.2.2.2.2.2.2.2.2.2.2.2.2.2.2
  intro a
  match a with
  | ⟨0, _⟩ =>
    show win1_12.index ⟨(i 0).val / 5000, hlt⟩ (0 : Fin 2) * 5000 ≤ (i 0).val ∧ (i 0).val < win1_12.index ⟨(i 0).val / 5000, hlt⟩ (0 : Fin 2) * 5000 + 5000
    rw [e0]; omega
  | ⟨1, _⟩ =>
    show win1_12.index ⟨(i 0).val / 5000, hlt⟩ (1 : Fin 2) * 128 ≤ (i 1).val ∧ (i 1).val < win1_12.index ⟨(i 0).val / 5000, hlt⟩ (1 : Fin 2) * 128 + 128
    rw [e1]; omega

/-- The result array after the region: the whole-array function of the operand arrays as the region finds them. -/
theorem final1 (c : Dev nD) : (dat1 V c).arrAt 12 cfg1.N = G1 (V c main_v31) (V c main_v44) (V c main_v57) (V c main_v70) (V c main_v71) (V c main_v72) (V c main_v73) (V c main_v74) (V c main_arg13) (V c main_arg14) (V c main_v18) (V c main_v75) :=
  (dat1 V c).arrAt_eq_of_cover 12 _ (fun t _ => flushed1_12_eq V c t) cover1

end Val1

/-! ## At the ideal values -/

/-- A [5000, 1] column broadcast to [5000, 128] reads, at (p, c), the column at p. -/
theorem bcast_col1 {α : Type} (v : S5000x1.Idx → α) (h : S5000x1.Broadcasts S5000x128) (p : Fin 5000) (c : Fin 128) :
    broadcastTo S5000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The inner part of the combination at an entry: each propagated sum with its bias row, the two sums of a direction
    added, each direction scaled by its row's coefficient, the two directions and the residual added. -/
theorem k1_pay2_apply (v0 : FVec Ideal S5000x128 .f32) (v2 : FVec Ideal S1x128 .f32) (v6 : FVec Ideal S5000x128 .f32) (v9 : FVec Ideal S1x128 .f32)
    (v13 : FVec Ideal S5000x128 .f32) (v15 : FVec Ideal S1x128 .f32) (v19 : FVec Ideal S5000x128 .f32) (v22 : FVec Ideal S1x128 .f32)
    (v26 v29 : FVec Ideal S5000x1 .f32) (v33 : FVec Ideal S5000x128 .f32) (a : Fin 5000) (b : Fin 128) :
    k1_pay2 (F := Ideal) v0 v2 v6 v9 v13 v15 v19 v22 v26 v29 v33 (ix2 a b)
      = (v26 (ix2 a (0 : Fin 1)) * (((v0 (ix2 a b) + v2 (ix2 (0 : Fin 1) b)) + v6 (ix2 a b)) + v9 (ix2 (0 : Fin 1) b))
          + v29 (ix2 a (0 : Fin 1)) * (((v13 (ix2 a b) + v15 (ix2 (0 : Fin 1) b)) + v19 (ix2 a b)) + v22 (ix2 (0 : Fin 1) b))) + v33 (ix2 a b) := by
  unfold k1_pay2
  simp only [shapeCast_self, addf, mulf, broadcastTo_1b_ab_apply, bcast_col1]
  rfl

/-- The outer part at an entry: the residual's bias row added, the sum clamped below at zero. -/
theorem k1_pay1_apply (v35 : FVec Ideal S5000x128 .f32) (v36 : FVec Ideal S1x128 .f32) (a : Fin 5000) (b : Fin 128) :
    k1_pay1 (F := Ideal) v35 v36 (ix2 a b)
      = max (v35 (ix2 a b) + v36 (ix2 (0 : Fin 1) b)) (broadcast S5000x128 (Scalar.ofBits .f32 0x00000000#32 : Ideal .f32) (ix2 a b)) := by
  unfold k1_pay1
  simp only [shapeCast_self, addf, maximumf, broadcastTo_1b_ab_apply]
  rfl

/-- Row r lies in row block r / 5000, at r mod 5000. -/
theorem rows1a_apply (X : FVec Ideal S50000x128 .f32) (r : Fin 50000) (j : Fin 128) :
    rows1a (F := Ideal) X ⟨r.val / 5000, by have := r.isLt; omega⟩ (ix2 (⟨r.val % 5000, Nat.mod_lt _ (by decide)⟩ : Fin 5000) j) = X (ix2 r j) := by
  unfold rows1a
  refine congrArg X ?_
  funext a
  match a with
  | ⟨0, _⟩ => exact Fin.ext (by show r.val / 5000 * 5000 + r.val % 5000 = r.val; omega)
  | ⟨1, _⟩ => rfl
theorem rows1c_apply (X : FVec Ideal S50000x1 .f32) (r : Fin 50000) (j : Fin 1) :
    rows1c (F := Ideal) X ⟨r.val / 5000, by have := r.isLt; omega⟩ (ix2 (⟨r.val % 5000, Nat.mod_lt _ (by decide)⟩ : Fin 5000) j) = X (ix2 r j) := by
  unfold rows1c
  refine congrArg X ?_
  funext a
  match a with
  | ⟨0, _⟩ => exact Fin.ext (by show r.val / 5000 * 5000 + r.val % 5000 = r.val; omega)
  | ⟨1, _⟩ => rfl

/-- Entry (r, j) of the region's result array, in the operand arrays' entries of row r and column j. -/
theorem G1_apply (x0 x1 x2 x3 : FVec Ideal S50000x128 .f32) (x4 x5 x6 x7 : FVec Ideal S1x128 .f32) (x8 x9 : FVec Ideal S50000x1 .f32)
    (x10 : FVec Ideal S50000x128 .f32) (x11 : FVec Ideal S1x128 .f32) (r : Fin 50000) (j : Fin 128) :
    G1 (F := Ideal) x0 x1 x2 x3 x4 x5 x6 x7 x8 x9 x10 x11 (ix2 r j)
      = max (((x8 (ix2 r (0 : Fin 1)) * (((x0 (ix2 r j) + x4 (ix2 (0 : Fin 1) j)) + x1 (ix2 r j)) + x5 (ix2 (0 : Fin 1) j))
          + x9 (ix2 r (0 : Fin 1)) * (((x2 (ix2 r j) + x6 (ix2 (0 : Fin 1) j)) + x3 (ix2 r j)) + x7 (ix2 (0 : Fin 1) j))) + x10 (ix2 r j)) + x11 (ix2 (0 : Fin 1) j)) (broadcast S5000x128 (Scalar.ofBits .f32 0x00000000#32 : Ideal .f32) (ix2 (⟨r.val % 5000, Nat.mod_lt _ (by decide)⟩ : Fin 5000) j)) := by
  have hr := r.isLt
  rw [G1_at (F := Ideal) x0 x1 x2 x3 x4 x5 x6 x7 x8 x9 x10 x11 ⟨r.val / 5000, by omega⟩ (ix2 (⟨r.val % 5000, Nat.mod_lt _ (by decide)⟩ : Fin 5000) j) (ix2 r j)
    (by show r.val = r.val / 5000 * 5000 + r.val % 5000; omega) rfl]
  rw [k1_pay1_apply, k1_pay2_apply]
  simp only [rows1a_apply, rows1c_apply]

end Cert.KernelIdeal.Hand

end
-- ==== Proof.KI.Layer1.lean ====
/-
  Layer 1 on the kernel side: the layer's output buffer after its combine region, as the combine's whole-array
  function of the four propagated sums (each the edge propagation of a column block of the layer's projection), the
  four bias rows, the two coefficient columns, the residual and its bias row — every operand read back through the
  stretch of host operations between the projection and the combine.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import proofs.«106078_j59889023976011_1_alg».proof.Proof.KI.Prop
import proofs.«106078_j59889023976011_1_alg».proof.Proof.KI.Val0
import proofs.«106078_j59889023976011_1_alg».proof.Proof.KI.Val1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-- The projection's output array after its region. -/
theorem W2_main_v14 (c : Dev nD) : W2 m ρ c (Proc.devRef .tc main_v14) = G0 (W1 m ρ c (Proc.devRef .tc main_v4)) (W1 m ρ c (Proc.devRef .tc main_v13)) :=
  (W2_arr m ρ c 2).trans (final0 (V1 m ρ) c)

theorem W3_main_v31 (c : Dev nD) : W3 m ρ c (Proc.devRef .tc main_v31)
    = prop (extractStridedSlice S50000x128 ![0, 0] (W2 m ρ c (Proc.devRef .tc main_v14)) slices_S50000x512_S50000x128_0_0) (W2 m ρ c (Proc.devRef .tc main_v6)) (W2 m ρ c (Proc.devRef .tc main_v8)) (W2 m ρ c (Proc.devRef .tc main_arg2)) := by
  dsimp only [W3, hostOps1]
  after_results_simp
  rfl
theorem W3_main_v44 (c : Dev nD) : W3 m ρ c (Proc.devRef .tc main_v44)
    = prop (extractStridedSlice S50000x128 ![0, 256] (W2 m ρ c (Proc.devRef .tc main_v14)) slices_S50000x512_S50000x128_0_256) (W2 m ρ c (Proc.devRef .tc main_v6)) (W2 m ρ c (Proc.devRef .tc main_v8)) (W2 m ρ c (Proc.devRef .tc main_arg2)) := by
  dsimp only [W3, hostOps1]
  after_results_simp
  rfl
theorem W3_main_v57 (c : Dev nD) : W3 m ρ c (Proc.devRef .tc main_v57)
    = prop (extractStridedSlice S50000x128 ![0, 128] (W2 m ρ c (Proc.devRef .tc main_v14)) slices_S50000x512_S50000x128_0_128) (W2 m ρ c (Proc.devRef .tc main_v10)) (W2 m ρ c (Proc.devRef .tc main_v12)) (W2 m ρ c (Proc.devRef .tc main_arg4)) := by
  dsimp only [W3, hostOps1]
  after_results_simp
  rfl
theorem W3_main_v70 (c : Dev nD) : W3 m ρ c (Proc.devRef .tc main_v70)
    = prop (extractStridedSlice S50000x128 ![0, 256] (W2 m ρ c (Proc.devRef .tc main_v14)) slices_S50000x512_S50000x128_0_256) (W2 m ρ c (Proc.devRef .tc main_v10)) (W2 m ρ c (Proc.devRef .tc main_v12)) (W2 m ρ c (Proc.devRef .tc main_arg4)) := by
  dsimp only [W3, hostOps1]
  after_results_simp
  rfl
theorem W3_main_v71 (c : Dev nD) : W3 m ρ c (Proc.devRef .tc main_v71) = shapeCast S1x128 (W2 m ρ c (Proc.devRef .tc main_arg9)) shapeCasts_S128_S1x128 := by
  dsimp only [W3, hostOps1]
  after_results_simp
  rfl
theorem W3_main_v72 (c : Dev nD) : W3 m ρ c (Proc.devRef .tc main_v72) = shapeCast S1x128 (W2 m ρ c (Proc.devRef .tc main_arg11)) shapeCasts_S128_S1x128 := by
  dsimp only [W3, hostOps1]
  after_results_simp
  rfl
theorem W3_main_v73 (c : Dev nD) : W3 m ρ c (Proc.devRef .tc main_v73) = shapeCast S1x128 (W2 m ρ c (Proc.devRef .tc main_arg10)) shapeCasts_S128_S1x128 := by
  dsimp only [W3, hostOps1]
  after_results_simp
  rfl
theorem W3_main_v74 (c : Dev nD) : W3 m ρ c (Proc.devRef .tc main_v74) = shapeCast S1x128 (W2 m ρ c (Proc.devRef .tc main_arg12)) shapeCasts_S128_S1x128 := by
  dsimp only [W3, hostOps1]
  after_results_simp
  rfl
theorem W3_main_v18 (c : Dev nD) : W3 m ρ c (Proc.devRef .tc main_v18) = extractStridedSlice S50000x128 ![0, 384] (W2 m ρ c (Proc.devRef .tc main_v14)) slices_S50000x512_S50000x128_0_384 := by
  dsimp only [W3, hostOps1]
  after_results_simp
theorem W3_main_v75 (c : Dev nD) : W3 m ρ c (Proc.devRef .tc main_v75) = shapeCast S1x128 (W2 m ρ c (Proc.devRef .tc main_arg34)) shapeCasts_S128_S1x128 := by
  dsimp only [W3, hostOps1]
  after_results_simp
  rfl

/-- The layer's output array after the combine region. -/
theorem W4_main_v76 (c : Dev nD) : W4 m ρ c (Proc.devRef .tc main_v76)
    = G1 (W3 m ρ c (Proc.devRef .tc main_v31)) (W3 m ρ c (Proc.devRef .tc main_v44)) (W3 m ρ c (Proc.devRef .tc main_v57)) (W3 m ρ c (Proc.devRef .tc main_v70)) (W3 m ρ c (Proc.devRef .tc main_v71)) (W3 m ρ c (Proc.devRef .tc main_v72)) (W3 m ρ c (Proc.devRef .tc main_v73)) (W3 m ρ c (Proc.devRef .tc main_v74))
        (W3 m ρ c (Proc.devRef .tc main_arg13)) (W3 m ρ c (Proc.devRef .tc main_arg14)) (W3 m ρ c (Proc.devRef .tc main_v18)) (W3 m ρ c (Proc.devRef .tc main_v75)) :=
  (W4_arr m ρ c 12).trans (final1 (V3 m ρ) c)

end Cert.KernelIdeal.Hand

end
-- ==== Proof.RefLayer1.lean ====
/-
  Layer 1 of the reference as one pure function of the layer's input and the arguments it reads, and the reading
  that the fold of the layer's operations leaves that function's value in the layer's output buffer.
-/
import proofs.«106078_j59889023976011_1_alg».proof.Proof.RefStage

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- Gather the source rows, scale each by its edge's weight, add into the target rows of a zero array. -/
def propR (Y : (⟨S50000x128, .f32⟩ : BufTy).Contents (Elt F)) (src dst : (⟨S640000, .i32⟩ : BufTy).Contents (Elt F)) (ew : (⟨S640000, .f32⟩ : BufTy).Contents (Elt F)) : (⟨S50000x128, .f32⟩ : BufTy).Contents (Elt F) :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf (broadcastInDim S640000x128 ![0, 1] bcast_S640000x1_S640000x128_0_1 (broadcastInDim S640000x1 ![0] bcast_S640000_S640000x1_0 ew))
      (Host.gather gather_S50000x128_S640000x1_S640000x128_1_0_n_n_0_1_1128 Y
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))))
/-- Row 0 (the sources) and row 1 (the targets) of a 2 × 640000 edge list, flattened. -/
def idxS (a : (⟨S2x640000, .i32⟩ : BufTy).Contents (Elt F)) : (⟨S640000, .i32⟩ : BufTy).Contents (Elt F) :=
  shapeCast S640000 (extractStridedSlice S1x640000 ![0, 0] a slices_S2x640000_S1x640000_0_0) shapeCasts_S1x640000_S640000
def idxD (a : (⟨S2x640000, .i32⟩ : BufTy).Contents (Elt F)) : (⟨S640000, .i32⟩ : BufTy).Contents (Elt F) :=
  shapeCast S640000 (extractStridedSlice S1x640000 ![1, 0] a slices_S2x640000_S1x640000_1_0) shapeCasts_S1x640000_S640000
/-- A bias of 128 entries as a row added to every row; a column of 50000 coefficients as a factor of every column. -/
def bb (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)
def bcastC (cc : (⟨S50000x1, .f32⟩ : BufTy).Contents (Elt F)) : (⟨S50000x128, .f32⟩ : BufTy).Contents (Elt F) :=
  broadcastInDim S50000x128 ![0, 1] bcast_S50000x1_S50000x128_0_1 cc

/-- Layer 1: the two directions' propagated sums with their biases, scaled by the per-node coefficients, plus the
    residual, clamped below at zero. -/
def layer1R (X : (⟨S50000x96, .f32⟩ : BufTy).Contents (Elt F)) (a1 : (⟨S2x640000, .i32⟩ : BufTy).Contents (Elt F)) (a2 : (⟨S640000, .f32⟩ : BufTy).Contents (Elt F)) (a3 : (⟨S2x640000, .i32⟩ : BufTy).Contents (Elt F)) (a4 : (⟨S640000, .f32⟩ : BufTy).Contents (Elt F)) (a6 : (⟨S96x128, .f32⟩ : BufTy).Contents (Elt F)) (a7 : (⟨S96x128, .f32⟩ : BufTy).Contents (Elt F)) (a8 : (⟨S96x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S128, .f32⟩ : BufTy).Contents (Elt F)) (a13 : (⟨S50000x1, .f32⟩ : BufTy).Contents (Elt F)) (a14 : (⟨S50000x1, .f32⟩ : BufTy).Contents (Elt F)) (a33 : (⟨S96x128, .f32⟩ : BufTy).Contents (Elt F)) (a34 : (⟨S128, .f32⟩ : BufTy).Contents (Elt F)) : (⟨S50000x128, .f32⟩ : BufTy).Contents (Elt F) :=
  maximumf (addf (addf (mulf (bcastC a13) (addf (addf (addf (propR (Host.dotGeneral dot_S50000x96_S96x128_S50000x128_1_0_0_1_n_n none X a6) (idxS a1) (idxD a1) a2) (bb a9)) (propR (Host.dotGeneral dot_S50000x96_S96x128_S50000x128_1_0_0_1_n_n none X a8) (idxS a1) (idxD a1) a2)) (bb a11))) (mulf (bcastC a14) (addf (addf (addf (propR (Host.dotGeneral dot_S50000x96_S96x128_S50000x128_1_0_0_1_n_n none X a7) (idxS a3) (idxD a3) a4) (bb a10)) (propR (Host.dotGeneral dot_S50000x96_S96x128_S50000x128_1_0_0_1_n_n none X a8) (idxS a3) (idxD a3) a4)) (bb a12)))) (addf (Host.dotGeneral dot_S50000x96_S96x128_S50000x128_1_0_0_1_n_n none X a33) (bb a34))) (broadcastInDim S50000x128 ![] bcast_S_S50000x128 (constant S_ .f32 0x00000000#32))

set_option maxHeartbeats 4000000 in
/-- The fold of the layer's operations leaves the layer's value in its output buffer. -/
theorem after_cL1 (V : Valuation τ sig (Elt F)) :
    after (cL1 (F := F)) V (Proc.devRef .tc main_v100) = layer1R (V (Proc.devRef .tc main_v4)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg33)) (V (Proc.devRef .tc main_arg34)) := by
  dsimp only [cL1]
  after_results_simp
  rfl

end Cert.ReferenceIdeal.Hand

end
-- ==== Proof.Bridge1.lean ====
/-
  Layer 1, the two sides compared at the ideal values.

  The kernel side is the combine's whole-array function of: the edge propagation of column blocks 0, 2, 1, 2 of the
  projection by the four weight matrices laid side by side; the four bias rows; the two coefficient columns; column
  block 3 (the residual projection) and its bias row. The reference side is its layer term. They agree entry by
  entry: a column block of the concatenated projection is the projection by that block's matrix; the bias rows and
  the coefficient columns are read at (0, j) and (r, 0); and ((s + res) + b) = s + (res + b).
-/
import proofs.«106078_j59889023976011_1_alg».proof.Proof.KI.Layer1
import proofs.«106078_j59889023976011_1_alg».proof.Proof.RefLayer1
import Idealize.ShloMosaic.Lib.ValueLayout
import Idealize.ShloMosaic.Lib.IdealHost

set_option maxRecDepth 16384

noncomputable section

open Idealize.ShloMosaic Idealize.ShloMosaic.TcCoe Idealize.ShloMosaic.ValueIdx

namespace Cert.Proof.Bridge

open Cert.KernelIdeal.Hand Cert.ReferenceIdeal.Hand

abbrev KI.S50000x128 := Cert.KernelIdeal.S50000x128

/-- The two programs' propagation functions are one function. -/
theorem prop_eq : @Cert.KernelIdeal.Hand.prop Ideal _ = @Cert.ReferenceIdeal.Hand.propR Ideal _ := rfl

/-- A bias as a row under every row, read at an entry. -/
theorem bb_apply (b : FVec Ideal Cert.ReferenceIdeal.S128 .f32) (r : Fin 50000) (j : Fin 128) :
    Cert.ReferenceIdeal.Hand.bb (F := Ideal) b (ix2 r j) = b (ix1 j) := by
  unfold Cert.ReferenceIdeal.Hand.bb
  rw [broadcastInDim_apply _ _ _ (ix2 r j) (ix2 (0 : Fin 1) j) (by intro a; match a with | ⟨0, _⟩ => rfl | ⟨1, _⟩ => rfl)]
  rw [broadcastInDim_apply _ _ _ (ix2 (0 : Fin 1) j) (ix1 j) (by intro a; match a with | ⟨0, _⟩ => rfl)]

/-- A coefficient column as a factor of every column, read at an entry. -/
theorem bcastC_apply (cc : FVec Ideal Cert.ReferenceIdeal.S50000x1 .f32) (r : Fin 50000) (j : Fin 128) :
    Cert.ReferenceIdeal.Hand.bcastC (F := Ideal) cc (ix2 r j) = cc (ix2 r (0 : Fin 1)) := by
  unfold Cert.ReferenceIdeal.Hand.bcastC
  rw [broadcastInDim_apply _ _ _ (ix2 r j) (ix2 r (0 : Fin 1)) (by intro a; match a with | ⟨0, _⟩ => rfl | ⟨1, _⟩ => rfl)]

end Cert.Proof.Bridge

end
-- ==== Proof.Bridge1b.lean ====
/-
  Layer 1: the combine's whole-array function of the kernel side's operands is the reference's layer term.
-/
import proofs.«106078_j59889023976011_1_alg».proof.Proof.Bridge1

set_option maxRecDepth 16384

noncomputable section

open Idealize.ShloMosaic Idealize.ShloMosaic.TcCoe Idealize.ShloMosaic.ValueIdx

namespace Cert.Proof.Bridge

open Cert.KernelIdeal.Hand Cert.ReferenceIdeal.Hand

set_option maxHeartbeats 4000000 in
theorem layer1_bridge (X : FVec Ideal Cert.KernelIdeal.S50000x96 .f32)
    (A1 A3 : (⟨Cert.KernelIdeal.S2x640000, .i32⟩ : BufTy).Contents (Elt Ideal)) (A2 A4 : (⟨Cert.KernelIdeal.S640000, .f32⟩ : BufTy).Contents (Elt Ideal))
    (A6 A7 A8 A33 : FVec Ideal Cert.KernelIdeal.S96x128 .f32) (A9 A10 A11 A12 A34 : FVec Ideal Cert.KernelIdeal.S128 .f32) (A13 A14 : FVec Ideal Cert.KernelIdeal.S50000x1 .f32) :
    G1 (F := Ideal)
      (prop (extractStridedSlice Cert.KernelIdeal.S50000x128 ![0, 0] (G0 (F := Ideal) X (concatenate Cert.KernelIdeal.S96x512 1 [⟨Cert.KernelIdeal.S96x128, A6⟩, ⟨Cert.KernelIdeal.S96x128, A7⟩, ⟨Cert.KernelIdeal.S96x128, A8⟩, ⟨Cert.KernelIdeal.S96x128, A33⟩] Cert.KernelIdeal.Facts₀.concatenates_S96x128_S96x128_S96x128_S96x128_S96x512_d1)) Cert.KernelIdeal.Facts₀.slices_S50000x512_S50000x128_0_0) (shapeCast Cert.KernelIdeal.S640000 (extractStridedSlice Cert.KernelIdeal.S1x640000 ![0, 0] A1 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A1 Cert.KernelIdeal.Facts₀.slices_S2x640000_S1x640000_1_0) Cert.KernelIdeal.Facts₀.shapeCasts_S1x640000_S640000) A2)
      (prop (extractStridedSlice Cert.KernelIdeal.S50000x128 ![0, 256] (G0 (F := Ideal) X (concatenate Cert.KernelIdeal.S96x512 1 [⟨Cert.KernelIdeal.S96x128, A6⟩, ⟨Cert.KernelIdeal.S96x128, A7⟩, ⟨Cert.KernelIdeal.S96x128, A8⟩, ⟨Cert.KernelIdeal.S96x128, A33⟩] Cert.KernelIdeal.Facts₀.concatenates_S96x128_S96x128_S96x128_S96x128_S96x512_d1)) Cert.KernelIdeal.Facts₀.slices_S50000x512_S50000x128_0_256) (shapeCast Cert.KernelIdeal.S640000 (extractStridedSlice Cert.KernelIdeal.S1x640000 ![0, 0] A1 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A1 Cert.KernelIdeal.Facts₀.slices_S2x640000_S1x640000_1_0) Cert.KernelIdeal.Facts₀.shapeCasts_S1x640000_S640000) A2)
      (prop (extractStridedSlice Cert.KernelIdeal.S50000x128 ![0, 128] (G0 (F := Ideal) X (concatenate Cert.KernelIdeal.S96x512 1 [⟨Cert.KernelIdeal.S96x128, A6⟩, ⟨Cert.KernelIdeal.S96x128, A7⟩, ⟨Cert.KernelIdeal.S96x128, A8⟩, ⟨Cert.KernelIdeal.S96x128, A33⟩] Cert.KernelIdeal.Facts₀.concatenates_S96x128_S96x128_S96x128_S96x128_S96x512_d1)) Cert.KernelIdeal.Facts₀.slices_S50000x512_S50000x128_0_128) (shapeCast Cert.KernelIdeal.S640000 (extractStridedSlice Cert.KernelIdeal.S1x640000 ![0, 0] A3 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A3 Cert.KernelIdeal.Facts₀.slices_S2x640000_S1x640000_1_0) Cert.KernelIdeal.Facts₀.shapeCasts_S1x640000_S640000) A4)
      (prop (extractStridedSlice Cert.KernelIdeal.S50000x128 ![0, 256] (G0 (F := Ideal) X (concatenate Cert.KernelIdeal.S96x512 1 [⟨Cert.KernelIdeal.S96x128, A6⟩, ⟨Cert.KernelIdeal.S96x128, A7⟩, ⟨Cert.KernelIdeal.S96x128, A8⟩, ⟨Cert.KernelIdeal.S96x128, A33⟩] Cert.KernelIdeal.Facts₀.concatenates_S96x128_S96x128_S96x128_S96x128_S96x512_d1)) Cert.KernelIdeal.Facts₀.slices_S50000x512_S50000x128_0_256) (shapeCast Cert.KernelIdeal.S640000 (extractStridedSlice Cert.KernelIdeal.S1x640000 ![0, 0] A3 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A3 Cert.KernelIdeal.Facts₀.slices_S2x640000_S1x640000_1_0) Cert.KernelIdeal.Facts₀.shapeCasts_S1x640000_S640000) A4)
      (shapeCast Cert.KernelIdeal.S1x128 A9 Cert.KernelIdeal.Facts₀.shapeCasts_S128_S1x128) (shapeCast Cert.KernelIdeal.S1x128 A11 Cert.KernelIdeal.Facts₀.shapeCasts_S128_S1x128) (shapeCast Cert.KernelIdeal.S1x128 A10 Cert.KernelIdeal.Facts₀.shapeCasts_S128_S1x128) (shapeCast Cert.KernelIdeal.S1x128 A12 Cert.KernelIdeal.Facts₀.shapeCasts_S128_S1x128) A13 A14 (extractStridedSlice Cert.KernelIdeal.S50000x128 ![0, 384] (G0 (F := Ideal) X (concatenate Cert.KernelIdeal.S96x512 1 [⟨Cert.KernelIdeal.S96x128, A6⟩, ⟨Cert.KernelIdeal.S96x128, A7⟩, ⟨Cert.KernelIdeal.S96x128, A8⟩, ⟨Cert.KernelIdeal.S96x128, A33⟩] Cert.KernelIdeal.Facts₀.concatenates_S96x128_S96x128_S96x128_S96x128_S96x512_d1)) Cert.KernelIdeal.Facts₀.slices_S50000x512_S50000x128_0_384) (shapeCast Cert.KernelIdeal.S1x128 A34 Cert.KernelIdeal.Facts₀.shapeCasts_S128_S1x128)
    = layer1R (F := Ideal) X A1 A2 A3 A4 A6 A7 A8 A9 A10 A11 A12 A13 A14 A33 A34 := by
  rw [slice0_0_eq, slice0_2_eq, slice0_1_eq, slice0_3_eq, prop_eq]
  funext i
  obtain ⟨r, j, rfl⟩ : ∃ (r : Fin 50000) (j : Fin 128), i = ix2 r j := ⟨i 0, i 1, eq_ix2 i⟩
  rw [G1_apply]
  unfold layer1R
  simp only [maximumf, addf, mulf, bb_apply, bcastC_apply, shapeCast_a_1a_apply, broadcastInDim_scalar_apply]
  rw [add_assoc]
  rfl

end Cert.Proof.Bridge

end
-- ==== Proof.KI.Args.lean ====
/-
  Each argument's buffer at the boundaries where a later stage reads it: still its launch contents (no stretch writes
  an argument; a region changes only its output arrays).
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_main_arg2 (c : Dev nD) : W2 m ρ c (Proc.devRef .tc main_arg2) = m ((c : Thread nD τ).loc main_arg2) :=
  (W2_of_ne m ρ c main_arg2 (by decide)).trans <|
  (W1_of m ρ c main_arg2 (by decide)).trans <| rfl
theorem W2_main_arg4 (c : Dev nD) : W2 m ρ c (Proc.devRef .tc main_arg4) = m ((c : Thread nD τ).loc main_arg4) :=
  (W2_of_ne m ρ c main_arg4 (by decide)).trans <|
  (W1_of m ρ c main_arg4 (by decide)).trans <| rfl
theorem W2_main_arg9 (c : Dev nD) : W2 m ρ c (Proc.devRef .tc main_arg9) = m ((c : Thread nD τ).loc main_arg9) :=
  (W2_of_ne m ρ c main_arg9 (by decide)).trans <|
  (W1_of m ρ c main_arg9 (by decide)).trans <| rfl
theorem W2_main_arg10 (c : Dev nD) : W2 m ρ c (Proc.devRef .tc main_arg10) = m ((c : Thread nD τ).loc main_arg10) :=
  (W2_of_ne m ρ c main_arg10 (by decide)).trans <|
  (W1_of m ρ c main_arg10 (by decide)).trans <| rfl
theorem W2_main_arg11 (c : Dev nD) : W2 m ρ c (Proc.devRef .tc main_arg11) = m ((c : Thread nD τ).loc main_arg11) :=
  (W2_of_ne m ρ c main_arg11 (by decide)).trans <|
  (W1_of m ρ c main_arg11 (by decide)).trans <| rfl
theorem W2_main_arg12 (c : Dev nD) : W2 m ρ c (Proc.devRef .tc main_arg12) = m ((c : Thread nD τ).loc main_arg12) :=
  (W2_of_ne m ρ c main_arg12 (by decide)).trans <|
  (W1_of m ρ c main_arg12 (by decide)).trans <| rfl
theorem W2_main_arg34 (c : Dev nD) : W2 m ρ c (Proc.devRef .tc main_arg34) = m ((c : Thread nD τ).loc main_arg34) :=
  (W2_of_ne m ρ c main_arg34 (by decide)).trans <|
  (W1_of m ρ c main_arg34 (by decide)).trans <| rfl
theorem W3_main_arg13 (c : Dev nD) : W3 m ρ c (Proc.devRef .tc main_arg13) = m ((c : Thread nD τ).loc main_arg13) :=
  (W3_of m ρ c main_arg13 (by decide)).trans <|
  (W2_of_ne m ρ c main_arg13 (by decide)).trans <|
  (W1_of m ρ c main_arg13 (by decide)).trans <| rfl
theorem W3_main_arg14 (c : Dev nD) : W3 m ρ c (Proc.devRef .tc main_arg14) = m ((c : Thread nD τ).loc main_arg14) :=
  (W3_of m ρ c main_arg14 (by decide)).trans <|
  (W2_of_ne m ρ c main_arg14 (by decide)).trans <|
  (W1_of m ρ c main_arg14 (by decide)).trans <| rfl
theorem W4_main_arg15 (c : Dev nD) : W4 m ρ c (Proc.devRef .tc main_arg15) = m ((c : Thread nD τ).loc main_arg15) :=
  (W4_of_ne m ρ c main_arg15 (by decide)).trans <|
  (W3_of m ρ c main_arg15 (by decide)).trans <|
  (W2_of_ne m ρ c main_arg15 (by decide)).trans <|
  (W1_of m ρ c main_arg15 (by decide)).trans <| rfl
theorem W4_main_arg16 (c : Dev nD) : W4 m ρ c (Proc.devRef .tc main_arg16) = m ((c : Thread nD τ).loc main_arg16) :=
  (W4_of_ne m ρ c main_arg16 (by decide)).trans <|
  (W3_of m ρ c main_arg16 (by decide)).trans <|
  (W2_of_ne m ρ c main_arg16 (by decide)).trans <|
  (W1_of m ρ c main_arg16 (by decide)).trans <| rfl
theorem W4_main_arg17 (c : Dev nD) : W4 m ρ c (Proc.devRef .tc main_arg17) = m ((c : Thread nD τ).loc main_arg17) :=
  (W4_of_ne m ρ c main_arg17 (by decide)).trans <|
  (W3_of m ρ c main_arg17 (by decide)).trans <|
  (W2_of_ne m ρ c main_arg17 (by decide)).trans <|
  (W1_of m ρ c main_arg17 (by decide)).trans <| rfl
theorem W6_main_arg2 (c : Dev nD) : W6 m ρ c (Proc.devRef .tc main_arg2) = m ((c : Thread nD τ).loc main_arg2) :=
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl
theorem W6_main_arg4 (c : Dev nD) : W6 m ρ c (Proc.devRef .tc main_arg4) = m ((c : Thread nD τ).loc main_arg4) :=
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl
theorem W6_main_arg18 (c : Dev nD) : W6 m ρ c (Proc.devRef .tc main_arg18) = m ((c : Thread nD τ).loc main_arg18) :=
  (W6_of_ne m ρ c main_arg18 (by decide)).trans <|
  (W5_of m ρ c main_arg18 (by decide)).trans <|
  (W4_of_ne m ρ c main_arg18 (by decide)).trans <|
  (W3_of m ρ c main_arg18 (by decide)).trans <|
  (W2_of_ne m ρ c main_arg18 (by decide)).trans <|
  (W1_of m ρ c main_arg18 (by decide)).trans <| rfl
theorem W6_main_arg19 (c : Dev nD) : W6 m ρ c (Proc.devRef .tc main_arg19) = m ((c : Thread nD τ).loc main_arg19) :=
  (W6_of_ne m ρ c main_arg19 (by decide)).trans <|
  (W5_of m ρ c main_arg19 (by decide)).trans <|
  (W4_of_ne m ρ c main_arg19 (by decide)).trans <|
  (W3_of m ρ c main_arg19 (by decide)).trans <|
  (W2_of_ne m ρ c main_arg19 (by decide)).trans <|
  (W1_of m ρ c main_arg19 (by decide)).trans <| rfl
theorem W6_main_arg20 (c : Dev nD) : W6 m ρ c (Proc.devRef .tc main_arg20) = m ((c : Thread nD τ).loc main_arg20) :=
  (W6_of_ne m ρ c main_arg20 (by decide)).trans <|
  (W5_of m ρ c main_arg20 (by decide)).trans <|
  (W4_of_ne m ρ c main_arg20 (by decide)).trans <|
  (W3_of m ρ c main_arg20 (by decide)).trans <|
  (W2_of_ne m ρ c main_arg20 (by decide)).trans <|
  (W1_of m ρ c main_arg20 (by decide)).trans <| rfl
theorem W6_main_arg21 (c : Dev nD) : W6 m ρ c (Proc.devRef .tc main_arg21) = m ((c : Thread nD τ).loc main_arg21) :=
  (W6_of_ne m ρ c main_arg21 (by decide)).trans <|
  (W5_of m ρ c main_arg21 (by decide)).trans <|
  (W4_of_ne m ρ c main_arg21 (by decide)).trans <|
  (W3_of m ρ c main_arg21 (by decide)).trans <|
  (W2_of_ne m ρ c main_arg21 (by decide)).trans <|
  (W1_of m ρ c main_arg21 (by decide)).trans <| rfl
theorem W7_main_arg22 (c : Dev nD) : W7 m ρ c (Proc.devRef .tc main_arg22) = m ((c : Thread nD τ).loc main_arg22) :=
  (W7_of m ρ c main_arg22 (by decide)).trans <|
  (W6_of_ne m ρ c main_arg22 (by decide)).trans <|
  (W5_of m ρ c main_arg22 (by decide)).trans <|
  (W4_of_ne m ρ c main_arg22 (by decide)).trans <|
  (W3_of m ρ c main_arg22 (by decide)).trans <|
  (W2_of_ne m ρ c main_arg22 (by decide)).trans <|
  (W1_of m ρ c main_arg22 (by decide)).trans <| rfl
theorem W7_main_arg23 (c : Dev nD) : W7 m ρ c (Proc.devRef .tc main_arg23) = m ((c : Thread nD τ).loc main_arg23) :=
  (W7_of m ρ c main_arg23 (by decide)).trans <|
  (W6_of_ne m ρ c main_arg23 (by decide)).trans <|
  (W5_of m ρ c main_arg23 (by decide)).trans <|
  (W4_of_ne m ρ c main_arg23 (by decide)).trans <|
  (W3_of m ρ c main_arg23 (by decide)).trans <|
  (W2_of_ne m ρ c main_arg23 (by decide)).trans <|
  (W1_of m ρ c main_arg23 (by decide)).trans <| rfl
theorem W8_main_arg24 (c : Dev nD) : W8 m ρ c (Proc.devRef .tc main_arg24) = m ((c : Thread nD τ).loc main_arg24) :=
  (W8_of_ne m ρ c main_arg24 (by decide)).trans <|
  (W7_of m ρ c main_arg24 (by decide)).trans <|
  (W6_of_ne m ρ c main_arg24 (by decide)).trans <|
  (W5_of m ρ c main_arg24 (by decide)).trans <|
  (W4_of_ne m ρ c main_arg24 (by decide)).trans <|
  (W3_of m ρ c main_arg24 (by decide)).trans <|
  (W2_of_ne m ρ c main_arg24 (by decide)).trans <|
  (W1_of m ρ c main_arg24 (by decide)).trans <| rfl
theorem W8_main_arg25 (c : Dev nD) : W8 m ρ c (Proc.devRef .tc main_arg25) = m ((c : Thread nD τ).loc main_arg25) :=
  (W8_of_ne m ρ c main_arg25 (by decide)).trans <|
  (W7_of m ρ c main_arg25 (by decide)).trans <|
  (W6_of_ne m ρ c main_arg25 (by decide)).trans <|
  (W5_of m ρ c main_arg25 (by decide)).trans <|
  (W4_of_ne m ρ c main_arg25 (by decide)).trans <|
  (W3_of m ρ c main_arg25 (by decide)).trans <|
  (W2_of_ne m ρ c main_arg25 (by decide)).trans <|
  (W1_of m ρ c main_arg25 (by decide)).trans <| rfl
theorem W8_main_arg26 (c : Dev nD) : W8 m ρ c (Proc.devRef .tc main_arg26) = m ((c : Thread nD τ).loc main_arg26) :=
  (W8_of_ne m ρ c main_arg26 (by decide)).trans <|
  (W7_of m ρ c main_arg26 (by decide)).trans <|
  (W6_of_ne m ρ c main_arg26 (by decide)).trans <|
  (W5_of m ρ c main_arg26 (by decide)).trans <|
  (W4_of_ne m ρ c main_arg26 (by decide)).trans <|
  (W3_of m ρ c main_arg26 (by decide)).trans <|
  (W2_of_ne m ρ c main_arg26 (by decide)).trans <|
  (W1_of m ρ c main_arg26 (by decide)).trans <| rfl
theorem W10_main_arg2 (c : Dev nD) : W10 m ρ c (Proc.devRef .tc main_arg2) = m ((c : Thread nD τ).loc main_arg2) :=
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl
theorem W10_main_arg4 (c : Dev nD) : W10 m ρ c (Proc.devRef .tc main_arg4) = m ((c : Thread nD τ).loc main_arg4) :=
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl
theorem W10_main_arg27 (c : Dev nD) : W10 m ρ c (Proc.devRef .tc main_arg27) = m ((c : Thread nD τ).loc main_arg27) :=
  (W10_of_ne m ρ c main_arg27 (by decide)).trans <|
  (W9_of m ρ c main_arg27 (by decide)).trans <|
  (W8_of_ne m ρ c main_arg27 (by decide)).trans <|
  (W7_of m ρ c main_arg27 (by decide)).trans <|
  (W6_of_ne m ρ c main_arg27 (by decide)).trans <|
  (W5_of m ρ c main_arg27 (by decide)).trans <|
  (W4_of_ne m ρ c main_arg27 (by decide)).trans <|
  (W3_of m ρ c main_arg27 (by decide)).trans <|
  (W2_of_ne m ρ c main_arg27 (by decide)).trans <|
  (W1_of m ρ c main_arg27 (by decide)).trans <| rfl
theorem W10_main_arg28 (c : Dev nD) : W10 m ρ c (Proc.devRef .tc main_arg28) = m ((c : Thread nD τ).loc main_arg28) :=
  (W10_of_ne m ρ c main_arg28 (by decide)).trans <|
  (W9_of m ρ c main_arg28 (by decide)).trans <|
  (W8_of_ne m ρ c main_arg28 (by decide)).trans <|
  (W7_of m ρ c main_arg28 (by decide)).trans <|
  (W6_of_ne m ρ c main_arg28 (by decide)).trans <|
  (W5_of m ρ c main_arg28 (by decide)).trans <|
  (W4_of_ne m ρ c main_arg28 (by decide)).trans <|
  (W3_of m ρ c main_arg28 (by decide)).trans <|
  (W2_of_ne m ρ c main_arg28 (by decide)).trans <|
  (W1_of m ρ c main_arg28 (by decide)).trans <| rfl
theorem W10_main_arg29 (c : Dev nD) : W10 m ρ c (Proc.devRef .tc main_arg29) = m ((c : Thread nD τ).loc main_arg29) :=
  (W10_of_ne m ρ c main_arg29 (by decide)).trans <|
  (W9_of m ρ c main_arg29 (by decide)).trans <|
  (W8_of_ne m ρ c main_arg29 (by decide)).trans <|
  (W7_of m ρ c main_arg29 (by decide)).trans <|
  (W6_of_ne m ρ c main_arg29 (by decide)).trans <|
  (W5_of m ρ c main_arg29 (by decide)).trans <|
  (W4_of_ne m ρ c main_arg29 (by decide)).trans <|
  (W3_of m ρ c main_arg29 (by decide)).trans <|
  (W2_of_ne m ρ c main_arg29 (by decide)).trans <|
  (W1_of m ρ c main_arg29 (by decide)).trans <| rfl
theorem W10_main_arg30 (c : Dev nD) : W10 m ρ c (Proc.devRef .tc main_arg30) = m ((c : Thread nD τ).loc main_arg30) :=
  (W10_of_ne m ρ c main_arg30 (by decide)).trans <|
  (W9_of m ρ c main_arg30 (by decide)).trans <|
  (W8_of_ne m ρ c main_arg30 (by decide)).trans <|
  (W7_of m ρ c main_arg30 (by decide)).trans <|
  (W6_of_ne m ρ c main_arg30 (by decide)).trans <|
  (W5_of m ρ c main_arg30 (by decide)).trans <|
  (W4_of_ne m ρ c main_arg30 (by decide)).trans <|
  (W3_of m ρ c main_arg30 (by decide)).trans <|
  (W2_of_ne m ρ c main_arg30 (by decide)).trans <|
  (W1_of m ρ c main_arg30 (by decide)).trans <| rfl
theorem W11_main_arg31 (c : Dev nD) : W11 m ρ c (Proc.devRef .tc main_arg31) = m ((c : Thread nD τ).loc main_arg31) :=
  (W11_of m ρ c main_arg31 (by decide)).trans <|
  (W10_of_ne m ρ c main_arg31 (by decide)).trans <|
  (W9_of m ρ c main_arg31 (by decide)).trans <|
  (W8_of_ne m ρ c main_arg31 (by decide)).trans <|
  (W7_of m ρ c main_arg31 (by decide)).trans <|
  (W6_of_ne m ρ c main_arg31 (by decide)).trans <|
  (W5_of m ρ c main_arg31 (by decide)).trans <|
  (W4_of_ne m ρ c main_arg31 (by decide)).trans <|
  (W3_of m ρ c main_arg31 (by decide)).trans <|
  (W2_of_ne m ρ c main_arg31 (by decide)).trans <|
  (W1_of m ρ c main_arg31 (by decide)).trans <| rfl
theorem W11_main_arg32 (c : Dev nD) : W11 m ρ c (Proc.devRef .tc main_arg32) = m ((c : Thread nD τ).loc main_arg32) :=
  (W11_of m ρ c main_arg32 (by decide)).trans <|
  (W10_of_ne m ρ c main_arg32 (by decide)).trans <|
  (W9_of m ρ c main_arg32 (by decide)).trans <|
  (W8_of_ne m ρ c main_arg32 (by decide)).trans <|
  (W7_of m ρ c main_arg32 (by decide)).trans <|
  (W6_of_ne m ρ c main_arg32 (by decide)).trans <|
  (W5_of m ρ c main_arg32 (by decide)).trans <|
  (W4_of_ne m ρ c main_arg32 (by decide)).trans <|
  (W3_of m ρ c main_arg32 (by decide)).trans <|
  (W2_of_ne m ρ c main_arg32 (by decide)).trans <|
  (W1_of m ρ c main_arg32 (by decide)).trans <| rfl
theorem W12_main_arg36 (c : Dev nD) : W12 m ρ c (Proc.devRef .tc main_arg36) = m ((c : Thread nD τ).loc main_arg36) :=
  (W12_of_ne m ρ c main_arg36 (by decide)).trans <|
  (W11_of m ρ c main_arg36 (by decide)).trans <|
  (W10_of_ne m ρ c main_arg36 (by decide)).trans <|
  (W9_of m ρ c main_arg36 (by decide)).trans <|
  (W8_of_ne m ρ c main_arg36 (by decide)).trans <|
  (W7_of m ρ c main_arg36 (by decide)).trans <|
  (W6_of_ne m ρ c main_arg36 (by decide)).trans <|
  (W5_of m ρ c main_arg36 (by decide)).trans <|
  (W4_of_ne m ρ c main_arg36 (by decide)).trans <|
  (W3_of m ρ c main_arg36 (by decide)).trans <|
  (W2_of_ne m ρ c main_arg36 (by decide)).trans <|
  (W1_of m ρ c main_arg36 (by decide)).trans <| rfl
theorem W13_main_arg35 (c : Dev nD) : W13 m ρ c (Proc.devRef .tc main_arg35) = m ((c : Thread nD τ).loc main_arg35) :=
  (W13_of m ρ c main_arg35 (by decide)).trans <|
  (W12_of_ne m ρ c main_arg35 (by decide)).trans <|
  (W11_of m ρ c main_arg35 (by decide)).trans <|
  (W10_of_ne m ρ c main_arg35 (by decide)).trans <|
  (W9_of m ρ c main_arg35 (by decide)).trans <|
  (W8_of_ne m ρ c main_arg35 (by decide)).trans <|
  (W7_of m ρ c main_arg35 (by decide)).trans <|
  (W6_of_ne m ρ c main_arg35 (by decide)).trans <|
  (W5_of m ρ c main_arg35 (by decide)).trans <|
  (W4_of_ne m ρ c main_arg35 (by decide)).trans <|
  (W3_of m ρ c main_arg35 (by decide)).trans <|
  (W2_of_ne m ρ c main_arg35 (by decide)).trans <|
  (W1_of m ρ c main_arg35 (by decide)).trans <| rfl

end Cert.KernelIdeal.Hand

end
-- ==== Proof.AsmS1.lean ====
/-
  The two equations, stage by stage. From launch memories that agree on the arguments: the features with the
  positional encoding agree; then each layer's output, because both sides' layer values are the reference's layer term
  of equal operands; then the two results, by the last stage's two comparisons.
-/

import proofs.«106078_j59889023976011_1_alg».proof.Proof.AsmB
import proofs.«106078_j59889023976011_1_alg».proof.Proof.AsmC
import proofs.«106078_j59889023976011_1_alg».proof.Proof.AsmD
import proofs.«106078_j59889023976011_1_alg».proof.Proof.Bridge1b
import proofs.«106078_j59889023976011_1_alg».proof.Proof.RefLayer1
import proofs.«106078_j59889023976011_1_alg».proof.Proof.KI.Args
import proofs.«106078_j59889023976011_1_alg».proof.Proof.KI.Layer1

import proofs.«106078_j59889023976011_1_alg».proof.Proof.AlgDefs

set_option maxRecDepth 16384

noncomputable section

open Idealize.ShloMosaic Idealize.ShloMosaic.TcCoe Idealize.SL.Sem Idealize.ShloMosaic.StableHlo

namespace Cert.Proof.Stages

open Cert.KernelIdeal.Hand Cert.ReferenceIdeal.Hand Cert.Proof.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- Stage 1: the layer's output buffers agree. -/
theorem stage1 (hag : Cert.Proof.Alg.Agree m m') (c : Dev Cert.KernelIdeal.nD) : (after cL1 (after (cX (F := Ideal)) (U0 m' c))) (Proc.devRef .tc Cert.ReferenceIdeal.main_v100) = W4 (F := Ideal) m ρ c (Proc.devRef .tc Cert.KernelIdeal.main_v76) := by
  obtain ⟨a0, a1, a2, a3, a4, a5, a6, a7, a8, a9, a10, a11, a12, a13, a14, a15, a16, a17, a18, a19, a20, a21, a22, a23, a24, a25, a26, a27, a28, a29, a30, a31, a32, a33, a34, a35, a36⟩ := hag c
  rw [after_cL1, stageX m ρ m' hag c, keep0 m' c Cert.ReferenceIdeal.main_arg1 (by decide), keep0 m' c Cert.ReferenceIdeal.main_arg2 (by decide), keep0 m' c Cert.ReferenceIdeal.main_arg3 (by decide), keep0 m' c Cert.ReferenceIdeal.main_arg4 (by decide), keep0 m' c Cert.ReferenceIdeal.main_arg6 (by decide), keep0 m' c Cert.ReferenceIdeal.main_arg7 (by decide), keep0 m' c Cert.ReferenceIdeal.main_arg8 (by decide), keep0 m' c Cert.ReferenceIdeal.main_arg9 (by decide), keep0 m' c Cert.ReferenceIdeal.main_arg10 (by decide), keep0 m' c Cert.ReferenceIdeal.main_arg11 (by decide), keep0 m' c Cert.ReferenceIdeal.main_arg12 (by decide), keep0 m' c Cert.ReferenceIdeal.main_arg13 (by decide), keep0 m' c Cert.ReferenceIdeal.main_arg14 (by decide), keep0 m' c Cert.ReferenceIdeal.main_arg33 (by decide), keep0 m' c Cert.ReferenceIdeal.main_arg34 (by decide)]
  rw [a1, a2, a3, a4, a6, a7, a8, a9, a10, a11, a12, a13, a14, a33, a34]
  rw [W4_main_v76, W3_main_v31, W3_main_v44, W3_main_v57, W3_main_v70, W3_main_v71, W3_main_v72, W3_main_v73, W3_main_v74, W3_main_v18, W3_main_v75, W3_main_arg13, W3_main_arg14, W2_main_v14,
    W2_of_ne m ρ c Cert.KernelIdeal.main_v6 (by decide), W2_of_ne m ρ c Cert.KernelIdeal.main_v8 (by decide), W2_of_ne m ρ c Cert.KernelIdeal.main_v10 (by decide), W2_of_ne m ρ c Cert.KernelIdeal.main_v12 (by decide),
    W1_main_v6, W1_main_v8, W1_main_v10, W1_main_v12, W1_main_v13,
    W2_main_arg2, W2_main_arg4, W2_main_arg9, W2_main_arg10, W2_main_arg11, W2_main_arg12, W2_main_arg34]
  exact (layer1_bridge _ _ _ _ _ _ _ _ _ _ _ _ _ _ _ _ ).symm

end Cert.Proof.Stages

end
-- ==== Proof.KI.Val2.lean ====
/-
  What region 2 leaves in its result array, and what that is at the ideal values.

  Block by block: at grid point t the pipeline writes back, into rows 5000 t to 5000 t + 4999 of the result, the
  product of rows 5000 t to 5000 t + 4999 of the left operand with the whole right operand (the body's one store,
  read back through the whole staging buffer). As one array: entry (r, j) of the result is entry (r mod 5000, j) of
  the product of row block r / 5000 of the left operand with the right operand; the ten row blocks tile the 50000
  rows, so every entry is covered.

  At the ideal values rounding to bf16 changes nothing and the accumulator is zero, so entry (r, j) is the sum over
  the 128 contracted entries of X (r, c) * W (c, j). When W is 3 matrices of 128 columns laid side by side, column
  block s of the result is therefore the product of X with matrix s: the same sums.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Region2
import Idealize.ShloMosaic.Lib.Pipeline.Value
import Idealize.ShloMosaic.Lib.ValueIdx
import Idealize.ShloMosaic.Lib.StackMember
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StackMember

section Val2

variable (V : (c : Dev nD) → (b : Ref sig .tc) → Buf (Elt F) ((c : Thread nD τ).loc b))

theorem hz2 : (![0, 0] : Fin 2 → Nat) = fun _ => 0 := funext fun a => by fin_cases a <;> rfl

/-- What point t writes back: the product of the point's row block with the whole weight matrix. -/
theorem flushed2_2 (c : Dev nD) (t : Fin cfg2.N) :
    (dat2 V c).flushed 2 t = k2_pay1 (iblk2 V c 0 t) (iblk2 V c 1 t) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x384) hz2]
  rfl

/-- Rows 5000 q to 5000 q + 4999 of the left operand. -/
def rows2 (X : S50000x128.Idx → Elt F .f32) (q : Fin 10) : S5000x128.Idx → Elt F .f32 :=
  fun y => X (ix2 (⟨q.val * 5000 + (y 0).val, by have := idx2_lt0 y; have := q.isLt; omega⟩ : Fin 50000) (y 1))

/-- The result array as one function of the two operand arrays. -/
def G2 (X : S50000x128.Idx → Elt F .f32) (Wm : S128x384.Idx → Elt F .f32) : S50000x384.Idx → Elt F .f32 :=
  fun i => k2_pay1 (rows2 X ⟨(i 0).val / 5000, by have := idx2_lt0 i; omega⟩) Wm
    (ix2 (⟨(i 0).val % 5000, Nat.mod_lt _ (by decide)⟩ : Fin 5000) (i 1))

/-- The printed index maps over the grid: the left operand's and the result's row-block index is the point, every
    other block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole-array function at an index of row block q, local index y. -/
theorem G2_at (X : S50000x128.Idx → Elt F .f32) (Wm : S128x384.Idx → Elt F .f32) (q : Fin 10) (y : S5000x384.Idx) (i : S50000x384.Idx)
    (h0 : (i 0).val = q.val * 5000 + (y 0).val) (h1 : (i 1).val = (y 1).val) :
    G2 X Wm i = k2_pay1 (rows2 X q) Wm y := by
  have key : ∀ (q' : Fin 10) (y' : S5000x384.Idx), q' = q → y' = y → k2_pay1 (rows2 X q') Wm y' = k2_pay1 (rows2 X q) Wm y := by
    rintro _ _ rfl rfl; rfl
  have hy := idx2_lt0 y
  unfold G2
  refine key _ _ (Fin.ext ?_) ?_
  · show (i 0).val / 5000 = q.val
    rw [h0]; omega
  · funext a
    match a with
    | ⟨0, _⟩ => exact Fin.ext (by show (i 0).val % 5000 = (y 0).val; rw [h0]; omega)
    | ⟨1, _⟩ => exact Fin.ext h1

/-- What point t writes back is block t of the whole-array function of the two operand arrays as the region finds them. -/
theorem flushed2_2_eq (c : Dev nD) (t : Fin cfg2.N) :
    (dat2 V c).flushed 2 t = ((cfg2.win 2).blk t).view.read (Elt F) (G2 (V c main_v76) (V c main_v77)) := by
  obtain ⟨e0, e1, e2, e3, e4, e5⟩ := idx_facts2 t
  have hN : t.val < 10 := lt_of_lt_of_eq t.isLt N_2
  have hA : iblk2 V c 0 t = rows2 (V c main_v76) ⟨t.val, hN⟩ := by
    funext y
    show V c main_v76 (((cfg2.win 0).blk t).view.emb y) = V c main_v76 (ix2 _ (y 1))
    refine congrArg (V c main_v76) ?_
    funext a; apply Fin.ext
    match a with
    | ⟨0, _⟩ => show win2_0.index t (0 : Fin 2) * 5000 + 1 * (y 0).val = t.val * 5000 + (y 0).val; rw [e0]; omega
    | ⟨1, _⟩ => show win2_0.index t (1 : Fin 2) * 128 + 1 * (y 1).val = (y 1).val; rw [e1]; omega
  have hB : iblk2 V c 1 t = V c main_v77 := by
    funext y
    show V c main_v77 (((cfg2.win 1).blk t).view.emb y) = V c main_v77 y
    refine congrArg (V c main_v77) ?_
    funext a; apply Fin.ext
    match a with
    | ⟨0, _⟩ => show win2_1.index t (0 : Fin 2) * 128 + 1 * (y 0).val = (y 0).val; rw [e2]; omega
    | ⟨1, _⟩ => show win2_1.index t (1 : Fin 2) * 384 + 1 * (y 1).val = (y 1).val; rw [e3]; omega
  rw [flushed2_2, hA, hB]
  funext j
  show k2_pay1 (rows2 (V c main_v76) ⟨t.val, hN⟩) (V c main_v77) j = G2 (V c main_v76) (V c main_v77) (((cfg2.win 2).blk t).view.emb j)
  refine (G2_at (V c main_v76) (V c main_v77) ⟨t.val, hN⟩ j _ ?_ ?_).symm
  · show win2_2.index t (0 : Fin 2) * 5000 + 1 * (j 0).val = t.val * 5000 + (j 0).val; rw [e4]; omega
  · show win2_2.index t (1 : Fin 2) * 384 + 1 * (j 1).val = (j 1).val; rw [e5]; omega

/-- An index of the result array is in point t's block iff each coordinate is in the block's range on its axis. -/
theorem mem_blk2 (t : Fin cfg2.N) (i : S50000x384.Idx) :
    i ∈ ((cfg2.win 2).blk t).view.set ↔ ∀ a : Fin 2, win2_2.index t a * S5000x384.size a ≤ (i a).val ∧ (i a).val < win2_2.index t a * S5000x384.size a + S5000x384.size a := by
  show i ∈ ((View.whole main_v78).slice (win2_2.rect t)).set ↔ _
  rw [View.set_slice_whole, Rect.mem_set_unit]
  exact Iff.rfl

/-- Every entry of the result array lies in the block of the point its row falls under. -/
theorem cover2 (i : S50000x384.Idx) : ∃ t : Fin cfg2.N, (cfg2.win 2).flush t = true ∧ i ∈ ((cfg2.win 2).blk t).view.set := by
  have hi0 := idx2_lt0 i
  have hi1 := idx2_lt1 i
  have hlt : (i 0).val / 5000 < cfg2.N := lt_of_lt_of_eq (by omega : (i 0).val / 5000 < 10) N_2.symm
  refine ⟨⟨(i 0).val / 5000, hlt⟩, flush2_2 _, ?_⟩
  rw [mem_blk2]
  obtain ⟨-, -, -, -, e4, e5⟩ := idx_facts2 ⟨(i 0).val / 5000, hlt⟩
  have e4' : win2_2.index ⟨(i 0).val / 5000, hlt⟩ (0 : Fin 2) = (i 0).val / 5000 := e4
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4']; omega
  | ⟨1, _⟩ =>
    show win2_2.index ⟨(i 0).val / 5000, hlt⟩ (1 : Fin 2) * 384 ≤ (i 1).val ∧ (i 1).val < win2_2.index ⟨(i 0).val / 5000, hlt⟩ (1 : Fin 2) * 384 + 384
    rw [e5]; omega

/-- The result array after the region: the whole-array function of the two operand arrays as the region finds them. -/
theorem final2 (c : Dev nD) : (dat2 V c).arrAt 2 cfg2.N = G2 (V c main_v76) (V c main_v77) :=
  (dat2 V c).arrAt_eq_of_cover 2 _ (fun t _ => flushed2_2_eq V c t) cover2

end Val2

/-! ## At the ideal values -/

/-- The body's product of two blocks is the plain matrix product: rounding to bf16 and the casts between equal shapes
    change nothing, and the accumulator is zero. -/
theorem k2_pay1_apply (x0 : FVec Ideal S5000x128 .f32) (w : FVec Ideal S128x384 .f32) (a : Fin 5000) (b : Fin 384) :
    k2_pay1 (F := Ideal) x0 w (ix2 a b) = ∑ c : Fin 128, x0 (ix2 a c) * w (ix2 c b) := by
  have h := dotGeneral_plain_apply (m := 5000) (n := 384) (k := 128) (φ₁ := .f32) (φ₂ := .f32) none x0 w a b
  rw [← h]
  unfold k2_pay1
  simp only [shapeCast_self]
  show FloatOps.matmul (F := Ideal) (DotDims.plain 5000 128 384) none x0 w (constant (F := Ideal) S5000x384 .f32 0x00000000#32) (ix2 a b)
    = FloatOps.dotGeneral (F := Ideal) (DotDims.plain 5000 128 384) none _ x0 w (ix2 a b)
  rw [Ideal.matmul_constant_zero_apply, Ideal.dotGeneral_apply]

/-- Entry (r, j) of the region's result array is the sum over the contracted axis: row r lies in row block r / 5000. -/
theorem G2_apply (X : FVec Ideal S50000x128 .f32) (Wm : FVec Ideal S128x384 .f32) (r : Fin 50000) (j : Fin 384) :
    G2 (F := Ideal) X Wm (ix2 r j) = ∑ c : Fin 128, X (ix2 r c) * Wm (ix2 c j) := by
  have hr := r.isLt
  rw [G2_at (F := Ideal) X Wm ⟨r.val / 5000, by omega⟩ (ix2 (⟨r.val % 5000, Nat.mod_lt _ (by decide)⟩ : Fin 5000) j) (ix2 r j)
    (by show r.val = r.val / 5000 * 5000 + r.val % 5000; omega) rfl]
  rw [k2_pay1_apply]
  refine Finset.sum_congr rfl fun c _ => ?_
  congr 1
  unfold rows2
  refine congrArg X ?_
  funext a
  match a with
  | ⟨0, _⟩ => exact Fin.ext (by show r.val / 5000 * 5000 + r.val % 5000 = r.val; omega)
  | ⟨1, _⟩ => rfl

/-- Column block 0 of the product with the weight matrices laid side by side is the product with matrix 1. -/
theorem slice2_0_eq (X : FVec Ideal S50000x128 .f32) (W1 W2 W3 : FVec Ideal S128x128 .f32) :
    extractStridedSlice S50000x128 ![0, 0] (G2 (F := Ideal) X (concatenate S128x384 1 [⟨S128x128, W1⟩, ⟨S128x128, W2⟩, ⟨S128x128, W3⟩] concatenates_S128x128_S128x128_S128x128_S128x384_d1)) slices_S50000x384_S50000x128_0_0
      = Host.dotGeneral (F := Ideal) (DotDims.plain 50000 128 128) none X W1 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨0 + j.val, by omega⟩ : Fin 384))
    (by intro a; match a with
        | ⟨0, _⟩ => show r.val = 0 + r.val; omega
        | ⟨1, _⟩ => show 0 + j.val = 0 + j.val; rfl)]
  rw [G2_apply, dotGeneral_plain_apply]
  refine Finset.sum_congr rfl fun c _ => ?_
  congr 1
  exact concatenate_apply_piece (t := S128x384) (1 : Fin 2) [⟨S128x128, W1⟩, ⟨S128x128, W2⟩, ⟨S128x128, W3⟩] concatenates_S128x128_S128x128_S128x128_S128x384_d1 (ix2 c (⟨0 + j.val, by omega⟩ : Fin 384)) 0 (by simp) S128x128 W1 rfl rfl 0 rfl (ix2 c j)
    (by intro b hb; match b with
        | ⟨0, _⟩ => rfl
        | ⟨1, _⟩ => exact absurd rfl hb)
    (by show 0 + j.val = 0 + j.val; rfl)

/-- Column block 1 of the product with the weight matrices laid side by side is the product with matrix 2. -/
theorem slice2_1_eq (X : FVec Ideal S50000x128 .f32) (W1 W2 W3 : FVec Ideal S128x128 .f32) :
    extractStridedSlice S50000x128 ![0, 128] (G2 (F := Ideal) X (concatenate S128x384 1 [⟨S128x128, W1⟩, ⟨S128x128, W2⟩, ⟨S128x128, W3⟩] concatenates_S128x128_S128x128_S128x128_S128x384_d1)) slices_S50000x384_S50000x128_0_128
      = Host.dotGeneral (F := Ideal) (DotDims.plain 50000 128 128) none X W2 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨128 + j.val, by omega⟩ : Fin 384))
    (by intro a; match a with
        | ⟨0, _⟩ => show r.val = 0 + r.val; omega
        | ⟨1, _⟩ => show 128 + j.val = 128 + j.val; rfl)]
  rw [G2_apply, dotGeneral_plain_apply]
  refine Finset.sum_congr rfl fun c _ => ?_
  congr 1
  exact concatenate_apply_piece (t := S128x384) (1 : Fin 2) [⟨S128x128, W1⟩, ⟨S128x128, W2⟩, ⟨S128x128, W3⟩] concatenates_S128x128_S128x128_S128x128_S128x384_d1 (ix2 c (⟨128 + j.val, by omega⟩ : Fin 384)) 1 (by simp) S128x128 W2 rfl rfl 128 rfl (ix2 c j)
    (by intro b hb; match b with
        | ⟨0, _⟩ => rfl
        | ⟨1, _⟩ => exact absurd rfl hb)
    (by show 128 + j.val = 128 + j.val; rfl)

/-- Column block 2 of the product with the weight matrices laid side by side is the product with matrix 3. -/
theorem slice2_2_eq (X : FVec Ideal S50000x128 .f32) (W1 W2 W3 : FVec Ideal S128x128 .f32) :
    extractStridedSlice S50000x128 ![0, 256] (G2 (F := Ideal) X (concatenate S128x384 1 [⟨S128x128, W1⟩, ⟨S128x128, W2⟩, ⟨S128x128, W3⟩] concatenates_S128x128_S128x128_S128x128_S128x384_d1)) slices_S50000x384_S50000x128_0_256
      = Host.dotGeneral (F := Ideal) (DotDims.plain 50000 128 128) none X W3 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨256 + j.val, by omega⟩ : Fin 384))
    (by intro a; match a with
        | ⟨0, _⟩ => show r.val = 0 + r.val; omega
        | ⟨1, _⟩ => show 256 + j.val = 256 + j.val; rfl)]
  rw [G2_apply, dotGeneral_plain_apply]
  refine Finset.sum_congr rfl fun c _ => ?_
  congr 1
  exact concatenate_apply_piece (t := S128x384) (1 : Fin 2) [⟨S128x128, W1⟩, ⟨S128x128, W2⟩, ⟨S128x128, W3⟩] concatenates_S128x128_S128x128_S128x128_S128x384_d1 (ix2 c (⟨256 + j.val, by omega⟩ : Fin 384)) 2 (by simp) S128x128 W3 rfl rfl 256 rfl (ix2 c j)
    (by intro b hb; match b with
        | ⟨0, _⟩ => rfl
        | ⟨1, _⟩ => exact absurd rfl hb)
    (by show 256 + j.val = 256 + j.val; rfl)

end Cert.KernelIdeal.Hand

end
-- ==== Proof.KI.Val3.lean ====
/-
  What region 3 (a layer's combine) leaves in its result array.

  Block by block: at grid point t the pipeline writes back, into rows 5000 t to 5000 t + 4999 of the result, the
  body's combination of rows 5000 t to 5000 t + 4999 of the four propagated sums, of the two coefficient columns and
  of the residual, with the five bias rows whole. As one array: entry (r, j) of the result is entry (r mod 5000, j) of
  that combination at row block r / 5000; the ten row blocks tile the 50000 rows, so every entry is covered.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Region3
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Val3

variable (V : (c : Dev nD) → (b : Ref sig .tc) → Buf (Elt F) ((c : Thread nD τ).loc b))

theorem hz3 : (![0, 0] : Fin 2 → Nat) = fun _ => 0 := funext fun a => by fin_cases a <;> rfl

/-- What point t writes back: the body's combination of the point's blocks. -/
theorem flushed3_12 (c : Dev nD) (t : Fin cfg3.N) :
    (dat3 V c).flushed 12 t = k3_pay1 (k3_pay2 (iblk3 V c 0 t) (iblk3 V c 4 t) (iblk3 V c 1 t) (iblk3 V c 5 t) (iblk3 V c 2 t) (iblk3 V c 6 t) (iblk3 V c 3 t) (iblk3 V c 7 t) (iblk3 V c 8 t) (iblk3 V c 9 t) (iblk3 V c 10 t)) (iblk3 V c 11 t) := by
  show (cfg3.win 12).cut (grid3.coords t) ((dat3 V c).after 12 t) = _
  rw [after3_12]
  unfold out3_12
  rw [View.canon_unit_zero hz3]
  simp only [View.ld_unit_zero (S := S5000x128) hz3, View.ld_unit_zero (S := S1x128) hz3, View.ld_unit_zero (S := S5000x1) hz3]
  rfl

/-- Rows 5000 q to 5000 q + 4999 of an array of 50000 rows of 128 entries. -/
def rows3a (X : S50000x128.Idx → Elt F .f32) (q : Fin 10) : S5000x128.Idx → Elt F .f32 :=
  fun y => X (ix2 (⟨q.val * 5000 + (y 0).val, by have := idx2_lt0 y; have := q.isLt; omega⟩ : Fin 50000) (y 1))
/-- Rows 5000 q to 5000 q + 4999 of a column of 50000 entries. -/
def rows3c (X : S50000x1.Idx → Elt F .f32) (q : Fin 10) : S5000x1.Idx → Elt F .f32 :=
  fun y => X (ix2 (⟨q.val * 5000 + (y 0).val, by have := idx2_lt0 y; have := q.isLt; omega⟩ : Fin 50000) (y 1))

/-- The result array as one function of the twelve operand arrays. -/
def G3 (x0 : S50000x128.Idx → Elt F .f32) (x1 : S50000x128.Idx → Elt F .f32) (x2 : S50000x128.Idx → Elt F .f32) (x3 : S50000x128.Idx → Elt F .f32) (x4 : S1x128.Idx → Elt F .f32) (x5 : S1x128.Idx → Elt F .f32) (x6 : S1x128.Idx → Elt F .f32) (x7 : S1x128.Idx → Elt F .f32) (x8 : S50000x1.Idx → Elt F .f32) (x9 : S50000x1.Idx → Elt F .f32) (x10 : S50000x128.Idx → Elt F .f32) (x11 : S1x128.Idx → Elt F .f32) : S50000x128.Idx → Elt F .f32 :=
  fun i => k3_pay1 (k3_pay2 (rows3a x0 ⟨(i 0).val / 5000, by have := idx2_lt0 i; omega⟩) x4 (rows3a x1 ⟨(i 0).val / 5000, by have := idx2_lt0 i; omega⟩) x5 (rows3a x2 ⟨(i 0).val / 5000, by have := idx2_lt0 i; omega⟩) x6 (rows3a x3 ⟨(i 0).val / 5000, by have := idx2_lt0 i; omega⟩) x7 (rows3c x8 ⟨(i 0).val / 5000, by have := idx2_lt0 i; omega⟩) (rows3c x9 ⟨(i 0).val / 5000, by have := idx2_lt0 i; omega⟩) (rows3a x10 ⟨(i 0).val / 5000, by have := idx2_lt0 i; omega⟩)) x11 (ix2 (⟨(i 0).val % 5000, Nat.mod_lt _ (by decide)⟩ : Fin 5000) (i 1))

/-- The printed index maps over the grid: a row-blocked window's row-block index is the point, every other block
    index is zero. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0
    ∧ win3_10.index t (0 : Fin 2) = t.val ∧ win3_10.index t (1 : Fin 2) = 0
    ∧ win3_11.index t (0 : Fin 2) = 0 ∧ win3_11.index t (1 : Fin 2) = 0
    ∧ win3_12.index t (0 : Fin 2) = t.val ∧ win3_12.index t (1 : Fin 2) = 0 :=
  (by decide +kernel : ∀ t : Fin grid3.N, _)

/-- The whole-array function at an index of row block q, local index y. -/
theorem G3_at (x0 : S50000x128.Idx → Elt F .f32) (x1 : S50000x128.Idx → Elt F .f32) (x2 : S50000x128.Idx → Elt F .f32) (x3 : S50000x128.Idx → Elt F .f32) (x4 : S1x128.Idx → Elt F .f32) (x5 : S1x128.Idx → Elt F .f32) (x6 : S1x128.Idx → Elt F .f32) (x7 : S1x128.Idx → Elt F .f32) (x8 : S50000x1.Idx → Elt F .f32) (x9 : S50000x1.Idx → Elt F .f32) (x10 : S50000x128.Idx → Elt F .f32) (x11 : S1x128.Idx → Elt F .f32) (q : Fin 10) (y : S5000x128.Idx) (i : S50000x128.Idx)
    (h0 : (i 0).val = q.val * 5000 + (y 0).val) (h1 : (i 1).val = (y 1).val) :
    G3 x0 x1 x2 x3 x4 x5 x6 x7 x8 x9 x10 x11 i = k3_pay1 (k3_pay2 (rows3a x0 q) x4 (rows3a x1 q) x5 (rows3a x2 q) x6 (rows3a x3 q) x7 (rows3c x8 q) (rows3c x9 q) (rows3a x10 q)) x11 y := by
  have key : ∀ (q' : Fin 10) (y' : S5000x128.Idx), q' = q → y' = y → k3_pay1 (k3_pay2 (rows3a x0 q') x4 (rows3a x1 q') x5 (rows3a x2 q') x6 (rows3a x3 q') x7 (rows3c x8 q') (rows3c x9 q') (rows3a x10 q')) x11 y' = k3_pay1 (k3_pay2 (rows3a x0 q) x4 (rows3a x1 q) x5 (rows3a x2 q) x6 (rows3a x3 q) x7 (rows3c x8 q) (rows3c x9 q) (rows3a x10 q)) x11 y := by
    rintro _ _ rfl rfl; rfl
  have hy := idx2_lt0 y
  unfold G3
  refine key _ _ (Fin.ext ?_) ?_
  · show (i 0).val / 5000 = q.val
    rw [h0]; omega
  · funext a
    match a with
    | ⟨0, _⟩ => exact Fin.ext (by show (i 0).val % 5000 = (y 0).val; rw [h0]; omega)
    | ⟨1, _⟩ => exact Fin.ext h1

set_option maxHeartbeats 4000000 in
/-- What point t writes back is block t of the whole-array function of the operand arrays as the region finds them. -/
theorem flushed3_12_eq (c : Dev nD) (t : Fin cfg3.N) :
    (dat3 V c).flushed 12 t = ((cfg3.win 12).blk t).view.read (Elt F) (G3 (V c main_v94) (V c main_v107) (V c main_v120) (V c main_v133) (V c main_v135) (V c main_v136) (V c main_v137) (V c main_v138) (V c main_arg22) (V c main_arg23) (V c main_v76) (V c main_v139)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts3 t
  have hN : t.val < 10 := lt_of_lt_of_eq t.isLt N_3
  have h0 : iblk3 V c 0 t = rows3a (V c main_v94) ⟨t.val, hN⟩ := by
    funext y
    show V c main_v94 (((cfg3.win 0).blk t).view.emb y) = V c main_v94 (ix2 _ (y 1))
    refine congrArg (V c main_v94) ?_
    funext a; apply Fin.ext
    match a with
    | ⟨0, _⟩ => show win3_0.index t (0 : Fin 2) * 5000 + 1 * (y 0).val = t.val * 5000 + (y 0).val; rw [e0_0]; omega
    | ⟨1, _⟩ => show win3_0.index t (1 : Fin 2) * 128 + 1 * (y 1).val = (y 1).val; rw [e0_1]; omega
  have h1 : iblk3 V c 1 t = rows3a (V c main_v107) ⟨t.val, hN⟩ := by
    funext y
    show V c main_v107 (((cfg3.win 1).blk t).view.emb y) = V c main_v107 (ix2 _ (y 1))
    refine congrArg (V c main_v107) ?_
    funext a; apply Fin.ext
    match a with
    | ⟨0, _⟩ => show win3_1.index t (0 : Fin 2) * 5000 + 1 * (y 0).val = t.val * 5000 + (y 0).val; rw [e1_0]; omega
    | ⟨1, _⟩ => show win3_1.index t (1 : Fin 2) * 128 + 1 * (y 1).val = (y 1).val; rw [e1_1]; omega
  have h2 : iblk3 V c 2 t = rows3a (V c main_v120) ⟨t.val, hN⟩ := by
    funext y
    show V c main_v120 (((cfg3.win 2).blk t).view.emb y) = V c main_v120 (ix2 _ (y 1))
    refine congrArg (V c main_v120) ?_
    funext a; apply Fin.ext
    match a with
    | ⟨0, _⟩ => show win3_2.index t (0 : Fin 2) * 5000 + 1 * (y 0).val = t.val * 5000 + (y 0).val; rw [e2_0]; omega
    | ⟨1, _⟩ => show win3_2.index t (1 : Fin 2) * 128 + 1 * (y 1).val = (y 1).val; rw [e2_1]; omega
  have h3 : iblk3 V c 3 t = rows3a (V c main_v133) ⟨t.val, hN⟩ := by
    funext y
    show V c main_v133 (((cfg3.win 3).blk t).view.emb y) = V c main_v133 (ix2 _ (y 1))
    refine congrArg (V c main_v133) ?_
    funext a; apply Fin.ext
    match a with
    | ⟨0, _⟩ => show win3_3.index t (0 : Fin 2) * 5000 + 1 * (y 0).val = t.val * 5000 + (y 0).val; rw [e3_0]; omega
    | ⟨1, _⟩ => show win3_3.index t (1 : Fin 2) * 128 + 1 * (y 1).val = (y 1).val; rw [e3_1]; omega
  have h4 : iblk3 V c 4 t = V c main_v135 := by
    funext y
    show V c main_v135 (((cfg3.win 4).blk t).view.emb y) = V c main_v135 y
    refine congrArg (V c main_v135) ?_
    funext a; apply Fin.ext
    match a with
    | ⟨0, _⟩ => show win3_4.index t (0 : Fin 2) * 1 + 1 * (y 0).val = (y 0).val; rw [e4_0]; omega
    | ⟨1, _⟩ => show win3_4.index t (1 : Fin 2) * 128 + 1 * (y 1).val = (y 1).val; rw [e4_1]; omega
  have h5 : iblk3 V c 5 t = V c main_v136 := by
    funext y
    show V c main_v136 (((cfg3.win 5).blk t).view.emb y) = V c main_v136 y
    refine congrArg (V c main_v136) ?_
    funext a; apply Fin.ext
    match a with
    | ⟨0, _⟩ => show win3_5.index t (0 : Fin 2) * 1 + 1 * (y 0).val = (y 0).val; rw [e5_0]; omega
    | ⟨1, _⟩ => show win3_5.index t (1 : Fin 2) * 128 + 1 * (y 1).val = (y 1).val; rw [e5_1]; omega
  have h6 : iblk3 V c 6 t = V c main_v137 := by
    funext y
    show V c main_v137 (((cfg3.win 6).blk t).view.emb y) = V c main_v137 y
    refine congrArg (V c main_v137) ?_
    funext a; apply Fin.ext
    match a with
    | ⟨0, _⟩ => show win3_6.index t (0 : Fin 2) * 1 + 1 * (y 0).val = (y 0).val; rw [e6_0]; omega
    | ⟨1, _⟩ => show win3_6.index t (1 : Fin 2) * 128 + 1 * (y 1).val = (y 1).val; rw [e6_1]; omega
  have h7 : iblk3 V c 7 t = V c main_v138 := by
    funext y
    show V c main_v138 (((cfg3.win 7).blk t).view.emb y) = V c main_v138 y
    refine congrArg (V c main_v138) ?_
    funext a; apply Fin.ext
    match a with
    | ⟨0, _⟩ => show win3_7.index t (0 : Fin 2) * 1 + 1 * (y 0).val = (y 0).val; rw [e7_0]; omega
    | ⟨1, _⟩ => show win3_7.index t (1 : Fin 2) * 128 + 1 * (y 1).val = (y 1).val; rw [e7_1]; omega
  have h8 : iblk3 V c 8 t = rows3c (V c main_arg22) ⟨t.val, hN⟩ := by
    funext y
    show V c main_arg22 (((cfg3.win 8).blk t).view.emb y) = V c main_arg22 (ix2 _ (y 1))
    refine congrArg (V c main_arg22) ?_
    funext a; apply Fin.ext
    match a with
    | ⟨0, _⟩ => show win3_8.index t (0 : Fin 2) * 5000 + 1 * (y 0).val = t.val * 5000 + (y 0).val; rw [e8_0]; omega
    | ⟨1, _⟩ => show win3_8.index t (1 : Fin 2) * 1 + 1 * (y 1).val = (y 1).val; rw [e8_1]; omega
  have h9 : iblk3 V c 9 t = rows3c (V c main_arg23) ⟨t.val, hN⟩ := by
    funext y
    show V c main_arg23 (((cfg3.win 9).blk t).view.emb y) = V c main_arg23 (ix2 _ (y 1))
    refine congrArg (V c main_arg23) ?_
    funext a; apply Fin.ext
    match a with
    | ⟨0, _⟩ => show win3_9.index t (0 : Fin 2) * 5000 + 1 * (y 0).val = t.val * 5000 + (y 0).val; rw [e9_0]; omega
    | ⟨1, _⟩ => show win3_9.index t (1 : Fin 2) * 1 + 1 * (y 1).val = (y 1).val; rw [e9_1]; omega
  have h10 : iblk3 V c 10 t = rows3a (V c main_v76) ⟨t.val, hN⟩ := by
    funext y
    show V c main_v76 (((cfg3.win 10).blk t).view.emb y) = V c main_v76 (ix2 _ (y 1))
    refine congrArg (V c main_v76) ?_
    funext a; apply Fin.ext
    match a with
    | ⟨0, _⟩ => show win3_10.index t (0 : Fin 2) * 5000 + 1 * (y 0).val = t.val * 5000 + (y 0).val; rw [e10_0]; omega
    | ⟨1, _⟩ => show win3_10.index t (1 : Fin 2) * 128 + 1 * (y 1).val = (y 1).val; rw [e10_1]; omega
  have h11 : iblk3 V c 11 t = V c main_v139 := by
    funext y
    show V c main_v139 (((cfg3.win 11).blk t).view.emb y) = V c main_v139 y
    refine congrArg (V c main_v139) ?_
    funext a; apply Fin.ext
    match a with
    | ⟨0, _⟩ => show win3_11.index t (0 : Fin 2) * 1 + 1 * (y 0).val = (y 0).val; rw [e11_0]; omega
    | ⟨1, _⟩ => show win3_11.index t (1 : Fin 2) * 128 + 1 * (y 1).val = (y 1).val; rw [e11_1]; omega
  rw [flushed3_12, h0, h1, h2, h3, h4, h5, h6, h7, h8, h9, h10, h11]
  funext j
  show _ = G3 (V c main_v94) (V c main_v107) (V c main_v120) (V c main_v133) (V c main_v135) (V c main_v136) (V c main_v137) (V c main_v138) (V c main_arg22) (V c main_arg23) (V c main_v76) (V c main_v139) (((cfg3.win 12).blk t).view.emb j)
  refine (G3_at (V c main_v94) (V c main_v107) (V c main_v120) (V c main_v133) (V c main_v135) (V c main_v136) (V c main_v137) (V c main_v138) (V c main_arg22) (V c main_arg23) (V c main_v76) (V c main_v139) ⟨t.val, hN⟩ j _ ?_ ?_).symm
  · show win3_12.index t (0 : Fin 2) * 5000 + 1 * (j 0).val = t.val * 5000 + (j 0).val; rw [e12_0]; omega
  · show win3_12.index t (1 : Fin 2) * 128 + 1 * (j 1).val = (j 1).val; rw [e12_1]; omega

/-- An index of the result array is in point t's block iff each coordinate is in the block's range on its axis. -/
theorem mem_blk3 (t : Fin cfg3.N) (i : S50000x128.Idx) :
    i ∈ ((cfg3.win 12).blk t).view.set ↔ ∀ a : Fin 2, win3_12.index t a * S5000x128.size a ≤ (i a).val ∧ (i a).val < win3_12.index t a * S5000x128.size a + S5000x128.size a := by
  show i ∈ ((View.whole main_v140).slice (win3_12.rect t)).set ↔ _
  rw [View.set_slice_whole, Rect.mem_set_unit]
  exact Iff.rfl

/-- Every entry of the result array lies in the block of the point its row falls under. -/
theorem cover3 (i : S50000x128.Idx) : ∃ t : Fin cfg3.N, (cfg3.win 12).flush t = true ∧ i ∈ ((cfg3.win 12).blk t).view.set := by
  have hi0 := idx2_lt0 i
  have hi1 := idx2_lt1 i
  have hlt : (i 0).val / 5000 < cfg3.N := lt_of_lt_of_eq (by omega : (i 0).val / 5000 < 10) N_3.symm
  refine ⟨⟨(i 0).val / 5000, hlt⟩, flush3_12 _, ?_⟩
  rw [mem_blk3]
  have hf := idx_facts3 ⟨(i 0).val / 5000, hlt⟩
  have e0 : win3_12.index ⟨(i 0).val / 5000, hlt⟩ (0 : Fin 2) = (i 0).val / 5000 := hf.2.2.2.2.2.2.2.2.2.2.2.2.2.2.2.2.2.2.2.2.2.2.2.2.1
  have e1 : win3_12.index ⟨(i 0).val / 5000, hlt⟩ (1 : Fin 2) = 0 := hf.2.2.2.2.2.2.2.2.2.2.2.2.2.2.2.2.2.2.2.2.2.2.2.2.2
  intro a
  match a with
  | ⟨0, _⟩ =>
    show win3_12.index ⟨(i 0).val / 5000, hlt⟩ (0 : Fin 2) * 5000 ≤ (i 0).val ∧ (i 0).val < win3_12.index ⟨(i 0).val / 5000, hlt⟩ (0 : Fin 2) * 5000 + 5000
    rw [e0]; omega
  | ⟨1, _⟩ =>
    show win3_12.index ⟨(i 0).val / 5000, hlt⟩ (1 : Fin 2) * 128 ≤ (i 1).val ∧ (i 1).val < win3_12.index ⟨(i 0).val / 5000, hlt⟩ (1 : Fin 2) * 128 + 128
    rw [e1]; omega

/-- The result array after the region: the whole-array function of the operand arrays as the region finds them. -/
theorem final3 (c : Dev nD) : (dat3 V c).arrAt 12 cfg3.N = G3 (V c main_v94) (V c main_v107) (V c main_v120) (V c main_v133) (V c main_v135) (V c main_v136) (V c main_v137) (V c main_v138) (V c main_arg22) (V c main_arg23) (V c main_v76) (V c main_v139) :=
  (dat3 V c).arrAt_eq_of_cover 12 _ (fun t _ => flushed3_12_eq V c t) cover3

end Val3

/-! ## At the ideal values -/

/-- A [5000, 1] column broadcast to [5000, 128] reads, at (p, c), the column at p. -/
theorem bcast_col3 {α : Type} (v : S5000x1.Idx → α) (h : S5000x1.Broadcasts S5000x128) (p : Fin 5000) (c : Fin 128) :
    broadcastTo S5000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The inner part of the combination at an entry: each propagated sum with its bias row, the two sums of a direction
    added, each direction scaled by its row's coefficient, the two directions and the residual added. -/
theorem k3_pay2_apply (v0 : FVec Ideal S5000x128 .f32) (v2 : FVec Ideal S1x128 .f32) (v6 : FVec Ideal S5000x128 .f32) (v9 : FVec Ideal S1x128 .f32)
    (v13 : FVec Ideal S5000x128 .f32) (v15 : FVec Ideal S1x128 .f32) (v19 : FVec Ideal S5000x128 .f32) (v22 : FVec Ideal S1x128 .f32)
    (v26 v29 : FVec Ideal S5000x1 .f32) (v33 : FVec Ideal S5000x128 .f32) (a : Fin 5000) (b : Fin 128) :
    k3_pay2 (F := Ideal) v0 v2 v6 v9 v13 v15 v19 v22 v26 v29 v33 (ix2 a b)
      = (v26 (ix2 a (0 : Fin 1)) * (((v0 (ix2 a b) + v2 (ix2 (0 : Fin 1) b)) + v6 (ix2 a b)) + v9 (ix2 (0 : Fin 1) b))
          + v29 (ix2 a (0 : Fin 1)) * (((v13 (ix2 a b) + v15 (ix2 (0 : Fin 1) b)) + v19 (ix2 a b)) + v22 (ix2 (0 : Fin 1) b))) + v33 (ix2 a b) := by
  unfold k3_pay2
  simp only [shapeCast_self, addf, mulf, broadcastTo_1b_ab_apply, bcast_col3]
  rfl

/-- The outer part at an entry: the residual's bias row added, the sum clamped below at zero. -/
theorem k3_pay1_apply (v35 : FVec Ideal S5000x128 .f32) (v36 : FVec Ideal S1x128 .f32) (a : Fin 5000) (b : Fin 128) :
    k3_pay1 (F := Ideal) v35 v36 (ix2 a b)
      = max (v35 (ix2 a b) + v36 (ix2 (0 : Fin 1) b)) (broadcast S5000x128 (Scalar.ofBits .f32 0x00000000#32 : Ideal .f32) (ix2 a b)) := by
  unfold k3_pay1
  simp only [shapeCast_self, addf, maximumf, broadcastTo_1b_ab_apply]
  rfl

/-- Row r lies in row block r / 5000, at r mod 5000. -/
theorem rows3a_apply (X : FVec Ideal S50000x128 .f32) (r : Fin 50000) (j : Fin 128) :
    rows3a (F := Ideal) X ⟨r.val / 5000, by have := r.isLt; omega⟩ (ix2 (⟨r.val % 5000, Nat.mod_lt _ (by decide)⟩ : Fin 5000) j) = X (ix2 r j) := by
  unfold rows3a
  refine congrArg X ?_
  funext a
  match a with
  | ⟨0, _⟩ => exact Fin.ext (by show r.val / 5000 * 5000 + r.val % 5000 = r.val; omega)
  | ⟨1, _⟩ => rfl
theorem rows3c_apply (X : FVec Ideal S50000x1 .f32) (r : Fin 50000) (j : Fin 1) :
    rows3c (F := Ideal) X ⟨r.val / 5000, by have := r.isLt; omega⟩ (ix2 (⟨r.val % 5000, Nat.mod_lt _ (by decide)⟩ : Fin 5000) j) = X (ix2 r j) := by
  unfold rows3c
  refine congrArg X ?_
  funext a
  match a with
  | ⟨0, _⟩ => exact Fin.ext (by show r.val / 5000 * 5000 + r.val % 5000 = r.val; omega)
  | ⟨1, _⟩ => rfl

/-- Entry (r, j) of the region's result array, in the operand arrays' entries of row r and column j. -/
theorem G3_apply (x0 x1 x2 x3 : FVec Ideal S50000x128 .f32) (x4 x5 x6 x7 : FVec Ideal S1x128 .f32) (x8 x9 : FVec Ideal S50000x1 .f32)
    (x10 : FVec Ideal S50000x128 .f32) (x11 : FVec Ideal S1x128 .f32) (r : Fin 50000) (j : Fin 128) :
    G3 (F := Ideal) x0 x1 x2 x3 x4 x5 x6 x7 x8 x9 x10 x11 (ix2 r j)
      = max (((x8 (ix2 r (0 : Fin 1)) * (((x0 (ix2 r j) + x4 (ix2 (0 : Fin 1) j)) + x1 (ix2 r j)) + x5 (ix2 (0 : Fin 1) j))
          + x9 (ix2 r (0 : Fin 1)) * (((x2 (ix2 r j) + x6 (ix2 (0 : Fin 1) j)) + x3 (ix2 r j)) + x7 (ix2 (0 : Fin 1) j))) + x10 (ix2 r j)) + x11 (ix2 (0 : Fin 1) j)) (broadcast S5000x128 (Scalar.ofBits .f32 0x00000000#32 : Ideal .f32) (ix2 (⟨r.val % 5000, Nat.mod_lt _ (by decide)⟩ : Fin 5000) j)) := by
  have hr := r.isLt
  rw [G3_at (F := Ideal) x0 x1 x2 x3 x4 x5 x6 x7 x8 x9 x10 x11 ⟨r.val / 5000, by omega⟩ (ix2 (⟨r.val % 5000, Nat.mod_lt _ (by decide)⟩ : Fin 5000) j) (ix2 r j)
    (by show r.val = r.val / 5000 * 5000 + r.val % 5000; omega) rfl]
  rw [k3_pay1_apply, k3_pay2_apply]
  simp only [rows3a_apply, rows3c_apply]

end Cert.KernelIdeal.Hand

end
-- ==== Proof.KI.Layer2.lean ====
/-
  Layer 2 on the kernel side: the layer's output buffer after its combine region, as the combine's whole-array
  function of the four propagated sums (each the edge propagation of a column block of the layer's projection), the
  four bias rows, the two coefficient columns, the residual and its bias row — every operand read back through the
  stretch of host operations between the projection and the combine.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import proofs.«106078_j59889023976011_1_alg».proof.Proof.KI.Prop
import proofs.«106078_j59889023976011_1_alg».proof.Proof.KI.Transport
import proofs.«106078_j59889023976011_1_alg».proof.Proof.KI.Val2
import proofs.«106078_j59889023976011_1_alg».proof.Proof.KI.Val3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-- The projection's output array after its region. -/
theorem W6_main_v78 (c : Dev nD) : W6 m ρ c (Proc.devRef .tc main_v78) = G2 (W5 m ρ c (Proc.devRef .tc main_v76)) (W5 m ρ c (Proc.devRef .tc main_v77)) :=
  (W6_arr m ρ c 2).trans (final2 (V5 m ρ) c)

theorem W7_main_v94 (c : Dev nD) : W7 m ρ c (Proc.devRef .tc main_v94)
    = prop (extractStridedSlice S50000x128 ![0, 0] (W6 m ρ c (Proc.devRef .tc main_v78)) slices_S50000x384_S50000x128_0_0) (W6 m ρ c (Proc.devRef .tc main_v6)) (W6 m ρ c (Proc.devRef .tc main_v8)) (W6 m ρ c (Proc.devRef .tc main_arg2)) := by
  dsimp only [W7, hostOps3]
  after_results_simp
  rfl
theorem W7_main_v107 (c : Dev nD) : W7 m ρ c (Proc.devRef .tc main_v107)
    = prop (extractStridedSlice S50000x128 ![0, 256] (W6 m ρ c (Proc.devRef .tc main_v78)) slices_S50000x384_S50000x128_0_256) (W6 m ρ c (Proc.devRef .tc main_v6)) (W6 m ρ c (Proc.devRef .tc main_v8)) (W6 m ρ c (Proc.devRef .tc main_arg2)) := by
  dsimp only [W7, hostOps3]
  after_results_simp
  rfl
theorem W7_main_v120 (c : Dev nD) : W7 m ρ c (Proc.devRef .tc main_v120)
    = prop (extractStridedSlice S50000x128 ![0, 128] (W6 m ρ c (Proc.devRef .tc main_v78)) slices_S50000x384_S50000x128_0_128) (W6 m ρ c (Proc.devRef .tc main_v10)) (W6 m ρ c (Proc.devRef .tc main_v12)) (W6 m ρ c (Proc.devRef .tc main_arg4)) := by
  dsimp only [W7, hostOps3]
  after_results_simp
  rfl
theorem W7_main_v133 (c : Dev nD) : W7 m ρ c (Proc.devRef .tc main_v133)
    = prop (extractStridedSlice S50000x128 ![0, 256] (W6 m ρ c (Proc.devRef .tc main_v78)) slices_S50000x384_S50000x128_0_256) (W6 m ρ c (Proc.devRef .tc main_v10)) (W6 m ρ c (Proc.devRef .tc main_v12)) (W6 m ρ c (Proc.devRef .tc main_arg4)) := by
  dsimp only [W7, hostOps3]
  after_results_simp
  rfl
theorem W7_main_v135 (c : Dev nD) : W7 m ρ c (Proc.devRef .tc main_v135) = shapeCast S1x128 (W6 m ρ c (Proc.devRef .tc main_arg18)) shapeCasts_S128_S1x128 := by
  dsimp only [W7, hostOps3]
  after_results_simp
  rfl
theorem W7_main_v136 (c : Dev nD) : W7 m ρ c (Proc.devRef .tc main_v136) = shapeCast S1x128 (W6 m ρ c (Proc.devRef .tc main_arg20)) shapeCasts_S128_S1x128 := by
  dsimp only [W7, hostOps3]
  after_results_simp
  rfl
theorem W7_main_v137 (c : Dev nD) : W7 m ρ c (Proc.devRef .tc main_v137) = shapeCast S1x128 (W6 m ρ c (Proc.devRef .tc main_arg19)) shapeCasts_S128_S1x128 := by
  dsimp only [W7, hostOps3]
  after_results_simp
  rfl
theorem W7_main_v138 (c : Dev nD) : W7 m ρ c (Proc.devRef .tc main_v138) = shapeCast S1x128 (W6 m ρ c (Proc.devRef .tc main_arg21)) shapeCasts_S128_S1x128 := by
  dsimp only [W7, hostOps3]
  after_results_simp
  rfl
/-- The residual's bias row in this layer: zeros. -/
theorem W7_main_v139 (c : Dev nD) : W7 m ρ c (Proc.devRef .tc main_v139)
    = shapeCast S1x128 (broadcastInDim S128 ![] bcast_S_S128 (constant S_ .f32 0x00000000#32)) shapeCasts_S128_S1x128 := by
  dsimp only [W7, hostOps3]
  after_results_simp
  rfl

/-- The layer's output array after the combine region. -/
theorem W8_main_v140 (c : Dev nD) : W8 m ρ c (Proc.devRef .tc main_v140)
    = G3 (W7 m ρ c (Proc.devRef .tc main_v94)) (W7 m ρ c (Proc.devRef .tc main_v107)) (W7 m ρ c (Proc.devRef .tc main_v120)) (W7 m ρ c (Proc.devRef .tc main_v133)) (W7 m ρ c (Proc.devRef .tc main_v135)) (W7 m ρ c (Proc.devRef .tc main_v136)) (W7 m ρ c (Proc.devRef .tc main_v137)) (W7 m ρ c (Proc.devRef .tc main_v138))
        (W7 m ρ c (Proc.devRef .tc main_arg22)) (W7 m ρ c (Proc.devRef .tc main_arg23)) (W7 m ρ c (Proc.devRef .tc main_v76)) (W7 m ρ c (Proc.devRef .tc main_v139)) :=
  (W8_arr m ρ c 12).trans (final3 (V7 m ρ) c)

/-- The layer's three weight matrices side by side. -/
theorem W5_main_v77 (c : Dev nD) : W5 m ρ c (Proc.devRef .tc main_v77)
    = concatenate S128x384 1 [⟨S128x128, W4 m ρ c (Proc.devRef .tc main_arg15)⟩, ⟨S128x128, W4 m ρ c (Proc.devRef .tc main_arg16)⟩, ⟨S128x128, W4 m ρ c (Proc.devRef .tc main_arg17)⟩] concatenates_S128x128_S128x128_S128x128_S128x384_d1 := by
  dsimp only [W5, hostOps2]
  after_results
  rfl

/-- What the stretches and regions of this layer leave as it was: the previous layer's output (an input of both
    regions), and any buffer that is no array of a region and no result of a stretch. -/
theorem W7_main_v76_keep (c : Dev nD) : W7 m ρ c (Proc.devRef .tc main_v76) = W4 m ρ c (Proc.devRef .tc main_v76) :=
  (W7_keep m ρ c main_v76 (by decide)).trans <|
  ((W6_arr m ρ c 0).trans (((dat2 (V5 m ρ) c).arrAt_in 0 rfl _).trans (A_eq2 (V5 m ρ) c 0))).trans <|
  (W5_keep m ρ c main_v76 (by decide))
theorem W5_main_v76_keep (c : Dev nD) : W5 m ρ c (Proc.devRef .tc main_v76) = W4 m ρ c (Proc.devRef .tc main_v76) :=
  W5_keep m ρ c main_v76 (by decide)
theorem W6_carry (c : Dev nD) (r : Ref sig .tc) (h1 : ∀ w, Pipeline.arrRef spec2 w ≠ r) (h2 : r ∉ hostOps2_Wx) :
    W6 m ρ c (Proc.devRef .tc r) = W4 m ρ c (Proc.devRef .tc r) :=
  (W6_of_ne m ρ c r h1).trans (W5_keep m ρ c r h2)

end Cert.KernelIdeal.Hand

end
-- ==== Proof.RefLayer2.lean ====
/-
  Layer 2 of the reference as one pure function of the layer's input and the arguments it reads, and the reading
  that the fold of the layer's operations leaves that function's value in the layer's output buffer.
-/
import proofs.«106078_j59889023976011_1_alg».proof.Proof.RefStage
import proofs.«106078_j59889023976011_1_alg».proof.Proof.RefLayer1

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- Layer 2: the two directions' propagated sums with their biases, scaled by the per-node coefficients, plus the
    residual, clamped below at zero. -/
def layer2R (X : (⟨S50000x128, .f32⟩ : BufTy).Contents (Elt F)) (a1 : (⟨S2x640000, .i32⟩ : BufTy).Contents (Elt F)) (a2 : (⟨S640000, .f32⟩ : BufTy).Contents (Elt F)) (a3 : (⟨S2x640000, .i32⟩ : BufTy).Contents (Elt F)) (a4 : (⟨S640000, .f32⟩ : BufTy).Contents (Elt F)) (a15 : (⟨S128x128, .f32⟩ : BufTy).Contents (Elt F)) (a16 : (⟨S128x128, .f32⟩ : BufTy).Contents (Elt F)) (a17 : (⟨S128x128, .f32⟩ : BufTy).Contents (Elt F)) (a18 : (⟨S128, .f32⟩ : BufTy).Contents (Elt F)) (a19 : (⟨S128, .f32⟩ : BufTy).Contents (Elt F)) (a20 : (⟨S128, .f32⟩ : BufTy).Contents (Elt F)) (a21 : (⟨S128, .f32⟩ : BufTy).Contents (Elt F)) (a22 : (⟨S50000x1, .f32⟩ : BufTy).Contents (Elt F)) (a23 : (⟨S50000x1, .f32⟩ : BufTy).Contents (Elt F)) : (⟨S50000x128, .f32⟩ : BufTy).Contents (Elt F) :=
  maximumf (addf (addf (mulf (bcastC a22) (addf (addf (addf (propR (Host.dotGeneral dot_S50000x128_S128x128_S50000x128_1_0_0_1_n_n none X a15) (idxS a1) (idxD a1) a2) (bb a18)) (propR (Host.dotGeneral dot_S50000x128_S128x128_S50000x128_1_0_0_1_n_n none X a17) (idxS a1) (idxD a1) a2)) (bb a20))) (mulf (bcastC a23) (addf (addf (addf (propR (Host.dotGeneral dot_S50000x128_S128x128_S50000x128_1_0_0_1_n_n none X a16) (idxS a3) (idxD a3) a4) (bb a19)) (propR (Host.dotGeneral dot_S50000x128_S128x128_S50000x128_1_0_0_1_n_n none X a17) (idxS a3) (idxD a3) a4)) (bb a21)))) X) (broadcastInDim S50000x128 ![] bcast_S_S50000x128 (constant S_ .f32 0x00000000#32))

set_option maxHeartbeats 4000000 in
/-- The fold of the layer's operations leaves the layer's value in its output buffer. -/
theorem after_cL2 (V : Valuation τ sig (Elt F)) :
    after (cL2 (F := F)) V (Proc.devRef .tc main_v192) = layer2R (V (Proc.devRef .tc main_v100)) (V (Proc.devRef .tc main_arg1)) (V (Proc.devRef .tc main_arg2)) (V (Proc.devRef .tc main_arg3)) (V (Proc.devRef .tc main_arg4)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) := by
  dsimp only [cL2]
  after_results_simp
  rfl

end Cert.ReferenceIdeal.Hand

end
-- ==== Proof.Bridge2.lean ====
/-
  Layer 2, the two sides compared at the ideal values: as in layer 1, with the layer's input itself as the residual
  and a zero bias row added to it on the kernel side (x + 0 = x).
-/
import proofs.«106078_j59889023976011_1_alg».proof.Proof.KI.Layer2
import proofs.«106078_j59889023976011_1_alg».proof.Proof.RefLayer2
import proofs.«106078_j59889023976011_1_alg».proof.Proof.Bridge1

set_option maxRecDepth 16384

noncomputable section

open Idealize.ShloMosaic Idealize.ShloMosaic.TcCoe Idealize.ShloMosaic.ValueIdx

namespace Cert.Proof.Bridge

open Cert.KernelIdeal.Hand Cert.ReferenceIdeal.Hand

set_option maxHeartbeats 4000000 in
theorem layer2_bridge (X : FVec Ideal Cert.KernelIdeal.S50000x128 .f32)
    (A1 A3 : (⟨Cert.KernelIdeal.S2x640000, .i32⟩ : BufTy).Contents (Elt Ideal)) (A2 A4 : (⟨Cert.KernelIdeal.S640000, .f32⟩ : BufTy).Contents (Elt Ideal))
    (A15 A16 A17 : FVec Ideal Cert.KernelIdeal.S128x128 .f32) (A18 A19 A20 A21 : FVec Ideal Cert.KernelIdeal.S128 .f32) (A22 A23 : FVec Ideal Cert.KernelIdeal.S50000x1 .f32) :
    G3 (F := Ideal)
      (prop (extractStridedSlice Cert.KernelIdeal.S50000x128 ![0, 0] (G2 (F := Ideal) X (concatenate Cert.KernelIdeal.S128x384 1 [⟨Cert.KernelIdeal.S128x128, A15⟩, ⟨Cert.KernelIdeal.S128x128, A16⟩, ⟨Cert.KernelIdeal.S128x128, A17⟩] Cert.KernelIdeal.Facts₀.concatenates_S128x128_S128x128_S128x128_S128x384_d1)) Cert.KernelIdeal.Facts₀.slices_S50000x384_S50000x128_0_0) (shapeCast Cert.KernelIdeal.S640000 (extractStridedSlice Cert.KernelIdeal.S1x640000 ![0, 0] A1 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A1 Cert.KernelIdeal.Facts₀.slices_S2x640000_S1x640000_1_0) Cert.KernelIdeal.Facts₀.shapeCasts_S1x640000_S640000) A2)
      (prop (extractStridedSlice Cert.KernelIdeal.S50000x128 ![0, 256] (G2 (F := Ideal) X (concatenate Cert.KernelIdeal.S128x384 1 [⟨Cert.KernelIdeal.S128x128, A15⟩, ⟨Cert.KernelIdeal.S128x128, A16⟩, ⟨Cert.KernelIdeal.S128x128, A17⟩] Cert.KernelIdeal.Facts₀.concatenates_S128x128_S128x128_S128x128_S128x384_d1)) Cert.KernelIdeal.Facts₀.slices_S50000x384_S50000x128_0_256) (shapeCast Cert.KernelIdeal.S640000 (extractStridedSlice Cert.KernelIdeal.S1x640000 ![0, 0] A1 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A1 Cert.KernelIdeal.Facts₀.slices_S2x640000_S1x640000_1_0) Cert.KernelIdeal.Facts₀.shapeCasts_S1x640000_S640000) A2)
      (prop (extractStridedSlice Cert.KernelIdeal.S50000x128 ![0, 128] (G2 (F := Ideal) X (concatenate Cert.KernelIdeal.S128x384 1 [⟨Cert.KernelIdeal.S128x128, A15⟩, ⟨Cert.KernelIdeal.S128x128, A16⟩, ⟨Cert.KernelIdeal.S128x128, A17⟩] Cert.KernelIdeal.Facts₀.concatenates_S128x128_S128x128_S128x128_S128x384_d1)) Cert.KernelIdeal.Facts₀.slices_S50000x384_S50000x128_0_128) (shapeCast Cert.KernelIdeal.S640000 (extractStridedSlice Cert.KernelIdeal.S1x640000 ![0, 0] A3 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A3 Cert.KernelIdeal.Facts₀.slices_S2x640000_S1x640000_1_0) Cert.KernelIdeal.Facts₀.shapeCasts_S1x640000_S640000) A4)
      (prop (extractStridedSlice Cert.KernelIdeal.S50000x128 ![0, 256] (G2 (F := Ideal) X (concatenate Cert.KernelIdeal.S128x384 1 [⟨Cert.KernelIdeal.S128x128, A15⟩, ⟨Cert.KernelIdeal.S128x128, A16⟩, ⟨Cert.KernelIdeal.S128x128, A17⟩] Cert.KernelIdeal.Facts₀.concatenates_S128x128_S128x128_S128x128_S128x384_d1)) Cert.KernelIdeal.Facts₀.slices_S50000x384_S50000x128_0_256) (shapeCast Cert.KernelIdeal.S640000 (extractStridedSlice Cert.KernelIdeal.S1x640000 ![0, 0] A3 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A3 Cert.KernelIdeal.Facts₀.slices_S2x640000_S1x640000_1_0) Cert.KernelIdeal.Facts₀.shapeCasts_S1x640000_S640000) A4)
      (shapeCast Cert.KernelIdeal.S1x128 A18 Cert.KernelIdeal.Facts₀.shapeCasts_S128_S1x128) (shapeCast Cert.KernelIdeal.S1x128 A20 Cert.KernelIdeal.Facts₀.shapeCasts_S128_S1x128) (shapeCast Cert.KernelIdeal.S1x128 A19 Cert.KernelIdeal.Facts₀.shapeCasts_S128_S1x128) (shapeCast Cert.KernelIdeal.S1x128 A21 Cert.KernelIdeal.Facts₀.shapeCasts_S128_S1x128) A22 A23 X (shapeCast Cert.KernelIdeal.S1x128 (broadcastInDim Cert.KernelIdeal.S128 ![] Cert.KernelIdeal.Facts₀.bcast_S_S128 (constant (F := Ideal) Cert.KernelIdeal.S_ .f32 0x00000000#32)) Cert.KernelIdeal.Facts₀.shapeCasts_S128_S1x128)
    = layer2R (F := Ideal) X A1 A2 A3 A4 A15 A16 A17 A18 A19 A20 A21 A22 A23 := by
  rw [slice2_0_eq, slice2_2_eq, slice2_1_eq, prop_eq]
  funext i
  obtain ⟨r, j, rfl⟩ : ∃ (r : Fin 50000) (j : Fin 128), i = ix2 r j := ⟨i 0, i 1, eq_ix2 i⟩
  rw [G3_apply]
  unfold layer2R
  simp only [maximumf, addf, mulf, bb_apply, bcastC_apply, shapeCast_a_1a_apply, broadcastInDim_scalar_apply]
  have hz0 : ∀ x : EReal, x + broadcastInDim Cert.KernelIdeal.S128 ![] Cert.KernelIdeal.Facts₀.bcast_S_S128 (constant (F := Ideal) Cert.KernelIdeal.S_ .f32 0x00000000#32) (ix1 j) = x := fun x => by
    rw [broadcastInDim_scalar_apply]
    show x + Ideal.ofBits .f32 0x00000000#32 = x
    rw [Ideal.ofBits_zero_f32, add_zero]
  rw [hz0]
  rfl

end Cert.Proof.Bridge

end
-- ==== Proof.AsmS2.lean ====
/-
  The two equations, stage by stage. From launch memories that agree on the arguments: the features with the
  positional encoding agree; then each layer's output, because both sides' layer values are the reference's layer term
  of equal operands; then the two results, by the last stage's two comparisons.
-/

import proofs.«106078_j59889023976011_1_alg».proof.Proof.AsmB
import proofs.«106078_j59889023976011_1_alg».proof.Proof.AsmD
import proofs.«106078_j59889023976011_1_alg».proof.Proof.Bridge2
import proofs.«106078_j59889023976011_1_alg».proof.Proof.RefLayer2
import proofs.«106078_j59889023976011_1_alg».proof.Proof.KI.Args
import proofs.«106078_j59889023976011_1_alg».proof.Proof.KI.Layer2

import proofs.«106078_j59889023976011_1_alg».proof.Proof.AlgDefs

set_option maxRecDepth 16384

noncomputable section

open Idealize.ShloMosaic Idealize.ShloMosaic.TcCoe Idealize.SL.Sem Idealize.ShloMosaic.StableHlo

namespace Cert.Proof.Stages

open Cert.KernelIdeal.Hand Cert.ReferenceIdeal.Hand Cert.Proof.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- Stage 2: the layer's output buffers agree. -/
theorem stage2 (hag : Cert.Proof.Alg.Agree m m') (c : Dev Cert.KernelIdeal.nD)
    (h1 : after (cL1 (F := Ideal)) (after (cX (F := Ideal)) (U0 m' c)) (Proc.devRef .tc Cert.ReferenceIdeal.main_v100) = W4 (F := Ideal) m ρ c (Proc.devRef .tc Cert.KernelIdeal.main_v76)) : (after cL2 (after cL1 (after (cX (F := Ideal)) (U0 m' c)))) (Proc.devRef .tc Cert.ReferenceIdeal.main_v192) = W8 (F := Ideal) m ρ c (Proc.devRef .tc Cert.KernelIdeal.main_v140) := by
  obtain ⟨a0, a1, a2, a3, a4, a5, a6, a7, a8, a9, a10, a11, a12, a13, a14, a15, a16, a17, a18, a19, a20, a21, a22, a23, a24, a25, a26, a27, a28, a29, a30, a31, a32, a33, a34, a35, a36⟩ := hag c
  rw [after_cL2, h1, keep1 m' c Cert.ReferenceIdeal.main_arg1 (by decide), keep1 m' c Cert.ReferenceIdeal.main_arg2 (by decide), keep1 m' c Cert.ReferenceIdeal.main_arg3 (by decide), keep1 m' c Cert.ReferenceIdeal.main_arg4 (by decide), keep1 m' c Cert.ReferenceIdeal.main_arg15 (by decide), keep1 m' c Cert.ReferenceIdeal.main_arg16 (by decide), keep1 m' c Cert.ReferenceIdeal.main_arg17 (by decide), keep1 m' c Cert.ReferenceIdeal.main_arg18 (by decide), keep1 m' c Cert.ReferenceIdeal.main_arg19 (by decide), keep1 m' c Cert.ReferenceIdeal.main_arg20 (by decide), keep1 m' c Cert.ReferenceIdeal.main_arg21 (by decide), keep1 m' c Cert.ReferenceIdeal.main_arg22 (by decide), keep1 m' c Cert.ReferenceIdeal.main_arg23 (by decide)]
  rw [a1, a2, a3, a4, a15, a16, a17, a18, a19, a20, a21, a22, a23]
  rw [W8_main_v140, W7_main_v94, W7_main_v107, W7_main_v120, W7_main_v133, W7_main_v135, W7_main_v136, W7_main_v137, W7_main_v138, W7_main_v139, W7_main_arg22, W7_main_arg23, W7_main_v76_keep, W6_main_v78, W5_main_v76_keep, W5_main_v77,
    W6_carry m ρ c Cert.KernelIdeal.main_v6 (by decide) (by decide), W6_carry m ρ c Cert.KernelIdeal.main_v8 (by decide) (by decide), W6_carry m ρ c Cert.KernelIdeal.main_v10 (by decide) (by decide), W6_carry m ρ c Cert.KernelIdeal.main_v12 (by decide) (by decide),
    idx2_v6, idx2_v8, idx2_v10, idx2_v12,
    W4_main_arg15, W4_main_arg16, W4_main_arg17,
    W6_main_arg2, W6_main_arg4, W6_main_arg18, W6_main_arg19, W6_main_arg20, W6_main_arg21]
  exact (layer2_bridge _ _ _ _ _ _ _ _ _ _ _ _ _ _ ).symm

end Cert.Proof.Stages

end
-- ==== Proof.KI.Val4.lean ====
/-
  What region 4 leaves in its result array, and what that is at the ideal values.

  Block by block: at grid point t the pipeline writes back, into rows 5000 t to 5000 t + 4999 of the result, the
  product of rows 5000 t to 5000 t + 4999 of the left operand with the whole right operand (the body's one store,
  read back through the whole staging buffer). As one array: entry (r, j) of the result is entry (r mod 5000, j) of
  the product of row block r / 5000 of the left operand with the right operand; the ten row blocks tile the 50000
  rows, so every entry is covered.

  At the ideal values rounding to bf16 changes nothing and the accumulator is zero, so entry (r, j) is the sum over
  the 128 contracted entries of X (r, c) * W (c, j). When W is 3 matrices of 128 columns laid side by side, column
  block s of the result is therefore the product of X with matrix s: the same sums.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Region4
import Idealize.ShloMosaic.Lib.Pipeline.Value
import Idealize.ShloMosaic.Lib.ValueIdx
import Idealize.ShloMosaic.Lib.StackMember
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StackMember

section Val4

variable (V : (c : Dev nD) → (b : Ref sig .tc) → Buf (Elt F) ((c : Thread nD τ).loc b))

theorem hz4 : (![0, 0] : Fin 2 → Nat) = fun _ => 0 := funext fun a => by fin_cases a <;> rfl

/-- What point t writes back: the product of the point's row block with the whole weight matrix. -/
theorem flushed4_2 (c : Dev nD) (t : Fin cfg4.N) :
    (dat4 V c).flushed 2 t = k4_pay1 (iblk4 V c 0 t) (iblk4 V c 1 t) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x384) hz4]
  rfl

/-- Rows 5000 q to 5000 q + 4999 of the left operand. -/
def rows4 (X : S50000x128.Idx → Elt F .f32) (q : Fin 10) : S5000x128.Idx → Elt F .f32 :=
  fun y => X (ix2 (⟨q.val * 5000 + (y 0).val, by have := idx2_lt0 y; have := q.isLt; omega⟩ : Fin 50000) (y 1))

/-- The result array as one function of the two operand arrays. -/
def G4 (X : S50000x128.Idx → Elt F .f32) (Wm : S128x384.Idx → Elt F .f32) : S50000x384.Idx → Elt F .f32 :=
  fun i => k4_pay1 (rows4 X ⟨(i 0).val / 5000, by have := idx2_lt0 i; omega⟩) Wm
    (ix2 (⟨(i 0).val % 5000, Nat.mod_lt _ (by decide)⟩ : Fin 5000) (i 1))

/-- The printed index maps over the grid: the left operand's and the result's row-block index is the point, every
    other block index is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The whole-array function at an index of row block q, local index y. -/
theorem G4_at (X : S50000x128.Idx → Elt F .f32) (Wm : S128x384.Idx → Elt F .f32) (q : Fin 10) (y : S5000x384.Idx) (i : S50000x384.Idx)
    (h0 : (i 0).val = q.val * 5000 + (y 0).val) (h1 : (i 1).val = (y 1).val) :
    G4 X Wm i = k4_pay1 (rows4 X q) Wm y := by
  have key : ∀ (q' : Fin 10) (y' : S5000x384.Idx), q' = q → y' = y → k4_pay1 (rows4 X q') Wm y' = k4_pay1 (rows4 X q) Wm y := by
    rintro _ _ rfl rfl; rfl
  have hy := idx2_lt0 y
  unfold G4
  refine key _ _ (Fin.ext ?_) ?_
  · show (i 0).val / 5000 = q.val
    rw [h0]; omega
  · funext a
    match a with
    | ⟨0, _⟩ => exact Fin.ext (by show (i 0).val % 5000 = (y 0).val; rw [h0]; omega)
    | ⟨1, _⟩ => exact Fin.ext h1

/-- What point t writes back is block t of the whole-array function of the two operand arrays as the region finds them. -/
theorem flushed4_2_eq (c : Dev nD) (t : Fin cfg4.N) :
    (dat4 V c).flushed 2 t = ((cfg4.win 2).blk t).view.read (Elt F) (G4 (V c main_v140) (V c main_v141)) := by
  obtain ⟨e0, e1, e2, e3, e4, e5⟩ := idx_facts4 t
  have hN : t.val < 10 := lt_of_lt_of_eq t.isLt N_4
  have hA : iblk4 V c 0 t = rows4 (V c main_v140) ⟨t.val, hN⟩ := by
    funext y
    show V c main_v140 (((cfg4.win 0).blk t).view.emb y) = V c main_v140 (ix2 _ (y 1))
    refine congrArg (V c main_v140) ?_
    funext a; apply Fin.ext
    match a with
    | ⟨0, _⟩ => show win4_0.index t (0 : Fin 2) * 5000 + 1 * (y 0).val = t.val * 5000 + (y 0).val; rw [e0]; omega
    | ⟨1, _⟩ => show win4_0.index t (1 : Fin 2) * 128 + 1 * (y 1).val = (y 1).val; rw [e1]; omega
  have hB : iblk4 V c 1 t = V c main_v141 := by
    funext y
    show V c main_v141 (((cfg4.win 1).blk t).view.emb y) = V c main_v141 y
    refine congrArg (V c main_v141) ?_
    funext a; apply Fin.ext
    match a with
    | ⟨0, _⟩ => show win4_1.index t (0 : Fin 2) * 128 + 1 * (y 0).val = (y 0).val; rw [e2]; omega
    | ⟨1, _⟩ => show win4_1.index t (1 : Fin 2) * 384 + 1 * (y 1).val = (y 1).val; rw [e3]; omega
  rw [flushed4_2, hA, hB]
  funext j
  show k4_pay1 (rows4 (V c main_v140) ⟨t.val, hN⟩) (V c main_v141) j = G4 (V c main_v140) (V c main_v141) (((cfg4.win 2).blk t).view.emb j)
  refine (G4_at (V c main_v140) (V c main_v141) ⟨t.val, hN⟩ j _ ?_ ?_).symm
  · show win4_2.index t (0 : Fin 2) * 5000 + 1 * (j 0).val = t.val * 5000 + (j 0).val; rw [e4]; omega
  · show win4_2.index t (1 : Fin 2) * 384 + 1 * (j 1).val = (j 1).val; rw [e5]; omega

/-- An index of the result array is in point t's block iff each coordinate is in the block's range on its axis. -/
theorem mem_blk4 (t : Fin cfg4.N) (i : S50000x384.Idx) :
    i ∈ ((cfg4.win 2).blk t).view.set ↔ ∀ a : Fin 2, win4_2.index t a * S5000x384.size a ≤ (i a).val ∧ (i a).val < win4_2.index t a * S5000x384.size a + S5000x384.size a := by
  show i ∈ ((View.whole main_v142).slice (win4_2.rect t)).set ↔ _
  rw [View.set_slice_whole, Rect.mem_set_unit]
  exact Iff.rfl

/-- Every entry of the result array lies in the block of the point its row falls under. -/
theorem cover4 (i : S50000x384.Idx) : ∃ t : Fin cfg4.N, (cfg4.win 2).flush t = true ∧ i ∈ ((cfg4.win 2).blk t).view.set := by
  have hi0 := idx2_lt0 i
  have hi1 := idx2_lt1 i
  have hlt : (i 0).val / 5000 < cfg4.N := lt_of_lt_of_eq (by omega : (i 0).val / 5000 < 10) N_4.symm
  refine ⟨⟨(i 0).val / 5000, hlt⟩, flush4_2 _, ?_⟩
  rw [mem_blk4]
  obtain ⟨-, -, -, -, e4, e5⟩ := idx_facts4 ⟨(i 0).val / 5000, hlt⟩
  have e4' : win4_2.index ⟨(i 0).val / 5000, hlt⟩ (0 : Fin 2) = (i 0).val / 5000 := e4
  intro a
  match a with
  | ⟨0, _⟩ =>
    show win4_2.index ⟨(i 0).val / 5000, hlt⟩ (0 : Fin 2) * 5000 ≤ (i 0).val ∧ (i 0).val < win4_2.index ⟨(i 0).val / 5000, hlt⟩ (0 : Fin 2) * 5000 + 5000
    rw [e4']; omega
  | ⟨1, _⟩ =>
    show win4_2.index ⟨(i 0).val / 5000, hlt⟩ (1 : Fin 2) * 384 ≤ (i 1).val ∧ (i 1).val < win4_2.index ⟨(i 0).val / 5000, hlt⟩ (1 : Fin 2) * 384 + 384
    rw [e5]; omega

/-- The result array after the region: the whole-array function of the two operand arrays as the region finds them. -/
theorem final4 (c : Dev nD) : (dat4 V c).arrAt 2 cfg4.N = G4 (V c main_v140) (V c main_v141) :=
  (dat4 V c).arrAt_eq_of_cover 2 _ (fun t _ => flushed4_2_eq V c t) cover4

end Val4

/-! ## At the ideal values -/

/-- The body's product of two blocks is the plain matrix product: rounding to bf16 and the casts between equal shapes
    change nothing, and the accumulator is zero. -/
theorem k4_pay1_apply (x0 : FVec Ideal S5000x128 .f32) (w : FVec Ideal S128x384 .f32) (a : Fin 5000) (b : Fin 384) :
    k4_pay1 (F := Ideal) x0 w (ix2 a b) = ∑ c : Fin 128, x0 (ix2 a c) * w (ix2 c b) := by
  have h := dotGeneral_plain_apply (m := 5000) (n := 384) (k := 128) (φ₁ := .f32) (φ₂ := .f32) none x0 w a b
  rw [← h]
  unfold k4_pay1
  simp only [shapeCast_self]
  show FloatOps.matmul (F := Ideal) (DotDims.plain 5000 128 384) none x0 w (constant (F := Ideal) S5000x384 .f32 0x00000000#32) (ix2 a b)
    = FloatOps.dotGeneral (F := Ideal) (DotDims.plain 5000 128 384) none _ x0 w (ix2 a b)
  rw [Ideal.matmul_constant_zero_apply, Ideal.dotGeneral_apply]

/-- Entry (r, j) of the region's result array is the sum over the contracted axis: row r lies in row block r / 5000. -/
theorem G4_apply (X : FVec Ideal S50000x128 .f32) (Wm : FVec Ideal S128x384 .f32) (r : Fin 50000) (j : Fin 384) :
    G4 (F := Ideal) X Wm (ix2 r j) = ∑ c : Fin 128, X (ix2 r c) * Wm (ix2 c j) := by
  have hr := r.isLt
  rw [G4_at (F := Ideal) X Wm ⟨r.val / 5000, by omega⟩ (ix2 (⟨r.val % 5000, Nat.mod_lt _ (by decide)⟩ : Fin 5000) j) (ix2 r j)
    (by show r.val = r.val / 5000 * 5000 + r.val % 5000; omega) rfl]
  rw [k4_pay1_apply]
  refine Finset.sum_congr rfl fun c _ => ?_
  congr 1
  unfold rows4
  refine congrArg X ?_
  funext a
  match a with
  | ⟨0, _⟩ => exact Fin.ext (by show r.val / 5000 * 5000 + r.val % 5000 = r.val; omega)
  | ⟨1, _⟩ => rfl

/-- Column block 0 of the product with the weight matrices laid side by side is the product with matrix 1. -/
theorem slice4_0_eq (X : FVec Ideal S50000x128 .f32) (W1 W2 W3 : FVec Ideal S128x128 .f32) :
    extractStridedSlice S50000x128 ![0, 0] (G4 (F := Ideal) X (concatenate S128x384 1 [⟨S128x128, W1⟩, ⟨S128x128, W2⟩, ⟨S128x128, W3⟩] concatenates_S128x128_S128x128_S128x128_S128x384_d1)) slices_S50000x384_S50000x128_0_0
      = Host.dotGeneral (F := Ideal) (DotDims.plain 50000 128 128) none X W1 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨0 + j.val, by omega⟩ : Fin 384))
    (by intro a; match a with
        | ⟨0, _⟩ => show r.val = 0 + r.val; omega
        | ⟨1, _⟩ => show 0 + j.val = 0 + j.val; rfl)]
  rw [G4_apply, dotGeneral_plain_apply]
  refine Finset.sum_congr rfl fun c _ => ?_
  congr 1
  exact concatenate_apply_piece (t := S128x384) (1 : Fin 2) [⟨S128x128, W1⟩, ⟨S128x128, W2⟩, ⟨S128x128, W3⟩] concatenates_S128x128_S128x128_S128x128_S128x384_d1 (ix2 c (⟨0 + j.val, by omega⟩ : Fin 384)) 0 (by simp) S128x128 W1 rfl rfl 0 rfl (ix2 c j)
    (by intro b hb; match b with
        | ⟨0, _⟩ => rfl
        | ⟨1, _⟩ => exact absurd rfl hb)
    (by show 0 + j.val = 0 + j.val; rfl)

/-- Column block 1 of the product with the weight matrices laid side by side is the product with matrix 2. -/
theorem slice4_1_eq (X : FVec Ideal S50000x128 .f32) (W1 W2 W3 : FVec Ideal S128x128 .f32) :
    extractStridedSlice S50000x128 ![0, 128] (G4 (F := Ideal) X (concatenate S128x384 1 [⟨S128x128, W1⟩, ⟨S128x128, W2⟩, ⟨S128x128, W3⟩] concatenates_S128x128_S128x128_S128x128_S128x384_d1)) slices_S50000x384_S50000x128_0_128
      = Host.dotGeneral (F := Ideal) (DotDims.plain 50000 128 128) none X W2 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨128 + j.val, by omega⟩ : Fin 384))
    (by intro a; match a with
        | ⟨0, _⟩ => show r.val = 0 + r.val; omega
        | ⟨1, _⟩ => show 128 + j.val = 128 + j.val; rfl)]
  rw [G4_apply, dotGeneral_plain_apply]
  refine Finset.sum_congr rfl fun c _ => ?_
  congr 1
  exact concatenate_apply_piece (t := S128x384) (1 : Fin 2) [⟨S128x128, W1⟩, ⟨S128x128, W2⟩, ⟨S128x128, W3⟩] concatenates_S128x128_S128x128_S128x128_S128x384_d1 (ix2 c (⟨128 + j.val, by omega⟩ : Fin 384)) 1 (by simp) S128x128 W2 rfl rfl 128 rfl (ix2 c j)
    (by intro b hb; match b with
        | ⟨0, _⟩ => rfl
        | ⟨1, _⟩ => exact absurd rfl hb)
    (by show 128 + j.val = 128 + j.val; rfl)

/-- Column block 2 of the product with the weight matrices laid side by side is the product with matrix 3. -/
theorem slice4_2_eq (X : FVec Ideal S50000x128 .f32) (W1 W2 W3 : FVec Ideal S128x128 .f32) :
    extractStridedSlice S50000x128 ![0, 256] (G4 (F := Ideal) X (concatenate S128x384 1 [⟨S128x128, W1⟩, ⟨S128x128, W2⟩, ⟨S128x128, W3⟩] concatenates_S128x128_S128x128_S128x128_S128x384_d1)) slices_S50000x384_S50000x128_0_256
      = Host.dotGeneral (F := Ideal) (DotDims.plain 50000 128 128) none X W3 := by
  funext i
  obtain ⟨r, j, rfl⟩ : ∃ (r : Fin 50000) (j : Fin 128), i = ix2 r j := ⟨i 0, i 1, eq_ix2 i⟩
  have hj := j.isLt
  rw [extractStridedSlice_apply _ _ _ (ix2 r j) (ix2 r (⟨256 + j.val, by omega⟩ : Fin 384))
    (by intro a; match a with
        | ⟨0, _⟩ => show r.val = 0 + r.val; omega
        | ⟨1, _⟩ => show 256 + j.val = 256 + j.val; rfl)]
  rw [G4_apply, dotGeneral_plain_apply]
  refine Finset.sum_congr rfl fun c _ => ?_
  congr 1
  exact concatenate_apply_piece (t := S128x384) (1 : Fin 2) [⟨S128x128, W1⟩, ⟨S128x128, W2⟩, ⟨S128x128, W3⟩] concatenates_S128x128_S128x128_S128x128_S128x384_d1 (ix2 c (⟨256 + j.val, by omega⟩ : Fin 384)) 2 (by simp) S128x128 W3 rfl rfl 256 rfl (ix2 c j)
    (by intro b hb; match b with
        | ⟨0, _⟩ => rfl
        | ⟨1, _⟩ => exact absurd rfl hb)
    (by show 256 + j.val = 256 + j.val; rfl)

end Cert.KernelIdeal.Hand

end
-- ==== Proof.KI.Val5.lean ====
/-
  What region 5 (a layer's combine) leaves in its result array.

  Block by block: at grid point t the pipeline writes back, into rows 5000 t to 5000 t + 4999 of the result, the
  body's combination of rows 5000 t to 5000 t + 4999 of the four propagated sums, of the two coefficient columns and
  of the residual, with the five bias rows whole. As one array: entry (r, j) of the result is entry (r mod 5000, j) of
  that combination at row block r / 5000; the ten row blocks tile the 50000 rows, so every entry is covered.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Region5
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Val5

variable (V : (c : Dev nD) → (b : Ref sig .tc) → Buf (Elt F) ((c : Thread nD τ).loc b))

theorem hz5 : (![0, 0] : Fin 2 → Nat) = fun _ => 0 := funext fun a => by fin_cases a <;> rfl

/-- What point t writes back: the body's combination of the point's blocks. -/
theorem flushed5_12 (c : Dev nD) (t : Fin cfg5.N) :
    (dat5 V c).flushed 12 t = k5_pay1 (k5_pay2 (iblk5 V c 0 t) (iblk5 V c 4 t) (iblk5 V c 1 t) (iblk5 V c 5 t) (iblk5 V c 2 t) (iblk5 V c 6 t) (iblk5 V c 3 t) (iblk5 V c 7 t) (iblk5 V c 8 t) (iblk5 V c 9 t) (iblk5 V c 10 t)) (iblk5 V c 11 t) := by
  show (cfg5.win 12).cut (grid5.coords t) ((dat5 V c).after 12 t) = _
  rw [after5_12]
  unfold out5_12
  rw [View.canon_unit_zero hz5]
  simp only [View.ld_unit_zero (S := S5000x128) hz5, View.ld_unit_zero (S := S1x128) hz5, View.ld_unit_zero (S := S5000x1) hz5]
  rfl

/-- Rows 5000 q to 5000 q + 4999 of an array of 50000 rows of 128 entries. -/
def rows5a (X : S50000x128.Idx → Elt F .f32) (q : Fin 10) : S5000x128.Idx → Elt F .f32 :=
  fun y => X (ix2 (⟨q.val * 5000 + (y 0).val, by have := idx2_lt0 y; have := q.isLt; omega⟩ : Fin 50000) (y 1))
/-- Rows 5000 q to 5000 q + 4999 of a column of 50000 entries. -/
def rows5c (X : S50000x1.Idx → Elt F .f32) (q : Fin 10) : S5000x1.Idx → Elt F .f32 :=
  fun y => X (ix2 (⟨q.val * 5000 + (y 0).val, by have := idx2_lt0 y; have := q.isLt; omega⟩ : Fin 50000) (y 1))

/-- The result array as one function of the twelve operand arrays. -/
def G5 (x0 : S50000x128.Idx → Elt F .f32) (x1 : S50000x128.Idx → Elt F .f32) (x2 : S50000x128.Idx → Elt F .f32) (x3 : S50000x128.Idx → Elt F .f32) (x4 : S1x128.Idx → Elt F .f32) (x5 : S1x128.Idx → Elt F .f32) (x6 : S1x128.Idx → Elt F .f32) (x7 : S1x128.Idx → Elt F .f32) (x8 : S50000x1.Idx → Elt F .f32) (x9 : S50000x1.Idx → Elt F .f32) (x10 : S50000x128.Idx → Elt F .f32) (x11 : S1x128.Idx → Elt F .f32) : S50000x128.Idx → Elt F .f32 :=
  fun i => k5_pay1 (k5_pay2 (rows5a x0 ⟨(i 0).val / 5000, by have := idx2_lt0 i; omega⟩) x4 (rows5a x1 ⟨(i 0).val / 5000, by have := idx2_lt0 i; omega⟩) x5 (rows5a x2 ⟨(i 0).val / 5000, by have := idx2_lt0 i; omega⟩) x6 (rows5a x3 ⟨(i 0).val / 5000, by have := idx2_lt0 i; omega⟩) x7 (rows5c x8 ⟨(i 0).val / 5000, by have := idx2_lt0 i; omega⟩) (rows5c x9 ⟨(i 0).val / 5000, by have := idx2_lt0 i; omega⟩) (rows5a x10 ⟨(i 0).val / 5000, by have := idx2_lt0 i; omega⟩)) x11 (ix2 (⟨(i 0).val % 5000, Nat.mod_lt _ (by decide)⟩ : Fin 5000) (i 1))

/-- The printed index maps over the grid: a row-blocked window's row-block index is the point, every other block
    index is zero. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0
    ∧ win5_9.index t (0 : Fin 2) = t.val ∧ win5_9.index t (1 : Fin 2) = 0
    ∧ win5_10.index t (0 : Fin 2) = t.val ∧ win5_10.index t (1 : Fin 2) = 0
    ∧ win5_11.index t (0 : Fin 2) = 0 ∧ win5_11.index t (1 : Fin 2) = 0
    ∧ win5_12.index t (0 : Fin 2) = t.val ∧ win5_12.index t (1 : Fin 2) = 0 :=
  (by decide +kernel : ∀ t : Fin grid5.N, _)

/-- The whole-array function at an index of row block q, local index y. -/
theorem G5_at (x0 : S50000x128.Idx → Elt F .f32) (x1 : S50000x128.Idx → Elt F .f32) (x2 : S50000x128.Idx → Elt F .f32) (x3 : S50000x128.Idx → Elt F .f32) (x4 : S1x128.Idx → Elt F .f32) (x5 : S1x128.Idx → Elt F .f32) (x6 : S1x128.Idx → Elt F .f32) (x7 : S1x128.Idx → Elt F .f32) (x8 : S50000x1.Idx → Elt F .f32) (x9 : S50000x1.Idx → Elt F .f32) (x10 : S50000x128.Idx → Elt F .f32) (x11 : S1x128.Idx → Elt F .f32) (q : Fin 10) (y : S5000x128.Idx) (i : S50000x128.Idx)
    (h0 : (i 0).val = q.val * 5000 + (y 0).val) (h1 : (i 1).val = (y 1).val) :
    G5 x0 x1 x2 x3 x4 x5 x6 x7 x8 x9 x10 x11 i = k5_pay1 (k5_pay2 (rows5a x0 q) x4 (rows5a x1 q) x5 (rows5a x2 q) x6 (rows5a x3 q) x7 (rows5c x8 q) (rows5c x9 q) (rows5a x10 q)) x11 y := by
  have key : ∀ (q' : Fin 10) (y' : S5000x128.Idx), q' = q → y' = y → k5_pay1 (k5_pay2 (rows5a x0 q') x4 (rows5a x1 q') x5 (rows5a x2 q') x6 (rows5a x3 q') x7 (rows5c x8 q') (rows5c x9 q') (rows5a x10 q')) x11 y' = k5_pay1 (k5_pay2 (rows5a x0 q) x4 (rows5a x1 q) x5 (rows5a x2 q) x6 (rows5a x3 q) x7 (rows5c x8 q) (rows5c x9 q) (rows5a x10 q)) x11 y := by
    rintro _ _ rfl rfl; rfl
  have hy := idx2_lt0 y
  unfold G5
  refine key _ _ (Fin.ext ?_) ?_
  · show (i 0).val / 5000 = q.val
    rw [h0]; omega
  · funext a
    match a with
    | ⟨0, _⟩ => exact Fin.ext (by show (i 0).val % 5000 = (y 0).val; rw [h0]; omega)
    | ⟨1, _⟩ => exact Fin.ext h1

set_option maxHeartbeats 4000000 in
/-- What point t writes back is block t of the whole-array function of the operand arrays as the region finds them. -/
theorem flushed5_12_eq (c : Dev nD) (t : Fin cfg5.N) :
    (dat5 V c).flushed 12 t = ((cfg5.win 12).blk t).view.read (Elt F) (G5 (V c main_v158) (V c main_v171) (V c main_v184) (V c main_v197) (V c main_v199) (V c main_v200) (V c main_v201) (V c main_v202) (V c main_arg31) (V c main_arg32) (V c main_v140) (V c main_v203)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts5 t
  have hN : t.val < 10 := lt_of_lt_of_eq t.isLt N_5
  have h0 : iblk5 V c 0 t = rows5a (V c main_v158) ⟨t.val, hN⟩ := by
    funext y
    show V c main_v158 (((cfg5.win 0).blk t).view.emb y) = V c main_v158 (ix2 _ (y 1))
    refine congrArg (V c main_v158) ?_
    funext a; apply Fin.ext
    match a with
    | ⟨0, _⟩ => show win5_0.index t (0 : Fin 2) * 5000 + 1 * (y 0).val = t.val * 5000 + (y 0).val; rw [e0_0]; omega
    | ⟨1, _⟩ => show win5_0.index t (1 : Fin 2) * 128 + 1 * (y 1).val = (y 1).val; rw [e0_1]; omega
  have h1 : iblk5 V c 1 t = rows5a (V c main_v171) ⟨t.val, hN⟩ := by
    funext y
    show V c main_v171 (((cfg5.win 1).blk t).view.emb y) = V c main_v171 (ix2 _ (y 1))
    refine congrArg (V c main_v171) ?_
    funext a; apply Fin.ext
    match a with
    | ⟨0, _⟩ => show win5_1.index t (0 : Fin 2) * 5000 + 1 * (y 0).val = t.val * 5000 + (y 0).val; rw [e1_0]; omega
    | ⟨1, _⟩ => show win5_1.index t (1 : Fin 2) * 128 + 1 * (y 1).val = (y 1).val; rw [e1_1]; omega
  have h2 : iblk5 V c 2 t = rows5a (V c main_v184) ⟨t.val, hN⟩ := by
    funext y
    show V c main_v184 (((cfg5.win 2).blk t).view.emb y) = V c main_v184 (ix2 _ (y 1))
    refine congrArg (V c main_v184) ?_
    funext a; apply Fin.ext
    match a with
    | ⟨0, _⟩ => show win5_2.index t (0 : Fin 2) * 5000 + 1 * (y 0).val = t.val * 5000 + (y 0).val; rw [e2_0]; omega
    | ⟨1, _⟩ => show win5_2.index t (1 : Fin 2) * 128 + 1 * (y 1).val = (y 1).val; rw [e2_1]; omega
  have h3 : iblk5 V c 3 t = rows5a (V c main_v197) ⟨t.val, hN⟩ := by
    funext y
    show V c main_v197 (((cfg5.win 3).blk t).view.emb y) = V c main_v197 (ix2 _ (y 1))
    refine congrArg (V c main_v197) ?_
    funext a; apply Fin.ext
    match a with
    | ⟨0, _⟩ => show win5_3.index t (0 : Fin 2) * 5000 + 1 * (y 0).val = t.val * 5000 + (y 0).val; rw [e3_0]; omega
    | ⟨1, _⟩ => show win5_3.index t (1 : Fin 2) * 128 + 1 * (y 1).val = (y 1).val; rw [e3_1]; omega
  have h4 : iblk5 V c 4 t = V c main_v199 := by
    funext y
    show V c main_v199 (((cfg5.win 4).blk t).view.emb y) = V c main_v199 y
    refine congrArg (V c main_v199) ?_
    funext a; apply Fin.ext
    match a with
    | ⟨0, _⟩ => show win5_4.index t (0 : Fin 2) * 1 + 1 * (y 0).val = (y 0).val; rw [e4_0]; omega
    | ⟨1, _⟩ => show win5_4.index t (1 : Fin 2) * 128 + 1 * (y 1).val = (y 1).val; rw [e4_1]; omega
  have h5 : iblk5 V c 5 t = V c main_v200 := by
    funext y
    show V c main_v200 (((cfg5.win 5).blk t).view.emb y) = V c main_v200 y
    refine congrArg (V c main_v200) ?_
    funext a; apply Fin.ext
    match a with
    | ⟨0, _⟩ => show win5_5.index t (0 : Fin 2) * 1 + 1 * (y 0).val = (y 0).val; rw [e5_0]; omega
    | ⟨1, _⟩ => show win5_5.index t (1 : Fin 2) * 128 + 1 * (y 1).val = (y 1).val; rw [e5_1]; omega
  have h6 : iblk5 V c 6 t = V c main_v201 := by
    funext y
    show V c main_v201 (((cfg5.win 6).blk t).view.emb y) = V c main_v201 y
    refine congrArg (V c main_v201) ?_
    funext a; apply Fin.ext
    match a with
    | ⟨0, _⟩ => show win5_6.index t (0 : Fin 2) * 1 + 1 * (y 0).val = (y 0).val; rw [e6_0]; omega
    | ⟨1, _⟩ => show win5_6.index t (1 : Fin 2) * 128 + 1 * (y 1).val = (y 1).val; rw [e6_1]; omega
  have h7 : iblk5 V c 7 t = V c main_v202 := by
    funext y
    show V c main_v202 (((cfg5.win 7).blk t).view.emb y) = V c main_v202 y
    refine congrArg (V c main_v202) ?_
    funext a; apply Fin.ext
    match a with
    | ⟨0, _⟩ => show win5_7.index t (0 : Fin 2) * 1 + 1 * (y 0).val = (y 0).val; rw [e7_0]; omega
    | ⟨1, _⟩ => show win5_7.index t (1 : Fin 2) * 128 + 1 * (y 1).val = (y 1).val; rw [e7_1]; omega
  have h8 : iblk5 V c 8 t = rows5c (V c main_arg31) ⟨t.val, hN⟩ := by
    funext y
    show V c main_arg31 (((cfg5.win 8).blk t).view.emb y) = V c main_arg31 (ix2 _ (y 1))
    refine congrArg (V c main_arg31) ?_
    funext a; apply Fin.ext
    match a with
    | ⟨0, _⟩ => show win5_8.index t (0 : Fin 2) * 5000 + 1 * (y 0).val = t.val * 5000 + (y 0).val; rw [e8_0]; omega
    | ⟨1, _⟩ => show win5_8.index t (1 : Fin 2) * 1 + 1 * (y 1).val = (y 1).val; rw [e8_1]; omega
  have h9 : iblk5 V c 9 t = rows5c (V c main_arg32) ⟨t.val, hN⟩ := by
    funext y
    show V c main_arg32 (((cfg5.win 9).blk t).view.emb y) = V c main_arg32 (ix2 _ (y 1))
    refine congrArg (V c main_arg32) ?_
    funext a; apply Fin.ext
    match a with
    | ⟨0, _⟩ => show win5_9.index t (0 : Fin 2) * 5000 + 1 * (y 0).val = t.val * 5000 + (y 0).val; rw [e9_0]; omega
    | ⟨1, _⟩ => show win5_9.index t (1 : Fin 2) * 1 + 1 * (y 1).val = (y 1).val; rw [e9_1]; omega
  have h10 : iblk5 V c 10 t = rows5a (V c main_v140) ⟨t.val, hN⟩ := by
    funext y
    show V c main_v140 (((cfg5.win 10).blk t).view.emb y) = V c main_v140 (ix2 _ (y 1))
    refine congrArg (V c main_v140) ?_
    funext a; apply Fin.ext
    match a with
    | ⟨0, _⟩ => show win5_10.index t (0 : Fin 2) * 5000 + 1 * (y 0).val = t.val * 5000 + (y 0).val; rw [e10_0]; omega
    | ⟨1, _⟩ => show win5_10.index t (1 : Fin 2) * 128 + 1 * (y 1).val = (y 1).val; rw [e10_1]; omega
  have h11 : iblk5 V c 11 t = V c main_v203 := by
    funext y
    show V c main_v203 (((cfg5.win 11).blk t).view.emb y) = V c main_v203 y
    refine congrArg (V c main_v203) ?_
    funext a; apply Fin.ext
    match a with
    | ⟨0, _⟩ => show win5_11.index t (0 : Fin 2) * 1 + 1 * (y 0).val = (y 0).val; rw [e11_0]; omega
    | ⟨1, _⟩ => show win5_11.index t (1 : Fin 2) * 128 + 1 * (y 1).val = (y 1).val; rw [e11_1]; omega
  rw [flushed5_12, h0, h1, h2, h3, h4, h5, h6, h7, h8, h9, h10, h11]
  funext j
  show _ = G5 (V c main_v158) (V c main_v171) (V c main_v184) (V c main_v197) (V c main_v199) (V c main_v200) (V c main_v201) (V c main_v202) (V c main_arg31) (V c main_arg32) (V c main_v140) (V c main_v203) (((cfg5.win 12).blk t).view.emb j)
  refine (G5_at (V c main_v158) (V c main_v171) (V c main_v184) (V c main_v197) (V c main_v199) (V c main_v200) (V c main_v201) (V c main_v202) (V c main_arg31) (V c main_arg32) (V c main_v140) (V c main_v203) ⟨t.val, hN⟩ j _ ?_ ?_).symm
  · show win5_12.index t (0 : Fin 2) * 5000 + 1 * (j 0).val = t.val * 5000 + (j 0).val; rw [e12_0]; omega
  · show win5_12.index t (1 : Fin 2) * 128 + 1 * (j 1).val = (j 1).val; rw [e12_1]; omega

/-- An index of the result array is in point t's block iff each coordinate is in the block's range on its axis. -/
theorem mem_blk5 (t : Fin cfg5.N) (i : S50000x128.Idx) :
    i ∈ ((cfg5.win 12).blk t).view.set ↔ ∀ a : Fin 2, win5_12.index t a * S5000x128.size a ≤ (i a).val ∧ (i a).val < win5_12.index t a * S5000x128.size a + S5000x128.size a := by
  show i ∈ ((View.whole main_v204).slice (win5_12.rect t)).set ↔ _
  rw [View.set_slice_whole, Rect.mem_set_unit]
  exact Iff.rfl

/-- Every entry of the result array lies in the block of the point its row falls under. -/
theorem cover5 (i : S50000x128.Idx) : ∃ t : Fin cfg5.N, (cfg5.win 12).flush t = true ∧ i ∈ ((cfg5.win 12).blk t).view.set := by
  have hi0 := idx2_lt0 i
  have hi1 := idx2_lt1 i
  have hlt : (i 0).val / 5000 < cfg5.N := lt_of_lt_of_eq (by omega : (i 0).val / 5000 < 10) N_5.symm
  refine ⟨⟨(i 0).val / 5000, hlt⟩, flush5_12 _, ?_⟩
  rw [mem_blk5]
  have hf := idx_facts5 ⟨(i 0).val / 5000, hlt⟩
  have e0 : win5_12.index ⟨(i 0).val / 5000, hlt⟩ (0 : Fin 2) = (i 0).val / 5000 := hf.2.2.2.2.2.2.2.2.2.2.2.2.2.2.2.2.2.2.2.2.2.2.2.2.1
  have e1 : win5_12.index ⟨(i 0).val / 5000, hlt⟩ (1 : Fin 2) = 0 := hf.2.2.2.2.2.2.2.2.2.2.2.2.2.2.2.2.2.2.2.2.2.2.2.2.2
  intro a
  match a with
  | ⟨0, _⟩ =>
    show win5_12.index ⟨(i 0).val / 5000, hlt⟩ (0 : Fin 2) * 5000 ≤ (i 0).val ∧ (i 0).val < win5_12.index ⟨(i 0).val / 5000, hlt⟩ (0 : Fin 2) * 5000 + 5000
    rw [e0]; omega
  | ⟨1, _⟩ =>
    show win5_12.index ⟨(i 0).val / 5000, hlt⟩ (1 : Fin 2) * 128 ≤ (i 1).val ∧ (i 1).val < win5_12.index ⟨(i 0).val / 5000, hlt⟩ (1 : Fin 2) * 128 + 128
    rw [e1]; omega

/-- The result array after the region: the whole-array function of the operand arrays as the region finds them. -/
theorem final5 (c : Dev nD) : (dat5 V c).arrAt 12 cfg5.N = G5 (V c main_v158) (V c main_v171) (V c main_v184) (V c main_v197) (V c main_v199) (V c main_v200) (V c main_v201) (V c main_v202) (V c main_arg31) (V c main_arg32) (V c main_v140) (V c main_v203) :=
  (dat5 V c).arrAt_eq_of_cover 12 _ (fun t _ => flushed5_12_eq V c t) cover5

end Val5

/-! ## At the ideal values -/

/-- A [5000, 1] column broadcast to [5000, 128] reads, at (p, c), the column at p. -/
theorem bcast_col5 {α : Type} (v : S5000x1.Idx → α) (h : S5000x1.Broadcasts S5000x128) (p : Fin 5000) (c : Fin 128) :
    broadcastTo S5000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The inner part of the combination at an entry: each propagated sum with its bias row, the two sums of a direction
    added, each direction scaled by its row's coefficient, the two directions and the residual added. -/
theorem k5_pay2_apply (v0 : FVec Ideal S5000x128 .f32) (v2 : FVec Ideal S1x128 .f32) (v6 : FVec Ideal S5000x128 .f32) (v9 : FVec Ideal S1x128 .f32)
    (v13 : FVec Ideal S5000x128 .f32) (v15 : FVec Ideal S1x128 .f32) (v19 : FVec Ideal S5000x128 .f32) (v22 : FVec Ideal S1x128 .f32)
    (v26 v29 : FVec Ideal S5000x1 .f32) (v33 : FVec Ideal S5000x128 .f32) (a : Fin 5000) (b : Fin 128) :
    k5_pay2 (F := Ideal) v0 v2 v6 v9 v13 v15 v19 v22 v26 v29 v33 (ix2 a b)
      = (v26 (ix2 a (0 : Fin 1)) * (((v0 (ix2 a b) + v2 (ix2 (0 : Fin 1) b)) + v6 (ix2 a b)) + v9 (ix2 (0 : Fin 1) b))
          + v29 (ix2 a (0 : Fin 1)) * (((v13 (ix2 a b) + v15 (ix2 (0 : Fin 1) b)) + v19 (ix2 a b)) + v22 (ix2 (0 : Fin 1) b))) + v33 (ix2 a b) := by
  unfold k5_pay2
  simp only [shapeCast_self, addf, mulf, broadcastTo_1b_ab_apply, bcast_col5]
  rfl

/-- The outer part at an entry: the residual's bias row added. -/
theorem k5_pay1_apply (v35 : FVec Ideal S5000x128 .f32) (v36 : FVec Ideal S1x128 .f32) (a : Fin 5000) (b : Fin 128) :
    k5_pay1 (F := Ideal) v35 v36 (ix2 a b)
      = v35 (ix2 a b) + v36 (ix2 (0 : Fin 1) b) := by
  unfold k5_pay1
  simp only [shapeCast_self, addf, broadcastTo_1b_ab_apply]
  rfl

/-- Row r lies in row block r / 5000, at r mod 5000. -/
theorem rows5a_apply (X : FVec Ideal S50000x128 .f32) (r : Fin 50000) (j : Fin 128) :
    rows5a (F := Ideal) X ⟨r.val / 5000, by have := r.isLt; omega⟩ (ix2 (⟨r.val % 5000, Nat.mod_lt _ (by decide)⟩ : Fin 5000) j) = X (ix2 r j) := by
  unfold rows5a
  refine congrArg X ?_
  funext a
  match a with
  | ⟨0, _⟩ => exact Fin.ext (by show r.val / 5000 * 5000 + r.val % 5000 = r.val; omega)
  | ⟨1, _⟩ => rfl
theorem rows5c_apply (X : FVec Ideal S50000x1 .f32) (r : Fin 50000) (j : Fin 1) :
    rows5c (F := Ideal) X ⟨r.val / 5000, by have := r.isLt; omega⟩ (ix2 (⟨r.val % 5000, Nat.mod_lt _ (by decide)⟩ : Fin 5000) j) = X (ix2 r j) := by
  unfold rows5c
  refine congrArg X ?_
  funext a
  match a with
  | ⟨0, _⟩ => exact Fin.ext (by show r.val / 5000 * 5000 + r.val % 5000 = r.val; omega)
  | ⟨1, _⟩ => rfl

/-- Entry (r, j) of the region's result array, in the operand arrays' entries of row r and column j. -/
theorem G5_apply (x0 x1 x2 x3 : FVec Ideal S50000x128 .f32) (x4 x5 x6 x7 : FVec Ideal S1x128 .f32) (x8 x9 : FVec Ideal S50000x1 .f32)
    (x10 : FVec Ideal S50000x128 .f32) (x11 : FVec Ideal S1x128 .f32) (r : Fin 50000) (j : Fin 128) :
    G5 (F := Ideal) x0 x1 x2 x3 x4 x5 x6 x7 x8 x9 x10 x11 (ix2 r j)
      = ((x8 (ix2 r (0 : Fin 1)) * (((x0 (ix2 r j) + x4 (ix2 (0 : Fin 1) j)) + x1 (ix2 r j)) + x5 (ix2 (0 : Fin 1) j))
          + x9 (ix2 r (0 : Fin 1)) * (((x2 (ix2 r j) + x6 (ix2 (0 : Fin 1) j)) + x3 (ix2 r j)) + x7 (ix2 (0 : Fin 1) j))) + x10 (ix2 r j)) + x11 (ix2 (0 : Fin 1) j) := by
  have hr := r.isLt
  rw [G5_at (F := Ideal) x0 x1 x2 x3 x4 x5 x6 x7 x8 x9 x10 x11 ⟨r.val / 5000, by omega⟩ (ix2 (⟨r.val % 5000, Nat.mod_lt _ (by decide)⟩ : Fin 5000) j) (ix2 r j)
    (by show r.val = r.val / 5000 * 5000 + r.val % 5000; omega) rfl]
  rw [k5_pay1_apply, k5_pay2_apply]
  simp only [rows5a_apply, rows5c_apply]

end Cert.KernelIdeal.Hand

end
-- ==== Proof.KI.Layer3.lean ====
/-
  Layer 3 on the kernel side: the layer's output buffer after its combine region, as the combine's whole-array
  function of the four propagated sums (each the edge propagation of a column block of the layer's projection), the
  four bias rows, the two coefficient columns, the residual and its bias row — every operand read back through the
  stretch of host operations between the projection and the combine.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import proofs.«106078_j59889023976011_1_alg».proof.Proof.KI.Prop
import proofs.«106078_j59889023976011_1_alg».proof.Proof.KI.Transport
import proofs.«106078_j59889023976011_1_alg».proof.Proof.KI.Val4
import proofs.«106078_j59889023976011_1_alg».proof.Proof.KI.Val5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-- The projection's output array after its region. -/
theorem W10_main_v142 (c : Dev nD) : W10 m ρ c (Proc.devRef .tc main_v142) = G4 (W9 m ρ c (Proc.devRef .tc main_v140)) (W9 m ρ c (Proc.devRef .tc main_v141)) :=
  (W10_arr m ρ c 2).trans (final4 (V9 m ρ) c)

theorem W11_main_v158 (c : Dev nD) : W11 m ρ c (Proc.devRef .tc main_v158)
    = prop (extractStridedSlice S50000x128 ![0, 0] (W10 m ρ c (Proc.devRef .tc main_v142)) slices_S50000x384_S50000x128_0_0) (W10 m ρ c (Proc.devRef .tc main_v6)) (W10 m ρ c (Proc.devRef .tc main_v8)) (W10 m ρ c (Proc.devRef .tc main_arg2)) := by
  dsimp only [W11, hostOps5]
  after_results_simp
  rfl
theorem W11_main_v171 (c : Dev nD) : W11 m ρ c (Proc.devRef .tc main_v171)
    = prop (extractStridedSlice S50000x128 ![0, 256] (W10 m ρ c (Proc.devRef .tc main_v142)) slices_S50000x384_S50000x128_0_256) (W10 m ρ c (Proc.devRef .tc main_v6)) (W10 m ρ c (Proc.devRef .tc main_v8)) (W10 m ρ c (Proc.devRef .tc main_arg2)) := by
  dsimp only [W11, hostOps5]
  after_results_simp
  rfl
theorem W11_main_v184 (c : Dev nD) : W11 m ρ c (Proc.devRef .tc main_v184)
    = prop (extractStridedSlice S50000x128 ![0, 128] (W10 m ρ c (Proc.devRef .tc main_v142)) slices_S50000x384_S50000x128_0_128) (W10 m ρ c (Proc.devRef .tc main_v10)) (W10 m ρ c (Proc.devRef .tc main_v12)) (W10 m ρ c (Proc.devRef .tc main_arg4)) := by
  dsimp only [W11, hostOps5]
  after_results_simp
  rfl
theorem W11_main_v197 (c : Dev nD) : W11 m ρ c (Proc.devRef .tc main_v197)
    = prop (extractStridedSlice S50000x128 ![0, 256] (W10 m ρ c (Proc.devRef .tc main_v142)) slices_S50000x384_S50000x128_0_256) (W10 m ρ c (Proc.devRef .tc main_v10)) (W10 m ρ c (Proc.devRef .tc main_v12)) (W10 m ρ c (Proc.devRef .tc main_arg4)) := by
  dsimp only [W11, hostOps5]
  after_results_simp
  rfl
theorem W11_main_v199 (c : Dev nD) : W11 m ρ c (Proc.devRef .tc main_v199) = shapeCast S1x128 (W10 m ρ c (Proc.devRef .tc main_arg27)) shapeCasts_S128_S1x128 := by
  dsimp only [W11, hostOps5]
  after_results_simp
  rfl
theorem W11_main_v200 (c : Dev nD) : W11 m ρ c (Proc.devRef .tc main_v200) = shapeCast S1x128 (W10 m ρ c (Proc.devRef .tc main_arg29)) shapeCasts_S128_S1x128 := by
  dsimp only [W11, hostOps5]
  after_results_simp
  rfl
theorem W11_main_v201 (c : Dev nD) : W11 m ρ c (Proc.devRef .tc main_v201) = shapeCast S1x128 (W10 m ρ c (Proc.devRef .tc main_arg28)) shapeCasts_S128_S1x128 := by
  dsimp only [W11, hostOps5]
  after_results_simp
  rfl
theorem W11_main_v202 (c : Dev nD) : W11 m ρ c (Proc.devRef .tc main_v202) = shapeCast S1x128 (W10 m ρ c (Proc.devRef .tc main_arg30)) shapeCasts_S128_S1x128 := by
  dsimp only [W11, hostOps5]
  after_results_simp
  rfl
/-- The residual's bias row in this layer: zeros. -/
theorem W11_main_v203 (c : Dev nD) : W11 m ρ c (Proc.devRef .tc main_v203)
    = shapeCast S1x128 (broadcastInDim S128 ![] bcast_S_S128 (constant S_ .f32 0x00000000#32)) shapeCasts_S128_S1x128 := by
  dsimp only [W11, hostOps5]
  after_results_simp
  rfl

/-- The layer's output array after the combine region. -/
theorem W12_main_v204 (c : Dev nD) : W12 m ρ c (Proc.devRef .tc main_v204)
    = G5 (W11 m ρ c (Proc.devRef .tc main_v158)) (W11 m ρ c (Proc.devRef .tc main_v171)) (W11 m ρ c (Proc.devRef .tc main_v184)) (W11 m ρ c (Proc.devRef .tc main_v197)) (W11 m ρ c (Proc.devRef .tc main_v199)) (W11 m ρ c (Proc.devRef .tc main_v200)) (W11 m ρ c (Proc.devRef .tc main_v201)) (W11 m ρ c (Proc.devRef .tc main_v202))
        (W11 m ρ c (Proc.devRef .tc main_arg31)) (W11 m ρ c (Proc.devRef .tc main_arg32)) (W11 m ρ c (Proc.devRef .tc main_v140)) (W11 m ρ c (Proc.devRef .tc main_v203)) :=
  (W12_arr m ρ c 12).trans (final5 (V11 m ρ) c)

/-- The layer's three weight matrices side by side. -/
theorem W9_main_v141 (c : Dev nD) : W9 m ρ c (Proc.devRef .tc main_v141)
    = concatenate S128x384 1 [⟨S128x128, W8 m ρ c (Proc.devRef .tc main_arg24)⟩, ⟨S128x128, W8 m ρ c (Proc.devRef .tc main_arg25)⟩, ⟨S128x128, W8 m ρ c (Proc.devRef .tc main_arg26)⟩] concatenates_S128x128_S128x128_S128x128_S128x384_d1 := by
  dsimp only [W9, hostOps4]
  after_results
  rfl

/-- What the stretches and regions of this layer leave as it was: the previous layer's output (an input of both
    regions), and any buffer that is no array of a region and no result of a stretch. -/
theorem W11_main_v140_keep (c : Dev nD) : W11 m ρ c (Proc.devRef .tc main_v140) = W8 m ρ c (Proc.devRef .tc main_v140) :=
  (W11_keep m ρ c main_v140 (by decide)).trans <|
  ((W10_arr m ρ c 0).trans (((dat4 (V9 m ρ) c).arrAt_in 0 rfl _).trans (A_eq4 (V9 m ρ) c 0))).trans <|
  (W9_keep m ρ c main_v140 (by decide))
theorem W9_main_v140_keep (c : Dev nD) : W9 m ρ c (Proc.devRef .tc main_v140) = W8 m ρ c (Proc.devRef .tc main_v140) :=
  W9_keep m ρ c main_v140 (by decide)
theorem W10_carry (c : Dev nD) (r : Ref sig .tc) (h1 : ∀ w, Pipeline.arrRef spec4 w ≠ r) (h2 : r ∉ hostOps4_Wx) :
    W10 m ρ c (Proc.devRef .tc r) = W8 m ρ c (Proc.devRef .tc r) :=
  (W10_of_ne m ρ c r h1).trans (W9_keep m ρ c r h2)

end Cert.KernelIdeal.Hand

end
-- ==== Proof.RefLayer3.lean ====
/-
  Layer 3 of the reference as one pure function of the layer's input and the arguments it reads, and the reading
  that the fold of the layer's operations leaves that function's value in the layer's output buffer.
-/
import proofs.«106078_j59889023976011_1_alg».proof.Proof.RefStage
import proofs.«106078_j59889023976011_1_alg».proof.Proof.RefLayer1

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- Layer 3: the two directions' propagated sums with their biases, scaled by the per-node coefficients, plus the
    residual. -/
def layer3R (X : (⟨S50000x128, .f32⟩ : BufTy).Contents (Elt F)) (a1 : (⟨S2x640000, .i32⟩ : BufTy).Contents (Elt F)) (a2 : (⟨S640000, .f32⟩ : BufTy).Contents (Elt F)) (a3 : (⟨S2x640000, .i32⟩ : BufTy).Contents (Elt F)) (a4 : (⟨S640000, .f32⟩ : BufTy).Contents (Elt F)) (a24 : (⟨S128x128, .f32⟩ : BufTy).Contents (Elt F)) (a25 : (⟨S128x128, .f32⟩ : BufTy).Contents (Elt F)) (a26 : (⟨S128x128, .f32⟩ : BufTy).Contents (Elt F)) (a27 : (⟨S128, .f32⟩ : BufTy).Contents (Elt F)) (a28 : (⟨S128, .f32⟩ : BufTy).Contents (Elt F)) (a29 : (⟨S128, .f32⟩ : BufTy).Contents (Elt F)) (a30 : (⟨S128, .f32⟩ : BufTy).Contents (Elt F)) (a31 : (⟨S50000x1, .f32⟩ : BufTy).Contents (Elt F)) (a32 : (⟨S50000x1, .f32⟩ : BufTy).Contents (Elt F)) : (⟨S50000x128, .f32⟩ : BufTy).Contents (Elt F) :=
  addf (addf (mulf (bcastC a31) (addf (addf (addf (propR (Host.dotGeneral dot_S50000x128_S128x128_S50000x128_1_0_0_1_n_n none X a24) (idxS a1) (idxD a1) a2) (bb a27)) (propR (Host.dotGeneral dot_S50000x128_S128x128_S50000x128_1_0_0_1_n_n none X a26) (idxS a1) (idxD a1) a2)) (bb a29))) (mulf (bcastC a32) (addf (addf (addf (propR (Host.dotGeneral dot_S50000x128_S128x128_S50000x128_1_0_0_1_n_n none X a25) (idxS a3) (idxD a3) a4) (bb a28)) (propR (Host.dotGeneral dot_S50000x128_S128x128_S50000x128_1_0_0_1_n_n none X a26) (idxS a3) (idxD a3) a4)) (bb a30)))) X

set_option maxHeartbeats 4000000 in
/-- The fold of the layer's operations leaves the layer's value in its output buffer. -/
theorem after_cL3 (V : Valuation τ sig (Elt F)) :
    after (cL3 (F := F)) V (Proc.devRef .tc main_v283) = layer3R (V (Proc.devRef .tc main_v192)) (V (Proc.devRef .tc main_arg1)) (V (Proc.devRef .tc main_arg2)) (V (Proc.devRef .tc main_arg3)) (V (Proc.devRef .tc main_arg4)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) := by
  dsimp only [cL3]
  after_results_simp
  rfl

end Cert.ReferenceIdeal.Hand

end
-- ==== Proof.Bridge3.lean ====
/-
  Layer 3, the two sides compared at the ideal values: as in layer 1, with the layer's input itself as the residual
  and a zero bias row added to it on the kernel side (x + 0 = x); no clamp at zero in this layer.
-/
import proofs.«106078_j59889023976011_1_alg».proof.Proof.KI.Layer3
import proofs.«106078_j59889023976011_1_alg».proof.Proof.RefLayer3
import proofs.«106078_j59889023976011_1_alg».proof.Proof.Bridge1

set_option maxRecDepth 16384

noncomputable section

open Idealize.ShloMosaic Idealize.ShloMosaic.TcCoe Idealize.ShloMosaic.ValueIdx

namespace Cert.Proof.Bridge

open Cert.KernelIdeal.Hand Cert.ReferenceIdeal.Hand

set_option maxHeartbeats 4000000 in
theorem layer3_bridge (X : FVec Ideal Cert.KernelIdeal.S50000x128 .f32)
    (A1 A3 : (⟨Cert.KernelIdeal.S2x640000, .i32⟩ : BufTy).Contents (Elt Ideal)) (A2 A4 : (⟨Cert.KernelIdeal.S640000, .f32⟩ : BufTy).Contents (Elt Ideal))
    (A24 A25 A26 : FVec Ideal Cert.KernelIdeal.S128x128 .f32) (A27 A28 A29 A30 : FVec Ideal Cert.KernelIdeal.S128 .f32) (A31 A32 : FVec Ideal Cert.KernelIdeal.S50000x1 .f32) :
    G5 (F := Ideal)
      (prop (extractStridedSlice Cert.KernelIdeal.S50000x128 ![0, 0] (G4 (F := Ideal) X (concatenate Cert.KernelIdeal.S128x384 1 [⟨Cert.KernelIdeal.S128x128, A24⟩, ⟨Cert.KernelIdeal.S128x128, A25⟩, ⟨Cert.KernelIdeal.S128x128, A26⟩] Cert.KernelIdeal.Facts₀.concatenates_S128x128_S128x128_S128x128_S128x384_d1)) Cert.KernelIdeal.Facts₀.slices_S50000x384_S50000x128_0_0) (shapeCast Cert.KernelIdeal.S640000 (extractStridedSlice Cert.KernelIdeal.S1x640000 ![0, 0] A1 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A1 Cert.KernelIdeal.Facts₀.slices_S2x640000_S1x640000_1_0) Cert.KernelIdeal.Facts₀.shapeCasts_S1x640000_S640000) A2)
      (prop (extractStridedSlice Cert.KernelIdeal.S50000x128 ![0, 256] (G4 (F := Ideal) X (concatenate Cert.KernelIdeal.S128x384 1 [⟨Cert.KernelIdeal.S128x128, A24⟩, ⟨Cert.KernelIdeal.S128x128, A25⟩, ⟨Cert.KernelIdeal.S128x128, A26⟩] Cert.KernelIdeal.Facts₀.concatenates_S128x128_S128x128_S128x128_S128x384_d1)) Cert.KernelIdeal.Facts₀.slices_S50000x384_S50000x128_0_256) (shapeCast Cert.KernelIdeal.S640000 (extractStridedSlice Cert.KernelIdeal.S1x640000 ![0, 0] A1 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A1 Cert.KernelIdeal.Facts₀.slices_S2x640000_S1x640000_1_0) Cert.KernelIdeal.Facts₀.shapeCasts_S1x640000_S640000) A2)
      (prop (extractStridedSlice Cert.KernelIdeal.S50000x128 ![0, 128] (G4 (F := Ideal) X (concatenate Cert.KernelIdeal.S128x384 1 [⟨Cert.KernelIdeal.S128x128, A24⟩, ⟨Cert.KernelIdeal.S128x128, A25⟩, ⟨Cert.KernelIdeal.S128x128, A26⟩] Cert.KernelIdeal.Facts₀.concatenates_S128x128_S128x128_S128x128_S128x384_d1)) Cert.KernelIdeal.Facts₀.slices_S50000x384_S50000x128_0_128) (shapeCast Cert.KernelIdeal.S640000 (extractStridedSlice Cert.KernelIdeal.S1x640000 ![0, 0] A3 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A3 Cert.KernelIdeal.Facts₀.slices_S2x640000_S1x640000_1_0) Cert.KernelIdeal.Facts₀.shapeCasts_S1x640000_S640000) A4)
      (prop (extractStridedSlice Cert.KernelIdeal.S50000x128 ![0, 256] (G4 (F := Ideal) X (concatenate Cert.KernelIdeal.S128x384 1 [⟨Cert.KernelIdeal.S128x128, A24⟩, ⟨Cert.KernelIdeal.S128x128, A25⟩, ⟨Cert.KernelIdeal.S128x128, A26⟩] Cert.KernelIdeal.Facts₀.concatenates_S128x128_S128x128_S128x128_S128x384_d1)) Cert.KernelIdeal.Facts₀.slices_S50000x384_S50000x128_0_256) (shapeCast Cert.KernelIdeal.S640000 (extractStridedSlice Cert.KernelIdeal.S1x640000 ![0, 0] A3 Cert.KernelIdeal.Facts₀.slices_S2x640000_S1x640000_0_0) Cert.KernelIdeal.Facts₀.shapeCasts_S1x640000_S640000) (shapeCast Cert.KernelIdeal.S640000 (extractStridedSlice Cert.KernelIdeal.S1x640000 ![1, 0] A3 Cert.KernelIdeal.Facts₀.slices_S2x640000_S1x640000_1_0) Cert.KernelIdeal.Facts₀.shapeCasts_S1x640000_S640000) A4)
      (shapeCast Cert.KernelIdeal.S1x128 A27 Cert.KernelIdeal.Facts₀.shapeCasts_S128_S1x128) (shapeCast Cert.KernelIdeal.S1x128 A29 Cert.KernelIdeal.Facts₀.shapeCasts_S128_S1x128) (shapeCast Cert.KernelIdeal.S1x128 A28 Cert.KernelIdeal.Facts₀.shapeCasts_S128_S1x128) (shapeCast Cert.KernelIdeal.S1x128 A30 Cert.KernelIdeal.Facts₀.shapeCasts_S128_S1x128) A31 A32 X (shapeCast Cert.KernelIdeal.S1x128 (broadcastInDim Cert.KernelIdeal.S128 ![] Cert.KernelIdeal.Facts₀.bcast_S_S128 (constant (F := Ideal) Cert.KernelIdeal.S_ .f32 0x00000000#32)) Cert.KernelIdeal.Facts₀.shapeCasts_S128_S1x128)
    = layer3R (F := Ideal) X A1 A2 A3 A4 A24 A25 A26 A27 A28 A29 A30 A31 A32 := by
  rw [slice4_0_eq, slice4_2_eq, slice4_1_eq, prop_eq]
  funext i
  obtain ⟨r, j, rfl⟩ : ∃ (r : Fin 50000) (j : Fin 128), i = ix2 r j := ⟨i 0, i 1, eq_ix2 i⟩
  rw [G5_apply]
  unfold layer3R
  simp only [maximumf, addf, mulf, bb_apply, bcastC_apply, shapeCast_a_1a_apply, broadcastInDim_scalar_apply]
  have hz0 : ∀ x : EReal, x + broadcastInDim Cert.KernelIdeal.S128 ![] Cert.KernelIdeal.Facts₀.bcast_S_S128 (constant (F := Ideal) Cert.KernelIdeal.S_ .f32 0x00000000#32) (ix1 j) = x := fun x => by
    rw [broadcastInDim_scalar_apply]
    show x + Ideal.ofBits .f32 0x00000000#32 = x
    rw [Ideal.ofBits_zero_f32, add_zero]
  rw [hz0]
  rfl

end Cert.Proof.Bridge

end
-- ==== Proof.AsmS3.lean ====
/-
  The two equations, stage by stage. From launch memories that agree on the arguments: the features with the
  positional encoding agree; then each layer's output, because both sides' layer values are the reference's layer term
  of equal operands; then the two results, by the last stage's two comparisons.
-/

import proofs.«106078_j59889023976011_1_alg».proof.Proof.AsmB
import proofs.«106078_j59889023976011_1_alg».proof.Proof.AsmD
import proofs.«106078_j59889023976011_1_alg».proof.Proof.Bridge3
import proofs.«106078_j59889023976011_1_alg».proof.Proof.RefLayer3
import proofs.«106078_j59889023976011_1_alg».proof.Proof.KI.Args
import proofs.«106078_j59889023976011_1_alg».proof.Proof.KI.Layer3

import proofs.«106078_j59889023976011_1_alg».proof.Proof.AlgDefs

set_option maxRecDepth 16384

noncomputable section

open Idealize.ShloMosaic Idealize.ShloMosaic.TcCoe Idealize.SL.Sem Idealize.ShloMosaic.StableHlo

namespace Cert.Proof.Stages

open Cert.KernelIdeal.Hand Cert.ReferenceIdeal.Hand Cert.Proof.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- Stage 3: the layer's output buffers agree. -/
theorem stage3 (hag : Cert.Proof.Alg.Agree m m') (c : Dev Cert.KernelIdeal.nD)
    (h2 : after (cL2 (F := Ideal)) (after (cL1 (F := Ideal)) (after (cX (F := Ideal)) (U0 m' c))) (Proc.devRef .tc Cert.ReferenceIdeal.main_v192) = W8 (F := Ideal) m ρ c (Proc.devRef .tc Cert.KernelIdeal.main_v140)) : (after cL3 (after cL2 (after cL1 (after (cX (F := Ideal)) (U0 m' c))))) (Proc.devRef .tc Cert.ReferenceIdeal.main_v283) = W12 (F := Ideal) m ρ c (Proc.devRef .tc Cert.KernelIdeal.main_v204) := by
  obtain ⟨a0, a1, a2, a3, a4, a5, a6, a7, a8, a9, a10, a11, a12, a13, a14, a15, a16, a17, a18, a19, a20, a21, a22, a23, a24, a25, a26, a27, a28, a29, a30, a31, a32, a33, a34, a35, a36⟩ := hag c
  rw [after_cL3, h2, keep2 m' c Cert.ReferenceIdeal.main_arg1 (by decide), keep2 m' c Cert.ReferenceIdeal.main_arg2 (by decide), keep2 m' c Cert.ReferenceIdeal.main_arg3 (by decide), keep2 m' c Cert.ReferenceIdeal.main_arg4 (by decide), keep2 m' c Cert.ReferenceIdeal.main_arg24 (by decide), keep2 m' c Cert.ReferenceIdeal.main_arg25 (by decide), keep2 m' c Cert.ReferenceIdeal.main_arg26 (by decide), keep2 m' c Cert.ReferenceIdeal.main_arg27 (by decide), keep2 m' c Cert.ReferenceIdeal.main_arg28 (by decide), keep2 m' c Cert.ReferenceIdeal.main_arg29 (by decide), keep2 m' c Cert.ReferenceIdeal.main_arg30 (by decide), keep2 m' c Cert.ReferenceIdeal.main_arg31 (by decide), keep2 m' c Cert.ReferenceIdeal.main_arg32 (by decide)]
  rw [a1, a2, a3, a4, a24, a25, a26, a27, a28, a29, a30, a31, a32]
  rw [W12_main_v204, W11_main_v158, W11_main_v171, W11_main_v184, W11_main_v197, W11_main_v199, W11_main_v200, W11_main_v201, W11_main_v202, W11_main_v203, W11_main_arg31, W11_main_arg32, W11_main_v140_keep, W10_main_v142, W9_main_v140_keep, W9_main_v141,
    W10_carry m ρ c Cert.KernelIdeal.main_v6 (by decide) (by decide), W10_carry m ρ c Cert.KernelIdeal.main_v8 (by decide) (by decide), W10_carry m ρ c Cert.KernelIdeal.main_v10 (by decide) (by decide), W10_carry m ρ c Cert.KernelIdeal.main_v12 (by decide) (by decide),
    idx3_v6, idx3_v8, idx3_v10, idx3_v12,
    W8_main_arg24, W8_main_arg25, W8_main_arg26,
    W10_main_arg2, W10_main_arg4, W10_main_arg27, W10_main_arg28, W10_main_arg29, W10_main_arg30]
  exact (layer3_bridge _ _ _ _ _ _ _ _ _ _ _ _ _ _ ).symm

end Cert.Proof.Stages

end
-- ==== Proof.KI.Val6.lean ====
/-
  What region 6 (normalise, decode, log-softmax) leaves in its two result arrays.

  Block by block: at grid point t the pipeline writes back, into rows 5000 t to 5000 t + 4999 of the first result,
  the row-normalised rows 5000 t to 5000 t + 4999 of the input, and into the same rows of the second result the
  log-softmax of those normalised rows times the whole decoder matrix plus the bias row. As arrays: entry (r, j) of
  a result is entry (r mod 5000, j) of the body's value at row block r / 5000; the ten row blocks tile the 50000 rows.
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Region6
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Val6

variable (V : (c : Dev nD) → (b : Ref sig .tc) → Buf (Elt F) ((c : Thread nD τ).loc b))

theorem hz6 : (![0, 0] : Fin 2 → Nat) = fun _ => 0 := funext fun a => by fin_cases a <;> rfl

/-- Rows 5000 q to 5000 q + 4999 of the input. -/
def rows6 (X : S50000x128.Idx → Elt F .f32) (q : Fin 10) : S5000x128.Idx → Elt F .f32 :=
  fun y => X (ix2 (⟨q.val * 5000 + (y 0).val, by have := idx2_lt0 y; have := q.isLt; omega⟩ : Fin 50000) (y 1))

/-- The printed index maps over the grid: the input's and the two results' row-block index is the point, every other
    block index is zero. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The input's block at point t is its row block t; the decoder matrix's and the bias row's blocks are the whole arrays. -/
theorem iblk6_0 (c : Dev nD) (t : Fin cfg6.N) (hN : t.val < 10) (e0 : win6_0.index t (0 : Fin 2) = t.val) (e1 : win6_0.index t (1 : Fin 2) = 0) :
    iblk6 V c 0 t = rows6 (V c main_v204) ⟨t.val, hN⟩ := by
  funext y
  show V c main_v204 (((cfg6.win 0).blk t).view.emb y) = V c main_v204 (ix2 _ (y 1))
  refine congrArg (V c main_v204) ?_
  funext a; apply Fin.ext
  match a with
  | ⟨0, _⟩ => show win6_0.index t (0 : Fin 2) * 5000 + 1 * (y 0).val = t.val * 5000 + (y 0).val; rw [e0]; omega
  | ⟨1, _⟩ => show win6_0.index t (1 : Fin 2) * 128 + 1 * (y 1).val = (y 1).val; rw [e1]; omega
theorem iblk6_1 (c : Dev nD) (t : Fin cfg6.N) (e0 : win6_1.index t (0 : Fin 2) = 0) (e1 : win6_1.index t (1 : Fin 2) = 0) :
    iblk6 V c 1 t = V c main_arg35 := by
  funext y
  show V c main_arg35 (((cfg6.win 1).blk t).view.emb y) = V c main_arg35 y
  refine congrArg (V c main_arg35) ?_
  funext a; apply Fin.ext
  match a with
  | ⟨0, _⟩ => show win6_1.index t (0 : Fin 2) * 128 + 1 * (y 0).val = (y 0).val; rw [e0]; omega
  | ⟨1, _⟩ => show win6_1.index t (1 : Fin 2) * 256 + 1 * (y 1).val = (y 1).val; rw [e1]; omega
theorem iblk6_2 (c : Dev nD) (t : Fin cfg6.N) (e0 : win6_2.index t (0 : Fin 2) = 0) (e1 : win6_2.index t (1 : Fin 2) = 0) :
    iblk6 V c 2 t = V c main_v205 := by
  funext y
  show V c main_v205 (((cfg6.win 2).blk t).view.emb y) = V c main_v205 y
  refine congrArg (V c main_v205) ?_
  funext a; apply Fin.ext
  match a with
  | ⟨0, _⟩ => show win6_2.index t (0 : Fin 2) * 1 + 1 * (y 0).val = (y 0).val; rw [e0]; omega
  | ⟨1, _⟩ => show win6_2.index t (1 : Fin 2) * 256 + 1 * (y 1).val = (y 1).val; rw [e1]; omega

/-- What point t writes back into output window 3. -/
theorem flushed6_3 (c : Dev nD) (t : Fin cfg6.N) :
    (dat6 V c).flushed 3 t = k6_pay1 (iblk6 V c 0 t) := by
  show (cfg6.win 3).cut (grid6.coords t) ((dat6 V c).after 3 t) = _
  rw [after6_3]
  unfold out6_3
  rw [View.canon_unit_zero hz6]
  simp only [View.ld_unit_zero (S := S5000x128) hz6, View.ld_unit_zero (S := S128x256) hz6, View.ld_unit_zero (S := S1x256) hz6]
  rfl

/-- Output 3's array as one function of the operand arrays. -/
def G6e (x0 : S50000x128.Idx → Elt F .f32) : S50000x128.Idx → Elt F .f32 :=
  fun i => k6_pay1 (rows6 x0 ⟨(i 0).val / 5000, by have := idx2_lt0 i; omega⟩)
    (ix2 (⟨(i 0).val % 5000, Nat.mod_lt _ (by decide)⟩ : Fin 5000) (i 1))

theorem G6e_at (x0 : S50000x128.Idx → Elt F .f32) (q : Fin 10) (y : S5000x128.Idx) (i : S50000x128.Idx)
    (h0 : (i 0).val = q.val * 5000 + (y 0).val) (h1 : (i 1).val = (y 1).val) :
    G6e x0 i = k6_pay1 (rows6 x0 q) y := by
  have key : ∀ (q' : Fin 10) (y' : S5000x128.Idx), q' = q → y' = y → k6_pay1 (rows6 x0 q') y' = k6_pay1 (rows6 x0 q) y := by
    rintro _ _ rfl rfl; rfl
  have hy := idx2_lt0 y
  unfold G6e
  refine key _ _ (Fin.ext ?_) ?_
  · show (i 0).val / 5000 = q.val
    rw [h0]; omega
  · funext a
    match a with
    | ⟨0, _⟩ => exact Fin.ext (by show (i 0).val % 5000 = (y 0).val; rw [h0]; omega)
    | ⟨1, _⟩ => exact Fin.ext h1

theorem flushed6_3_eq (c : Dev nD) (t : Fin cfg6.N) :
    (dat6 V c).flushed 3 t = ((cfg6.win 3).blk t).view.read (Elt F) (G6e (V c main_v204)) := by
  obtain ⟨e0_0, e0_1, e1_0, e1_1, e2_0, e2_1, e3_0, e3_1, e4_0, e4_1⟩ := idx_facts6 t
  have hN : t.val < 10 := lt_of_lt_of_eq t.isLt N_6
  have h0 := iblk6_0 V c t hN e0_0 e0_1
  have h1 := iblk6_1 V c t e1_0 e1_1
  have h2 := iblk6_2 V c t e2_0 e2_1
  rw [flushed6_3, h0]
  funext j
  show _ = G6e (V c main_v204) (((cfg6.win 3).blk t).view.emb j)
  refine (G6e_at (V c main_v204) ⟨t.val, hN⟩ j _ ?_ ?_).symm
  · show win6_3.index t (0 : Fin 2) * 5000 + 1 * (j 0).val = t.val * 5000 + (j 0).val; rw [e3_0]; omega
  · show win6_3.index t (1 : Fin 2) * 128 + 1 * (j 1).val = (j 1).val; rw [e3_1]; omega

theorem mem_blk6_3 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v206_0).slice (win6_3.rect t)).set ↔ _
  rw [View.set_slice_whole, Rect.mem_set_unit]
  exact Iff.rfl

theorem covered6_3 (i : S50000x128.Idx) : ∃ t : Fin cfg6.N, (cfg6.win 3).flush t = true ∧ i ∈ ((cfg6.win 3).blk t).view.set := by
  have hi0 := idx2_lt0 i
  have hi1 := idx2_lt1 i
  have hlt : (i 0).val / 5000 < cfg6.N := lt_of_lt_of_eq (by omega : (i 0).val / 5000 < 10) N_6.symm
  refine ⟨⟨(i 0).val / 5000, hlt⟩, flush6_3 _, ?_⟩
  rw [mem_blk6_3]
  obtain ⟨-, -, -, -, -, -, e3_0, e3_1, e4_0, e4_1⟩ := idx_facts6 ⟨(i 0).val / 5000, hlt⟩
  have e0 : win6_3.index ⟨(i 0).val / 5000, hlt⟩ (0 : Fin 2) = (i 0).val / 5000 := e3_0
  intro a
  match a with
  | ⟨0, _⟩ =>
    show win6_3.index ⟨(i 0).val / 5000, hlt⟩ (0 : Fin 2) * 5000 ≤ (i 0).val ∧ (i 0).val < win6_3.index ⟨(i 0).val / 5000, hlt⟩ (0 : Fin 2) * 5000 + 5000
    rw [e0]; omega
  | ⟨1, _⟩ =>
    show win6_3.index ⟨(i 0).val / 5000, hlt⟩ (1 : Fin 2) * 128 ≤ (i 1).val ∧ (i 1).val < win6_3.index ⟨(i 0).val / 5000, hlt⟩ (1 : Fin 2) * 128 + 128
    rw [e3_1]; omega

/-- Output 3's array after the region. -/
theorem final6_3 (c : Dev nD) : (dat6 V c).arrAt 3 cfg6.N = G6e (V c main_v204) :=
  (dat6 V c).arrAt_eq_of_cover 3 _ (fun t _ => flushed6_3_eq V c t) covered6_3

/-- What point t writes back into output window 4. -/
theorem flushed6_4 (c : Dev nD) (t : Fin cfg6.N) :
    (dat6 V c).flushed 4 t = k6_pay2 (iblk6 V c 0 t) (iblk6 V c 1 t) (iblk6 V c 2 t) := by
  show (cfg6.win 4).cut (grid6.coords t) ((dat6 V c).after 4 t) = _
  rw [after6_4]
  unfold out6_4
  rw [View.canon_unit_zero hz6]
  simp only [View.ld_unit_zero (S := S5000x128) hz6, View.ld_unit_zero (S := S128x256) hz6, View.ld_unit_zero (S := S1x256) hz6]
  rfl

/-- Output 4's array as one function of the operand arrays. -/
def G6l (x0 : S50000x128.Idx → Elt F .f32) (x1 : S128x256.Idx → Elt F .f32) (x2 : S1x256.Idx → Elt F .f32) : S50000x256.Idx → Elt F .f32 :=
  fun i => k6_pay2 (rows6 x0 ⟨(i 0).val / 5000, by have := idx2_lt0 i; omega⟩) x1 x2
    (ix2 (⟨(i 0).val % 5000, Nat.mod_lt _ (by decide)⟩ : Fin 5000) (i 1))

theorem G6l_at (x0 : S50000x128.Idx → Elt F .f32) (x1 : S128x256.Idx → Elt F .f32) (x2 : S1x256.Idx → Elt F .f32) (q : Fin 10) (y : S5000x256.Idx) (i : S50000x256.Idx)
    (h0 : (i 0).val = q.val * 5000 + (y 0).val) (h1 : (i 1).val = (y 1).val) :
    G6l x0 x1 x2 i = k6_pay2 (rows6 x0 q) x1 x2 y := by
  have key : ∀ (q' : Fin 10) (y' : S5000x256.Idx), q' = q → y' = y → k6_pay2 (rows6 x0 q') x1 x2 y' = k6_pay2 (rows6 x0 q) x1 x2 y := by
    rintro _ _ rfl rfl; rfl
  have hy := idx2_lt0 y
  unfold G6l
  refine key _ _ (Fin.ext ?_) ?_
  · show (i 0).val / 5000 = q.val
    rw [h0]; omega
  · funext a
    match a with
    | ⟨0, _⟩ => exact Fin.ext (by show (i 0).val % 5000 = (y 0).val; rw [h0]; omega)
    | ⟨1, _⟩ => exact Fin.ext h1

theorem flushed6_4_eq (c : Dev nD) (t : Fin cfg6.N) :
    (dat6 V c).flushed 4 t = ((cfg6.win 4).blk t).view.read (Elt F) (G6l (V c main_v204) (V c main_arg35) (V c main_v205)) := by
  obtain ⟨e0_0, e0_1, e1_0, e1_1, e2_0, e2_1, e3_0, e3_1, e4_0, e4_1⟩ := idx_facts6 t
  have hN : t.val < 10 := lt_of_lt_of_eq t.isLt N_6
  have h0 := iblk6_0 V c t hN e0_0 e0_1
  have h1 := iblk6_1 V c t e1_0 e1_1
  have h2 := iblk6_2 V c t e2_0 e2_1
  rw [flushed6_4, h0, h1, h2]
  funext j
  show _ = G6l (V c main_v204) (V c main_arg35) (V c main_v205) (((cfg6.win 4).blk t).view.emb j)
  refine (G6l_at (V c main_v204) (V c main_arg35) (V c main_v205) ⟨t.val, hN⟩ j _ ?_ ?_).symm
  · show win6_4.index t (0 : Fin 2) * 5000 + 1 * (j 0).val = t.val * 5000 + (j 0).val; rw [e4_0]; omega
  · show win6_4.index t (1 : Fin 2) * 256 + 1 * (j 1).val = (j 1).val; rw [e4_1]; omega

theorem mem_blk6_4 (t : Fin cfg6.N) (i : S50000x256.Idx) :
    i ∈ ((cfg6.win 4).blk t).view.set ↔ ∀ a : Fin 2, win6_4.index t a * S5000x256.size a ≤ (i a).val ∧ (i a).val < win6_4.index t a * S5000x256.size a + S5000x256.size a := by
  show i ∈ ((View.whole main_v206_1).slice (win6_4.rect t)).set ↔ _
  rw [View.set_slice_whole, Rect.mem_set_unit]
  exact Iff.rfl

theorem covered6_4 (i : S50000x256.Idx) : ∃ t : Fin cfg6.N, (cfg6.win 4).flush t = true ∧ i ∈ ((cfg6.win 4).blk t).view.set := by
  have hi0 := idx2_lt0 i
  have hi1 := idx2_lt1 i
  have hlt : (i 0).val / 5000 < cfg6.N := lt_of_lt_of_eq (by omega : (i 0).val / 5000 < 10) N_6.symm
  refine ⟨⟨(i 0).val / 5000, hlt⟩, flush6_4 _, ?_⟩
  rw [mem_blk6_4]
  obtain ⟨-, -, -, -, -, -, e3_0, e3_1, e4_0, e4_1⟩ := idx_facts6 ⟨(i 0).val / 5000, hlt⟩
  have e0 : win6_4.index ⟨(i 0).val / 5000, hlt⟩ (0 : Fin 2) = (i 0).val / 5000 := e4_0
  intro a
  match a with
  | ⟨0, _⟩ =>
    show win6_4.index ⟨(i 0).val / 5000, hlt⟩ (0 : Fin 2) * 5000 ≤ (i 0).val ∧ (i 0).val < win6_4.index ⟨(i 0).val / 5000, hlt⟩ (0 : Fin 2) * 5000 + 5000
    rw [e0]; omega
  | ⟨1, _⟩ =>
    show win6_4.index ⟨(i 0).val / 5000, hlt⟩ (1 : Fin 2) * 256 ≤ (i 1).val ∧ (i 1).val < win6_4.index ⟨(i 0).val / 5000, hlt⟩ (1 : Fin 2) * 256 + 256
    rw [e4_1]; omega

/-- Output 4's array after the region. -/
theorem final6_4 (c : Dev nD) : (dat6 V c).arrAt 4 cfg6.N = G6l (V c main_v204) (V c main_arg35) (V c main_v205) :=
  (dat6 V c).arrAt_eq_of_cover 4 _ (fun t _ => flushed6_4_eq V c t) covered6_4

end Val6

end Cert.KernelIdeal.Hand

end
-- ==== Proof.KI.LayerF.lean ====
/-
  The last stage on the kernel side: the two result buffers after the final region, as that region's whole-array
  functions of the third layer's output, the decoder matrix and the bias row (the bias of 256 entries reshaped to a
  row by the one host operation before the region).
-/
import proofs.«106078_j59889023976011_1_alg».proof.Proof.Gen.KernelIdeal.Launch
import proofs.«106078_j59889023976011_1_alg».proof.Proof.Gen.KernelIdeal.Skeleton
import proofs.«106078_j59889023976011_1_alg».proof.Proof.Gen.KernelIdeal.Points
import proofs.«106078_j59889023976011_1_alg».proof.Proof.KI.Fold
import proofs.«106078_j59889023976011_1_alg».proof.Proof.KI.Transport
import proofs.«106078_j59889023976011_1_alg».proof.Proof.KI.Val6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

theorem W13_main_v205 (c : Dev nD) : W13 m ρ c (Proc.devRef .tc main_v205) = shapeCast S1x256 (W12 m ρ c (Proc.devRef .tc main_arg36)) shapeCasts_S256_S1x256 := by
  dsimp only [W13, hostOps6]
  after_results
  rfl
theorem W13_main_v204 (c : Dev nD) : W13 m ρ c (Proc.devRef .tc main_v204) = W12 m ρ c (Proc.devRef .tc main_v204) :=
  W13_keep m ρ c main_v204 (by decide)

/-- The normalised embedding after the run. -/
theorem W14_main_v206_0 (c : Dev nD) : W14 m ρ c (Proc.devRef .tc main_v206_0) = G6e (W13 m ρ c (Proc.devRef .tc main_v204)) :=
  (W14_arr m ρ c 3).trans (final6_3 (V13 m ρ) c)
/-- The log-probabilities after the run. -/
theorem W14_main_v206_1 (c : Dev nD) : W14 m ρ c (Proc.devRef .tc main_v206_1)
    = G6l (W13 m ρ c (Proc.devRef .tc main_v204)) (W13 m ρ c (Proc.devRef .tc main_arg35)) (W13 m ρ c (Proc.devRef .tc main_v205)) :=
  (W14_arr m ρ c 4).trans (final6_4 (V13 m ρ) c)

end Cert.KernelIdeal.Hand

end
-- ==== Proof.BridgeF.lean ====
/-
  The last stage, first result, the two sides compared at the ideal values: each row divided by the larger of its
  Euclidean norm and eps. On the kernel side entry (r, j) is read in row block r / 5000 at row r mod 5000: the block's
  row sum of squares is the array's row sum of squares, the column of clamped norms is read at (·, 0), and the
  division is the same exact division.
-/
import proofs.«106078_j59889023976011_1_alg».proof.Proof.KI.Val6
import proofs.«106078_j59889023976011_1_alg».proof.Proof.RefFinal
import Idealize.ShloMosaic.Lib.ValueLayout
import Idealize.ShloMosaic.Lib.IdealHost
import Idealize.ShloMosaic.PureOps.Ideal.Laws

set_option maxRecDepth 16384

noncomputable section

open Idealize.ShloMosaic Idealize.ShloMosaic.TcCoe Idealize.ShloMosaic.ValueIdx

namespace Cert.Proof.Bridge

open Cert.KernelIdeal.Hand Cert.ReferenceIdeal.Hand

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A [5000, 1] column broadcast to [5000, 128] reads, at (p, c), the column at p. -/
theorem bcast_col6 {α : Type} (v : Cert.KernelIdeal.S5000x1.Idx → α) (h : Cert.KernelIdeal.S5000x1.Broadcasts Cert.KernelIdeal.S5000x128) (p : Fin 5000) (c : Fin 128) :
    broadcastTo Cert.KernelIdeal.S5000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The body's sum along a block's rows, read at a row: the sum of the row's 128 entries. -/
theorem rowsum6 (v : FVec Ideal Cert.KernelIdeal.S5000x128 .f32) (a : Fin 5000) :
    multiReduction (F := Ideal) .add [1] Cert.KernelIdeal.S5000 v 0x00000000#32 Cert.KernelIdeal.Facts₀.reduces_S5000x128_S5000 (.inl rfl) rfl (ix1 a)
      = ∑ k : Fin 128, v (ix2 a k) := by
  refine (Ideal.multiReduction_add_single v 0x00000000#32 Cert.KernelIdeal.Facts₀.reduces_S5000x128_S5000 (.inl rfl) rfl (ix1 a)).trans ?_
  refine Finset.sum_congr rfl fun k _ => congrArg v ?_
  funext c; apply Fin.ext
  match c with
  | ⟨0, _⟩ => rfl
  | ⟨1, _⟩ => rfl

/-- The body's normalised block at an entry. -/
theorem k6_pay1_apply (v0 : FVec Ideal Cert.KernelIdeal.S5000x128 .f32) (a : Fin 5000) (b : Fin 128) :
    Cert.KernelIdeal.Gen.k6_pay1 (F := Ideal) v0 (ix2 a b)
      = FloatOps.divf (v0 (ix2 a b)) (max (FloatOps.sqrt (∑ k : Fin 128, v0 (ix2 a k) * v0 (ix2 a k))) (Scalar.ofBits .f32 0x2B8CBCCC#32 : Ideal .f32)) := by
  unfold Cert.KernelIdeal.Gen.k6_pay1
  simp only [shapeCast_self, divf, maximumf, sqrt, broadcast, bcast_col6, shapeCast_a_a1_apply]
  refine congrArg (fun z => FloatOps.divf (v0 (ix2 a b)) (FloatOps.maximumf (FloatOps.sqrt z) (FloatOps.ofBits .f32 0x2B8CBCCC#32))) ?_
  exact rowsum6 (mulf v0 v0) a

end Cert.Proof.Bridge

end
-- ==== Proof.BridgeF2.lean ====
/-
  The last stage, first result: the kernel side's whole-array function is the reference's term.
-/
import proofs.«106078_j59889023976011_1_alg».proof.Proof.BridgeF

set_option maxRecDepth 16384

noncomputable section

open Idealize.ShloMosaic Idealize.ShloMosaic.TcCoe Idealize.ShloMosaic.ValueIdx

namespace Cert.Proof.Bridge

open Cert.KernelIdeal.Hand Cert.ReferenceIdeal.Hand

/-- The host's sum along the rows of a 50000 × 128 array from a zero start, read at a row. -/
theorem refRowsum128 (x : FVec Ideal Cert.ReferenceIdeal.S50000x128 .f32) (r : Fin 50000) :
    Host.reduceAdd (F := Ideal) x (constant (F := Ideal) Cert.ReferenceIdeal.S_ .f32 0x00000000#32) Cert.ReferenceIdeal.Facts₀.reducesTo_S50000x128_S50000_d1 Cert.ReferenceIdeal.Facts₀.h_S_ (ix1 r)
      = ∑ k : Fin 128, x (ix2 r k) := by
  have h : Cert.ReferenceIdeal.S50000x128.Reduces [1] Cert.ReferenceIdeal.S50000 := by decide
  rw [hostReduceAdd_apply, Ideal.hostReduceAdd_single _ h]
  show Ideal.ofBits .f32 0x00000000#32 + _ = _
  rw [Ideal.ofBits_zero_f32, zero_add]
  refine Finset.sum_congr rfl fun k _ => congrArg x ?_
  funext c; apply Fin.ext
  match c with
  | ⟨0, _⟩ => rfl
  | ⟨1, _⟩ => rfl

/-- The reference's normalised array at an entry. -/
theorem embR_apply (H : FVec Ideal Cert.ReferenceIdeal.S50000x128 .f32) (r : Fin 50000) (j : Fin 128) :
    Cert.ReferenceIdeal.Hand.embR (F := Ideal) H (ix2 r j)
      = Ideal.div (H (ix2 r j)) (max (Ideal.sqrt (∑ k : Fin 128, H (ix2 r k) * H (ix2 r k))) (Ideal.ofBits .f32 0x2B8CBCCC#32)) := by
  unfold Cert.ReferenceIdeal.Hand.embR
  rw [hostDivf_apply]
  rw [broadcastInDim_apply _ _ _ (ix2 r j) (ix2 r (0 : Fin 1)) (by intro a; match a with | ⟨0, _⟩ => rfl | ⟨1, _⟩ => rfl)]
  simp only [maximumf, Host.sqrt]
  rw [broadcastInDim_scalar_apply]
  rw [broadcastInDim_apply _ _ _ (ix2 r (0 : Fin 1)) (ix1 r) (by intro a; match a with | ⟨0, _⟩ => rfl), refRowsum128]
  rfl

/-- Row r lies in row block r / 5000, at r mod 5000. -/
theorem rows6_apply (X : FVec Ideal Cert.KernelIdeal.S50000x128 .f32) (r : Fin 50000) (j : Fin 128) :
    rows6 (F := Ideal) X ⟨r.val / 5000, by have := r.isLt; omega⟩ (ix2 (⟨r.val % 5000, Nat.mod_lt _ (by decide)⟩ : Fin 5000) j) = X (ix2 r j) := by
  unfold rows6
  refine congrArg X ?_
  funext a
  match a with
  | ⟨0, _⟩ => exact Fin.ext (by show r.val / 5000 * 5000 + r.val % 5000 = r.val; omega)
  | ⟨1, _⟩ => rfl

/-- THE FIRST RESULT: the kernel side's normalised array is the reference's. -/
theorem emb_bridge (H : FVec Ideal Cert.KernelIdeal.S50000x128 .f32) : G6e (F := Ideal) H = Cert.ReferenceIdeal.Hand.embR (F := Ideal) H := by
  funext i
  obtain ⟨r, j, rfl⟩ : ∃ (r : Fin 50000) (j : Fin 128), i = ix2 r j := ⟨i 0, i 1, eq_ix2 i⟩
  have hr := r.isLt
  rw [G6e_at (F := Ideal) H ⟨r.val / 5000, by omega⟩ (ix2 (⟨r.val % 5000, Nat.mod_lt _ (by decide)⟩ : Fin 5000) j) (ix2 r j)
    (by show r.val = r.val / 5000 * 5000 + r.val % 5000; omega) rfl]
  rw [k6_pay1_apply, embR_apply]
  simp only [rows6_apply]
  rfl

end Cert.Proof.Bridge

end
-- ==== Proof.BridgeF3.lean ====
/-
  The last stage, second result, the two sides compared at the ideal values: the log-softmax of the decoded rows.
  Write L(r, b) for the decoded entry (the normalised row times column b of the decoder plus the bias entry b),
  M(r) for the row maximum taken as a fold of max from minus infinity, and S(r) for the row sum of exp(L(r, k) - M(r)).
  Both sides compute (L(r, b) - M(r)) - log S(r): the kernel side on the row's block, the reference on the whole
  array, where it takes max(minus infinity, M(r)) = M(r), and starts its sums from 0.
-/
import proofs.«106078_j59889023976011_1_alg».proof.Proof.BridgeF2
import Idealize.ShloMosaic.Lib.StackMember

set_option maxRecDepth 16384

noncomputable section

open Idealize.ShloMosaic Idealize.ShloMosaic.TcCoe Idealize.ShloMosaic.ValueIdx Idealize.ShloMosaic.StackMember

namespace Cert.Proof.Bridge

open Cert.KernelIdeal.Hand Cert.ReferenceIdeal.Hand

/-- The larger of a and a fold of max that starts from a is the fold. -/
theorem le_fold_max_start {ι : Type} (s : Finset ι) (a : EReal) (f : ι → EReal) : a ≤ s.fold max a f := by
  classical
  induction s using Finset.induction_on with
  | empty => simp
  | insert x s hx ih => rw [Finset.fold_insert hx]; exact le_max_of_le_right ih
theorem max_fold_self {ι : Type} (s : Finset ι) (a : EReal) (f : ι → EReal) : max a (s.fold max a f) = s.fold max a f :=
  max_eq_right (le_fold_max_start s a f)

/-- Broadcasts of the last stage's shapes, read at an entry. -/
theorem bcast_col256 {α : Type} (v : Cert.KernelIdeal.S5000x1.Idx → α) (h : Cert.KernelIdeal.S5000x1.Broadcasts Cert.KernelIdeal.S5000x256) (p : Fin 5000) (c : Fin 256) :
    broadcastTo Cert.KernelIdeal.S5000x256 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The body's sums and maxima along a 5000 × 256 block's rows, read at a row. -/
theorem rowsum256 (v : FVec Ideal Cert.KernelIdeal.S5000x256 .f32) (a : Fin 5000) :
    multiReduction (F := Ideal) .add [1] Cert.KernelIdeal.S5000 v 0x00000000#32 Cert.KernelIdeal.Facts₀.reduces_S5000x256_S5000 (.inl rfl) rfl (ix1 a)
      = ∑ k : Fin 256, v (ix2 a k) := by
  refine (Ideal.multiReduction_add_single v 0x00000000#32 Cert.KernelIdeal.Facts₀.reduces_S5000x256_S5000 (.inl rfl) rfl (ix1 a)).trans ?_
  refine Finset.sum_congr rfl fun k _ => congrArg v ?_
  funext c; apply Fin.ext
  match c with
  | ⟨0, _⟩ => rfl
  | ⟨1, _⟩ => rfl
theorem rowmax256 (v : FVec Ideal Cert.KernelIdeal.S5000x256 .f32) (a : Fin 5000) :
    multiReduction (F := Ideal) .maximumf [1] Cert.KernelIdeal.S5000 v 0xFF800000#32 Cert.KernelIdeal.Facts₀.reduces_S5000x256_S5000 (.inl rfl) rfl (ix1 a)
      = (Finset.univ : Finset (Fin 256)).fold max (Ideal.ofBits .f32 0xFF800000#32) (fun k => v (ix2 a k)) := by
  refine (Ideal.multiReduction_maximumf_single v 0xFF800000#32 Cert.KernelIdeal.Facts₀.reduces_S5000x256_S5000 (.inl rfl) rfl (ix1 a)).trans ?_
  refine congrArg (Finset.fold max _ · _) (funext fun k => congrArg v ?_)
  funext c; apply Fin.ext
  match c with
  | ⟨0, _⟩ => rfl
  | ⟨1, _⟩ => rfl

/-- The host's sums and maxima along the rows of a 50000 × 256 array, read at a row. -/
theorem refRowsum256 (x : FVec Ideal Cert.ReferenceIdeal.S50000x256 .f32) (r : Fin 50000) :
    Host.reduceAdd (F := Ideal) x (constant (F := Ideal) Cert.ReferenceIdeal.S_ .f32 0x00000000#32) Cert.ReferenceIdeal.Facts₀.reducesTo_S50000x256_S50000_d1 Cert.ReferenceIdeal.Facts₀.h_S_ (ix1 r)
      = ∑ k : Fin 256, x (ix2 r k) := by
  have h : Cert.ReferenceIdeal.S50000x256.Reduces [1] Cert.ReferenceIdeal.S50000 := by decide
  rw [hostReduceAdd_apply, Ideal.hostReduceAdd_single _ h]
  show Ideal.ofBits .f32 0x00000000#32 + _ = _
  rw [Ideal.ofBits_zero_f32, zero_add]
  refine Finset.sum_congr rfl fun k _ => congrArg x ?_
  funext c; apply Fin.ext
  match c with
  | ⟨0, _⟩ => rfl
  | ⟨1, _⟩ => rfl
theorem refRowmax256 (x : FVec Ideal Cert.ReferenceIdeal.S50000x256 .f32) (r : Fin 50000) :
    Host.reduce (FloatOps.maximumf (F := Ideal) (φ := .f32)) x (constant (F := Ideal) Cert.ReferenceIdeal.S_ .f32 0xFF800000#32) Cert.ReferenceIdeal.Facts₀.reducesTo_S50000x256_S50000_d1 Cert.ReferenceIdeal.Facts₀.h_S_ (ix1 r)
      = (Finset.univ : Finset (Fin 256)).fold max (Ideal.ofBits .f32 0xFF800000#32) (fun k => x (ix2 r k)) := by
  have h : Cert.ReferenceIdeal.S50000x256.Reduces [1] Cert.ReferenceIdeal.S50000 := by decide
  refine (Host.reduce_eq_fold_single (FloatOps.maximumf (F := Ideal) (φ := .f32)) x _ Cert.ReferenceIdeal.Facts₀.reducesTo_S50000x256_S50000_d1 h Cert.ReferenceIdeal.Facts₀.h_S_ (ix1 r)).trans ?_
  refine congrArg (Finset.fold max _ · _) (funext fun k => congrArg x ?_)
  funext c; apply Fin.ext
  match c with
  | ⟨0, _⟩ => rfl
  | ⟨1, _⟩ => rfl

end Cert.Proof.Bridge

end
-- ==== Proof.BridgeF4a.lean ====
/-
  The last stage, second result (part of the comparison; see the first part's header).
-/
import proofs.«106078_j59889023976011_1_alg».proof.Proof.BridgeF3
import Idealize.ShloMosaic.Lib.StackMember

set_option maxRecDepth 16384

noncomputable section

open Idealize.ShloMosaic Idealize.ShloMosaic.TcCoe Idealize.ShloMosaic.ValueIdx Idealize.ShloMosaic.StackMember

namespace Cert.Proof.Bridge

open Cert.KernelIdeal.Hand Cert.ReferenceIdeal.Hand

/-- minus infinity, as both programs spell it -/
abbrev ninf : EReal := Ideal.ofBits .f32 0xFF800000#32

/-- The log-softmax of a row of 256 decoded entries, at entry b: (L b - M) - log (sum of exp (L k - M)), M the fold of max
    from minus infinity. -/
def lsm (L : Fin 256 → EReal) (b : Fin 256) : EReal :=
  (L b - (Finset.univ : Finset (Fin 256)).fold max ninf L)
    - Ideal.log (∑ k : Fin 256, Ideal.exp (L k - (Finset.univ : Finset (Fin 256)).fold max ninf L))

/-- The body's matrix product of a block with the decoder, at an entry. -/
theorem mm6_apply (x : FVec Ideal Cert.KernelIdeal.S5000x128 .bf16) (w : FVec Ideal Cert.KernelIdeal.S128x256 .bf16) (a : Fin 5000) (b : Fin 256) :
    FloatOps.matmul (F := Ideal) Cert.KernelIdeal.dot_S5000x128_S128x256_S5000x256_1_0_0_1_n_n none x w (constant (F := Ideal) Cert.KernelIdeal.S5000x256 .f32 0x00000000#32) (ix2 a b)
      = ∑ c : Fin 128, x (ix2 a c) * w (ix2 c b) := by
  have h := dotGeneral_plain_apply (m := 5000) (n := 256) (k := 128) (φ₁ := .bf16) (φ₂ := .bf16) none x w a b
  rw [← h]
  show FloatOps.matmul (F := Ideal) (DotDims.plain 5000 128 256) none x w (constant (F := Ideal) Cert.KernelIdeal.S5000x256 .f32 0x00000000#32) (ix2 a b)
    = FloatOps.dotGeneral (F := Ideal) (DotDims.plain 5000 128 256) none _ x w (ix2 a b)
  rw [Ideal.matmul_constant_zero_apply, Ideal.dotGeneral_apply]

/-- The kernel side's decoded entry: the normalised block's row times a decoder column, plus the bias entry. -/
def Lk (v0 : FVec Ideal Cert.KernelIdeal.S5000x128 .f32) (w : FVec Ideal Cert.KernelIdeal.S128x256 .f32) (bias : FVec Ideal Cert.KernelIdeal.S1x256 .f32) (a : Fin 5000) (k : Fin 256) : EReal :=
  (∑ c : Fin 128, Cert.KernelIdeal.Gen.k6_pay1 (F := Ideal) v0 (ix2 a c) * w (ix2 c k)) + bias (ix2 (0 : Fin 1) k)

/-- The decoded block: the normalised block times the decoder, plus the bias row. -/
def logits6 (v0 : FVec Ideal Cert.KernelIdeal.S5000x128 .f32) (w : FVec Ideal Cert.KernelIdeal.S128x256 .f32) (bias : FVec Ideal Cert.KernelIdeal.S1x256 .f32) : FVec Ideal Cert.KernelIdeal.S5000x256 .f32 :=
  addf (matmul Cert.KernelIdeal.dot_S5000x128_S128x256_S5000x256_1_0_0_1_n_n none (truncf .bf16 (Cert.KernelIdeal.Gen.k6_pay1 (F := Ideal) v0) Cert.KernelIdeal.Facts₀.bitsLt_bf16_f32) (truncf .bf16 w Cert.KernelIdeal.Facts₀.bitsLt_bf16_f32) (constant Cert.KernelIdeal.S5000x256 .f32 0x00000000#32))
    (broadcastTo Cert.KernelIdeal.S5000x256 (shapeCast Cert.KernelIdeal.S1x256 bias Cert.KernelIdeal.Facts₀.shapeCasts_S1x256_S1x256) Cert.KernelIdeal.Facts₀.broadcasts_S1x256_S5000x256)

/-- The row maxima of a block of decoded rows; the block less its row maxima; the row sums of the exponentials. -/
def mx6 (L : FVec Ideal Cert.KernelIdeal.S5000x256 .f32) : FVec Ideal Cert.KernelIdeal.S5000 .f32 :=
  multiReduction .maximumf [1] Cert.KernelIdeal.S5000 L 0xFF800000#32 Cert.KernelIdeal.Facts₀.reduces_S5000x256_S5000 (.inl rfl) rfl
def shift6 (L : FVec Ideal Cert.KernelIdeal.S5000x256 .f32) : FVec Ideal Cert.KernelIdeal.S5000x256 .f32 :=
  subf L (broadcastTo Cert.KernelIdeal.S5000x256 (shapeCast Cert.KernelIdeal.S5000x1 (mx6 L) Cert.KernelIdeal.Facts₀.shapeCasts_S5000_S5000x1) Cert.KernelIdeal.Facts₀.broadcasts_S5000x1_S5000x256)
def sm6 (L : FVec Ideal Cert.KernelIdeal.S5000x256 .f32) : FVec Ideal Cert.KernelIdeal.S5000 .f32 :=
  multiReduction .add [1] Cert.KernelIdeal.S5000 (exp (shift6 L)) 0x00000000#32 Cert.KernelIdeal.Facts₀.reduces_S5000x256_S5000 (.inl rfl) rfl
/-- The body's log-softmax of a block of decoded rows. -/
def tail6 (L : FVec Ideal Cert.KernelIdeal.S5000x256 .f32) : FVec Ideal Cert.KernelIdeal.S5000x256 .f32 :=
  subf (shift6 L) (broadcastTo Cert.KernelIdeal.S5000x256 (log (shapeCast Cert.KernelIdeal.S5000x1 (sm6 L) Cert.KernelIdeal.Facts₀.shapeCasts_S5000_S5000x1)) Cert.KernelIdeal.Facts₀.broadcasts_S5000x1_S5000x256)

/-- The body's second store is the log-softmax of the decoded block. -/
theorem k6_pay2_eq (v0 : FVec Ideal Cert.KernelIdeal.S5000x128 .f32) (w : FVec Ideal Cert.KernelIdeal.S128x256 .f32) (bias : FVec Ideal Cert.KernelIdeal.S1x256 .f32) :
    Cert.KernelIdeal.Gen.k6_pay2 (F := Ideal) v0 w bias = tail6 (logits6 v0 w bias) := rfl

end Cert.Proof.Bridge

end
-- ==== Proof.BridgeF4b.lean ====
/-
  The last stage, second result (part of the comparison; see the first part's header).
-/
import proofs.«106078_j59889023976011_1_alg».proof.Proof.BridgeF4a
import Idealize.ShloMosaic.Lib.StackMember

set_option maxRecDepth 16384

noncomputable section

open Idealize.ShloMosaic Idealize.ShloMosaic.TcCoe Idealize.ShloMosaic.ValueIdx Idealize.ShloMosaic.StackMember

namespace Cert.Proof.Bridge

open Cert.KernelIdeal.Hand Cert.ReferenceIdeal.Hand

theorem mx6_apply (L : FVec Ideal Cert.KernelIdeal.S5000x256 .f32) (a : Fin 5000) :
    mx6 L (ix1 a) = (Finset.univ : Finset (Fin 256)).fold max ninf (fun k => L (ix2 a k)) := rowmax256 L a

theorem shift6_apply (L : FVec Ideal Cert.KernelIdeal.S5000x256 .f32) (a : Fin 5000) (k : Fin 256) :
    shift6 L (ix2 a k) = L (ix2 a k) - (Finset.univ : Finset (Fin 256)).fold max ninf (fun k => L (ix2 a k)) := by
  show L (ix2 a k) - broadcastTo Cert.KernelIdeal.S5000x256 (shapeCast Cert.KernelIdeal.S5000x1 (mx6 L) Cert.KernelIdeal.Facts₀.shapeCasts_S5000_S5000x1) Cert.KernelIdeal.Facts₀.broadcasts_S5000x1_S5000x256 (ix2 a k) = _
  rw [bcast_col256, shapeCast_a_a1_apply, mx6_apply]

theorem sm6_apply (L : FVec Ideal Cert.KernelIdeal.S5000x256 .f32) (a : Fin 5000) :
    sm6 L (ix1 a) = ∑ k : Fin 256, Ideal.exp (shift6 L (ix2 a k)) := rowsum256 (exp (shift6 L)) a

/-- The log-softmax of a block at an entry, for any block of decoded rows. -/
theorem tail6_apply (L : FVec Ideal Cert.KernelIdeal.S5000x256 .f32) (a : Fin 5000) (b : Fin 256) :
    tail6 L (ix2 a b) = lsm (fun k => L (ix2 a k)) b := by
  show shift6 L (ix2 a b) - broadcastTo Cert.KernelIdeal.S5000x256 (log (shapeCast Cert.KernelIdeal.S5000x1 (sm6 L) Cert.KernelIdeal.Facts₀.shapeCasts_S5000_S5000x1)) Cert.KernelIdeal.Facts₀.broadcasts_S5000x1_S5000x256 (ix2 a b) = _
  rw [bcast_col256]
  show shift6 L (ix2 a b) - Ideal.log (shapeCast Cert.KernelIdeal.S5000x1 (sm6 L) Cert.KernelIdeal.Facts₀.shapeCasts_S5000_S5000x1 (ix2 a (0 : Fin 1))) = _
  rw [shapeCast_a_a1_apply, sm6_apply, shift6_apply]
  unfold lsm
  refine congrArg (fun z => (L (ix2 a b) - (Finset.univ : Finset (Fin 256)).fold max ninf (fun k => L (ix2 a k))) - Ideal.log z) (Finset.sum_congr rfl fun k _ => ?_)
  rw [shift6_apply]

/-- The decoded block at an entry. -/
theorem logits6_apply (v0 : FVec Ideal Cert.KernelIdeal.S5000x128 .f32) (w : FVec Ideal Cert.KernelIdeal.S128x256 .f32) (bias : FVec Ideal Cert.KernelIdeal.S1x256 .f32) (a : Fin 5000) (k : Fin 256) :
    logits6 v0 w bias (ix2 a k) = Lk v0 w bias a k := by
  unfold logits6 Lk
  simp only [addf, shapeCast_self, broadcastTo_1b_ab_apply]
  refine congrArg (· + bias (ix2 (0 : Fin 1) k)) ?_
  exact mm6_apply _ _ a k

/-- The body's second store at an entry: the log-softmax of the row's decoded entries. -/
theorem k6_pay2_apply (v0 : FVec Ideal Cert.KernelIdeal.S5000x128 .f32) (w : FVec Ideal Cert.KernelIdeal.S128x256 .f32) (bias : FVec Ideal Cert.KernelIdeal.S1x256 .f32) (a : Fin 5000) (b : Fin 256) :
    Cert.KernelIdeal.Gen.k6_pay2 (F := Ideal) v0 w bias (ix2 a b) = lsm (Lk v0 w bias a) b := by
  rw [k6_pay2_eq, tail6_apply]
  exact congrArg (fun L => lsm L b) (funext fun k => logits6_apply v0 w bias a k)

end Cert.Proof.Bridge

end
-- ==== Proof.BridgeF4c1.lean ====
/-
  The last stage, second result (part of the comparison; see the first part's header).
-/
import proofs.«106078_j59889023976011_1_alg».proof.Proof.BridgeF4a
import Idealize.ShloMosaic.Lib.StackMember

set_option maxRecDepth 16384

noncomputable section

open Idealize.ShloMosaic Idealize.ShloMosaic.TcCoe Idealize.ShloMosaic.ValueIdx Idealize.ShloMosaic.StackMember

namespace Cert.Proof.Bridge

open Cert.KernelIdeal.Hand Cert.ReferenceIdeal.Hand

/-- The reference's decoded entry. -/
def Lr (E : FVec Ideal Cert.ReferenceIdeal.S50000x128 .f32) (a35 : FVec Ideal Cert.ReferenceIdeal.S128x256 .f32) (a36 : FVec Ideal Cert.ReferenceIdeal.S256 .f32) (r : Fin 50000) (k : Fin 256) : EReal :=
  (∑ c : Fin 128, E (ix2 r c) * a35 (ix2 c k)) + a36 (ix1 k)

theorem logitsR_apply (E : FVec Ideal Cert.ReferenceIdeal.S50000x128 .f32) (a35 : FVec Ideal Cert.ReferenceIdeal.S128x256 .f32) (a36 : FVec Ideal Cert.ReferenceIdeal.S256 .f32) (r : Fin 50000) (k : Fin 256) :
    logitsR (F := Ideal) E a35 a36 (ix2 r k) = Lr E a35 a36 r k := by
  have hd : Host.dotGeneral (F := Ideal) Cert.ReferenceIdeal.dot_S50000x128_S128x256_S50000x256_1_0_0_1_n_n none E a35 (ix2 r k) = ∑ c : Fin 128, E (ix2 r c) * a35 (ix2 c k) :=
    dotGeneral_plain_apply (m := 50000) (n := 256) (k := 128) none E a35 r k
  have hb : broadcastInDim Cert.ReferenceIdeal.S50000x256 ![0, 1] Cert.ReferenceIdeal.Facts₀.bcast_S1x256_S50000x256_0_1 (broadcastInDim Cert.ReferenceIdeal.S1x256 ![1] Cert.ReferenceIdeal.Facts₀.bcast_S256_S1x256_1 a36) (ix2 r k) = a36 (ix1 k) :=
    (broadcastInDim_apply ![0, 1] Cert.ReferenceIdeal.Facts₀.bcast_S1x256_S50000x256_0_1 (broadcastInDim Cert.ReferenceIdeal.S1x256 ![1] Cert.ReferenceIdeal.Facts₀.bcast_S256_S1x256_1 a36) (ix2 r k) (ix2 (0 : Fin 1) k) (by intro a; match a with | ⟨0, _⟩ => rfl | ⟨1, _⟩ => rfl)).trans
      (broadcastInDim_apply ![1] Cert.ReferenceIdeal.Facts₀.bcast_S256_S1x256_1 a36 (ix2 (0 : Fin 1) k) (ix1 k) (by intro a; match a with | ⟨0, _⟩ => rfl))
  show Host.dotGeneral (F := Ideal) Cert.ReferenceIdeal.dot_S50000x128_S128x256_S50000x256_1_0_0_1_n_n none E a35 (ix2 r k)
      + broadcastInDim Cert.ReferenceIdeal.S50000x256 ![0, 1] Cert.ReferenceIdeal.Facts₀.bcast_S1x256_S50000x256_0_1 (broadcastInDim Cert.ReferenceIdeal.S1x256 ![1] Cert.ReferenceIdeal.Facts₀.bcast_S256_S1x256_1 a36) (ix2 r k) = _
  rw [hd, hb]
  rfl

end Cert.Proof.Bridge

end
-- ==== Proof.BridgeF4c2.lean ====
/-
  The last stage, second result (part of the comparison; see the first part's header).
-/
import proofs.«106078_j59889023976011_1_alg».proof.Proof.BridgeF4c1
import Idealize.ShloMosaic.Lib.StackMember

set_option maxRecDepth 16384

noncomputable section

open Idealize.ShloMosaic Idealize.ShloMosaic.TcCoe Idealize.ShloMosaic.ValueIdx Idealize.ShloMosaic.StackMember

namespace Cert.Proof.Bridge

open Cert.KernelIdeal.Hand Cert.ReferenceIdeal.Hand

/-- The reference's row maxima (taken once more against minus infinity), and the row sums of exponentials. -/
def mxR (Lg : FVec Ideal Cert.ReferenceIdeal.S50000x256 .f32) : FVec Ideal Cert.ReferenceIdeal.S50000 .f32 :=
  maximumf (broadcastInDim Cert.ReferenceIdeal.S50000 ![] Cert.ReferenceIdeal.Facts₀.bcast_S_S50000 (constant Cert.ReferenceIdeal.S_ .f32 0xFF800000#32))
    (Host.reduce FloatOps.maximumf Lg (constant Cert.ReferenceIdeal.S_ .f32 0xFF800000#32) Cert.ReferenceIdeal.Facts₀.reducesTo_S50000x256_S50000_d1 Cert.ReferenceIdeal.Facts₀.h_S_)
def smR (Sh : FVec Ideal Cert.ReferenceIdeal.S50000x256 .f32) : FVec Ideal Cert.ReferenceIdeal.S50000 .f32 :=
  Host.reduceAdd (Host.exp Sh) (constant Cert.ReferenceIdeal.S_ .f32 0x00000000#32) Cert.ReferenceIdeal.Facts₀.reducesTo_S50000x256_S50000_d1 Cert.ReferenceIdeal.Facts₀.h_S_

theorem shiftedR_eq (Lg : FVec Ideal Cert.ReferenceIdeal.S50000x256 .f32) :
    shiftedR (F := Ideal) Lg = subf Lg (broadcastInDim Cert.ReferenceIdeal.S50000x256 ![0, 1] Cert.ReferenceIdeal.Facts₀.bcast_S50000x1_S50000x256_0_1 (broadcastInDim Cert.ReferenceIdeal.S50000x1 ![0] Cert.ReferenceIdeal.Facts₀.bcast_S50000_S50000x1_0 (mxR Lg))) := rfl
theorem logpR_eq (Sh : FVec Ideal Cert.ReferenceIdeal.S50000x256 .f32) :
    logpR (F := Ideal) Sh = subf Sh (broadcastInDim Cert.ReferenceIdeal.S50000x256 ![0, 1] Cert.ReferenceIdeal.Facts₀.bcast_S50000x1_S50000x256_0_1 (Host.log (broadcastInDim Cert.ReferenceIdeal.S50000x1 ![0] Cert.ReferenceIdeal.Facts₀.bcast_S50000_S50000x1_0 (smR Sh)))) := rfl

/-- Pointwise operations of two vectors at an index, from the vectors' entries there. -/
theorem vmax_at {s : Shape} (A B : FVec Ideal s .f32) (j : s.Idx) (a b : EReal) (hA : A j = a) (hB : B j = b) : maximumf A B j = max a b := by
  rw [← hA, ← hB]; rfl
theorem vsub_at {s : Shape} (A B : FVec Ideal s .f32) (j : s.Idx) (a b : EReal) (hA : A j = a) (hB : B j = b) : subf A B j = a - b := by
  rw [← hA, ← hB]; rfl
theorem vlog_at {s : Shape} (A : FVec Ideal s .f32) (j : s.Idx) (a : EReal) (hA : A j = a) : Host.log A j = Ideal.log a := by
  rw [← hA]; rfl

theorem mxR_apply (Lg : FVec Ideal Cert.ReferenceIdeal.S50000x256 .f32) (r : Fin 50000) :
    mxR Lg (ix1 r) = (Finset.univ : Finset (Fin 256)).fold max ninf (fun k => Lg (ix2 r k)) :=
  (vmax_at (broadcastInDim Cert.ReferenceIdeal.S50000 ![] Cert.ReferenceIdeal.Facts₀.bcast_S_S50000 (constant (F := Ideal) Cert.ReferenceIdeal.S_ .f32 0xFF800000#32))
      (Host.reduce (FloatOps.maximumf (F := Ideal) (φ := .f32)) Lg (constant (F := Ideal) Cert.ReferenceIdeal.S_ .f32 0xFF800000#32) Cert.ReferenceIdeal.Facts₀.reducesTo_S50000x256_S50000_d1 Cert.ReferenceIdeal.Facts₀.h_S_)
      (ix1 r) ninf _ (broadcastInDim_scalar_apply _ _ _) (refRowmax256 Lg r)).trans (max_fold_self _ _ _)

theorem col_apply (v : FVec Ideal Cert.ReferenceIdeal.S50000 .f32) (r : Fin 50000) (k : Fin 256) :
    broadcastInDim Cert.ReferenceIdeal.S50000x256 ![0, 1] Cert.ReferenceIdeal.Facts₀.bcast_S50000x1_S50000x256_0_1 (broadcastInDim Cert.ReferenceIdeal.S50000x1 ![0] Cert.ReferenceIdeal.Facts₀.bcast_S50000_S50000x1_0 v) (ix2 r k) = v (ix1 r) :=
  (broadcastInDim_apply ![0, 1] Cert.ReferenceIdeal.Facts₀.bcast_S50000x1_S50000x256_0_1 (broadcastInDim Cert.ReferenceIdeal.S50000x1 ![0] Cert.ReferenceIdeal.Facts₀.bcast_S50000_S50000x1_0 v) (ix2 r k) (ix2 r (0 : Fin 1)) (by intro a; match a with | ⟨0, _⟩ => rfl | ⟨1, _⟩ => rfl)).trans
    (broadcastInDim_apply ![0] Cert.ReferenceIdeal.Facts₀.bcast_S50000_S50000x1_0 v (ix2 r (0 : Fin 1)) (ix1 r) (by intro a; match a with | ⟨0, _⟩ => rfl))

end Cert.Proof.Bridge

end
-- ==== Proof.BridgeF4c.lean ====
/-
  The last stage, second result (part of the comparison; see the first part's header).
-/
import proofs.«106078_j59889023976011_1_alg».proof.Proof.BridgeF4c2
import Idealize.ShloMosaic.Lib.StackMember

set_option maxRecDepth 16384

noncomputable section

open Idealize.ShloMosaic Idealize.ShloMosaic.TcCoe Idealize.ShloMosaic.ValueIdx Idealize.ShloMosaic.StackMember

namespace Cert.Proof.Bridge

open Cert.KernelIdeal.Hand Cert.ReferenceIdeal.Hand

theorem shiftedR_apply (Lg : FVec Ideal Cert.ReferenceIdeal.S50000x256 .f32) (r : Fin 50000) (k : Fin 256) :
    shiftedR (F := Ideal) Lg (ix2 r k) = Lg (ix2 r k) - (Finset.univ : Finset (Fin 256)).fold max ninf (fun k => Lg (ix2 r k)) := by
  rw [shiftedR_eq]
  exact vsub_at Lg _ (ix2 r k) _ _ rfl ((col_apply (mxR Lg) r k).trans (mxR_apply Lg r))

theorem smR_apply (Sh : FVec Ideal Cert.ReferenceIdeal.S50000x256 .f32) (r : Fin 50000) :
    smR Sh (ix1 r) = ∑ k : Fin 256, Ideal.exp (Sh (ix2 r k)) := refRowsum256 (Host.exp Sh) r

/-- A vector of 50000 entries as a column, and a column as a factor of 256 columns, read at an entry. -/
theorem col1_apply (v : FVec Ideal Cert.ReferenceIdeal.S50000 .f32) (r : Fin 50000) :
    broadcastInDim Cert.ReferenceIdeal.S50000x1 ![0] Cert.ReferenceIdeal.Facts₀.bcast_S50000_S50000x1_0 v (ix2 r (0 : Fin 1)) = v (ix1 r) :=
  broadcastInDim_apply ![0] Cert.ReferenceIdeal.Facts₀.bcast_S50000_S50000x1_0 v (ix2 r (0 : Fin 1)) (ix1 r) (by intro a; match a with | ⟨0, _⟩ => rfl)
theorem bc2_apply (w : FVec Ideal Cert.ReferenceIdeal.S50000x1 .f32) (r : Fin 50000) (b : Fin 256) :
    broadcastInDim Cert.ReferenceIdeal.S50000x256 ![0, 1] Cert.ReferenceIdeal.Facts₀.bcast_S50000x1_S50000x256_0_1 w (ix2 r b) = w (ix2 r (0 : Fin 1)) :=
  broadcastInDim_apply ![0, 1] Cert.ReferenceIdeal.Facts₀.bcast_S50000x1_S50000x256_0_1 w (ix2 r b) (ix2 r (0 : Fin 1)) (by intro a; match a with | ⟨0, _⟩ => rfl | ⟨1, _⟩ => rfl)

attribute [local irreducible] smR mxR Cert.ReferenceIdeal.Hand.shiftedR

/-- The reference's second result at an entry: the log-softmax of the row's decoded entries. -/
theorem logpR_apply (Lg : FVec Ideal Cert.ReferenceIdeal.S50000x256 .f32) (r : Fin 50000) (b : Fin 256) :
    logpR (F := Ideal) (shiftedR (F := Ideal) Lg) (ix2 r b) = lsm (fun k => Lg (ix2 r k)) b := by
  rw [logpR_eq]
  have hs : smR (shiftedR (F := Ideal) Lg) (ix1 r) = ∑ k : Fin 256, Ideal.exp (shiftedR (F := Ideal) Lg (ix2 r k)) := smR_apply _ r
  have hc : broadcastInDim Cert.ReferenceIdeal.S50000x1 ![0] Cert.ReferenceIdeal.Facts₀.bcast_S50000_S50000x1_0 (smR (shiftedR (F := Ideal) Lg)) (ix2 r (0 : Fin 1)) = smR (shiftedR (F := Ideal) Lg) (ix1 r) := col1_apply _ r
  have h3 : Host.log (broadcastInDim Cert.ReferenceIdeal.S50000x1 ![0] Cert.ReferenceIdeal.Facts₀.bcast_S50000_S50000x1_0 (smR (shiftedR (F := Ideal) Lg))) (ix2 r (0 : Fin 1))
      = Ideal.log (∑ k : Fin 256, Ideal.exp (shiftedR (F := Ideal) Lg (ix2 r k))) :=
    vlog_at (s := Cert.ReferenceIdeal.S50000x1) (broadcastInDim Cert.ReferenceIdeal.S50000x1 ![0] Cert.ReferenceIdeal.Facts₀.bcast_S50000_S50000x1_0 (smR (shiftedR (F := Ideal) Lg))) (ix2 r (0 : Fin 1)) _ (hc.trans hs)
  have hlog := (bc2_apply (Host.log (broadcastInDim Cert.ReferenceIdeal.S50000x1 ![0] Cert.ReferenceIdeal.Facts₀.bcast_S50000_S50000x1_0 (smR (shiftedR (F := Ideal) Lg)))) r b).trans h3
  refine (vsub_at (shiftedR (F := Ideal) Lg) _ (ix2 r b) _ _ (shiftedR_apply Lg r b) hlog).trans ?_
  unfold lsm
  refine congrArg (fun z => (Lg (ix2 r b) - (Finset.univ : Finset (Fin 256)).fold max ninf (fun k => Lg (ix2 r k))) - Ideal.log z) (Finset.sum_congr rfl fun k _ => ?_)
  rw [shiftedR_apply]

end Cert.Proof.Bridge

end
-- ==== Proof.BridgeF4.lean ====
/-
  The last stage, second result (part of the comparison; see the first part's header).
-/
import proofs.«106078_j59889023976011_1_alg».proof.Proof.BridgeF4b
import proofs.«106078_j59889023976011_1_alg».proof.Proof.BridgeF4c
import Idealize.ShloMosaic.Lib.StackMember

set_option maxRecDepth 16384

noncomputable section

open Idealize.ShloMosaic Idealize.ShloMosaic.TcCoe Idealize.ShloMosaic.ValueIdx Idealize.ShloMosaic.StackMember

namespace Cert.Proof.Bridge

open Cert.KernelIdeal.Hand Cert.ReferenceIdeal.Hand

/-- THE SECOND RESULT: the kernel side's log-probabilities are the reference's, given the decoder matrix and the bias
    (a row on the kernel side, 256 entries on the reference's). -/
theorem logp_bridge (H : FVec Ideal Cert.KernelIdeal.S50000x128 .f32) (a35 : FVec Ideal Cert.KernelIdeal.S128x256 .f32) (a36 : FVec Ideal Cert.KernelIdeal.S256 .f32) :
    G6l (F := Ideal) H a35 (shapeCast Cert.KernelIdeal.S1x256 a36 Cert.KernelIdeal.Facts₀.shapeCasts_S256_S1x256)
      = logpR (F := Ideal) (shiftedR (F := Ideal) (logitsR (F := Ideal) (Cert.ReferenceIdeal.Hand.embR (F := Ideal) H) a35 a36)) := by
  funext i
  obtain ⟨r, b, rfl⟩ : ∃ (r : Fin 50000) (b : Fin 256), i = ix2 r b := ⟨i 0, i 1, eq_ix2 i⟩
  have hr := r.isLt
  rw [G6l_at (F := Ideal) H a35 _ ⟨r.val / 5000, by omega⟩ (ix2 (⟨r.val % 5000, Nat.mod_lt _ (by decide)⟩ : Fin 5000) b) (ix2 r b)
    (by show r.val = r.val / 5000 * 5000 + r.val % 5000; omega) rfl]
  rw [k6_pay2_apply, logpR_apply]
  refine congrArg (fun L => lsm L b) (funext fun k => ?_)
  rw [logitsR_apply]
  unfold Lk Lr
  rw [shapeCast_a_1a_apply]
  refine congrArg (· + a36 (ix1 k)) (Finset.sum_congr rfl fun c _ => ?_)
  refine congrArg (· * a35 (ix2 c k)) ?_
  have he := congrFun (emb_bridge H) (ix2 r c)
  rw [← he, G6e_at (F := Ideal) H ⟨r.val / 5000, by omega⟩ (ix2 (⟨r.val % 5000, Nat.mod_lt _ (by decide)⟩ : Fin 5000) c) (ix2 r c)
    (by show r.val = r.val / 5000 * 5000 + r.val % 5000; omega) rfl]

end Cert.Proof.Bridge

end
-- ==== Proof.AsmF.lean ====
/-
  The two equations, stage by stage. From launch memories that agree on the arguments: the features with the
  positional encoding agree; then each layer's output, because both sides' layer values are the reference's layer term
  of equal operands; then the two results, by the last stage's two comparisons.
-/

import proofs.«106078_j59889023976011_1_alg».proof.Proof.AsmS1
import proofs.«106078_j59889023976011_1_alg».proof.Proof.AsmS2
import proofs.«106078_j59889023976011_1_alg».proof.Proof.AsmS3
import proofs.«106078_j59889023976011_1_alg».proof.Proof.KI.LayerF
import proofs.«106078_j59889023976011_1_alg».proof.Proof.BridgeF4
import proofs.«106078_j59889023976011_1_alg».proof.Proof.RefFinal
import proofs.«106078_j59889023976011_1_alg».proof.Proof.KI.Args

import proofs.«106078_j59889023976011_1_alg».proof.Proof.AlgDefs

set_option maxRecDepth 16384

noncomputable section

open Idealize.ShloMosaic Idealize.ShloMosaic.TcCoe Idealize.SL.Sem Idealize.ShloMosaic.StableHlo

namespace Cert.Proof.Stages

open Cert.KernelIdeal.Hand Cert.ReferenceIdeal.Hand Cert.Proof.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The normalised embeddings agree. -/
theorem emb_eq' (hag : Cert.Proof.Alg.Agree m m') (c : Dev Cert.KernelIdeal.nD) :
    after (ops (F := Ideal)) (U0 m' c) (Proc.devRef .tc Cert.ReferenceIdeal.main_v288) = W14 (F := Ideal) m ρ c (Proc.devRef .tc Cert.KernelIdeal.main_v206_0) := by
  obtain ⟨a0, a1, a2, a3, a4, a5, a6, a7, a8, a9, a10, a11, a12, a13, a14, a15, a16, a17, a18, a19, a20, a21, a22, a23, a24, a25, a26, a27, a28, a29, a30, a31, a32, a33, a34, a35, a36⟩ := hag c
  rw [after_stages, after_cF_emb, stage3 m ρ m' hag c (stage2 m ρ m' hag c (stage1 m ρ m' hag c)), W14_main_v206_0, W13_main_v204, emb_bridge]

/-- The log-probabilities agree. -/
theorem logp_eq' (hag : Cert.Proof.Alg.Agree m m') (c : Dev Cert.KernelIdeal.nD) :
    after (ops (F := Ideal)) (U0 m' c) (Proc.devRef .tc Cert.ReferenceIdeal.main_v293) = W14 (F := Ideal) m ρ c (Proc.devRef .tc Cert.KernelIdeal.main_v206_1) := by
  obtain ⟨a0, a1, a2, a3, a4, a5, a6, a7, a8, a9, a10, a11, a12, a13, a14, a15, a16, a17, a18, a19, a20, a21, a22, a23, a24, a25, a26, a27, a28, a29, a30, a31, a32, a33, a34, a35, a36⟩ := hag c
  rw [after_stages, after_cF_logp, stage3 m ρ m' hag c (stage2 m ρ m' hag c (stage1 m ρ m' hag c)), keep3 m' c Cert.ReferenceIdeal.main_arg35 (by decide), keep3 m' c Cert.ReferenceIdeal.main_arg36 (by decide),
    a35, a36, W14_main_v206_1, W13_main_v204, W13_main_v205, W13_main_arg35, W12_main_arg36, logp_bridge]

end Cert.Proof.Stages

end
-- ==== Proof.Alg.lean ====
/-
  The algebraic claim, reduced to two equations between arrays.

  The idealized kernel program's run leaves every unscoped buffer at the last boundary's contents of the fold
  through its fourteen items; the reference's run leaves every buffer at the fold of its 353 operations. So the
  claim holds as soon as, from launch memories that agree on the 37 arguments, the two folds agree at the two
  results: the log-probabilities (50000 × 256) and the normalised embedding (50000 × 128).

  Why they agree (the stages of the module the two equations come from), in words: both sides add the same positional encoding to the features; the kernel's one
  projection by the concatenated weights, cut back into column blocks, is the reference's separate projections
  (the same sums over the contracted axis); both propagate by the same gather, scaling and scatter-add; the
  combine is the reference's expression with the residual added as (a + r) + b where the reference has
  a + (r + b), and in layers 2 and 3 with a zero bias added; the final stage is the reference's row norm clamped at
  the same epsilon, the same decoder product and the same log-softmax, whose row maximum the reference also takes
  against minus infinity. None of these steps needs the inputs to be finite.
-/
import proofs.«106078_j59889023976011_1_alg».proof.Defs
import proofs.«106078_j59889023976011_1_alg».proof.Proof.AlgDefs
import proofs.«106078_j59889023976011_1_alg».proof.Proof.AsmF

set_option maxRecDepth 16384

noncomputable section

open Idealize.ShloMosaic Idealize.ShloMosaic.TcCoe Idealize.SL.Sem Idealize.ShloMosaic.StableHlo

namespace Cert.Proof.Alg

open Cert.KernelIdeal.Hand Cert.ReferenceIdeal.Hand

/-- The reference's log-probabilities are the kernel program's: the first of the two equations. -/
theorem logp_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hagree : Agree m m') (c : Dev Cert.ReferenceIdeal.nD) :
    (after (Cert.ReferenceIdeal.Hand.ops (F := Ideal)) (launchContents m' c) (Proc.devRef .tc Cert.ReferenceIdeal.main_v293)
      : Buf (Elt Ideal) ((c.tc : Thread Cert.ReferenceIdeal.nD Cert.ReferenceIdeal.τ).loc Cert.ReferenceIdeal.main_v293)) = kLogp m ρ c :=
  Cert.Proof.Stages.logp_eq' m ρ m' hagree c

/-- The reference's normalised embedding is the kernel program's: the second of the two equations. -/
theorem emb_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hagree : Agree m m') (c : Dev Cert.ReferenceIdeal.nD) :
    (after (Cert.ReferenceIdeal.Hand.ops (F := Ideal)) (launchContents m' c) (Proc.devRef .tc Cert.ReferenceIdeal.main_v288)
      : Buf (Elt Ideal) ((c.tc : Thread Cert.ReferenceIdeal.nD Cert.ReferenceIdeal.τ).loc Cert.ReferenceIdeal.main_v288)) = kEmb m ρ c :=
  Cert.Proof.Stages.emb_eq' m ρ m' hagree c

/-- The algebraic claim from the two equations: the kernel program's run with its two results named, the
    reference's run with its two results rewritten by the equations. -/
theorem algebraic : Cert.algebraic_KernelIdeal_ReferenceIdeal := by
  intro m ρ m' ρ' _ hagree
  refine ⟨kLogp m ρ, kEmb m ρ, ?_, ?_⟩
  · exact (θ_run Cert.KernelIdeal.defs _ _).mono (fun r h c =>
      ⟨h c _ (mem_uc Cert.KernelIdeal.main_v206_1 (by decide)), h c _ (mem_uc Cert.KernelIdeal.main_v206_0 (by decide)),
        (h c _ (mem_uc Cert.KernelIdeal.main_arg0 (by decide))).trans (W14_main_arg0 m ρ c),
        (h c _ (mem_uc Cert.KernelIdeal.main_arg1 (by decide))).trans (W14_main_arg1 m ρ c),
        (h c _ (mem_uc Cert.KernelIdeal.main_arg2 (by decide))).trans (W14_main_arg2 m ρ c),
        (h c _ (mem_uc Cert.KernelIdeal.main_arg3 (by decide))).trans (W14_main_arg3 m ρ c),
        (h c _ (mem_uc Cert.KernelIdeal.main_arg4 (by decide))).trans (W14_main_arg4 m ρ c),
        (h c _ (mem_uc Cert.KernelIdeal.main_arg5 (by decide))).trans (W14_main_arg5 m ρ c),
        (h c _ (mem_uc Cert.KernelIdeal.main_arg6 (by decide))).trans (W14_main_arg6 m ρ c),
        (h c _ (mem_uc Cert.KernelIdeal.main_arg7 (by decide))).trans (W14_main_arg7 m ρ c),
        (h c _ (mem_uc Cert.KernelIdeal.main_arg8 (by decide))).trans (W14_main_arg8 m ρ c),
        (h c _ (mem_uc Cert.KernelIdeal.main_arg9 (by decide))).trans (W14_main_arg9 m ρ c),
        (h c _ (mem_uc Cert.KernelIdeal.main_arg10 (by decide))).trans (W14_main_arg10 m ρ c),
        (h c _ (mem_uc Cert.KernelIdeal.main_arg11 (by decide))).trans (W14_main_arg11 m ρ c),
        (h c _ (mem_uc Cert.KernelIdeal.main_arg12 (by decide))).trans (W14_main_arg12 m ρ c),
        (h c _ (mem_uc Cert.KernelIdeal.main_arg13 (by decide))).trans (W14_main_arg13 m ρ c),
        (h c _ (mem_uc Cert.KernelIdeal.main_arg14 (by decide))).trans (W14_main_arg14 m ρ c),
        (h c _ (mem_uc Cert.KernelIdeal.main_arg15 (by decide))).trans (W14_main_arg15 m ρ c),
        (h c _ (mem_uc Cert.KernelIdeal.main_arg16 (by decide))).trans (W14_main_arg16 m ρ c),
        (h c _ (mem_uc Cert.KernelIdeal.main_arg17 (by decide))).trans (W14_main_arg17 m ρ c),
        (h c _ (mem_uc Cert.KernelIdeal.main_arg18 (by decide))).trans (W14_main_arg18 m ρ c),
        (h c _ (mem_uc Cert.KernelIdeal.main_arg19 (by decide))).trans (W14_main_arg19 m ρ c),
        (h c _ (mem_uc Cert.KernelIdeal.main_arg20 (by decide))).trans (W14_main_arg20 m ρ c),
        (h c _ (mem_uc Cert.KernelIdeal.main_arg21 (by decide))).trans (W14_main_arg21 m ρ c),
        (h c _ (mem_uc Cert.KernelIdeal.main_arg22 (by decide))).trans (W14_main_arg22 m ρ c),
        (h c _ (mem_uc Cert.KernelIdeal.main_arg23 (by decide))).trans (W14_main_arg23 m ρ c),
        (h c _ (mem_uc Cert.KernelIdeal.main_arg24 (by decide))).trans (W14_main_arg24 m ρ c),
        (h c _ (mem_uc Cert.KernelIdeal.main_arg25 (by decide))).trans (W14_main_arg25 m ρ c),
        (h c _ (mem_uc Cert.KernelIdeal.main_arg26 (by decide))).trans (W14_main_arg26 m ρ c),
        (h c _ (mem_uc Cert.KernelIdeal.main_arg27 (by decide))).trans (W14_main_arg27 m ρ c),
        (h c _ (mem_uc Cert.KernelIdeal.main_arg28 (by decide))).trans (W14_main_arg28 m ρ c),
        (h c _ (mem_uc Cert.KernelIdeal.main_arg29 (by decide))).trans (W14_main_arg29 m ρ c),
        (h c _ (mem_uc Cert.KernelIdeal.main_arg30 (by decide))).trans (W14_main_arg30 m ρ c),
        (h c _ (mem_uc Cert.KernelIdeal.main_arg31 (by decide))).trans (W14_main_arg31 m ρ c),
        (h c _ (mem_uc Cert.KernelIdeal.main_arg32 (by decide))).trans (W14_main_arg32 m ρ c),
        (h c _ (mem_uc Cert.KernelIdeal.main_arg33 (by decide))).trans (W14_main_arg33 m ρ c),
        (h c _ (mem_uc Cert.KernelIdeal.main_arg34 (by decide))).trans (W14_main_arg34 m ρ c),
        (h c _ (mem_uc Cert.KernelIdeal.main_arg35 (by decide))).trans (W14_main_arg35 m ρ c),
        (h c _ (mem_uc Cert.KernelIdeal.main_arg36 (by decide))).trans (W14_main_arg36 m ρ c)⟩)
      (Cert.KernelIdeal.Hand.run_all (F := Ideal) m ρ)
  · exact (θ_run Cert.ReferenceIdeal.defs _ _).mono (fun r h c =>
      ⟨(h c Cert.ReferenceIdeal.main_v293).trans (logp_eq m ρ m' hagree c), (h c Cert.ReferenceIdeal.main_v288).trans (emb_eq m ρ m' hagree c),
        (h c Cert.ReferenceIdeal.main_arg0).trans (kept m' c Cert.ReferenceIdeal.main_arg0 (by decide)),
        (h c Cert.ReferenceIdeal.main_arg1).trans (kept m' c Cert.ReferenceIdeal.main_arg1 (by decide)),
        (h c Cert.ReferenceIdeal.main_arg2).trans (kept m' c Cert.ReferenceIdeal.main_arg2 (by decide)),
        (h c Cert.ReferenceIdeal.main_arg3).trans (kept m' c Cert.ReferenceIdeal.main_arg3 (by decide)),
        (h c Cert.ReferenceIdeal.main_arg4).trans (kept m' c Cert.ReferenceIdeal.main_arg4 (by decide)),
        (h c Cert.ReferenceIdeal.main_arg5).trans (kept m' c Cert.ReferenceIdeal.main_arg5 (by decide)),
        (h c Cert.ReferenceIdeal.main_arg6).trans (kept m' c Cert.ReferenceIdeal.main_arg6 (by decide)),
        (h c Cert.ReferenceIdeal.main_arg7).trans (kept m' c Cert.ReferenceIdeal.main_arg7 (by decide)),
        (h c Cert.ReferenceIdeal.main_arg8).trans (kept m' c Cert.ReferenceIdeal.main_arg8 (by decide)),
        (h c Cert.ReferenceIdeal.main_arg9).trans (kept m' c Cert.ReferenceIdeal.main_arg9 (by decide)),
        (h c Cert.ReferenceIdeal.main_arg10).trans (kept m' c Cert.ReferenceIdeal.main_arg10 (by decide)),
        (h c Cert.ReferenceIdeal.main_arg11).trans (kept m' c Cert.ReferenceIdeal.main_arg11 (by decide)),
        (h c Cert.ReferenceIdeal.main_arg12).trans (kept m' c Cert.ReferenceIdeal.main_arg12 (by decide)),
        (h c Cert.ReferenceIdeal.main_arg13).trans (kept m' c Cert.ReferenceIdeal.main_arg13 (by decide)),
        (h c Cert.ReferenceIdeal.main_arg14).trans (kept m' c Cert.ReferenceIdeal.main_arg14 (by decide)),
        (h c Cert.ReferenceIdeal.main_arg15).trans (kept m' c Cert.ReferenceIdeal.main_arg15 (by decide)),
        (h c Cert.ReferenceIdeal.main_arg16).trans (kept m' c Cert.ReferenceIdeal.main_arg16 (by decide)),
        (h c Cert.ReferenceIdeal.main_arg17).trans (kept m' c Cert.ReferenceIdeal.main_arg17 (by decide)),
        (h c Cert.ReferenceIdeal.main_arg18).trans (kept m' c Cert.ReferenceIdeal.main_arg18 (by decide)),
        (h c Cert.ReferenceIdeal.main_arg19).trans (kept m' c Cert.ReferenceIdeal.main_arg19 (by decide)),
        (h c Cert.ReferenceIdeal.main_arg20).trans (kept m' c Cert.ReferenceIdeal.main_arg20 (by decide)),
        (h c Cert.ReferenceIdeal.main_arg21).trans (kept m' c Cert.ReferenceIdeal.main_arg21 (by decide)),
        (h c Cert.ReferenceIdeal.main_arg22).trans (kept m' c Cert.ReferenceIdeal.main_arg22 (by decide)),
        (h c Cert.ReferenceIdeal.main_arg23).trans (kept m' c Cert.ReferenceIdeal.main_arg23 (by decide)),
        (h c Cert.ReferenceIdeal.main_arg24).trans (kept m' c Cert.ReferenceIdeal.main_arg24 (by decide)),
        (h c Cert.ReferenceIdeal.main_arg25).trans (kept m' c Cert.ReferenceIdeal.main_arg25 (by decide)),
        (h c Cert.ReferenceIdeal.main_arg26).trans (kept m' c Cert.ReferenceIdeal.main_arg26 (by decide)),
        (h c Cert.ReferenceIdeal.main_arg27).trans (kept m' c Cert.ReferenceIdeal.main_arg27 (by decide)),
        (h c Cert.ReferenceIdeal.main_arg28).trans (kept m' c Cert.ReferenceIdeal.main_arg28 (by decide)),
        (h c Cert.ReferenceIdeal.main_arg29).trans (kept m' c Cert.ReferenceIdeal.main_arg29 (by decide)),
        (h c Cert.ReferenceIdeal.main_arg30).trans (kept m' c Cert.ReferenceIdeal.main_arg30 (by decide)),
        (h c Cert.ReferenceIdeal.main_arg31).trans (kept m' c Cert.ReferenceIdeal.main_arg31 (by decide)),
        (h c Cert.ReferenceIdeal.main_arg32).trans (kept m' c Cert.ReferenceIdeal.main_arg32 (by decide)),
        (h c Cert.ReferenceIdeal.main_arg33).trans (kept m' c Cert.ReferenceIdeal.main_arg33 (by decide)),
        (h c Cert.ReferenceIdeal.main_arg34).trans (kept m' c Cert.ReferenceIdeal.main_arg34 (by decide)),
        (h c Cert.ReferenceIdeal.main_arg35).trans (kept m' c Cert.ReferenceIdeal.main_arg35 (by decide)),
        (h c Cert.ReferenceIdeal.main_arg36).trans (kept m' c Cert.ReferenceIdeal.main_arg36 (by decide))⟩)
      (Cert.ReferenceIdeal.Hand.run_fold (F := Ideal) m' ρ')

end Cert.Proof.Alg

end
-- ==== Proof.lean ====
/-
  The five claims about a three-layer directed graph convolution network on 50000 nodes and 640000 edges, whose
  projections, per-layer combines and final normalise / decode / log-softmax stage are seven tiled kernels and whose
  edge propagation (gather, scale, scatter-add) stays on the host.

  * The two kernel programs' frames (the word-level one and its idealization): the program is fourteen items —
    a stretch of host operations, then a kernel launch, seven times. Each launch's body is a whole-block load of
    every input window and one whole-block store per output window; the run of the fourteen items leaves every
    unscoped buffer at the last boundary's contents, and no item ever writes an argument array.
  * The reference's frame: a host program's run ends with every buffer at the fold of its operations over the launch
    contents, and no operation writes an argument.
  * Preservation: the idealization rewrote nothing.
  * The algebraic claim: the two idealized programs' runs, with the kernel program's two results as the witnesses; it
    rests on the two array equations stated in the module it comes from.
-/
import proofs.«106078_j59889023976011_1_alg».proof.Defs
import proofs.«106078_j59889023976011_1_alg».proof.Proof.Gen.Kernel
import proofs.«106078_j59889023976011_1_alg».proof.Proof.Gen.KernelIdeal
import proofs.«106078_j59889023976011_1_alg».proof.Proof.Gen.ReferenceIdeal
import proofs.«106078_j59889023976011_1_alg».proof.Proof.Gen.Pre_finite_inputs
import proofs.«106078_j59889023976011_1_alg».proof.Proof.K.Frame
import proofs.«106078_j59889023976011_1_alg».proof.Proof.KI.Frame
import proofs.«106078_j59889023976011_1_alg».proof.Proof.RefOps
import proofs.«106078_j59889023976011_1_alg».proof.Proof.Alg
import Idealize.ShloMosaic.Adequacy
import Idealize.ShloMosaic.Init

noncomputable section

namespace Cert.Proof

open Idealize.ShloMosaic Idealize.SL.Sem

/-- The word-level kernel program runs to the end without a fault and leaves its 37 argument arrays unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- Nothing was rewritten between the kernel and its idealization. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, preserves, Cert.Proof.Alg.algebraic⟩

end Cert.Proof

end
